-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S262144 : Shape := ⟨1, ![262144]⟩
abbrev S8192x256 : Shape := ⟨2, ![8192, 256]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel
  bcast_S_S262144 : S_.BroadcastsInDim S262144 (![] : Fin 0 → Fin S262144.rank)
  reducesTo_S262144_S_d0 : S262144.ReducesTo [0] S_

variable [Facts]

def fn {F : FTy → Type} [FloatOps F] (main_arg0 : IVec S262144 32) (main_arg1 : FVec F S8192x256 .f32) : IVec S_ 1 :=
  let main_v0 : FVec F S8192x256 .f32 := Host.absf main_arg1
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  let main_c_0 : IVec S_ 32 := constantI S_ 32 0#32
  let main_v4 : IVec S262144 32 := broadcastInDim S262144 ![] bcast_S_S262144 main_c_0
  let main_v5 : IVec S262144 1 := cmpi .sge main_arg0 main_v4
  let main_c_1 : IVec S_ 32 := constantI S_ 32 8191#32
  let main_v6 : IVec S262144 32 := broadcastInDim S262144 ![] bcast_S_S262144 main_c_1
  let main_v7 : IVec S262144 1 := cmpi .sle main_arg0 main_v6
  let main_v8 : IVec S262144 1 := andi main_v5 main_v7
  let main_c_2 : IVec S_ 1 := constantI S_ 1 1#1
  let main_v9 : IVec S_ 1 := (fun x v => Host.reduce IntOp.andi x v reducesTo_S262144_S_d0 h_S_) main_v8 main_c_2
  let main_v10 : IVec S_ 1 := andi main_v3 main_v9
  main_v10
-- ==== Kernel.lean ====
abbrev S262144 : Shape := ⟨1, ![262144]⟩
abbrev S8192x256 : Shape := ⟨2, ![8192, 256]⟩
abbrev S32x128x64 : Shape := ⟨3, ![32, 128, 64]⟩
abbrev S8192x2x128 : Shape := ⟨3, ![8192, 2, 128]⟩
abbrev S262144x2x128 : Shape := ⟨3, ![262144, 2, 128]⟩
abbrev S128x64 : Shape := ⟨2, ![128, 64]⟩
abbrev S3x64x2x128 : Shape := ⟨4, ![3, 64, 2, 128]⟩
abbrev S16x3x64x2x128 : Shape := ⟨5, ![16, 3, 64, 2, 128]⟩
abbrev S_ : Shape := ⟨0, ![]⟩
abbrev S1x128x64 : Shape := ⟨3, ![1, 128, 64]⟩
abbrev S1x64x2x128 : Shape := ⟨4, ![1, 64, 2, 128]⟩
abbrev S64x2x128 : Shape := ⟨3, ![64, 2, 128]⟩
abbrev S1x64 : Shape := ⟨2, ![1, 64]⟩
abbrev S64 : Shape := ⟨1, ![64]⟩
abbrev S1x1x64x2x128 : Shape := ⟨5, ![1, 1, 64, 2, 128]⟩
abbrev S262144x256 : Shape := ⟨2, ![262144, 256]⟩

abbrev nBuf : Table → Nat
  | .hbm => 6
  | .shared => 1
  | .local .scVector .vmem => 2
  | _ => 0

abbrev bufTy : (tb : Table) → Fin (nBuf tb) → BufTy
  | .hbm, ⟨0, _⟩ => ⟨S262144, .i32⟩
  | .hbm, ⟨1, _⟩ => ⟨S8192x256, .f32⟩
  | .hbm, ⟨2, _⟩ => ⟨S32x128x64, .i32⟩
  | .hbm, ⟨3, _⟩ => ⟨S8192x2x128, .f32⟩
  | .hbm, ⟨4, _⟩ => ⟨S262144x2x128, .f32⟩
  | .hbm, ⟨5, _⟩ => ⟨S262144x256, .f32⟩
  | .shared, ⟨0, _⟩ => ⟨S16x3x64x2x128, .f32⟩
  | .local .scVector .vmem, ⟨0, _⟩ => ⟨S128x64, .i32⟩
  | .local .scVector .vmem, ⟨1, _⟩ => ⟨S3x64x2x128, .f32⟩
  | _, _ => ⟨S262144, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 10 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | _ => false

abbrev sig : RefSig :=
  ofTables nBuf rfl bufTy 4 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v1_scv : Ref sig .scVector := ⟨.hbm, 3, rfl⟩
abbrev main_v0_scv : Ref sig .scVector := ⟨.hbm, 2, rfl⟩
abbrev main_v2_scv : Ref sig .scVector := ⟨.hbm, 4, rfl⟩
abbrev cc0_scratch2 : Ref sig .scVector := ⟨.shared, 0, rfl⟩
abbrev cc0_scratch0 : Ref sig .scVector := ⟨.vmem, 0, rfl⟩
abbrev cc0_scratch1 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_291_r0 : BitVec 32 := 0#32
  let c0_i32_292_r0 : BitVec 32 := 0#32
  ![v1.toNat, 0, 0]
def k0_off2 (i : grid0.Coords) : Fin 5 → Nat :=
  let arg1 : BitVec 32 := BitVec.ofNat 32 (i 1).val
  let c0_i32_26 : BitVec 32 := 0#32
  let c0_i32_30 : BitVec 32 := 0#32
  let c0_i32_31 : BitVec 32 := 0#32
  let c0_i32_32 : BitVec 32 := 0#32
  ![arg1.toNat, 0, 0, 0, 0]
def k0_off3 (i : grid0.Coords) : Fin 5 → Nat :=
  let arg1 : BitVec 32 := BitVec.ofNat 32 (i 1).val
  let c1_i32_58 : BitVec 32 := 1#32
  let c0_i32_62 : BitVec 32 := 0#32
  let c0_i32_63 : BitVec 32 := 0#32
  let c0_i32_64 : BitVec 32 := 0#32
  ![arg1.toNat, 1, 0, 0, 0]
def k0_off4 (i : grid0.Coords) (c0_i32_93 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8192_i32 : BitVec 32 := 8192#32
  let v2 : BitVec 32 := Scalar.muli v1 c8192_i32
  let v57 : BitVec 32 := Scalar.addi v2 c0_i32_93
  let c0_i32_95 : BitVec 32 := 0#32
  let c0_i32_96 : BitVec 32 := 0#32
  ![v57.toNat, 0, 0]
def k0_off4_at (r : Fin 5) : BitVec 32 :=
  if r.val < 2 then
    if r.val < 1 then
      0#32
    else
      7936#32
  else
    if r.val < 3 then
      8000#32
    else
      if r.val < 4 then
        8064#32
      else
        8128#32
@[reducible] def k0_t1_loop : Scf.Loop 32 :=
  let c0_i32_101 : BitVec 32 := 0#32
  let c41_i32 : BitVec 32 := 41#32
  let v61 : BitVec 32 := Scalar.addi c0_i32_101 c41_i32
  let c1_i32_102 : BitVec 32 := 1#32
  ⟨c0_i32_101, v61, c1_i32_102⟩
def k0_off5 (i : grid0.Coords) : Fin 5 → Nat :=
  let arg1 : BitVec 32 := BitVec.ofNat 32 (i 1).val
  let c2_i32_304 : BitVec 32 := 2#32
  let c0_i32_308 : BitVec 32 := 0#32
  let c0_i32_309 : BitVec 32 := 0#32
  let c0_i32_310 : BitVec 32 := 0#32
  ![arg1.toNat, 2, 0, 0, 0]
def k0_off6 (i : grid0.Coords) : Fin 5 → Nat :=
  let arg1 : BitVec 32 := BitVec.ofNat 32 (i 1).val
  let c1_i32_318 : BitVec 32 := 1#32
  let c0_i32_322 : BitVec 32 := 0#32
  let c0_i32_323 : BitVec 32 := 0#32
  let c0_i32_324 : BitVec 32 := 0#32
  ![arg1.toNat, 1, 0, 0, 0]
def k0_off7 (k0_t1 : Fin k0_t1_loop.trips) (c0_i32_293 : BitVec 32) : Fin 2 → Nat :=
  let c2_i32_292 : BitVec 32 := 2#32
  let c3_i32_291 : BitVec 32 := 3#32
  let c0_i32_101 : BitVec 32 := 0#32
  let c1_i32_102 : BitVec 32 := 1#32
  let arg17 : BitVec 32 := Scf.iv c0_i32_101 c1_i32_102 k0_t1
  let v169 : BitVec 32 := Scalar.muli c3_i32_291 arg17
  let v170 : BitVec 32 := Scalar.addi c2_i32_292 v169
  let v171 : BitVec 32 := Scalar.addi v170 c0_i32_293
  let c2_i32_331 : BitVec 32 := 2#32
  let v193 : BitVec 32 := Scalar.addi v171 c2_i32_331
  let c0_i32_336 : BitVec 32 := 0#32
  ![v193.toNat, 0]
def k0_off8 (i : grid0.Coords) (k0_t1 : Fin k0_t1_loop.trips) (c0_i32_293 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8192_i32 : BitVec 32 := 8192#32
  let v2 : BitVec 32 := Scalar.muli v1 c8192_i32
  let c2_i32_292 : BitVec 32 := 2#32
  let c3_i32_291 : BitVec 32 := 3#32
  let c0_i32_101 : BitVec 32 := 0#32
  let c1_i32_102 : BitVec 32 := 1#32
  let arg17 : BitVec 32 := Scf.iv c0_i32_101 c1_i32_102 k0_t1
  let v169 : BitVec 32 := Scalar.muli c3_i32_291 arg17
  let v170 : BitVec 32 := Scalar.addi c2_i32_292 v169
  let v171 : BitVec 32 := Scalar.addi v170 c0_i32_293
  let c1_i32_340 : BitVec 32 := 1#32
  let v199 : BitVec 32 := Scalar.subi v171 c1_i32_340
  let c64_i32 : BitVec 32 := 64#32
  let v200 : BitVec 32 := Scalar.muli v199 c64_i32
  let v201 : BitVec 32 := Scalar.addi v2 v200
  let c0_i32_342 : BitVec 32 := 0#32
  let c0_i32_343 : BitVec 32 := 0#32
  ![v201.toNat, 0, 0]
def k0_off9 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8192_i32 : BitVec 32 := 8192#32
  let v2 : BitVec 32 := Scalar.muli v1 c8192_i32
  let c0_i32_348 : BitVec 32 := 0#32
  let c0_i32_349 : BitVec 32 := 0#32
  ![v2.toNat, 0, 0]
def k0_off10 (i : grid0.Coords) : Fin 5 → Nat :=
  let arg1 : BitVec 32 := BitVec.ofNat 32 (i 1).val
  let c0_i32_347 : BitVec 32 := 0#32
  let c0_i32_350 : BitVec 32 := 0#32
  let c0_i32_351 : BitVec 32 := 0#32
  let c0_i32_352 : BitVec 32 := 0#32
  ![arg1.toNat, 0, 0, 0, 0]
def k0_off11 (i : grid0.Coords) : Fin 5 → Nat :=
  let arg1 : BitVec 32 := BitVec.ofNat 32 (i 1).val
  let c2_i32_114 : BitVec 32 := 2#32
  let c0_i32_118 : BitVec 32 := 0#32
  let c0_i32_119 : BitVec 32 := 0#32
  let c0_i32_120 : BitVec 32 := 0#32
  ![arg1.toNat, 2, 0, 0, 0]
def k0_off12 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8192_i32 : BitVec 32 := 8192#32
  let v2 : BitVec 32 := Scalar.muli v1 c8192_i32
  let c0_i32_156 : BitVec 32 := 0#32
  let c0_i32_157 : BitVec 32 := 0#32
  ![v2.toNat, 0, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  shapeCasts_S262144_S32x128x64 : S262144.ShapeCasts S32x128x64
  shapeCasts_S8192x256_S8192x2x128 : S8192x256.ShapeCasts S8192x2x128
  squeezes_S1x128x64_S128x64 : S1x128x64.Squeezes S128x64
  inb_S3x64x2x128_S1x64x2x128_0_0_0_0 : ∀ a, (![0, 0, 0, 0] : Fin 4 → Nat) a + S1x64x2x128.size a ≤ S3x64x2x128.size a
  squeezes_S1x64x2x128_S64x2x128 : S1x64x2x128.Squeezes S64x2x128
  inb_S128x64_S1x64_0_0 : ∀ a, (![0, 0] : Fin 2 → Nat) a + S1x64.size a ≤ S128x64.size a
  squeezes_S1x64_S64 : S1x64.Squeezes S64
  inb_S8192x2x128_S8192x2x128_0_0_0 : ∀ a, (![0, 0, 0] : Fin 3 → Nat) a + S8192x2x128.size a ≤ S8192x2x128.size a
  gathers_S8192x2x128_S64x2x128 : S8192x2x128.Gathers 0 S64x2x128
  inb_S3x64x2x128_S1x64x2x128_1_0_0_0 : ∀ a, (![1, 0, 0, 0] : Fin 4 → Nat) a + S1x64x2x128.size a ≤ S3x64x2x128.size a
  inb_S128x64_S1x64_1_0 : ∀ a, (![1, 0] : Fin 2 → Nat) a + S1x64.size a ≤ S128x64.size a
  squeezes_S1x1x64x2x128_S64x2x128 : S1x1x64x2x128.Squeezes S64x2x128
  inb_S3x64x2x128_S1x64x2x128_2_0_0_0 : ∀ a, (![2, 0, 0, 0] : Fin 4 → Nat) a + S1x64x2x128.size a ≤ S3x64x2x128.size a
  inb_S128x64_S1x64_2_0 : ∀ a, (![2, 0] : Fin 2 → Nat) a + S1x64.size a ≤ S128x64.size a
  inb_S128x64_S1x64_3_0 : ∀ a, (![3, 0] : Fin 2 → Nat) a + S1x64.size a ≤ S128x64.size a
  inb_S128x64_S1x64_127_0 : ∀ a, (![127, 0] : Fin 2 → Nat) a + S1x64.size a ≤ S128x64.size a
  shapeCasts_S262144x2x128_S262144x256 : S262144x2x128.ShapeCasts S262144x256
  hcc0_scratch3 : 0 + S_.numel ≤ 10
  hcc0_scratch4 : 1 + S_.numel ≤ 10
  hcc0_scratch5 : 2 + S_.numel ≤ 10
  hcc0_scratch6 : 3 + S_.numel ≤ 10
  hcc0_scratch7 : 4 + S_.numel ≤ 10
  hcc0_scratch8 : 5 + S_.numel ≤ 10
  hcc0_scratch9 : 6 + S_.numel ≤ 10
  hcc0_scratch10 : 7 + S_.numel ≤ 10
  hcc0_scratch11 : 8 + S_.numel ≤ 10
  hcc0_scoped0 : 9 + S_.numel ≤ 10
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S1x128x64.size a ≤ S32x128x64.size a
  k0_off2_inb : ∀ i : grid0.Coords, ∀ a, (k0_off2 i) a + S1x1x64x2x128.size a ≤ S16x3x64x2x128.size a
  k0_off3_inb : ∀ i : grid0.Coords, ∀ a, (k0_off3 i) a + S1x1x64x2x128.size a ≤ S16x3x64x2x128.size a
  k0_off4_inb : ∀ i : grid0.Coords, ∀ (r : Fin 5), ∀ a, (k0_off4 i (k0_off4_at r)) a + S64x2x128.size a ≤ S262144x2x128.size a
  k0_t1_ok : k0_t1_loop.OK
  k0_off5_inb : ∀ i : grid0.Coords, ∀ a, (k0_off5 i) a + S1x1x64x2x128.size a ≤ S16x3x64x2x128.size a
  k0_off6_inb : ∀ i : grid0.Coords, ∀ a, (k0_off6 i) a + S1x1x64x2x128.size a ≤ S16x3x64x2x128.size a
  k0_off7_inb : ∀ k0_t1 : Fin k0_t1_loop.trips, ∀ (r : Fin 3), ∀ a, (k0_off7 k0_t1 (BitVec.ofNat 32 r.val)) a + S1x64.size a ≤ S128x64.size a
  k0_off8_inb : ∀ (i : grid0.Coords) (k0_t1 : Fin k0_t1_loop.trips), ∀ (r : Fin 3), ∀ a, (k0_off8 i k0_t1 (BitVec.ofNat 32 r.val)) a + S64x2x128.size a ≤ S262144x2x128.size a
  k0_off9_inb : ∀ i : grid0.Coords, ∀ a, (k0_off9 i) a + S64x2x128.size a ≤ S262144x2x128.size a
  k0_off10_inb : ∀ i : grid0.Coords, ∀ a, (k0_off10 i) a + S1x1x64x2x128.size a ≤ S16x3x64x2x128.size a
  k0_off11_inb : ∀ i : grid0.Coords, ∀ a, (k0_off11 i) a + S1x1x64x2x128.size a ≤ S16x3x64x2x128.size a
  k0_off12_inb : ∀ i : grid0.Coords, ∀ a, (k0_off12 i) a + S64x2x128.size a ≤ S262144x2x128.size a

variable [Facts₀]

abbrev cc0_scratch3 : DmaSems sig S_ := SemArray.consecutive 0 S_ hcc0_scratch3
abbrev cc0_scratch4 : DmaSems sig S_ := SemArray.consecutive 1 S_ hcc0_scratch4
abbrev cc0_scratch5 : DmaSems sig S_ := SemArray.consecutive 2 S_ hcc0_scratch5
abbrev cc0_scratch6 : DmaSems sig S_ := SemArray.consecutive 3 S_ hcc0_scratch6
abbrev cc0_scratch7 : DmaSems sig S_ := SemArray.consecutive 4 S_ hcc0_scratch7
abbrev cc0_scratch8 : DmaSems sig S_ := SemArray.consecutive 5 S_ hcc0_scratch8
abbrev cc0_scratch9 : DmaSems sig S_ := SemArray.consecutive 6 S_ hcc0_scratch9
abbrev cc0_scratch10 : DmaSems sig S_ := SemArray.consecutive 7 S_ hcc0_scratch10
abbrev cc0_scratch11 : DmaSems sig S_ := SemArray.consecutive 8 S_ hcc0_scratch11
abbrev cc0_scoped0 : DmaSems sig S_ := SemArray.consecutive 9 S_ hcc0_scoped0

class Facts : Prop extends Facts₀ where

variable [Facts]
-- ==== ReferenceIdeal.lean ====
abbrev S262144 : Shape := ⟨1, ![262144]⟩
abbrev S8192x256 : Shape := ⟨2, ![8192, 256]⟩
abbrev S_ : Shape := ⟨0, ![]⟩
abbrev S262144x1 : Shape := ⟨2, ![262144, 1]⟩
abbrev S1 : Shape := ⟨1, ![1]⟩
abbrev S1x1 : Shape := ⟨2, ![1, 1]⟩
abbrev S262144x256 : Shape := ⟨2, ![262144, 256]⟩

abbrev nBuf : Space → Nat
  | .hbm => 25
  | .vmem => 0
  | .smem => 0
  | _ => 0

abbrev bufTy : (tb : Table) → Fin (tcTables nBuf tb) → BufTy
  | .hbm, ⟨0, _⟩ => ⟨S262144, .i32⟩
  | .hbm, ⟨1, _⟩ => ⟨S8192x256, .f32⟩
  | .hbm, ⟨2, _⟩ => ⟨S_, .i32⟩
  | .hbm, ⟨3, _⟩ => ⟨S262144, .i32⟩
  | .hbm, ⟨4, _⟩ => ⟨S262144, .i1⟩
  | .hbm, ⟨5, _⟩ => ⟨S_, .i32⟩
  | .hbm, ⟨6, _⟩ => ⟨S262144, .i32⟩
  | .hbm, ⟨7, _⟩ => ⟨S262144, .i32⟩
  | .hbm, ⟨8, _⟩ => ⟨S262144, .i32⟩
  | .hbm, ⟨9, _⟩ => ⟨S262144x1, .i32⟩
  | .hbm, ⟨10, _⟩ => ⟨S1, .i32⟩
  | .hbm, ⟨11, _⟩ => ⟨S_, .i32⟩
  | .hbm, ⟨12, _⟩ => ⟨S262144x1, .i32⟩
  | .hbm, ⟨13, _⟩ => ⟨S262144x1, .i1⟩
  | .hbm, ⟨14, _⟩ => ⟨S1x1, .i32⟩
  | .hbm, ⟨15, _⟩ => ⟨S262144x1, .i32⟩
  | .hbm, ⟨16, _⟩ => ⟨S262144x1, .i1⟩
  | .hbm, ⟨17, _⟩ => ⟨S262144x1, .i1⟩
  | .hbm, ⟨18, _⟩ => ⟨S_, .i1⟩
  | .hbm, ⟨19, _⟩ => ⟨S262144, .i1⟩
  | .hbm, ⟨20, _⟩ => ⟨S262144x256, .f32⟩
  | .hbm, ⟨21, _⟩ => ⟨S262144x256, .i1⟩
  | .hbm, ⟨22, _⟩ => ⟨S_, .f32⟩
  | .hbm, ⟨23, _⟩ => ⟨S262144x256, .f32⟩
  | .hbm, ⟨24, _⟩ => ⟨S262144x256, .f32⟩
  | _, _ => ⟨S262144, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_c : Ref sig .tc := ⟨.hbm, 2, rfl⟩
abbrev main_call0_v0 : Ref sig .tc := ⟨.hbm, 3, rfl⟩
abbrev main_call0_v1 : Ref sig .tc := ⟨.hbm, 4, rfl⟩
abbrev main_call0_c_0 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_c_1 : Ref sig .tc := ⟨.hbm, 10, rfl⟩
abbrev main_call0_c_2 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_3 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_cst : Ref sig .tc := ⟨.hbm, 22, rfl⟩
abbrev main_call0_v15 : Ref sig .tc := ⟨.hbm, 23, rfl⟩
abbrev main_v0 : Ref sig .tc := ⟨.hbm, 24, rfl⟩

abbrev nD : Nat := 1
abbrev τ : Topo := Topo.v7x

variable {F : FTy → Type} [FloatOps F]

class Facts₀ : Prop where
  bcast_S_S262144 : S_.BroadcastsInDim S262144 (![] : Fin 0 → Fin S262144.rank)
  bcast_S262144_S262144x1_0 : S262144.BroadcastsInDim S262144x1 (![0] : Fin 1 → Fin S262144x1.rank)
  bcast_S_S262144x1 : S_.BroadcastsInDim S262144x1 (![] : Fin 0 → Fin S262144x1.rank)
  bcast_S1_S1x1_1 : S1.BroadcastsInDim S1x1 (![1] : Fin 1 → Fin S1x1.rank)
  bcast_S1x1_S262144x1_0_1 : S1x1.BroadcastsInDim S262144x1 (![0, 1] : Fin 2 → Fin S262144x1.rank)
  reducesTo_S262144x1_S262144_d1 : S262144x1.ReducesTo [1] S262144
  h_S_ : 0 < S_.numel
  bcast_S262144_S262144x256_0 : S262144.BroadcastsInDim S262144x256 (![0] : Fin 1 → Fin S262144x256.rank)
  bcast_S_S262144x256 : S_.BroadcastsInDim S262144x256 (![] : Fin 0 → Fin S262144x256.rank)
  gather_S8192x256_S262144x1_S262144x256_1_0_n_n_0_1_1256_wf : GatherDims.WF S8192x256 S262144x1 S262144x256 [1] [0] [] [0] [] 1 ![1, 256]

variable [Facts₀]

def gather_S8192x256_S262144x1_S262144x256_1_0_n_n_0_1_1256 : GatherDims S8192x256 S262144x1 S262144x256 where
  offsetDims := [1]
  collapsedSliceDims := [0]
  operandBatchingDims := []
  startIndicesBatchingDims := []
  startIndexMap := [0]
  indexVectorDim := 1
  sliceSizes := ![1, 256]
  wf := gather_S8192x256_S262144x1_S262144x256_1_0_n_n_0_1_1256_wf

class Facts : Prop extends Facts₀ where

variable [Facts]
-- ==== Proof.Spec.lean ====
/-
  The function both programs compute: a row lookup. The table `w` has 8192 rows of 256 numbers; the list `ids`
  has 262144 row numbers; row `n` of the result is row `ids n` of the table. A row number is read as a natural
  number and reduced modulo the table's height, so that the lookup is a total function of its arguments; on row
  numbers below 8192 — the only ones the precondition admits — the reduction changes nothing.
  The kernel works on other arrangements of the same data: the list as 32 workers × 128 chunks × 64 entries, a row
  as 2 × 128 numbers. `take3` is the lookup over those arrangements; `take3_cast` says it is `take` rearranged.
-/
import Idealize.ShloMosaic.PureOps
import Idealize.ShloMosaic.Lib.ValueIdx
import Idealize.ShloMosaic.Lib.Pipeline.Value

namespace Cert.Proof.Spec

open Idealize.ShloMosaic Idealize.ShloMosaic.ValueIdx

abbrev SN : Shape := ⟨1, ![262144]⟩
abbrev SW : Shape := ⟨2, ![8192, 256]⟩
abbrev SO : Shape := ⟨2, ![262144, 256]⟩
abbrev SN3 : Shape := ⟨3, ![32, 128, 64]⟩
abbrev SW3 : Shape := ⟨3, ![8192, 2, 128]⟩
abbrev SO3 : Shape := ⟨3, ![262144, 2, 128]⟩

/-- The table row a 32-bit row number selects. -/
def rowOf (v : BitVec 32) : Fin 8192 := ⟨v.toNat % 8192, Nat.mod_lt _ (by norm_num)⟩

theorem rowOf_val_of_lt {v : BitVec 32} (h : v.toNat < 8192) : (rowOf v).val = v.toNat := Nat.mod_eq_of_lt h

/-- The lookup: entry `(n, k)` of the result is entry `(ids n, k)` of the table. -/
def take {V : Type} (ids : SN.Idx → BitVec 32) (w : SW.Idx → V) : SO.Idx → V :=
  fun j => w (ix2 (rowOf (ids (ix1 (j 0)))) (j 1))

/-- Where token `n` sits in the 32 × 128 × 64 arrangement of the list: worker `n / 8192`, chunk `n % 8192 / 64`,
    entry `n % 64`. -/
def tok3 (n : Fin 262144) : SN3.Idx :=
  ix3 (⟨n.val / 8192, by have := n.isLt; omega⟩ : Fin 32) (⟨n.val % 8192 / 64, by omega⟩ : Fin 128) (⟨n.val % 64, by omega⟩ : Fin 64)

/-- The lookup over the kernel's arrangements: entry `(n, h, l)` of the result is entry `(ids (tok3 n), h, l)` of
    the table. -/
def take3 {V : Type} (ids : SN3.Idx → BitVec 32) (w : SW3.Idx → V) : SO3.Idx → V :=
  fun j => w (ix3 (rowOf (ids (tok3 (j 0)))) (j 1) (j 2))

end Cert.Proof.Spec
-- ==== Proof.PreDecode.lean ====
/-
  The precondition, read back. The precondition's predicate is the conjunction of two "for all" tests: every table entry is
  finite, and every row number `v` of the list satisfies `0 ≤ v ≤ 8191` as a signed 32-bit word. Such a word is
  nonnegative, so its signed and unsigned readings agree, and the unsigned reading is below 8192.
-/
import proofs.«201408_g9070970929189_cont_9to1c4b_623_24_alg».proof.Pre_input_domain
import proofs.«201408_g9070970929189_cont_9to1c4b_623_24_alg».proof.Proof.Gen.Pre_input_domain
import Idealize.ShloMosaic.Lib.ReduceAll
import Idealize.ShloMosaic.Lib.Affine
import Idealize.ShloMosaic.Lib.ValueIdx

namespace Cert.Proof.PreDecode

open Idealize.ShloMosaic Cert.Pre_input_domain Cert.Pre_input_domain.Gen

instance : Subsingleton S_.Idx := ⟨fun a b => funext fun d => d.elim0⟩

/-- A signed 32-bit word between 0 and 8191 reads, unsigned, as a number below 8192. -/
theorem toNat_lt_of_signed_range (v : BitVec 32) (h0 : (0#32 : BitVec 32).toInt ≤ v.toInt)
    (h1 : v.toInt ≤ (8191#32 : BitVec 32).toInt) : v.toNat < 8192 := by
  rw [show (0#32 : BitVec 32).toInt = 0 from by decide] at h0
  rw [show (8191#32 : BitVec 32).toInt = 8191 from by decide] at h1
  have hlt : 2 * v.toNat < 2 ^ 32 := BitVec.toInt_pos_iff.1 h0
  rw [BitVec.toInt_eq_toNat_of_lt hlt] at h1
  omega

/-- Under the precondition every row number of the list is below the table's height. -/
theorem ids_lt {F : FTy → Type} [FloatOps F] (ids : IVec Cert.Pre_input_domain.S262144 32)
    (w : FVec F Cert.Pre_input_domain.S8192x256 .f32)
    (h : Cert.Pre_input_domain.fn (F := F) ids w = fun _ => 1#1) : ∀ j, (ids j).toNat < 8192 := by
  intro j
  have h0 := congrFun h ValueIdx.ix0
  dsimp only [Cert.Pre_input_domain.fn, andi] at h0
  obtain ⟨_, h9⟩ := IntOp.andi_eq_one.1 h0
  have hj := Host.reduce_andi_all _ _ _ _ _ h9 j
  obtain ⟨hge, hle⟩ := IntOp.andi_eq_one.1 hj
  exact toNat_lt_of_signed_range (ids j) (IntOp.cmpi_sge.1 hge) (IntOp.cmpi_sle.1 hle)

end Cert.Proof.PreDecode
-- ==== Proof.RefTerm.lean ====
/-
  What the reference computes, as one pure term of its two arguments: the row numbers wrapped around (a negative one has
  the table's height added), a mask saying which of them lie inside the table, the rows gathered at them, and the select
  that keeps a gathered row where the mask is one and puts the constant `0x7FC00000` elsewhere.
-/
import proofs.«201408_g9070970929189_cont_9to1c4b_623_24_alg».proof.Proof.Gen.ReferenceIdeal

noncomputable section

namespace Cert.Proof.Ref

open Idealize.ShloMosaic
open Cert.ReferenceIdeal Cert.ReferenceIdeal.Gen

variable {F : FTy → Type} [FloatOps F]

/-- The row numbers the lookup uses: a negative one has the table's height added (the wrap-around of a negative
    index), the others are kept. -/
def wrapped (ids : IVec S262144 32) : IVec S262144 32 :=
  select (cmpi .slt ids (broadcastInDim S262144 ![] bcast_S_S262144 (constantI S_ 32 0#32)))
    (addi ids (broadcastInDim S262144 ![] bcast_S_S262144 (constantI S_ 32 8192#32))) ids

/-- The row numbers as a column. -/
def column (ids : IVec S262144 32) : IVec S262144x1 32 :=
  broadcastInDim S262144x1 ![0] bcast_S262144_S262144x1_0 (wrapped ids)

/-- Per token: is its (wrapped) row number inside the table, `0 ≤ v ≤ 8191`? -/
def inside (ids : IVec S262144 32) : IVec S262144 1 :=
  Host.reduce IntOp.andi
    (andi (cmpi .sge (column ids) (broadcastInDim S262144x1 ![] bcast_S_S262144x1 (constantI S_ 32 0#32)))
      (cmpi .sle (column ids)
        (broadcastInDim S262144x1 ![0, 1] bcast_S1x1_S262144x1_0_1
          (broadcastInDim S1x1 ![1] bcast_S1_S1x1_1 (constantI S1 32 8191#32)))))
    (constantI S_ 1 1#1) reducesTo_S262144x1_S262144_d1 h_S_

/-- What the reference computes from its arguments: the gathered rows where the row number is inside the table, the
    constant `0x7FC00000` elsewhere. -/
def refTerm (ids : IVec S262144 32) (w : FVec F S8192x256 .f32) : FVec F S262144x256 .f32 :=
  select (broadcastInDim S262144x256 ![0] bcast_S262144_S262144x256_0 (inside ids))
    (Host.gather gather_S8192x256_S262144x1_S262144x256_1_0_n_n_0_1_1256 w (column ids))
    (broadcastInDim S262144x256 ![] bcast_S_S262144x256 (constant S_ .f32 0x7FC00000#32))

end Cert.Proof.Ref

end
-- ==== Proof.RefRun.lean ====
/-
  The reference's run. Its program is a straight line of host operations: the functions it calls are unfolded at their
  call sites, so `main` is the sequence `ops`, and every weakly fair execution ends with each buffer at the operations'
  fold over the launch contents. The result buffer then holds `refTerm ids w`: the operations' composed pure term of
  the two arguments.
-/
import proofs.«201408_g9070970929189_cont_9to1c4b_623_24_alg».proof.Defs
import proofs.«201408_g9070970929189_cont_9to1c4b_623_24_alg».proof.Proof.Gen.ReferenceIdeal
import proofs.«201408_g9070970929189_cont_9to1c4b_623_24_alg».proof.Proof.RefTerm
import Idealize.ShloMosaic.Lib.StableHlo.Run

noncomputable section

namespace Cert.Proof.Ref

open Idealize.ShloMosaic Idealize.SL.Sem Idealize.ShloMosaic.StableHlo Idealize.ShloMosaic.TcCoe
open Cert.ReferenceIdeal Cert.ReferenceIdeal.Gen

variable {F : FTy → Type} [FloatOps F]

/-- @main's 23 operations in order, the two calls unfolded over their buffer records. -/
abbrev ops : List (HloOp τ sig (Elt F)) :=
  [ TRef.nullary main_call0.c (constantI S_ 32 0#32),
    TRef.unary main_call0.c main_call0.v0 (broadcastInDim S262144 ![] bcast_S_S262144),
    TRef.binary (.of main_arg0) main_call0.v0 main_call0.v1 (cmpi .slt),
    TRef.nullary main_call0.c_0 (constantI S_ 32 8192#32),
    TRef.unary main_call0.c_0 main_call0.v2 (broadcastInDim S262144 ![] bcast_S_S262144),
    TRef.binary (.of main_arg0) main_call0.v2 main_call0.v3 addi,
    TRef.ternary main_call0.v1 main_call0.v3 (.of main_arg0) main_call0.call0.v0 select,
    TRef.unary main_call0.call0.v0 main_call0.v5 (broadcastInDim S262144x1 ![0] bcast_S262144_S262144x1_0),
    TRef.nullary main_call0.c_1 (constantI S1 32 8191#32),
    TRef.nullary main_call0.c_2 (constantI S_ 32 0#32),
    TRef.unary main_call0.c_2 main_call0.v6 (broadcastInDim S262144x1 ![] bcast_S_S262144x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S262144x1 ![0, 1] bcast_S1x1_S262144x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S262144x1_S262144_d1 h_S_),
    TRef.binary (.of main_arg1) main_call0.v5 main_call0.v13 (fun x i => Host.gather gather_S8192x256_S262144x1_S262144x256_1_0_n_n_0_1_1256 x i),
    TRef.unary main_call0.v12 main_call0.v14 (broadcastInDim S262144x256 ![0] bcast_S262144_S262144x256_0),
    TRef.nullary main_call0.cst (constant S_ .f32 0x7FC00000#32),
    TRef.unary main_call0.cst main_call0.v15 (broadcastInDim S262144x256 ![] bcast_S_S262144x256),
    TRef.ternary main_call0.v14 main_call0.v13 main_call0.v15 main_call0.v16 select ]

set_option maxRecDepth 1024 in
/-- @main is that straight line: the called functions' definitions unfolded at their calls, both sides are one chain
    of operation steps once sequencing is reassociated. -/
theorem main_eq (c : Dev nD) : main (F := F) c = seq ops := by
  simp only [main, fn_take.body, fn_where.body, seq, bind_assoc, pure_bind]

set_option maxRecDepth 16384 in
set_option maxHeartbeats 400000 in
/-- The fold at the result buffer is `refTerm` of the arguments' contents: each operation's result is its function of
    its operands' contents, the typed references' transports being the identity at these literal references. -/
theorem out_eq (V : Valuation τ sig (Elt F)) :
    after ops V (main_v0 : DevRef τ sig) = refTerm (V (main_arg0 : DevRef τ sig)) (V (main_arg1 : DevRef τ sig)) := by
  after_results
  simp only [TRef.ofBuf, TRef.toBuf, cast_eq]
  rfl

theorem arg0_eq (V : Valuation τ sig (Elt F)) :
    after ops V (main_arg0 : DevRef τ sig) = V (main_arg0 : DevRef τ sig) := by
  simp only [after_cons, after_nil]
  rfl

theorem arg1_eq (V : Valuation τ sig (Elt F)) :
    after ops V (main_arg1 : DevRef τ sig) = V (main_arg1 : DevRef τ sig) := by
  simp only [after_cons, after_nil]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub ..⟩

/-- From any memory with zero counters, for any float values: every weakly fair execution of the reference terminates,
    the result buffer at `refTerm` of the arguments and the arguments unchanged. -/
theorem run_term (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v0)
          = refTerm (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v0).trans (out_eq _), (h c main_arg0).trans (arg0_eq _),
      (h c main_arg1).trans (arg1_eq _)⟩)
    (run_seq scopedRefs_eq scopedSems_eq defs main (fun _ => ops) main_eq (fun _ => ops_sub) m ρ)

end Cert.Proof.Ref

end
-- ==== Proof.RefValue.lean ====
/-
  The reference's value. When every row number `v` of the list is below the table's height, the reference's composed term
  is the plain row lookup: `v` is not negative, so the wrap-around keeps it; `0 ≤ v ≤ 8191`, so the mask is one at every
  token and the select keeps the gathered row; and the gather's clamp of `v` into `[0, 8191]` changes nothing.
-/
import proofs.«201408_g9070970929189_cont_9to1c4b_623_24_alg».proof.Proof.RefTerm
import proofs.«201408_g9070970929189_cont_9to1c4b_623_24_alg».proof.Proof.Spec
import Idealize.ShloMosaic.Lib.Affine
import Idealize.ShloMosaic.PureOps.Reduce
import Idealize.ShloMosaic.Lib.ValueIdx
import Idealize.ShloMosaic.Lib.Pipeline.Value

noncomputable section

namespace Cert.Proof.Ref

open Idealize.ShloMosaic Idealize.ShloMosaic.ValueIdx
open Cert.ReferenceIdeal Cert.ReferenceIdeal.Gen

variable {F : FTy → Type} [FloatOps F]

/-! ## Words below 8192 -/

/-- A 32-bit word below 8192 reads the same signed and unsigned. -/
theorem toInt_of_lt {v : BitVec 32} (h : v.toNat < 8192) : v.toInt = (v.toNat : Int) :=
  BitVec.toInt_eq_toNat_of_lt (by omega)

/-- Such a word is not negative. -/
theorem slt_zero_of_lt {v : BitVec 32} (h : v.toNat < 8192) : IntOp.cmpi .slt v 0#32 = 0#1 := by
  apply eq_zero_of_ne_one
  rw [IntOp.cmpi_slt, toInt_of_lt h, show (0#32 : BitVec 32).toInt = 0 from by decide]
  omega

/-- Such a word passes the test `0 ≤ v ≤ 8191`. -/
theorem in_range_of_lt {v : BitVec 32} (h : v.toNat < 8192) :
    IntOp.andi (IntOp.cmpi .sge v 0#32) (IntOp.cmpi .sle v 8191#32) = 1#1 := by
  rw [IntOp.andi_eq_one, IntOp.cmpi_sge, IntOp.cmpi_sle, toInt_of_lt h,
    show (0#32 : BitVec 32).toInt = 0 from by decide, show (8191#32 : BitVec 32).toInt = 8191 from by decide]
  omega

/-- A left fold by `and` from 1 over words that are all 1 is 1. -/
theorem foldl_andi_one {ι : Type} (f : ι → BitVec 1) (hf : ∀ n, f n = 1#1) :
    ∀ l : List ι, l.foldl (fun r n => IntOp.andi r (f n)) 1#1 = 1#1
  | [] => rfl
  | a :: l => by
    rw [List.foldl_cons, hf a, show IntOp.andi 1#1 1#1 = 1#1 from by decide]
    exact foldl_andi_one f hf l

/-! ## The stages at an index -/

/-- The wrap-around keeps every row number. -/
theorem wrapped_eq (ids : IVec S262144 32) (h : ∀ j, (ids j).toNat < 8192) : wrapped ids = ids := by
  funext i
  show Scalar.select (IntOp.cmpi .slt (ids i) 0#32) _ (ids i) = ids i
  rw [slt_zero_of_lt (h i), select_zero]

/-- The column of row numbers at `(n, 0)` is the list at `n`. -/
theorem column_apply (ids : IVec S262144 32) (h : ∀ j, (ids j).toNat < 8192) (n : Fin 262144) :
    column ids (ix2 n (0 : Fin 1)) = ids (ix1 n) := by
  unfold column
  rw [wrapped_eq ids h]
  refine broadcastInDim_apply _ _ ids (ix2 n (0 : Fin 1)) (ix1 n) ?_
  intro a
  obtain rfl : a = 0 := Subsingleton.elim _ _
  rfl

/-- Every entry of the column is below the table's height. -/
theorem column_lt (ids : IVec S262144 32) (h : ∀ j, (ids j).toNat < 8192) (i : S262144x1.Idx) :
    (column ids i).toNat < 8192 := by
  unfold column
  rw [wrapped_eq ids h]
  unfold broadcastInDim
  exact h _

/-- The mask is one at every token. -/
theorem inside_eq_one (ids : IVec S262144 32) (h : ∀ j, (ids j).toNat < 8192) (n : S262144.Idx) :
    inside ids n = 1#1 := by
  unfold inside
  rw [Host.reduce_eq_foldl]
  exact foldl_andi_one _ (fun i => by
    show IntOp.andi (IntOp.cmpi .sge (column ids i) 0#32) (IntOp.cmpi .sle (column ids i) 8191#32) = 1#1
    exact in_range_of_lt (column_lt ids h i)) _

/-- The gather's dimension numbers. -/
abbrev D : GatherDims S8192x256 S262144x1 S262144x256 := gather_S8192x256_S262144x1_S262144x256_1_0_n_n_0_1_1256

/-- The gather read at `(n, k)`: the table at row `idx (n, 0)`, read signed and clamped into `[0, 8191]`, column `k`. -/
theorem gather_apply {α : Type} (w : S8192x256.Idx → α) (idx : IVec S262144x1 32) (n : Fin 262144) (k : Fin 256) :
    Host.gather gather_S8192x256_S262144x1_S262144x256_1_0_n_n_0_1_1256 w idx (ix2 n k)
      = w (ix2 (⟨min (idx (ix2 n (0 : Fin 1))).toInt.toNat (8192 - 1), by omega⟩ : Fin 8192) k) := by
  unfold Host.gather
  congr 1
  funext a
  refine Fin.ext ?_
  match a with
  | ⟨0, _⟩ =>
    show D.start (ix2 n k) idx 0 + D.batchCoord (ix2 n k) 0 + D.offCoord (ix2 n k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ D.startIndexMap from List.mem_singleton.mpr rfl)]
    have hsi : D.siIdx (ix2 n k) ⟨List.idxOf (0 : Fin 2) D.startIndexMap,
        List.idxOf_lt_length_iff.2 (List.mem_singleton.mpr rfl)⟩ = ix2 n (0 : Fin 1) := by
      funext b; refine Fin.ext ?_
      match b with
      | ⟨0, _⟩ => rfl
      | ⟨1, _⟩ => rfl
    rw [hsi]
    rfl
  | ⟨1, _⟩ =>
    show D.start (ix2 n k) idx 1 + D.batchCoord (ix2 n k) 1 + D.offCoord (ix2 n k) 1 = k.val
    rw [GatherDims.batchCoord_eq_zero _ _ _ List.not_mem_nil]
    unfold GatherDims.start
    rw [dif_neg (show (1 : Fin 2) ∉ D.startIndexMap from by decide)]
    unfold GatherDims.offCoord
    rw [dif_pos (show (1 : Fin 2) ∈ D.sKept from by decide)]
    simp only [Nat.zero_add]
    rfl

/-! ## The value -/

/-- The mask, spread over the rows, is one at every entry. -/
theorem mask_eq_one (ids : IVec S262144 32) (h : ∀ j, (ids j).toNat < 8192) (j : S262144x256.Idx) :
    broadcastInDim S262144x256 ![0] bcast_S262144_S262144x256_0 (inside ids) j = 1#1 := by
  unfold broadcastInDim
  exact inside_eq_one ids h _

/-- The reference's composed term at `(n, k)` is the table at row `ids n`, column `k`. -/
theorem refTerm_apply (ids : IVec S262144 32) (w : FVec F S8192x256 .f32) (h : ∀ j, (ids j).toNat < 8192)
    (n : Fin 262144) (k : Fin 256) :
    refTerm ids w (ix2 n k) = w (ix2 (Cert.Proof.Spec.rowOf (ids (ix1 n))) k) := by
  unfold refTerm
  rw [select_apply, mask_eq_one ids h, select_one, gather_apply]
  have hv := h (ix1 n)
  congr 2
  refine Fin.ext ?_
  show min (column ids (ix2 n (0 : Fin 1))).toInt.toNat (8192 - 1) = (ids (ix1 n)).toNat % 8192
  rw [column_apply ids h, toInt_of_lt hv]
  omega

/-- With every row number below the table's height, the reference's composed term is the row lookup. -/
theorem refTerm_eq_take (ids : IVec S262144 32) (w : FVec F S8192x256 .f32) (h : ∀ j, (ids j).toNat < 8192) :
    refTerm ids w = Cert.Proof.Spec.take ids w := by
  funext j
  rw [eq_ix2 j]
  exact refTerm_apply ids w h (j 0) (j 1)

end Cert.Proof.Ref

end
-- ==== Proof.Ref.lean ====
/-
  The reference, run and read. Under the precondition every row number of the list is below the table's height
  (`ok_of_pre`); then the reference's run ends with its result buffer at the row lookup of its two arguments and the
  arguments unchanged (`run`): the run leaves the operations' composed term there, and that term is the lookup.
-/
import proofs.«201408_g9070970929189_cont_9to1c4b_623_24_alg».proof.Defs
import proofs.«201408_g9070970929189_cont_9to1c4b_623_24_alg».proof.Proof.Gen.ReferenceIdeal
import proofs.«201408_g9070970929189_cont_9to1c4b_623_24_alg».proof.Proof.Gen.Pre_input_domain
import proofs.«201408_g9070970929189_cont_9to1c4b_623_24_alg».proof.Proof.Spec
import proofs.«201408_g9070970929189_cont_9to1c4b_623_24_alg».proof.Proof.PreDecode
import proofs.«201408_g9070970929189_cont_9to1c4b_623_24_alg».proof.Proof.RefRun
import proofs.«201408_g9070970929189_cont_9to1c4b_623_24_alg».proof.Proof.RefValue

noncomputable section

namespace Cert.Proof.Ref

open Idealize.ShloMosaic Idealize.SL.Sem Cert.ReferenceIdeal

/-- Every row number of the list is below the table's height, on every device. -/
def PreOK (m : (ℓ : Loc nD τ sig) → Buf (Elt Ideal) ℓ) : Prop :=
  ∀ (c : Dev nD) (j : S262144.Idx), (m ((c.tc : Thread nD τ).loc main_arg0) j).toNat < 8192

/-- The precondition gives it. -/
theorem ok_of_pre (m : (ℓ : Loc nD τ sig) → Buf (Elt Ideal) ℓ) (h : Cert.Pre_ReferenceIdeal m) : PreOK m :=
  fun c => Cert.Proof.PreDecode.ids_lt (F := Ideal) _ _ (h c)

/-- From any memory with zero counters whose row numbers are below the table's height: every weakly fair execution of
    the reference terminates, its result the row lookup of its arguments, the arguments unchanged. -/
theorem run (m : (ℓ : Loc nD τ sig) → Buf (Elt Ideal) ℓ) (ρ : Dev nD → PrngReg) (hok : PreOK m) :
    θ_run (Cert.ReferenceIdeal.defs (F := Ideal)) (onTc (τ := τ) (Cert.ReferenceIdeal.main (F := Ideal))) ⟨m, fun _ => 0, ρ⟩ (fun r => ∀ c : Dev nD,
      r.2.mem ((c.tc : Thread nD τ).loc main_v0) = Cert.Proof.Spec.take (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run (Cert.ReferenceIdeal.defs (F := Ideal)) _ _).mono
    (fun _ h c => ⟨(h c).1.trans (refTerm_eq_take _ _ (hok c)), (h c).2⟩)
    (run_term (F := Ideal) m ρ)

end Cert.Proof.Ref

end
-- ==== Proof.KICommon.lean ====
/-
  The kernel as the launch theorem sees it, and what its handshakes carry.
  Thirty-two workers — vector subcore `s` of SparseCore `c` is worker `2 s + c` — each look up 8192 consecutive tokens:
  worker `k` reads row `k` of the list (as 32 × 128 × 64), reads the table whole (every worker does, so each holds a
  read share of it), and writes rows `8192 k … 8192 k + 8191` of the result. A chunk of 64 rows travels
  table → the worker's row buffer → its row of the SparseCore's shared memory → the result.
  Stated here: the arrays as the kernel finds them (`I0`, `W0`: the list and the table rearranged), each worker's
  pieces of them, and the record `P` of what travels with each handshake — to a worker its row of the list, its
  share of the table, its block of the result and its row of the shared memory; back the same with the block
  holding the lookup (`Spec.take3`) of its tokens.
-/
import proofs.«201408_g9070970929189_cont_9to1c4b_623_24_alg».proof.Defs
import proofs.«201408_g9070970929189_cont_9to1c4b_623_24_alg».proof.Proof.Spec
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic
import proofs.«201408_g9070970929189_cont_9to1c4b_623_24_alg».proof.Proof.Gen.KernelIdeal
import proofs.«201408_g9070970929189_cont_9to1c4b_623_24_alg».proof.Proof.Gen.KernelIdeal.Skeleton

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds library, the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The launch memory and the arrays -/

variable (m : (ℓ : Loc nD τ sig) → Buf (Elt F) ℓ) (ρ : Dev nD → PrngReg)

/-- the list and the table as the program is given them, -/
abbrev aLoc (d : Dev nD) : Loc nD τ sig := (SparseCore.T d).loc main_arg0
abbrev bLoc (d : Dev nD) : Loc nD τ sig := (SparseCore.T d).loc main_arg1
/-- rearranged for the kernel, the kernel's result, and the program's result. -/
abbrev iLoc (d : Dev nD) : Loc nD τ sig := (SparseCore.T d).loc main_v0
abbrev wLoc (d : Dev nD) : Loc nD τ sig := (SparseCore.T d).loc main_v1
abbrev oLoc (d : Dev nD) : Loc nD τ sig := (SparseCore.T d).loc main_v2
abbrev rLoc (d : Dev nD) : Loc nD τ sig := (SparseCore.T d).loc main_v3
/-- SparseCore `c`'s shared vector memory. -/
abbrev shRef (c : Fin τ.nSC) : DevRef τ sig := ⟨.shared, ⟨0, by decide⟩, c⟩
abbrev shLoc (d : Dev nD) (c : Fin τ.nSC) : Loc nD τ sig := (d, shRef c)

/-- The list as the kernel finds it: 32 workers × 128 chunks × 64 entries, in the list's order. -/
def I0 (d : Dev nD) : Buf (Elt F) (iLoc d) := shapeCast S32x128x64 (m (aLoc d)) shapeCasts_S262144_S32x128x64
/-- The table as the kernel finds it: each row as 2 × 128. -/
def W0 (d : Dev nD) : Buf (Elt F) (wLoc d) := shapeCast S8192x2x128 (m (bLoc d)) shapeCasts_S8192x256_S8192x2x128
/-- What the kernel leaves in its result: the lookup, over the kernel's arrangements. -/
def OUT (d : Dev nD) : Buf (Elt F) (oLoc d) := Cert.Proof.Spec.take3 (I0 m d) (W0 m d)

/-! ## The workers' pieces -/

/-- Worker number of vector subcore `s` of SparseCore `c`. -/
def wid (c : Fin 2) (s : Fin 16) : Fin 32 := ⟨2 * s.val + c.val, by have := c.isLt; have := s.isLt; omega⟩

theorem idiv : 32 ∣ S32x128x64.size 0 := ⟨1, rfl⟩
theorem odiv : 32 ∣ S262144x2x128.size 0 := ⟨8192, rfl⟩
theorem sdiv : 16 ∣ S16x3x64x2x128.size 0 := ⟨1, rfl⟩
theorem cdiv : 4096 ∣ S262144x2x128.size 0 := ⟨64, rfl⟩
/-- Row `k` of the list, block `k` (8192 rows) of the result, row `s` of a SparseCore's shared memory. -/
abbrev irow (k : Fin 32) : Rect S32x128x64 := Rect.part (s := S32x128x64) (a₀ := 0) idiv k
abbrev oblk (k : Fin 32) : Rect S262144x2x128 := Rect.part (s := S262144x2x128) (a₀ := 0) odiv k
abbrev srow (s : Fin 16) : Rect S16x3x64x2x128 := Rect.part (s := S16x3x64x2x128) (a₀ := 0) sdiv s
/-- Chunk `n` of the result: its rows `64 n … 64 n + 63`; worker `k`'s chunk `g` is chunk `128 k + g`. -/
abbrev ochk (n : Fin 4096) : Rect S262144x2x128 := Rect.part (s := S262144x2x128) (a₀ := 0) cdiv n
def chk (k : Fin 32) (g : Fin 128) : Fin 4096 := ⟨128 * k.val + g.val, by have := k.isLt; have := g.isLt; omega⟩
abbrev iRowSet (k : Fin 32) : Finset S32x128x64.Idx := ((Memref.whole main_v0_scv : Memref sig .scVector .hbm S32x128x64 .i32).view.slice (irow k)).set
abbrev oBlkSet (k : Fin 32) : Finset S262144x2x128.Idx := ((Memref.whole main_v2_scv : Memref sig .scVector .hbm S262144x2x128 .f32).view.slice (oblk k)).set
abbrev oChkSet (n : Fin 4096) : Finset S262144x2x128.Idx := ((Memref.whole main_v2_scv : Memref sig .scVector .hbm S262144x2x128 .f32).view.slice (ochk n)).set
abbrev sRowSet (s : Fin 16) : Finset S16x3x64x2x128.Idx := ((Memref.whole cc0_scratch2 : Memref sig .scVector .shared S16x3x64x2x128 .f32).view.slice (srow s)).set
/-- Worker `k`'s read share of the table. -/
abbrev wq (k : Fin 32) : PosShare TreeShare := Transfers.shareTok fullShare 32 k

variable [FloatOps F]

/-! ## What the handshakes carry -/

abbrev iRowPts (d : Dev nD) (k : Fin 32) : sProp 𝕄 := iLoc d ↦[iRowSet k]{fullShare} I0 m d
abbrev wShPts (d : Dev nD) (k : Fin 32) : sProp 𝕄 := wLoc d ↦{wq k} W0 m d
abbrev oBlkPts (d : Dev nD) (k : Fin 32) (f : Buf (Elt F) (oLoc d)) : sProp 𝕄 := oLoc d ↦[oBlkSet k]{fullShare} f
abbrev oChkPts (d : Dev nD) (n : Fin 4096) (f : Buf (Elt F) (oLoc d)) : sProp 𝕄 := oLoc d ↦[oChkSet n]{fullShare} f
abbrev sRowPts (d : Dev nD) (c : Fin τ.nSC) (s : Fin 16) (f : Buf (Elt F) (shLoc d c)) : sProp 𝕄 := shLoc d c ↦[sRowSet s]{fullShare} f

/-- Chunk `n` of the result at contents that are the lookup's there. -/
def oChkDone (d : Dev nD) (n : Fin 4096) : sProp 𝕄 := iprop(∃ f, ⌜∀ j ∈ oChkSet n, f j = OUT m d j⌝ ∗ oChkPts d n f)

instance oChkDone_storable (d : Dev nD) (n : Fin 4096) : BI.Storable (upEmb : UEmb _ 𝕄) (oChkDone (F := F) m d n) := by
  unfold oChkDone; infer_instance

/-- What worker `k` is handed of the HBM arrays: its row of the list, its share of the table, and its block of the
    result as the launch left it, chunk by chunk (128 chunks of 64 rows); -/
abbrev goH (d : Dev nD) (k : Fin 32) : sProp 𝕄 :=
  iprop(iRowPts m d k ∗ wShPts m d k ∗ bigSep Finset.univ fun g : Fin 128 => oChkPts d (chk k g) (m (oLoc d)))
/-- and what it hands back: the same, each chunk now holding the lookup of its tokens. -/
abbrev tdH (d : Dev nD) (k : Fin 32) : sProp 𝕄 :=
  iprop(iRowPts m d k ∗ wShPts m d k
    ∗ bigSep Finset.univ fun g : Fin 128 => oChkDone m d (chk k g))

/-- Each SparseCore takes its sixteen workers' pieces; each worker its own and its row of the SparseCore's shared
    memory, and brings them back. -/
def P : (K (F := F)).Pay (nD := nD) (Val := Elt F) (Name := ℕ) (U := UU) where
  st := fun q d c => match q with
    | 0 => bigSep Finset.univ fun s : Fin 16 => goH m d (wid (Fin.cast nCore_zero c) s)
  dn := fun q d c => match q with
    | 0 => bigSep Finset.univ fun s : Fin 16 => tdH m d (wid (Fin.cast nCore_zero c) s)
  go := fun q d c i => match q with
    | 0 => iprop(goH m d (wid (Fin.cast nCore_zero c) (Fin.cast nSub_zero i))
        ∗ ∃ f, sRowPts d ((K (F := F)).core 0 c) (Fin.cast nSub_zero i) f)
  td := fun q d c i => match q with
    | 0 => iprop(tdH m d (wid (Fin.cast nCore_zero c) (Fin.cast nSub_zero i))
        ∗ ∃ f, sRowPts d ((K (F := F)).core 0 c) (Fin.cast nSub_zero i) f)
  x := fun _ _ => iprop(emp)

set_option maxHeartbeats 4000000 in
set_option synthInstance.maxHeartbeats 400000 in
instance P_storable : (P (F := F) m).IsStorable where
  st q d c := match q with
    | 0 => (inferInstance : BI.Storable (upEmb : UEmb _ 𝕄) (bigSep Finset.univ fun s : Fin 16 => goH m d (wid (Fin.cast nCore_zero c) s)))
  dn q d c := match q with
    | 0 => (inferInstance : BI.Storable (upEmb : UEmb _ 𝕄) (bigSep Finset.univ fun s : Fin 16 => tdH m d (wid (Fin.cast nCore_zero c) s)))
  go q d c i := match q with
    | 0 => (inferInstance : BI.Storable (upEmb : UEmb _ 𝕄) iprop(goH m d (wid (Fin.cast nCore_zero c) (Fin.cast nSub_zero i))
        ∗ ∃ f, sRowPts d ((K (F := F)).core 0 c) (Fin.cast nSub_zero i) f))
  td q d c i := match q with
    | 0 => (inferInstance : BI.Storable (upEmb : UEmb _ 𝕄) iprop(tdH m d (wid (Fin.cast nCore_zero c) (Fin.cast nSub_zero i))
        ∗ ∃ f, sRowPts d ((K (F := F)).core 0 c) (Fin.cast nSub_zero i) f))

/-- What the proof asks of the launch memory: every row number of the list is below the table's height. -/
def PreOK : Prop := ∀ (d : Dev nD) (j : S262144.Idx), (m (aLoc d) j).toNat < 8192

end Cert.Proof.KI

end
-- ==== Proof.KISplit.lean ====
/-
  How a SparseCore's pieces split among its sixteen workers and gather again.
  What a SparseCore takes at the start of the call is already its workers' pieces of the list, the table and the
  result, one worker's after another's: those pass through unchanged. The SparseCore's shared memory is among its
  sequencer's own buffers, whole and at some contents; its sixteen rows (the parts of its first axis) are disjoint
  and cover it, so it is the sixteen rows, each at those contents; every worker is handed its row. Coming back,
  each row is held at contents of its own; one array agrees with each on its row, and the rows are the shared memory
  whole again, at that array.
-/
import proofs.«201408_g9070970929189_cont_9to1c4b_623_24_alg».proof.Proof.KICommon

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

/-! ## The shared memory's rows -/

theorem sRowSet_eq (s : Fin 16) : sRowSet s = (srow s).set := by
  show ((View.whole (cc0_scratch2 : Ref sig .scVector)).slice (srow s)).set = _
  rw [View.set_slice]; exact Finset.map_refl

theorem sRows_disjoint : ∀ i ∈ (Finset.univ : Finset (Fin 16)), ∀ j ∈ (Finset.univ : Finset (Fin 16)), i ≠ j → Disjoint (sRowSet i) (sRowSet j) :=
  fun i _ j _ h => by rw [sRowSet_eq, sRowSet_eq]; exact Rect.part_disjoint sdiv h

theorem sRows_cover : (Finset.univ : Finset (Fin 16)).biUnion sRowSet = Finset.univ :=
  (Finset.biUnion_congr rfl fun i _ => sRowSet_eq i).trans (Rect.biUnion_part sdiv)

/-- The shared memory whole is its sixteen rows. -/
theorem shPts_rows (d : Dev nD) (c : Fin τ.nSC) (f : Buf (Elt F) (shLoc d c)) :
    (shLoc d c ↦{fullShare} f : sProp 𝕄) = bigSep Finset.univ fun s : Fin 16 => sRowPts d c s f := by
  unfold sRowPts
  rw [← pointsTo_biUnion Finset.univ (ℓ := shLoc d c) sRowSet sRows_disjoint, sRows_cover]; try rfl

/-- The shared memory is among the sequencer's own buffers: it is it, at some contents, and the rest. -/
theorem ownBufs_S (d : Dev nD) (c : Fin τ.nSC) :
    (ownBufs (S d c) : sProp 𝕄)
      = iprop((∃ f, shLoc d c ↦{fullShare} f) ∗ bigSep ((ownRefs (τ := τ) (.scScalar c)).erase (shRef c)) fun b => iprop(∃ f, ((d, b) : Loc nD τ sig) ↦{fullShare} f)) := by
  unfold SparseCore.Cfg.ownBufs
  have h : shRef c ∈ ownRefs (τ := τ) (sig := sig) (.scScalar c) := (mem_ownRefs (p := Proc.scScalar c) (b := shRef c)).mpr rfl
  exact SparseCore.bigSep_erase' h

/-- Over the call's own numbering of a SparseCore's tiles. -/
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

variable [FloatOps F]

/-- The rows, each at contents of its own, are the shared memory whole at some contents. -/
theorem shRows_join (d : Dev nD) (c : Fin τ.nSC) :
    (bigSep Finset.univ fun s : Fin 16 => iprop(∃ f, sRowPts (F := F) d c s f)) ⊢ (iprop(∃ f, shLoc d c ↦{fullShare} f) : sProp 𝕄) := by
  refine (bigSep_exists_pi Finset.univ (fun s (f : Buf (Elt F) (shLoc d c)) => sRowPts d c s f)).trans ?_
  iintro ⟨%fs, H⟩
  unfold sRowPts
  ihave H' := (pointsTo_biUnion_join Finset.univ sRowSet fs (fs 0) sRows_disjoint) $$ H
  icases H' with ⟨%g, -, Hg⟩
  rw [sRows_cover]
  iexists g; iexact Hg

/-! ## What the record says at the one call -/

theorem P_st (d : Dev nD) (c : Fin ((K (F := F)).nCore 0)) :
    (P m).st 0 d c = bigSep Finset.univ fun s : Fin 16 => goH m d (wid (Fin.cast nCore_zero c) s) := by unfold P; rfl
theorem P_dn (d : Dev nD) (c : Fin ((K (F := F)).nCore 0)) :
    (P m).dn 0 d c = bigSep Finset.univ fun s : Fin 16 => tdH m d (wid (Fin.cast nCore_zero c) s) := by unfold P; rfl
theorem P_go (d : Dev nD) (c : Fin ((K (F := F)).nCore 0)) (i : Fin ((K (F := F)).nSub 0)) :
    (P m).go 0 d c i = iprop(goH m d (wid (Fin.cast nCore_zero c) (Fin.cast nSub_zero i))
      ∗ ∃ f, sRowPts d ((K (F := F)).core 0 c) (Fin.cast nSub_zero i) f) := by unfold P; rfl
theorem P_td (d : Dev nD) (c : Fin ((K (F := F)).nCore 0)) (i : Fin ((K (F := F)).nSub 0)) :
    (P m).td 0 d c i = iprop(tdH m d (wid (Fin.cast nCore_zero c) (Fin.cast nSub_zero i))
      ∗ ∃ f, sRowPts d ((K (F := F)).core 0 c) (Fin.cast nSub_zero i) f) := by unfold P; rfl

/-! ## The split -/

/-- What the sixteen workers of a SparseCore are handed: their pieces of the arrays, and the shared memory's rows. -/
theorem go_eq (d : Dev nD) (c : Fin ((K (F := F)).nCore 0)) :
    (bigSep Finset.univ fun i : Fin ((K (F := F)).nSub 0) => (P m).go 0 d c i)
      = iprop((bigSep Finset.univ fun s : Fin 16 => goH m d (wid (Fin.cast nCore_zero c) s))
          ∗ bigSep Finset.univ fun s : Fin 16 => iprop(∃ f, sRowPts (F := F) d ((K (F := F)).core 0 c) s f)) :=
  (bigSep_congr fun i _ => P_go m d c i).trans
    ((bigSep_tasks (F := F) (fun s => iprop(goH m d (wid (Fin.cast nCore_zero c) s) ∗ ∃ f, sRowPts d ((K (F := F)).core 0 c) s f))).trans
      (bigSep_sep' Finset.univ (fun s : Fin 16 => goH m d (wid (Fin.cast nCore_zero c) s))
        (fun s : Fin 16 => iprop(∃ f, sRowPts (F := F) d ((K (F := F)).core 0 c) s f))))

/-- What they bring back. -/
theorem td_eq (d : Dev nD) (c : Fin ((K (F := F)).nCore 0)) :
    (bigSep Finset.univ fun i : Fin ((K (F := F)).nSub 0) => (P m).td 0 d c i)
      = iprop((bigSep Finset.univ fun s : Fin 16 => tdH m d (wid (Fin.cast nCore_zero c) s))
          ∗ bigSep Finset.univ fun s : Fin 16 => iprop(∃ f, sRowPts (F := F) d ((K (F := F)).core 0 c) s f)) :=
  (bigSep_congr fun i _ => P_td m d c i).trans
    ((bigSep_tasks (F := F) (fun s => iprop(tdH m d (wid (Fin.cast nCore_zero c) s) ∗ ∃ f, sRowPts d ((K (F := F)).core 0 c) s f))).trans
      (bigSep_sep' Finset.univ (fun s : Fin 16 => tdH m d (wid (Fin.cast nCore_zero c) s))
        (fun s : Fin 16 => iprop(∃ f, sRowPts (F := F) d ((K (F := F)).core 0 c) s f))))

theorem vecSplit : (K (F := F)).VecSplit (P m) 0 := by
  intro d c
  rw [go_eq, td_eq, P_st, P_dn, ownBufs_S]
  iintro ⟨Hst, ⟨%fsh, Hsh⟩, Hrest⟩; imodintro
  isplitl [Hst Hsh]
  · isplitl [Hst]; · iexact Hst
    ihave Hsh' := ((Entails.of_eq (shPts_rows d ((K (F := F)).core 0 c) fsh)).trans (SparseCore.ent (bigSep_mono (Φ := fun s => sRowPts (F := F) d ((K (F := F)).core 0 c) s fsh)
      (Ψ := fun s => iprop(∃ f, sRowPts (F := F) d ((K (F := F)).core 0 c) s f))
      fun s _ => BI.BIClass.exists_intro (Φ := fun f => sRowPts (F := F) d ((K (F := F)).core 0 c) s f) fsh))) $$ Hsh
    iexact Hsh'
  iintro ⟨Htd, Hsh⟩
  isplitl [Htd]; · iexact Htd
  isplitl [Hsh]; · iapply (shRows_join d); iexact Hsh
  iexact Hrest

end Cert.Proof.KI

end
-- ==== Proof.KIPieces.lean ====
/-
  The arrays split among the thirty-two workers, and gathered again.
  The list (32 × 128 × 64) is its thirty-two rows, the result (262144 × 2 × 128) its 4096 chunks of 64 rows:
  the parts of the first axis are disjoint and cover it. Worker `k` is handed the 128 consecutive chunks
  `128 k … 128 k + 127`, one by one; (worker, chunk of the worker) and the chunk's number are in bijection. The table is read whole by every worker, so it goes out as
  thirty-two read shares, the remainder staying behind. The workers are numbered two ways — `k` below 32, or
  vector subcore `s` of SparseCore `c` with `k = 2 s + c` — and the two numberings are in bijection, so what the two
  SparseCores take for their sixteen workers each is what the thirty-two workers take. Coming back, every chunk of
  the result holds the lookup on its own rows; the chunks cover the result, which therefore holds the lookup everywhere.
-/
import proofs.«201408_g9070970929189_cont_9to1c4b_623_24_alg».proof.Proof.KISplit

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

/-! ## The two numberings of the workers -/

/-- Vector subcore `s` of SparseCore `c` is worker `2 s + c`: a bijection. -/
def widEquiv : Fin 2 × Fin 16 ≃ Fin 32 where
  toFun p := wid p.1 p.2
  invFun k := (⟨k.val % 2, Nat.mod_lt _ (by decide)⟩, ⟨k.val / 2, by have := k.isLt; omega⟩)
  left_inv p := by
    rcases p with ⟨c, s⟩
    exact Prod.ext (Fin.ext (by show (2 * s.val + c.val) % 2 = c.val; have := c.isLt; omega))
      (Fin.ext (by show (2 * s.val + c.val) / 2 = s.val; have := c.isLt; omega))
  right_inv k := Fin.ext (by show 2 * (k.val / 2) + k.val % 2 = k.val; omega)

/-- Over the SparseCores of the call and the sixteen workers of each, or over the thirty-two workers: the same. -/
theorem bigSep_workers (Φ : Fin 32 → sProp 𝕄) :
    (bigSep Finset.univ fun c : Fin ((K (F := F)).nCore 0) => bigSep Finset.univ fun s : Fin 16 => Φ (wid (Fin.cast nCore_zero c) s))
      = bigSep Finset.univ Φ := by
  rw [bigSep_univ_equiv widEquiv Φ, bigSep_univ_prod (fun p : Fin 2 × Fin 16 => Φ (widEquiv p))]
  exact bigSep_congr fun c _ => bigSep_congr fun s _ => congrArg Φ (Fin.ext rfl)

/-- Chunk `g` of worker `k` is chunk `128 k + g` of the result: a bijection. -/
def chkEquiv : Fin 32 × Fin 128 ≃ Fin 4096 where
  toFun p := chk p.1 p.2
  invFun n := (⟨n.val / 128, by have := n.isLt; omega⟩, ⟨n.val % 128, Nat.mod_lt _ (by decide)⟩)
  left_inv p := by
    rcases p with ⟨k, g⟩
    exact Prod.ext (Fin.ext (by show (128 * k.val + g.val) / 128 = k.val; have := g.isLt; omega))
      (Fin.ext (by show (128 * k.val + g.val) % 128 = g.val; have := g.isLt; omega))
  right_inv n := Fin.ext (by show 128 * (n.val / 128) + n.val % 128 = n.val; omega)

/-- Over the workers and the 128 chunks of each, or over the 4096 chunks: the same. -/
theorem bigSep_chunks (Φ : Fin 4096 → sProp 𝕄) :
    (bigSep Finset.univ fun k : Fin 32 => bigSep Finset.univ fun g : Fin 128 => Φ (chk k g)) = bigSep Finset.univ Φ := by
  rw [bigSep_univ_equiv chkEquiv Φ, bigSep_univ_prod (fun p : Fin 32 × Fin 128 => Φ (chkEquiv p))]
  exact bigSep_congr fun k _ => bigSep_congr fun g _ => rfl

/-! ## The list's rows, the result's chunks -/

theorem iRowSet_eq (k : Fin 32) : iRowSet k = (irow k).set := by
  show ((View.whole (main_v0_scv : Ref sig .scVector)).slice (irow k)).set = _
  rw [View.set_slice]; exact Finset.map_refl
theorem oChkSet_eq (n : Fin 4096) : oChkSet n = (ochk n).set := by
  show ((View.whole (main_v2_scv : Ref sig .scVector)).slice (ochk n)).set = _
  rw [View.set_slice]; exact Finset.map_refl

theorem iRows_disjoint : ∀ i ∈ (Finset.univ : Finset (Fin 32)), ∀ j ∈ (Finset.univ : Finset (Fin 32)), i ≠ j → Disjoint (iRowSet i) (iRowSet j) :=
  fun i _ j _ h => by rw [iRowSet_eq, iRowSet_eq]; exact Rect.part_disjoint idiv h
theorem oChks_disjoint : ∀ i ∈ (Finset.univ : Finset (Fin 4096)), ∀ j ∈ (Finset.univ : Finset (Fin 4096)), i ≠ j → Disjoint (oChkSet i) (oChkSet j) :=
  fun i _ j _ h => by rw [oChkSet_eq, oChkSet_eq]; exact Rect.part_disjoint cdiv h
theorem iRows_cover : (Finset.univ : Finset (Fin 32)).biUnion iRowSet = Finset.univ :=
  (Finset.biUnion_congr rfl fun i _ => iRowSet_eq i).trans (Rect.biUnion_part idiv)
theorem oChks_cover : (Finset.univ : Finset (Fin 4096)).biUnion oChkSet = Finset.univ :=
  (Finset.biUnion_congr rfl fun i _ => oChkSet_eq i).trans (Rect.biUnion_part cdiv)

/-- The list whole is its thirty-two rows; -/
theorem iPts_rows (d : Dev nD) (f : Buf (Elt F) (iLoc d)) :
    (iLoc d ↦{fullShare} f : sProp 𝕄) = bigSep Finset.univ fun k : Fin 32 => iLoc d ↦[iRowSet k]{fullShare} f := by
  rw [← pointsTo_biUnion Finset.univ (ℓ := iLoc d) iRowSet iRows_disjoint, iRows_cover]; try rfl
/-- the result whole its 4096 chunks. -/
theorem oPts_chks (d : Dev nD) (f : Buf (Elt F) (oLoc d)) :
    (oLoc d ↦{fullShare} f : sProp 𝕄) = bigSep Finset.univ fun n : Fin 4096 => oChkPts d n f := by
  unfold oChkPts
  rw [← pointsTo_biUnion Finset.univ (ℓ := oLoc d) oChkSet oChks_disjoint, oChks_cover]; try rfl

variable [FloatOps F]

/-- A chunk that holds the lookup on its own rows is the chunk of the lookup. -/
theorem oChk_out (d : Dev nD) (n : Fin 4096) : (oChkDone m d n : sProp 𝕄) ⊢ oChkPts d n (OUT m d) := by
  unfold oChkDone
  iintro ⟨%f, %h, H⟩
  iapply (Entails.of_eq (pointsTo_congr (ℓ := oLoc d) (q := fullShare) h)); iexact H

/-! ## What the call takes and brings back, over the thirty-two workers -/

theorem st0_eq (d : Dev nD) :
    (bigSep Finset.univ fun c : Fin ((K (F := F)).nCore 0) => (P m).st 0 d c)
      = iprop((bigSep Finset.univ fun k : Fin 32 => iRowPts m d k) ∗ (bigSep Finset.univ fun k : Fin 32 => wShPts m d k)
          ∗ bigSep Finset.univ fun n : Fin 4096 => oChkPts d n (m (oLoc d))) :=
  (bigSep_congr fun c _ => P_st m d c).trans ((bigSep_workers (F := F) (goH m d)).trans
    ((bigSep_sep' Finset.univ (fun k : Fin 32 => iRowPts m d k)
        (fun k : Fin 32 => iprop(wShPts m d k ∗ bigSep Finset.univ fun g : Fin 128 => oChkPts d (chk k g) (m (oLoc d))))).trans
      (congrArg (fun X => iprop((bigSep Finset.univ fun k : Fin 32 => iRowPts m d k) ∗ X))
        ((bigSep_sep' Finset.univ (fun k : Fin 32 => wShPts m d k)
            (fun k : Fin 32 => bigSep Finset.univ fun g : Fin 128 => oChkPts d (chk k g) (m (oLoc d)))).trans
          (congrArg (fun Y => iprop((bigSep Finset.univ fun k : Fin 32 => wShPts m d k) ∗ Y))
            (bigSep_chunks (F := F) (fun n : Fin 4096 => oChkPts d n (m (oLoc d)))))))))

theorem dn0_eq (d : Dev nD) :
    (bigSep Finset.univ fun c : Fin ((K (F := F)).nCore 0) => (P m).dn 0 d c)
      = iprop((bigSep Finset.univ fun k : Fin 32 => iRowPts m d k) ∗ (bigSep Finset.univ fun k : Fin 32 => wShPts m d k)
          ∗ bigSep Finset.univ fun n : Fin 4096 => oChkDone m d n) :=
  (bigSep_congr fun c _ => P_dn m d c).trans ((bigSep_workers (F := F) (tdH m d)).trans
    ((bigSep_sep' Finset.univ (fun k : Fin 32 => iRowPts m d k)
        (fun k : Fin 32 => iprop(wShPts m d k ∗ bigSep Finset.univ fun g : Fin 128 => oChkDone m d (chk k g)))).trans
      (congrArg (fun X => iprop((bigSep Finset.univ fun k : Fin 32 => iRowPts m d k) ∗ X))
        ((bigSep_sep' Finset.univ (fun k : Fin 32 => wShPts m d k)
            (fun k : Fin 32 => bigSep Finset.univ fun g : Fin 128 => oChkDone m d (chk k g))).trans
          (congrArg (fun Y => iprop((bigSep Finset.univ fun k : Fin 32 => wShPts m d k) ∗ Y))
            (bigSep_chunks (F := F) (fun n : Fin 4096 => oChkDone m d n)))))))

/-- From the three arrays whole — the list and the table as the kernel finds them, the result as the launch left it —
    what the two SparseCores take; the remainder of the table stays. -/
theorem st_intro (d : Dev nD) :
    (iprop((iLoc d ↦{fullShare} I0 m d) ∗ (wLoc d ↦{fullShare} W0 m d) ∗ oLoc d ↦{fullShare} m (oLoc d)) : sProp 𝕄)
      ⊢ iprop((bigSep Finset.univ fun c : Fin ((K (F := F)).nCore 0) => (P m).st 0 d c)
          ∗ wLoc d ↦{Transfers.shareDrop fullShare 32} W0 m d) := by
  rw [st0_eq, iPts_rows, oPts_chks]
  iintro ⟨Hi, Hw, Ho⟩
  ihave Hw' := (Transfers.pointsTo_toks_split (ℓ := wLoc d) (S := Finset.univ) (f := W0 m d) fullShare 32) $$ Hw
  icases Hw' with ⟨Hrem, Hsh⟩
  isplitr [Hrem]
  · isplitl [Hi]; · iexact Hi
    isplitl [Hsh]; · iexact Hsh
    iexact Ho
  iexact Hrem

/-- From what they bring back and the remainder: the list and the table whole again, the result holding the lookup. -/
theorem dn_elim (d : Dev nD) :
    (iprop((bigSep Finset.univ fun c : Fin ((K (F := F)).nCore 0) => (P m).dn 0 d c)
        ∗ wLoc d ↦{Transfers.shareDrop fullShare 32} W0 m d) : sProp 𝕄)
      ⊢ iprop((iLoc d ↦{fullShare} I0 m d) ∗ (wLoc d ↦{fullShare} W0 m d) ∗ oLoc d ↦{fullShare} OUT m d) := by
  rw [dn0_eq, iPts_rows, oPts_chks]
  iintro ⟨⟨Hi, Hsh, Ho⟩, Hrem⟩
  isplitl [Hi]; · iexact Hi
  isplitl [Hsh Hrem]
  · iapply (Transfers.pointsTo_toks_join (ℓ := wLoc d) (S := Finset.univ) (f := W0 m d) fullShare 32)
    isplitl [Hrem]; · iexact Hrem
    iexact Hsh
  iapply (SparseCore.ent (bigSep_mono (Φ := fun n : Fin 4096 => oChkDone m d n)
    (Ψ := fun n : Fin 4096 => oChkPts d n (OUT m d)) fun n _ => oChk_out m d n))
  iexact Ho

end Cert.Proof.KI

end
-- ==== Proof.KILaunch.lean ====
/-
  The launch: from each worker's body to the run of the whole program.
  @main on a device's TensorCore rearranges the list (as 32 × 128 × 64) and the table (each row as 2 × 128), hands the
  two SparseCores their workers' pieces — the list's rows, read shares of the table, the result's blocks — waits for
  them, and rearranges the result (each row as 256). The result comes back holding the lookup on every block, so
  whole; the list and the table come back as they went, and the arguments were only read. The kernel's transfers are
  all a worker's own, waited for by the worker: the ghost state is the handshakes' rounds beside the transfers'
  counters, and no thread owes a unit across a wait of the kernel's own.
-/
import proofs.«201408_g9070970929189_cont_9to1c4b_623_24_alg».proof.Proof.KIPieces

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

/-! ## The launch element of the ghost state -/

def u₀ : UU := (initOf (K (F := F)).hsCells (K (F := F)).hsToks, 1)

theorem bigSep_emp' {I : Type} (s : Finset I) : (bigSep s fun _ => iprop(emp)) = (iprop(emp) : sProp 𝕄) := bigSep_emp_const s

/-! ## @main's three rearrangements -/

/-- The six arrays of @main as device buffers. -/
abbrev a' : DevRef τ sig := Proc.devRef .tc (main_arg0 : Ref sig .tc)
abbrev b' : DevRef τ sig := Proc.devRef .tc (main_arg1 : Ref sig .tc)
abbrev i' : DevRef τ sig := Proc.devRef .tc (main_v0 : Ref sig .tc)
abbrev w' : DevRef τ sig := Proc.devRef .tc (main_v1 : Ref sig .tc)
abbrev o' : DevRef τ sig := Proc.devRef .tc (main_v2 : Ref sig .tc)
abbrev r' : DevRef τ sig := Proc.devRef .tc (main_v3 : Ref sig .tc)

/-- The list rearranged, the table rearranged, the result rearranged. -/
abbrev opI : HloOp τ sig (Elt F) := StableHlo.reshape main_arg0 main_v0 rfl shapeCasts_S262144_S32x128x64
abbrev opW : HloOp τ sig (Elt F) := StableHlo.reshape main_arg1 main_v1 rfl shapeCasts_S8192x256_S8192x2x128
abbrev opR : HloOp τ sig (Elt F) := StableHlo.reshape main_v2 main_v3 rfl shapeCasts_S262144x2x128_S262144x256

/-- The TensorCore's unscoped buffers are the six. -/
theorem unscopedBufs_eq (d : Dev nD) (W : (b : Ref sig .tc) → Buf (Elt F) ((d.tc : Thread nD τ).loc b)) :
    (unscopedBufs d W : sProp 𝕄)
      = iprop((aLoc d ↦{fullShare} W main_arg0) ∗ (bLoc d ↦{fullShare} W main_arg1) ∗ (iLoc d ↦{fullShare} W main_v0)
          ∗ (wLoc d ↦{fullShare} W main_v1) ∗ (oLoc d ↦{fullShare} W main_v2) ∗ rLoc d ↦{fullShare} W main_v3) := by
  unfold unscopedBufs
  rw [show (Finset.univ.filter fun b : Ref sig .tc => ¬ b.isScoped) = {main_arg0, main_arg1, main_v0, main_v1, main_v2, main_v3} by decide,
    SparseCore.bigSep_insert' (by decide), SparseCore.bigSep_insert' (by decide), SparseCore.bigSep_insert' (by decide),
    SparseCore.bigSep_insert' (by decide), SparseCore.bigSep_insert' (by decide), bigSep_singleton]

/-- Each rearrangement's buffers held at a valuation: the one read, the one written. -/
theorem opI_bufs (d : Dev nD) (W : Valuation τ sig (Elt F)) :
    (bigSep (opI (F := F)).bufs (fun b => ((d, b) : Loc nD τ sig) ↦{fullShare} W b) : sProp 𝕄)
      = iprop((aLoc d ↦{fullShare} W a') ∗ iLoc d ↦{fullShare} W i') := by
  show bigSep ({a', i'} : Finset (DevRef τ sig)) (fun b => ((d, b) : Loc nD τ sig) ↦{fullShare} W b) = _
  rw [SparseCore.bigSep_insert' (by decide), bigSep_singleton]
theorem opW_bufs (d : Dev nD) (W : Valuation τ sig (Elt F)) :
    (bigSep (opW (F := F)).bufs (fun b => ((d, b) : Loc nD τ sig) ↦{fullShare} W b) : sProp 𝕄)
      = iprop((bLoc d ↦{fullShare} W b') ∗ wLoc d ↦{fullShare} W w') := by
  show bigSep ({b', w'} : Finset (DevRef τ sig)) (fun b => ((d, b) : Loc nD τ sig) ↦{fullShare} W b) = _
  rw [SparseCore.bigSep_insert' (by decide), bigSep_singleton]
theorem opR_bufs (d : Dev nD) (W : Valuation τ sig (Elt F)) :
    (bigSep (opR (F := F)).bufs (fun b => ((d, b) : Loc nD τ sig) ↦{fullShare} W b) : sProp 𝕄)
      = iprop((oLoc d ↦{fullShare} W o') ∗ rLoc d ↦{fullShare} W r') := by
  show bigSep ({o', r'} : Finset (DevRef τ sig)) (fun b => ((d, b) : Loc nD τ sig) ↦{fullShare} W b) = _
  rw [SparseCore.bigSep_insert' (by decide), bigSep_singleton]

/-- The device's valuation at the launch; -/
def V0 (d : Dev nD) : Valuation τ sig (Elt F) := fun b => m (d, b)

theorem opI_arg (d : Dev nD) : (opI (F := F)).result (V0 m d) a' = m (aLoc d) :=
  (opI (F := F)).result_of_not_mem (V0 m d) (b := a') (show a' ∉ ({i'} : Finset (DevRef τ sig)) by decide)
theorem opI_res (d : Dev nD) : (opI (F := F)).result (V0 m d) i' = I0 m d :=
  (StableHlo.reshape_result (Val := Elt F) main_arg0 main_v0 rfl shapeCasts_S262144_S32x128x64 _ _ (V0 m d)).trans rfl
theorem opW_arg (d : Dev nD) : (opW (F := F)).result (V0 m d) b' = m (bLoc d) :=
  (opW (F := F)).result_of_not_mem (V0 m d) (b := b') (show b' ∉ ({w'} : Finset (DevRef τ sig)) by decide)
theorem opW_res (d : Dev nD) : (opW (F := F)).result (V0 m d) w' = W0 m d :=
  (StableHlo.reshape_result (Val := Elt F) main_arg1 main_v1 rfl shapeCasts_S8192x256_S8192x2x128 _ _ (V0 m d)).trans rfl

variable [FloatOps F]

/-- The program's result: the lookup, each row as 256. -/
def RES (d : Dev nD) : Buf (Elt F) (rLoc d) := shapeCast S262144x256 (OUT m d) shapeCasts_S262144x2x128_S262144x256

/-- and after the call: the kernel's result holds the lookup. -/
def V1 (d : Dev nD) : Valuation τ sig (Elt F) := Function.update (V0 m d) o' (OUT m d)

theorem V1_o (d : Dev nD) : V1 m d o' = OUT m d := Function.update_self _ _ _
theorem V1_r (d : Dev nD) : V1 m d r' = m (rLoc d) := Function.update_of_ne (show r' ≠ o' by decide) _ _
theorem opR_arg (d : Dev nD) : (opR (F := F)).result (V1 m d) o' = OUT m d :=
  ((opR (F := F)).result_of_not_mem (V1 m d) (b := o') (show o' ∉ ({r'} : Finset (DevRef τ sig)) by decide)).trans (V1_o m d)
theorem opR_res (d : Dev nD) : (opR (F := F)).result (V1 m d) r' = RES m d :=
  (StableHlo.reshape_result (Val := Elt F) main_v2 main_v3 rfl shapeCasts_S262144x2x128_S262144x256 _ _ (V1 m d)).trans
    (by rw [V1_o]; rfl)

/-! ## The launch element, dealt -/

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## @main on the TensorCore -/

/-- What @main leaves the claim: the arguments as given, the result holding the lookup. -/
abbrev FIN (d : Dev nD) : sProp 𝕄 := iprop((aLoc d ↦{fullShare} m (aLoc d)) ∗ (bLoc d ↦{fullShare} m (bLoc d)) ∗ rLoc d ↦{fullShare} RES m d)

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq]
  simp only [main, wp_bind, wp_pure]
  iintro ⟨#Hctx, Hst, ⟨Hb, ⟨Ha, Hbb, Hi, Hw, Ho, Hr⟩, -, -⟩, -⟩
  -- the list rearranged
  iapply (wp_hlo 𝒱 (SparseCore.T d) none Set.univ (op := opI) (q := fun _ => fullShare) (F := V0 m d) (fun _ _ => rfl)) $$ [Hb Ha Hi]
  · isplitl [Hb]; · iexact Hb
    rw [opI_bufs]
    isplitl [Ha]; · iexact Ha
    iexact Hi
  rw [opI_bufs, opI_arg, opI_res]
  iintro ⟨Hb, Ha, Hi⟩
  rw [wp_ret]; imodintro
  -- the table rearranged
  iapply (wp_hlo 𝒱 (SparseCore.T d) none Set.univ (op := opW) (q := fun _ => fullShare) (F := V0 m d) (fun _ _ => rfl)) $$ [Hb Hbb Hw]
  · isplitl [Hb]; · iexact Hb
    rw [opW_bufs]
    isplitl [Hbb]; · iexact Hbb
    iexact Hw
  rw [opW_bufs, opW_arg, opW_res]
  iintro ⟨Hb, Hbb, Hw⟩
  rw [wp_ret]; imodintro
  -- the call: every worker its pieces, the remainder of the table kept
  ihave Hsplit := (st_intro m d) $$ [Hi Hw Ho]
  · isplitl [Hi]; · iexact Hi
    isplitl [Hw]; · iexact Hw
    iexact Ho
  icases Hsplit with ⟨Hgo, Hrem⟩
  iapply ((K (F := F)).wp_run (D (F := F)) 𝒱 (EH := EH) (P := P m) κ d 0) $$ [Hst Hgo Hrem Hb Ha Hbb Hr]
  isplitr; · iexact Hctx
  isplitl [Hst]; · iexact Hst
  isplitl [Hgo]; · iexact Hgo
  iintro ⟨Hst, Hdn⟩
  ihave Hjoin := (dn_elim m d) $$ [Hdn Hrem]
  · isplitl [Hdn]; · iexact Hdn
    iexact Hrem
  icases Hjoin with ⟨Hi, Hw, Ho⟩
  -- the result rearranged
  iapply (wp_hlo 𝒱 (SparseCore.T d) none Set.univ (op := opR) (q := fun _ => fullShare) (F := V1 m d) (fun _ _ => rfl)) $$ [Hb Ho Hr]
  · isplitl [Hb]; · iexact Hb
    rw [opR_bufs, V1_o, V1_r]
    isplitl [Ho]; · iexact Ho
    iexact Hr
  rw [opR_bufs, opR_arg, opR_res]
  iintro ⟨Hb, Ho, Hr⟩
  rw [wp_ret]; imodintro; imodintro
  isplitl [Hst]; · iexact Hst
  isplitl [Ha]; · iexact Ha
  isplitl [Hbb]; · iexact Hbb
  iexact Hr

/-! ## The final memory -/

def fq (d : Dev nD) (s' : Phys nD τ sig (Elt F)) : Prop :=
  s'.mem.mem (rLoc d) = RES m d ∧ s'.mem.mem (aLoc d) = m (aLoc d) ∧ s'.mem.mem (bLoc d) = m (bLoc d)

set_option maxRecDepth 16384 in
theorem hfin (d : Dev nD) (s' : Phys nD τ sig (Elt F)) : iprop(FIN m d ∗ SI s') ⊢ (⌜fq m d s'⌝ : sProp 𝕄) := by
  iintro ⟨⟨Ha, Hbb, Hr⟩, HSI⟩
  ihave H := (persistent_entails_right (SI_pointsTo_agree (st := s') (ℓ := aLoc d) (I := Finset.univ) (q := fullShare) (f := m (aLoc d)))) $$ [HSI Ha]
  · isplitl [HSI] <;> iassumption
  icases H with ⟨%h1, HSI, -⟩
  ihave H := (persistent_entails_right (SI_pointsTo_agree (st := s') (ℓ := bLoc d) (I := Finset.univ) (q := fullShare) (f := m (bLoc d)))) $$ [HSI Hbb]
  · isplitl [HSI] <;> iassumption
  icases H with ⟨%h2, HSI, -⟩
  ihave H := (SI_pointsTo_agree (st := s') (ℓ := rLoc d) (I := Finset.univ) (q := fullShare) (f := RES m d)) $$ [HSI Hr]
  · isplitl [HSI] <;> iassumption
  icases H with %h3
  ipureintro
  exact ⟨funext fun i => h3 i (Finset.mem_univ i), funext fun i => h1 i (Finset.mem_univ i), funext fun i => h2 i (Finset.mem_univ i)⟩

/-! ## The program's run -/

theorem run_main [∀ e, Nonempty (Elt F e)] (hpre : PreOK m) (hobl : (K (F := F)).TileObl (D (F := F)) 𝒱 (P m) v₀ 0) :
    θ_run (Cert.KernelIdeal.defs (F := F)) (Cert.KernelIdeal.threads (F := F)) ⟨m, fun _ => 0, ρ⟩ (fun r => ∀ c : Dev nD,
      r.2.mem (rLoc c) = shapeCast S262144x256 (OUT m c) shapeCasts_S262144x2x128_S262144x256
      ∧ r.2.mem (aLoc c) = m (aLoc c) ∧ r.2.mem (bLoc c) = m (bLoc c)) :=
  SparseCore.Cfg.θ_run_sc (K := K (F := F)) (D := D (F := F)) (𝒱 := 𝒱) (EH := EH) (P := P m) facts v₀
    (fun q hq => match q with | 0 => nomatch hq)
    (fun q _ => match q with | 0 => hobl)
    (fun q _ => match q with | 0 => vecSplit m)
    m ρ main (fun _ => iprop(emp)) (FIN m) (u₀ (F := F)) (sep_elim_left.trans (hu₀ m)) (hmain m ρ) (fq m) (hfin m) _ (fun _ h => h)

end Cert.Proof.KI

end
-- ==== Proof.KIViews.lean ====
/-
  The pieces of the arrays one worker touches, as the kernel addresses them and as the handshakes hand them out.
  Worker `k = 2 s + c` addresses: row `k` of the list; chunk `g` of its block of the result, rows
  `8192 k + 64 g … + 63`, which is chunk `128 k + g` of the whole result; slot `b` of row `s` of its SparseCore's
  shared memory; slot `b` of its own row buffer; row `g` of its own copy of the list. Each equation here says that
  the set of elements the kernel's slice goes through is the set the handshake's piece is stated over; the row of
  the shared memory is the disjoint union of its three slots, the row buffer of its three.
-/
import proofs.«201408_g9070970929189_cont_9to1c4b_623_24_alg».proof.Proof.KICommon

noncomputable section

namespace Cert.Proof.KI

open Cert.KernelIdeal Cert.KernelIdeal.Gen
open Idealize.ShloMosaic
open Idealize.ShloMosaic.SparseCore (S V T)

local notation "iV" => (Memref.whole Cert.KernelIdeal.main_v0_scv : Memref Cert.KernelIdeal.sig Kind.scVector Space.hbm Cert.KernelIdeal.S32x128x64 EltTy.i32)
local notation "wV" => (Memref.whole Cert.KernelIdeal.main_v1_scv : Memref Cert.KernelIdeal.sig Kind.scVector Space.hbm Cert.KernelIdeal.S8192x2x128 EltTy.f32)
local notation "oV" => (Memref.whole Cert.KernelIdeal.main_v2_scv : Memref Cert.KernelIdeal.sig Kind.scVector Space.hbm Cert.KernelIdeal.S262144x2x128 EltTy.f32)
local notation "xV" => (Memref.whole Cert.KernelIdeal.cc0_scratch0 : Memref Cert.KernelIdeal.sig Kind.scVector Space.vmem Cert.KernelIdeal.S128x64 EltTy.i32)
local notation "rV" => (Memref.whole Cert.KernelIdeal.cc0_scratch1 : Memref Cert.KernelIdeal.sig Kind.scVector Space.vmem Cert.KernelIdeal.S3x64x2x128 EltTy.f32)
local notation "sV" => (Memref.whole Cert.KernelIdeal.cc0_scratch2 : Memref Cert.KernelIdeal.sig Kind.scVector Space.shared Cert.KernelIdeal.S16x3x64x2x128 EltTy.f32)

variable (L : grid0.Coords)

abbrev cV (L : grid0.Coords) : Fin τ.nSC := (L 0).castLE hcore0
abbrev jV (L : grid0.Coords) : Fin τ.nSub := (L 1).castLE hsub0
theorem bound_zero : grid0.bound 0 = 2 := rfl
theorem bound_one : grid0.bound 1 = 16 := rfl
abbrev cL (L : grid0.Coords) : Fin 2 := Fin.cast bound_zero (L 0)
abbrev jL (L : grid0.Coords) : Fin 16 := Fin.cast bound_one (L 1)
/-- The worker's number. -/
abbrev wk (L : grid0.Coords) : Fin 32 := wid (cL L) (jL L)

theorem wk_val : (wk L).val = 2 * (L 1).val + (L 0).val := rfl

/-! ## The list's row -/

abbrev iRowK (L : grid0.Coords) : Memref sig .scVector .hbm S128x64 .i32 :=
  ((iV).slice (Rect.unit (s := S32x128x64) (k0_off1 L) S1x128x64.size (k0_off1_inb L)) (fun _ => rfl)).squeeze S128x64 squeezes_S1x128x64_S128x64

theorem irowK_eq : Rect.unit (s := S32x128x64) (k0_off1 L) S1x128x64.size (k0_off1_inb L) = irow (wk L) := by
  unfold irow Rect.part Rect.block
  congr 1 <;> funext a
  · rw [k0_off1_eq]
    match a with
    | 0 => simp [Shape.partIx, Shape.partSize, wid]
    | 1 => simp [Shape.partIx, Shape.partSize]
    | 2 => simp [Shape.partIx, Shape.partSize]
  · match a with
    | 0 => simp [Shape.partSize]
    | 1 => simp [Shape.partSize]
    | 2 => simp [Shape.partSize]

theorem set_iRowK : (iRowK L).view.set = iRowSet (wk L) := by
  show (((iV).view.slice (Rect.unit (s := S32x128x64) (k0_off1 L) S1x128x64.size (k0_off1_inb L))).reshape S128x64 squeezes_S1x128x64_S128x64.numel_eq).set
    = ((iV).view.slice (irow (wk L))).set
  rw [View.set_reshape]
  exact irowK_eq L ▸ rfl

/-! ## The result's chunks -/

/-- Where chunk `g` of the worker's block starts. -/
def chunkOff (L : grid0.Coords) (g : ℕ) : Fin 3 → ℕ := ![16384 * (L 1).val + 8192 * (L 0).val + 64 * g, 0, 0]

theorem chunk_rect_eq (g : Fin 128) (inb : ∀ a, chunkOff L g.val a + S64x2x128.size a ≤ S262144x2x128.size a) :
    Rect.unit (s := S262144x2x128) (chunkOff L g.val) S64x2x128.size inb = ochk (chk (wk L) g) := by
  unfold ochk Rect.part Rect.block
  congr 1 <;> funext a
  · match a with
    | 0 => simp [Shape.partIx, Shape.partSize, chunkOff, chk, wid]; omega
    | 1 => simp [Shape.partIx, Shape.partSize, chunkOff]
    | 2 => simp [Shape.partIx, Shape.partSize, chunkOff]
  · match a with
    | 0 => simp [Shape.partSize]
    | 1 => simp [Shape.partSize]
    | 2 => simp [Shape.partSize]

/-- A 64-row slice of the result at the start of the worker's chunk `g` goes through chunk `128 k + g`. -/
theorem set_chunk (off : Fin 3 → ℕ) (inb : ∀ a, off a + S64x2x128.size a ≤ S262144x2x128.size a) (g : Fin 128) (h : off = chunkOff L g.val) :
    ((oV).slice (Rect.unit (s := S262144x2x128) off S64x2x128.size inb) (fun _ => rfl)).view.set = oChkSet (chk (wk L) g) := by
  subst h
  show ((oV).view.slice (Rect.unit (s := S262144x2x128) (chunkOff L g.val) S64x2x128.size inb)).set = ((oV).view.slice (ochk (chk (wk L) g))).set
  rw [chunk_rect_eq L g inb]

theorem k0_off4_closed : ∀ (i : grid0.Coords) (r : Fin 5), k0_off4 i (k0_off4_at r) = ![16384 * (i 1).val + 8192 * (i 0).val + (k0_off4_at r).toNat, 0, 0] := by
  decide +kernel

end Cert.Proof.KI

end
-- ==== Proof.KIMem.lean ====
/-
  The kernel's slices, by name: slot `b` of a worker's row buffer, a row of its copy of the list, a slot of its
  SparseCore's shared memory, a 64-row chunk of the result — each as the kernel forms it, a slice at an offset (for
  the shared memory and the list then squeezed), so that a statement about the elements a copy goes through can be
  made at the offset the kernel computes and compared at the offset's closed form.
-/
import proofs.«201408_g9070970929189_cont_9to1c4b_623_24_alg».proof.Proof.KIViews

noncomputable section

namespace Cert.Proof.KI

open Cert.KernelIdeal Cert.KernelIdeal.Gen
open Idealize.ShloMosaic

local notation "wV" => (Memref.whole Cert.KernelIdeal.main_v1_scv : Memref Cert.KernelIdeal.sig Kind.scVector Space.hbm Cert.KernelIdeal.S8192x2x128 EltTy.f32)
local notation "oV" => (Memref.whole Cert.KernelIdeal.main_v2_scv : Memref Cert.KernelIdeal.sig Kind.scVector Space.hbm Cert.KernelIdeal.S262144x2x128 EltTy.f32)
local notation "xV" => (Memref.whole Cert.KernelIdeal.cc0_scratch0 : Memref Cert.KernelIdeal.sig Kind.scVector Space.vmem Cert.KernelIdeal.S128x64 EltTy.i32)
local notation "rV" => (Memref.whole Cert.KernelIdeal.cc0_scratch1 : Memref Cert.KernelIdeal.sig Kind.scVector Space.vmem Cert.KernelIdeal.S3x64x2x128 EltTy.f32)
local notation "sV" => (Memref.whole Cert.KernelIdeal.cc0_scratch2 : Memref Cert.KernelIdeal.sig Kind.scVector Space.shared Cert.KernelIdeal.S16x3x64x2x128 EltTy.f32)

/-- Slot `b` of the row buffer. -/
abbrev rSlot0 : Memref sig .scVector .vmem S64x2x128 .f32 := ((rV).slice (Rect.unit (s := S3x64x2x128) ![0, 0, 0, 0] S1x64x2x128.size inb_S3x64x2x128_S1x64x2x128_0_0_0_0) (fun _ => rfl)).squeeze S64x2x128 squeezes_S1x64x2x128_S64x2x128
abbrev rSlot1 : Memref sig .scVector .vmem S64x2x128 .f32 := ((rV).slice (Rect.unit (s := S3x64x2x128) ![1, 0, 0, 0] S1x64x2x128.size inb_S3x64x2x128_S1x64x2x128_1_0_0_0) (fun _ => rfl)).squeeze S64x2x128 squeezes_S1x64x2x128_S64x2x128
abbrev rSlot2 : Memref sig .scVector .vmem S64x2x128 .f32 := ((rV).slice (Rect.unit (s := S3x64x2x128) ![2, 0, 0, 0] S1x64x2x128.size inb_S3x64x2x128_S1x64x2x128_2_0_0_0) (fun _ => rfl)).squeeze S64x2x128 squeezes_S1x64x2x128_S64x2x128

/-- The table, as the gathers name it: the slice that is all of it. -/
abbrev wAll : Memref sig .scVector .hbm S8192x2x128 .f32 := (wV).slice (Rect.unit (s := S8192x2x128) ![0, 0, 0] S8192x2x128.size inb_S8192x2x128_S8192x2x128_0_0_0) (fun _ => rfl)

/-- A row of the worker's copy of the list, at an offset. -/
abbrev lrowM (off : Fin 2 → ℕ) (inb : ∀ a, off a + S1x64.size a ≤ S128x64.size a) : Memref sig .scVector .vmem S64 .i32 :=
  ((xV).slice (Rect.unit (s := S128x64) off S1x64.size inb) (fun _ => rfl)).squeeze S64 squeezes_S1x64_S64
/-- A slot of the shared memory, at an offset. -/
abbrev sslotM (off : Fin 5 → ℕ) (inb : ∀ a, off a + S1x1x64x2x128.size a ≤ S16x3x64x2x128.size a) : Memref sig .scVector .shared S64x2x128 .f32 :=
  ((sV).slice (Rect.unit (s := S16x3x64x2x128) off S1x1x64x2x128.size inb) (fun _ => rfl)).squeeze S64x2x128 squeezes_S1x1x64x2x128_S64x2x128
/-- A 64-row chunk of the result, at an offset. -/
abbrev chunkM (off : Fin 3 → ℕ) (inb : ∀ a, off a + S64x2x128.size a ≤ S262144x2x128.size a) : Memref sig .scVector .hbm S64x2x128 .f32 :=
  (oV).slice (Rect.unit (s := S262144x2x128) off S64x2x128.size inb) (fun _ => rfl)

/-- Row `r` of the list's copy starts at `(r, 0)`; slot `b` of row `s` of the shared memory at `(s, b, 0, 0, 0)`. -/
def lrowOff (r : ℕ) : Fin 2 → ℕ := ![r, 0]
def sslotOff (s b : ℕ) : Fin 5 → ℕ := ![s, b, 0, 0, 0]

theorem lrow_inb (r : Fin 128) : ∀ a, lrowOff r.val a + S1x64.size a ≤ S128x64.size a := by
  intro a; have := r.isLt
  match a with
  | 0 => simp [lrowOff] <;> omega
  | 1 => simp [lrowOff]
theorem sslot_inb (s : Fin 16) (b : Fin 3) : ∀ a, sslotOff s.val b.val a + S1x1x64x2x128.size a ≤ S16x3x64x2x128.size a := by
  intro a; have := s.isLt; have := b.isLt
  match a with
  | 0 => simp [sslotOff] <;> omega
  | 1 => simp [sslotOff] <;> omega
  | 2 => simp [sslotOff]
  | 3 => simp [sslotOff]
  | 4 => simp [sslotOff]
theorem chunk_inb (L : grid0.Coords) (g : Fin 128) : ∀ a, chunkOff L g.val a + S64x2x128.size a ≤ S262144x2x128.size a := by
  intro a; have := g.isLt; have h1 : (L 1).val < 16 := (L 1).isLt; have h0 : (L 0).val < 2 := (L 0).isLt
  match a with
  | 0 => simp [chunkOff] <;> omega
  | 1 => simp [chunkOff]
  | 2 => simp [chunkOff]

/-- The canonical pieces. -/
abbrev lrowC (r : Fin 128) : Memref sig .scVector .vmem S64 .i32 := lrowM (lrowOff r.val) (lrow_inb r)
abbrev sslotC (s : Fin 16) (b : Fin 3) : Memref sig .scVector .shared S64x2x128 .f32 := sslotM (sslotOff s.val b.val) (sslot_inb s b)
abbrev chunkC (L : grid0.Coords) (g : Fin 128) : Memref sig .scVector .hbm S64x2x128 .f32 := chunkM (chunkOff L g.val) (chunk_inb L g)

theorem set_lrow (off : Fin 2 → ℕ) (inb) (r : Fin 128) (h : off = lrowOff r.val) : (lrowM off inb).view.set = (lrowC r).view.set := by subst h; rfl
theorem set_sslot (off : Fin 5 → ℕ) (inb) (s : Fin 16) (b : Fin 3) (h : off = sslotOff s.val b.val) : (sslotM off inb).view.set = (sslotC s b).view.set := by subst h; rfl
theorem set_chunkC (L : grid0.Coords) (off : Fin 3 → ℕ) (inb) (g : Fin 128) (h : off = chunkOff L g.val) : (chunkM off inb).view.set = (chunkC L g).view.set := by subst h; rfl
theorem set_chunkC_eq (L : grid0.Coords) (g : Fin 128) : (chunkC L g).view.set = oChkSet (chk (wk L) g) := set_chunk L _ _ g rfl

end Cert.Proof.KI

end
-- ==== Proof.KIVals.lean ====
/-
  What the worker's buffers hold, as functions of the launch memory.
  After its first copy the worker's own copy of the list is row `k` of the list (`FX`). Chunk `g` of the worker's
  block of the result must end as the lookup's values there: `chunkVal g` is the lookup read through that chunk.
-/
import proofs.«201408_g9070970929189_cont_9to1c4b_623_24_alg».proof.Proof.KIMem

noncomputable section

namespace Cert.Proof.KI

open Cert.KernelIdeal Cert.KernelIdeal.Gen
open Idealize.ShloMosaic
open Idealize.ShloMosaic.SparseCore (S V T)

variable {F : FTy → Type}

local notation "xV" => (Memref.whole Cert.KernelIdeal.cc0_scratch0 : Memref Cert.KernelIdeal.sig Kind.scVector Space.vmem Cert.KernelIdeal.S128x64 EltTy.i32)

variable (m : (ℓ : Loc nD τ sig) → Buf (Elt F) ℓ)
variable (d : Dev nD) (L : grid0.Coords)

/-- The vector subcore the worker runs on. -/
abbrev thr : Thread nD τ := V d (cV L) (jV L)

/-- The worker's copy of the list once fetched: row `k` of the list written over whatever the buffer held. -/
def FX (fx0 : Buf (Elt F) ((xV).view.loc (thr d L))) : Buf (Elt F) ((xV).view.loc (thr d L)) :=
  View.write (Elt F) (xV).view fx0 (ReadAs.same.apply ((iRowK L).view.read (Elt F) (I0 m d))) Finset.univ

/-- The lookup's values on chunk `g` of the worker's block. -/
def chunkVal (g : Fin 128) : S64x2x128.Idx → Elt F .f32 := (chunkC L g).view.read (Elt F) (OUT m d)

end Cert.Proof.KI

end
-- ==== Proof.KITile.lean ====
/-
  One worker's resources, taken apart and put together again.
  The worker's row buffer is its three slots; its row of the shared memory is that row's three slots; its copy of the
  list is its 128 rows; its share of the table is three read tokens and a remainder; its ten transfer semaphores are
  ten cells. A family of 128 pieces consumed in order (the list's rows, the result's chunks) is kept as "those from
  `a` on" and "those before `a`": taking the next one moves the boundary.
-/
import proofs.«201408_g9070970929189_cont_9to1c4b_623_24_alg».proof.Proof.KIViews
import Idealize.ShloMosaic.Lib.Ring

noncomputable section

namespace Cert.Proof.KI

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}
local notation "𝕄" => MT nD τ sig (HIx 1) (Elt F) ℕ UU ℕ

local notation "xV" => (Memref.whole Cert.KernelIdeal.cc0_scratch0 : Memref Cert.KernelIdeal.sig Kind.scVector Space.vmem Cert.KernelIdeal.S128x64 EltTy.i32)
local notation "rV" => (Memref.whole Cert.KernelIdeal.cc0_scratch1 : Memref Cert.KernelIdeal.sig Kind.scVector Space.vmem Cert.KernelIdeal.S3x64x2x128 EltTy.f32)
local notation "sV" => (Memref.whole Cert.KernelIdeal.cc0_scratch2 : Memref Cert.KernelIdeal.sig Kind.scVector Space.shared Cert.KernelIdeal.S16x3x64x2x128 EltTy.f32)

/-! ## A family of 128 pieces consumed in order -/

section Ordered

variable {M : Type} [URA M]

/-- The pieces from `a` on, and those before `a`. -/
def fromOn (a : ℕ) (Φ : Fin 128 → sProp M) : sProp M := bigSep (Finset.univ.filter fun g : Fin 128 => a ≤ g.val) Φ
def before (a : ℕ) (Φ : Fin 128 → sProp M) : sProp M := bigSep (Finset.univ.filter fun g : Fin 128 => g.val < a) Φ

theorem fromOn_zero (Φ : Fin 128 → sProp M) : fromOn 0 Φ = bigSep Finset.univ Φ := by
  unfold fromOn; rw [show (Finset.univ.filter fun g : Fin 128 => 0 ≤ g.val) = Finset.univ by ext g; simp]
theorem before_all (Φ : Fin 128 → sProp M) : before 128 Φ = bigSep Finset.univ Φ := by
  unfold before; rw [show (Finset.univ.filter fun g : Fin 128 => g.val < 128) = Finset.univ by ext g; simp [g.isLt]]
theorem before_zero (Φ : Fin 128 → sProp M) : before 0 Φ = iprop(emp) := by
  unfold before
  rw [show (Finset.univ.filter fun g : Fin 128 => g.val < 0) = ∅ by ext g; simp]
  exact bigSep_empty
theorem fromOn_all (Φ : Fin 128 → sProp M) : fromOn 128 Φ = iprop(emp) := by
  unfold fromOn
  rw [show (Finset.univ.filter fun g : Fin 128 => 128 ≤ g.val) = ∅ by ext g; simp [g.isLt]]
  exact bigSep_empty

/-- Taking the next piece. -/
theorem fromOn_succ (a : ℕ) (h : a < 128) (Φ : Fin 128 → sProp M) : fromOn a Φ = iprop(Φ ⟨a, h⟩ ∗ fromOn (a + 1) Φ) := by
  unfold fromOn
  rw [show (Finset.univ.filter fun g : Fin 128 => a ≤ g.val) = insert (⟨a, h⟩ : Fin 128) (Finset.univ.filter fun g : Fin 128 => a + 1 ≤ g.val) by
    ext g; simp only [Finset.mem_filter, Finset.mem_univ, true_and, Finset.mem_insert, Fin.ext_iff]; omega]
  exact bigSep_insert (by simp)
/-- Laying a piece down. -/
theorem before_succ (a : ℕ) (h : a < 128) (Φ : Fin 128 → sProp M) : before (a + 1) Φ = iprop(Φ ⟨a, h⟩ ∗ before a Φ) := by
  unfold before
  rw [show (Finset.univ.filter fun g : Fin 128 => g.val < a + 1) = insert (⟨a, h⟩ : Fin 128) (Finset.univ.filter fun g : Fin 128 => g.val < a) by
    ext g; simp only [Finset.mem_filter, Finset.mem_univ, true_and, Finset.mem_insert, Fin.ext_iff]; omega]
  exact bigSep_insert (by simp)

end Ordered

/-! ## The ten transfer semaphores of a vector subcore -/

theorem dma_scoped : ∀ n : DmaSem sig, (SemLoc.dma n : SemLoc sig).isScoped .scVector = true := by decide
theorem reg_unscoped : ∀ r : Sem sig, (SemLoc.reg r : SemLoc sig).isScoped .scVector = false := by decide

theorem ownCells_V (d : Dev nD) (c : Fin τ.nSC) (i : Fin τ.nSub) :
    ownCells (sig := sig) (V d c i) = Finset.univ.image fun n : Fin 10 => ((V d c i, SemLoc.dma n) : GSem nD τ sig) := by
  ext ⟨t, sm⟩
  simp only [mem_ownCells, Finset.mem_image, Finset.mem_univ, true_and]
  constructor
  · rintro ⟨rfl, hs⟩
    cases sm with
    | reg r => exact absurd hs (by rw [show GSem.isScoped ((V d c i, SemLoc.reg r) : GSem nD τ sig) = (SemLoc.reg r : SemLoc sig).isScoped .scVector from rfl, reg_unscoped r]; decide)
    | dma n => exact ⟨n, rfl⟩
  · rintro ⟨n, hn⟩
    cases hn
    exact ⟨rfl, dma_scoped n⟩

theorem ownSems0_V (d : Dev nD) (c : Fin τ.nSC) (i : Fin τ.nSub) :
    (ownSems0 (V d c i) : sProp 𝕄) = bigSep Finset.univ fun n : Fin 10 => semVal ((V d c i, SemLoc.dma n) : GSem nD τ sig) 0 := by
  unfold SparseCore.Cfg.ownSems0
  rw [ownCells_V, SparseCore.bigSep_image_of_injOn (fun a _ b _ e => by cases e; rfl)]

theorem bigSep_fin10 {M : Type} [URA M] (Φ : Fin 10 → sProp M) :
    bigSep Finset.univ Φ = iprop(Φ 0 ∗ Φ 1 ∗ Φ 2 ∗ Φ 3 ∗ Φ 4 ∗ Φ 5 ∗ Φ 6 ∗ Φ 7 ∗ Φ 8 ∗ Φ 9) :=
  Idealize.SL.BI.bigSep_univ_eq_bigSepL [0, 1, 2, 3, 4, 5, 6, 7, 8, 9] (by decide) (by decide) Φ

end Cert.Proof.KI

end
-- ==== Proof.KIPts.lean ====
/-
  The same piece, spelt two ways: as the kernel's slice at the offset it computes, and as the canonical piece at the
  offset's closed form. The two are the same elements of the same buffer, so the two points-to assertions are equal.
-/
import proofs.«201408_g9070970929189_cont_9to1c4b_623_24_alg».proof.Proof.KIVals
import proofs.«201408_g9070970929189_cont_9to1c4b_623_24_alg».proof.Proof.KITile

noncomputable section

namespace Cert.Proof.KI

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type}
local notation "𝕄" => MT nD τ sig (HIx 1) (Elt F) ℕ UU ℕ

local notation "oV" => (Memref.whole Cert.KernelIdeal.main_v2_scv : Memref Cert.KernelIdeal.sig Kind.scVector Space.hbm Cert.KernelIdeal.S262144x2x128 EltTy.f32)
local notation "xV" => (Memref.whole Cert.KernelIdeal.cc0_scratch0 : Memref Cert.KernelIdeal.sig Kind.scVector Space.vmem Cert.KernelIdeal.S128x64 EltTy.i32)
local notation "sV" => (Memref.whole Cert.KernelIdeal.cc0_scratch2 : Memref Cert.KernelIdeal.sig Kind.scVector Space.shared Cert.KernelIdeal.S16x3x64x2x128 EltTy.f32)

variable (m : (ℓ : Loc nD τ sig) → Buf (Elt F) ℓ)
variable (d : Dev nD) (L : grid0.Coords)

theorem pts_iRowK (f : Buf (Elt F) (iLoc d)) :
    ((iRowK L).view.loc (thr d L) ↦[(iRowK L).view.set]{fullShare} f : sProp 𝕄) = iLoc d ↦[iRowSet (wk L)]{fullShare} f := by
  rw [set_iRowK]

theorem pts_sslot (off : Fin 5 → ℕ) (inb) (s : Fin 16) (b : Fin 3) (h : off = sslotOff s.val b.val) (q : PosShare TreeShare)
    (f : Buf (Elt F) ((sV).view.loc (thr d L))) :
    ((sslotM off inb).view.loc (thr d L) ↦[(sslotM off inb).view.set]{q} f : sProp 𝕄)
      = ((sslotC s b).view.loc (thr d L) ↦[(sslotC s b).view.set]{q} f) := by
  subst h; rfl

theorem pts_lrow (off : Fin 2 → ℕ) (inb) (r : Fin 128) (h : off = lrowOff r.val) (q : PosShare TreeShare)
    (f : Buf (Elt F) ((xV).view.loc (thr d L))) :
    ((lrowM off inb).view.loc (thr d L) ↦[(lrowM off inb).view.set]{q} f : sProp 𝕄)
      = ((lrowC r).view.loc (thr d L) ↦[(lrowC r).view.set]{q} f) := by
  subst h; rfl

theorem pts_chunk (off : Fin 3 → ℕ) (inb) (g : Fin 128) (h : off = chunkOff L g.val) (f : Buf (Elt F) (oLoc d)) :
    ((chunkM off inb).view.loc (thr d L) ↦[(chunkM off inb).view.set]{fullShare} f : sProp 𝕄) = oChkPts d (chk (wk L) g) f := by
  subst h
  show ((chunkC L g).view.loc (thr d L) ↦[(chunkC L g).view.set]{fullShare} f : sProp 𝕄) = oLoc d ↦[oChkSet (chk (wk L) g)]{fullShare} f
  rw [set_chunkC_eq]

/-- The offsets the kernel computes, in closed form. -/
theorem off2_eq : k0_off2 L = sslotOff (jL L).val (0 : Fin 3).val := k0_off2_eq L
theorem off3_eq : k0_off3 L = sslotOff (jL L).val (1 : Fin 3).val := k0_off3_eq L
theorem off5_eq : k0_off5 L = sslotOff (jL L).val (2 : Fin 3).val := k0_off5_eq L
theorem off6_eq : k0_off6 L = sslotOff (jL L).val (1 : Fin 3).val := k0_off6_eq L
theorem off10_eq : k0_off10 L = sslotOff (jL L).val (0 : Fin 3).val := k0_off10_eq L
theorem off11_eq : k0_off11 L = sslotOff (jL L).val (2 : Fin 3).val := k0_off11_eq L

theorem off4_eq (r : Fin 5) (g : Fin 128) (hg : (k0_off4_at r).toNat = 64 * g.val) : k0_off4 L (k0_off4_at r) = chunkOff L g.val := by
  rw [k0_off4_closed, hg]; rfl
theorem off8_eq (k : Fin k0_t1_loop.trips) (r : Fin 3) (g : Fin 128) (hg : g.val = 3 * k.val + r.val + 1) :
    k0_off8 L k (BitVec.ofNat 32 r.val) = chunkOff L g.val := by
  rw [k0_off8_eq, hg]; unfold chunkOff; congr 1; omega
theorem off7_eq (k : Fin k0_t1_loop.trips) (r : Fin 3) (g : Fin 128) (hg : g.val = 3 * k.val + r.val + 4) :
    k0_off7 k (BitVec.ofNat 32 r.val) = lrowOff g.val := by
  rw [k0_off7_eq, hg]; rfl

end Cert.Proof.KI

end
-- ==== Proof.KIInv.lean ====
/-
  What one worker holds between two trips of its steady loop.
  The worker keeps three chunks in motion at once: while one is being gathered from the table into a slot of its row
  buffer, the one before it is crossing from its slot to the shared memory, and the one before that is leaving the
  shared memory for the result. `Inv k` says, before trip `k`, which copy is in flight on which semaphore and what it
  will deliver — every delivered piece holding the lookup's values of its chunk (`chunkVal`) —, which rows of the list
  and chunks of the result are done with, and which are still untouched.
-/
import proofs.«201408_g9070970929189_cont_9to1c4b_623_24_alg».proof.Proof.KIPts

noncomputable section

namespace Cert.Proof.KI

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}
local notation "𝕄" => MT nD τ sig (HIx 1) (Elt F) ℕ UU ℕ

local notation "wV" => (Memref.whole Cert.KernelIdeal.main_v1_scv : Memref Cert.KernelIdeal.sig Kind.scVector Space.hbm Cert.KernelIdeal.S8192x2x128 EltTy.f32)
local notation "xV" => (Memref.whole Cert.KernelIdeal.cc0_scratch0 : Memref Cert.KernelIdeal.sig Kind.scVector Space.vmem Cert.KernelIdeal.S128x64 EltTy.i32)

variable (m : (ℓ : Loc nD τ sig) → Buf (Elt F) ℓ)
variable (d : Dev nD) (L : grid0.Coords)

/-- Row / chunk number `r` as an index below 128 (it is, wherever it is used). -/
def rowN (r : ℕ) : Fin 128 := ⟨r % 128, Nat.mod_lt _ (by norm_num)⟩
theorem rowN_val {r : ℕ} (h : r < 128) : (rowN r).val = r := Nat.mod_eq_of_lt h
theorem rowN_eq {r : ℕ} (h : r < 128) : rowN r = ⟨r, h⟩ := Fin.ext (rowN_val h)

variable [∀ e, Nonempty (Elt F e)]

/-- The rows of the worker's copy of the list, the chunks of its block as launched, the chunks done. -/
abbrev ΦX (fx0 : Buf (Elt F) ((xV).view.loc (thr d L))) (r : Fin 128) : sProp 𝕄 := ((lrowC r).view.loc (thr d L) ↦[(lrowC r).view.set]{fullShare} FX m d L fx0)
abbrev ΦO (g : Fin 128) : sProp 𝕄 := oChkPts d (chk (wk L) g) (m (oLoc d))
abbrev ΦD (g : Fin 128) : sProp 𝕄 := oChkDone m d (chk (wk L) g)

/-- BEFORE TRIP `k` of the steady loop (chunks `3k+2, 3k+3, 3k+4` are its three): the gathers of chunks `3k+2` (into
    slot 2) and `3k+3` (into slot 0) are in flight, chunk `3k+1` is on its way from slot 1 to the shared memory's slot 1,
    chunk `3k` on its way from the shared memory's slot 0 to the result; the shared memory's slot 2 is free; the list's rows
    before `3k+2` and the result's chunks before `3k` are done with, those from `3k+4` resp. `3k+1` on untouched. -/
def Inv (fx0 : Buf (Elt F) ((xV).view.loc (thr d L))) (O : CellTallies nD τ sig (HIx 1)) (W : Waits sig (HIx 1)) (k : ℕ) (_ : PUnit) : sProp 𝕄 :=
  iprop(levAts (K (F := F)).L (K (F := F)).lev
    ∗ Transfers.Flight countersEmb (thr d L) (SemLoc.dma (2 : DmaSem sig)) (default : HIx 1) 524288 iprop((((rSlot2).view.loc (thr d L) ↦[(rSlot2).view.set]{fullShare} (rSlot2).view.rep (chunkVal m d L (rowN (3 * k + 2)))) ∗ ((lrowC (rowN (3 * k + 2))).view.loc (thr d L) ↦[(lrowC (rowN (3 * k + 2))).view.set]{fullShare} FX m d L fx0)) ∗ ((wAll).view.loc (thr d L) ↦[(wAll).view.set]{Transfers.shareTok (wq (wk L)) 3 2} W0 m d))
    ∗ Transfers.Flight countersEmb (thr d L) (SemLoc.dma (0 : DmaSem sig)) (default : HIx 1) 524288 iprop((((rSlot0).view.loc (thr d L) ↦[(rSlot0).view.set]{fullShare} (rSlot0).view.rep (chunkVal m d L (rowN (3 * k + 3)))) ∗ ((lrowC (rowN (3 * k + 3))).view.loc (thr d L) ↦[(lrowC (rowN (3 * k + 3))).view.set]{fullShare} FX m d L fx0)) ∗ ((wAll).view.loc (thr d L) ↦[(wAll).view.set]{Transfers.shareTok (wq (wk L)) 3 0} W0 m d))
    ∗ ((wAll).view.loc (thr d L) ↦[(wAll).view.set]{Transfers.shareTok (wq (wk L)) 3 1} W0 m d)
    ∗ Transfers.Flight countersEmb (thr d L) (SemLoc.dma (4 : DmaSem sig)) (default : HIx 1) 524288 iprop(((sslotM (k0_off6 L) (k0_off6_inb L)).view.loc (thr d L) ↦[(sslotM (k0_off6 L) (k0_off6_inb L)).view.set]{fullShare} (sslotM (k0_off6 L) (k0_off6_inb L)).view.rep (chunkVal m d L (rowN (3 * k + 1)))) ∗ ((rSlot1).view.loc (thr d L) ↦[(rSlot1).view.set]{fullShare} (rSlot1).view.rep (chunkVal m d L (rowN (3 * k + 1)))))
    ∗ Transfers.Flight countersEmb (thr d L) (SemLoc.dma (6 : DmaSem sig)) (default : HIx 1) 524288 iprop(((chunkC L (rowN (3 * k))).view.loc (thr d L) ↦[(chunkC L (rowN (3 * k))).view.set]{fullShare} (chunkC L (rowN (3 * k))).view.rep (chunkVal m d L (rowN (3 * k)))) ∗ ((sslotM (k0_off10 L) (k0_off10_inb L)).view.loc (thr d L) ↦[(sslotM (k0_off10 L) (k0_off10_inb L)).view.set]{fullShare} (sslotM (k0_off10 L) (k0_off10_inb L)).view.rep (chunkVal m d L (rowN (3 * k)))))
    ∗ (∃ f, ((sslotM (k0_off5 L) (k0_off5_inb L)).view.loc (thr d L) ↦[(sslotM (k0_off5 L) (k0_off5_inb L)).view.set]{fullShare} f))
    ∗ before (3 * k + 2) (ΦX m d L fx0) ∗ fromOn (3 * k + 4) (ΦX m d L fx0)
    ∗ before (3 * k) (ΦD m d L) ∗ fromOn (3 * k + 1) (ΦO m d L)
    ∗ semVal ((thr d L), (SemLoc.dma (1 : DmaSem sig))) 0 ∗ semVal ((thr d L), (SemLoc.dma (3 : DmaSem sig))) 0 ∗ semVal ((thr d L), (SemLoc.dma (5 : DmaSem sig))) 0
    ∗ semVal ((thr d L), (SemLoc.dma (7 : DmaSem sig))) 0 ∗ semVal ((thr d L), (SemLoc.dma (8 : DmaSem sig))) 0
    ∗ ∃ W', ⌜∀ p ∈ W', p ∈ W ∨ p.2 = none⌝ ∗ owes (thr d L) O W')

end Cert.Proof.KI

end
-- ==== Proof.KICanon.lean ====
/-
  A copy in flight delivers its pieces at whatever contents the copy wrote; the invariant states each delivered piece
  at the representative of what it READS (`View.rep`) and each list row or result chunk in its canonical spelling.
  A piece held by its own elements is determined by what it reads, so the two deliveries are equal, and a flight
  delivering the one is a flight delivering the other.
-/
import proofs.«201408_g9070970929189_cont_9to1c4b_623_24_alg».proof.Proof.KIInv

noncomputable section

namespace Cert.Proof.KI

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [∀ e, Nonempty (Elt F e)]
local notation "𝕄" => MT nD τ sig (HIx 1) (Elt F) ℕ UU ℕ

local notation "wV" => (Memref.whole Cert.KernelIdeal.main_v1_scv : Memref Cert.KernelIdeal.sig Kind.scVector Space.hbm Cert.KernelIdeal.S8192x2x128 EltTy.f32)
local notation "xV" => (Memref.whole Cert.KernelIdeal.cc0_scratch0 : Memref Cert.KernelIdeal.sig Kind.scVector Space.vmem Cert.KernelIdeal.S128x64 EltTy.i32)

variable (m : (ℓ : Loc nD τ sig) → Buf (Elt F) ℓ)
variable (d : Dev nD) (L : grid0.Coords)

/-- A piece held by its own elements at contents that read `X` is the piece at the representative of `X`. -/
theorem canon_piece {cs : Space} {s : Shape} {e : EltTy} (M : Memref sig (thr d L).2.kind cs s e) (q : PosShare TreeShare)
    (C : Buf (Elt F) (M.view.loc (thr d L))) (X : s.Idx → Elt F e) (h : M.view.read (Elt F) C = X) :
    (M.view.loc (thr d L) ↦[M.view.set]{q} C : sProp 𝕄) = M.view.loc (thr d L) ↦[M.view.set]{q} M.view.rep X := by
  rw [pointsTo_rep (thr d L) M C q, h]

/-- After writes the last of which covers the view, the view reads that write's payload. -/
theorem read_head {κ : Kind} {sp : Space} {s : Shape} {e : EltTy} (v : View sig κ sp s e) (f : v.ty.Contents (Elt F)) (p : s.Idx → Elt F e)
    (Ls : List (View.Piece (Elt F) s e)) : v.read (Elt F) (v.writes (Elt F) f (⟨Rect.whole s, p⟩ :: Ls)) = p := by
  funext y
  have h := View.read_writes_cons_emb v f (Rect.whole s) p Ls y
  rwa [Rect.emb_whole_apply] at h

/-- A gather's delivery: the slot at what was gathered, the list's row, the table's token. -/
theorem DG_mono (M : Memref sig (thr d L).2.kind .vmem S64x2x128 .f32) (b : Fin 3) (fx0 : Buf (Elt F) ((xV).view.loc (thr d L)))
    (off : Fin 2 → ℕ) (inb) (g : Fin 128) (hoff : off = lrowOff g.val)
    (C : Buf (Elt F) (M.view.loc (thr d L))) (hC : M.view.read (Elt F) C = chunkVal m d L g) (sm : SemLoc sig) (N : ℕ) :
    (Transfers.Flight countersEmb (thr d L) sm (default : HIx 1) N
        iprop(((M.view.loc (thr d L) ↦[M.view.set]{fullShare} C)
            ∗ ((lrowM off inb).view.loc (thr d L) ↦[(lrowM off inb).view.set]{fullShare} FX m d L fx0))
          ∗ ((wAll).view.loc (thr d L) ↦[(wAll).view.set]{Transfers.shareTok (wq (wk L)) 3 b} W0 m d)) : sProp 𝕄)
      ⊢ Transfers.Flight countersEmb (thr d L) sm (default : HIx 1) N
        iprop(((M.view.loc (thr d L) ↦[M.view.set]{fullShare} M.view.rep (chunkVal m d L g))
            ∗ ((lrowC g).view.loc (thr d L) ↦[(lrowC g).view.set]{fullShare} FX m d L fx0))
          ∗ ((wAll).view.loc (thr d L) ↦[(wAll).view.set]{Transfers.shareTok (wq (wk L)) 3 b} W0 m d)) :=
  Transfers.Flight_mono countersEmb (thr d L) (Entails.of_eq (by rw [canon_piece d L M fullShare C _ hC, pts_lrow d L off inb g hoff]))

/-- The same shared-memory slot under two of the kernel's names for it. -/
theorem sslot_respell (off off' : Fin 5 → ℕ) (inb inb') (s : Fin 16) (b : Fin 3) (h : off = sslotOff s.val b.val) (h' : off' = sslotOff s.val b.val)
    (X : S64x2x128.Idx → Elt F .f32) :
    ((sslotM off inb).view.loc (thr d L) ↦[(sslotM off inb).view.set]{fullShare} (sslotM off inb).view.rep X : sProp 𝕄)
      = (sslotM off' inb').view.loc (thr d L) ↦[(sslotM off' inb').view.set]{fullShare} (sslotM off' inb').view.rep X := by
  subst h; subst h'; rfl

theorem chunk_respell (off : Fin 3 → ℕ) (inb) (g : Fin 128) (h : off = chunkOff L g.val) (X : S64x2x128.Idx → Elt F .f32) :
    ((chunkM off inb).view.loc (thr d L) ↦[(chunkM off inb).view.set]{fullShare} (chunkM off inb).view.rep X : sProp 𝕄)
      = (chunkC L g).view.loc (thr d L) ↦[(chunkC L g).view.set]{fullShare} (chunkC L g).view.rep X := by
  subst h; rfl

/-- A crossing's delivery: the shared-memory slot and the row-buffer slot, both at the chunk. -/
theorem DX_mono (off off' : Fin 5 → ℕ) (inb inb') (s : Fin 16) (b : Fin 3) (h : off = sslotOff s.val b.val) (h' : off' = sslotOff s.val b.val)
    (M : Memref sig (thr d L).2.kind .vmem S64x2x128 .f32) (g : Fin 128)
    (C1 : Buf (Elt F) ((sslotM off inb).view.loc (thr d L))) (hC1 : (sslotM off inb).view.read (Elt F) C1 = chunkVal m d L g)
    (C2 : Buf (Elt F) (M.view.loc (thr d L))) (hC2 : M.view.read (Elt F) C2 = chunkVal m d L g) (sm : SemLoc sig) (N : ℕ) :
    (Transfers.Flight countersEmb (thr d L) sm (default : HIx 1) N
        iprop(((sslotM off inb).view.loc (thr d L) ↦[(sslotM off inb).view.set]{fullShare} C1) ∗ (M.view.loc (thr d L) ↦[M.view.set]{fullShare} C2)) : sProp 𝕄)
      ⊢ Transfers.Flight countersEmb (thr d L) sm (default : HIx 1) N
        iprop(((sslotM off' inb').view.loc (thr d L) ↦[(sslotM off' inb').view.set]{fullShare} (sslotM off' inb').view.rep (chunkVal m d L g))
          ∗ (M.view.loc (thr d L) ↦[M.view.set]{fullShare} M.view.rep (chunkVal m d L g))) :=
  Transfers.Flight_mono countersEmb (thr d L) (Entails.of_eq (by
    rw [canon_piece d L (sslotM off inb) fullShare C1 _ hC1, canon_piece d L M fullShare C2 _ hC2, sslot_respell d L off off' inb inb' s b h h']))

/-- A write-out's delivery: the result's chunk and the shared-memory slot, both at the chunk. -/
theorem DD_mono (offc : Fin 3 → ℕ) (inbc) (g : Fin 128) (hc : offc = chunkOff L g.val)
    (off off' : Fin 5 → ℕ) (inb inb') (s : Fin 16) (b : Fin 3) (h : off = sslotOff s.val b.val) (h' : off' = sslotOff s.val b.val)
    (C1 : Buf (Elt F) ((chunkM offc inbc).view.loc (thr d L))) (hC1 : (chunkM offc inbc).view.read (Elt F) C1 = chunkVal m d L g)
    (C2 : Buf (Elt F) ((sslotM off inb).view.loc (thr d L))) (hC2 : (sslotM off inb).view.read (Elt F) C2 = chunkVal m d L g) (sm : SemLoc sig) (N : ℕ) :
    (Transfers.Flight countersEmb (thr d L) sm (default : HIx 1) N
        iprop(((chunkM offc inbc).view.loc (thr d L) ↦[(chunkM offc inbc).view.set]{fullShare} C1)
          ∗ ((sslotM off inb).view.loc (thr d L) ↦[(sslotM off inb).view.set]{fullShare} C2)) : sProp 𝕄)
      ⊢ Transfers.Flight countersEmb (thr d L) sm (default : HIx 1) N
        iprop(((chunkC L g).view.loc (thr d L) ↦[(chunkC L g).view.set]{fullShare} (chunkC L g).view.rep (chunkVal m d L g))
          ∗ ((sslotM off' inb').view.loc (thr d L) ↦[(sslotM off' inb').view.set]{fullShare} (sslotM off' inb').view.rep (chunkVal m d L g))) :=
  Transfers.Flight_mono countersEmb (thr d L) (Entails.of_eq (by
    rw [canon_piece d L (chunkM offc inbc) fullShare C1 _ hC1, canon_piece d L (sslotM off inb) fullShare C2 _ hC2,
      chunk_respell d L offc inbc g hc, sslot_respell d L off off' inb inb' s b h h']))

end Cert.Proof.KI

end
-- ==== Proof.KISlots.lean ====
/-
  One worker's buffers in pieces.
  The worker's copy of the list (128 × 64) is its 128 rows; its row buffer (3 × 64 × 2 × 128) is its three slots; its
  row of the SparseCore's shared memory (one of sixteen, 3 × 64 × 2 × 128 each) is that row's three slots. In each
  case the pieces are rectangles that are pairwise apart on one axis and together go through exactly the elements of
  the whole, so holding the whole at some contents is holding every piece at those contents, and pieces held at
  contents of their own are the whole held at contents that agree with each on its piece.
-/
import proofs.«201408_g9070970929189_cont_9to1c4b_623_24_alg».proof.Proof.KIMem

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

local notation "xV" => (Memref.whole Cert.KernelIdeal.cc0_scratch0 : Memref Cert.KernelIdeal.sig Kind.scVector Space.vmem Cert.KernelIdeal.S128x64 EltTy.i32)
local notation "rV" => (Memref.whole Cert.KernelIdeal.cc0_scratch1 : Memref Cert.KernelIdeal.sig Kind.scVector Space.vmem Cert.KernelIdeal.S3x64x2x128 EltTy.f32)
local notation "sV" => (Memref.whole Cert.KernelIdeal.cc0_scratch2 : Memref Cert.KernelIdeal.sig Kind.scVector Space.shared Cert.KernelIdeal.S16x3x64x2x128 EltTy.f32)

variable {F : FTy → Type}

local notation "𝕄" => MT nD τ sig (HIx 1) (Elt F) ℕ UU ℕ

/-! ## Three pieces of a set of elements -/

section Three

variable {ℓ : Loc nD τ sig}

/-- Held on a set that three pairwise disjoint sets make up is held on each of the three; -/
theorem three_split (K : Fin 3 → Finset (Idx ℓ)) (hd : ∀ t ∈ (Finset.univ : Finset (Fin 3)), ∀ t' ∈ (Finset.univ : Finset (Fin 3)), t ≠ t' → Disjoint (K t) (K t'))
    (I : Finset (Idx ℓ)) (hc : (Finset.univ : Finset (Fin 3)).biUnion K = I) (f : Buf (Elt F) ℓ) :
    (ℓ ↦[I]{fullShare} f : sProp 𝕄) = iprop((ℓ ↦[K 0]{fullShare} f) ∗ (ℓ ↦[K 1]{fullShare} f) ∗ ℓ ↦[K 2]{fullShare} f) := by
  subst hc
  rw [pointsTo_biUnion Finset.univ K hd, show (Finset.univ : Finset (Fin 3)) = {0, 1, 2} by decide,
    SparseCore.bigSep_insert' (by decide), SparseCore.bigSep_insert' (by decide), bigSep_singleton]

/-- and the three held at contents of their own are the set held at some contents. -/
theorem three_join (K : Fin 3 → Finset (Idx ℓ)) (hd : ∀ t ∈ (Finset.univ : Finset (Fin 3)), ∀ t' ∈ (Finset.univ : Finset (Fin 3)), t ≠ t' → Disjoint (K t) (K t'))
    (I : Finset (Idx ℓ)) (hc : (Finset.univ : Finset (Fin 3)).biUnion K = I) (fs : Fin 3 → Buf (Elt F) ℓ) :
    (iprop((ℓ ↦[K 0]{fullShare} fs 0) ∗ (ℓ ↦[K 1]{fullShare} fs 1) ∗ ℓ ↦[K 2]{fullShare} fs 2) : sProp 𝕄) ⊢ iprop(∃ g, ℓ ↦[I]{fullShare} g) := by
  subst hc
  iintro H
  ihave H' := (pointsTo_biUnion_join Finset.univ K fs (fs 0) hd) $$ [H]
  · rw [show (Finset.univ : Finset (Fin 3)) = {0, 1, 2} by decide,
      SparseCore.bigSep_insert' (by decide), SparseCore.bigSep_insert' (by decide), bigSep_singleton]
    iexact H
  icases H' with ⟨%g, -, Hg⟩
  iexists g; iexact Hg

end Three

/-! ## The list's copy: its 128 rows -/

theorem xdiv : 128 ∣ S128x64.size 0 := ⟨1, rfl⟩
abbrev xrow (r : Fin 128) : Rect S128x64 := Rect.part (s := S128x64) (a₀ := 0) xdiv r

theorem lrow_rect_eq (r : Fin 128) : Rect.unit (s := S128x64) (lrowOff r.val) S1x64.size (lrow_inb r) = xrow r := by
  unfold xrow Rect.part Rect.block
  congr 1 <;> funext a
  · match a with
    | 0 => simp [Shape.partIx, Shape.partSize, lrowOff]
    | 1 => simp [Shape.partIx, Shape.partSize, lrowOff]
  · match a with
    | 0 => simp [Shape.partSize]
    | 1 => simp [Shape.partSize]

/-- The elements row `r` of the copy goes through. -/
abbrev lrowSet (r : Fin 128) : Finset S128x64.Idx := (lrowC r).view.set

theorem set_lrowC (r : Fin 128) : lrowSet r = (xrow r).set := by
  show (((xV).view.slice (Rect.unit (s := S128x64) (lrowOff r.val) S1x64.size (lrow_inb r))).reshape S64 squeezes_S1x64_S64.numel_eq).set = _
  rw [View.set_reshape]
  refine Eq.trans ?_ (View.set_slice_whole (cc0_scratch0 : Ref sig .scVector) (xrow r))
  exact lrow_rect_eq r ▸ rfl

theorem lrows_disjoint : ∀ i ∈ (Finset.univ : Finset (Fin 128)), ∀ j ∈ (Finset.univ : Finset (Fin 128)), i ≠ j → Disjoint (lrowSet i) (lrowSet j) :=
  fun i _ j _ h => by rw [set_lrowC, set_lrowC]; exact Rect.part_disjoint xdiv h
theorem lrows_cover : (Finset.univ : Finset (Fin 128)).biUnion lrowSet = Finset.univ :=
  (Finset.biUnion_congr rfl fun r _ => set_lrowC r).trans (Rect.biUnion_part xdiv)

/-! ## The row buffer: its three slots -/

theorem rdiv : 3 ∣ S3x64x2x128.size 0 := ⟨1, rfl⟩
abbrev rpart (b : Fin 3) : Rect S3x64x2x128 := Rect.part (s := S3x64x2x128) (a₀ := 0) rdiv b

theorem rslot_rect_eq (b : Fin 3) (off : Fin 4 → ℕ) (inb : ∀ a, off a + S1x64x2x128.size a ≤ S3x64x2x128.size a) (h : off = ![b.val, 0, 0, 0]) :
    Rect.unit (s := S3x64x2x128) off S1x64x2x128.size inb = rpart b := by
  subst h
  unfold rpart Rect.part Rect.block
  congr 1 <;> funext a
  · match a with
    | 0 => simp [Shape.partIx, Shape.partSize]
    | 1 => simp [Shape.partIx, Shape.partSize]
    | 2 => simp [Shape.partIx, Shape.partSize]
    | 3 => simp [Shape.partIx, Shape.partSize]
  · match a with
    | 0 => simp [Shape.partSize]
    | 1 => simp [Shape.partSize]
    | 2 => simp [Shape.partSize]
    | 3 => simp [Shape.partSize]

theorem set_rSlot0 : (rSlot0).view.set = (rpart 0).set := by
  show (((rV).view.slice (Rect.unit (s := S3x64x2x128) ![0, 0, 0, 0] S1x64x2x128.size inb_S3x64x2x128_S1x64x2x128_0_0_0_0)).reshape S64x2x128 squeezes_S1x64x2x128_S64x2x128.numel_eq).set = _
  rw [View.set_reshape]
  refine Eq.trans ?_ (View.set_slice_whole (cc0_scratch1 : Ref sig .scVector) (rpart 0))
  exact rslot_rect_eq 0 ![0, 0, 0, 0] inb_S3x64x2x128_S1x64x2x128_0_0_0_0 rfl ▸ rfl
theorem set_rSlot1 : (rSlot1).view.set = (rpart 1).set := by
  show (((rV).view.slice (Rect.unit (s := S3x64x2x128) ![1, 0, 0, 0] S1x64x2x128.size inb_S3x64x2x128_S1x64x2x128_1_0_0_0)).reshape S64x2x128 squeezes_S1x64x2x128_S64x2x128.numel_eq).set = _
  rw [View.set_reshape]
  refine Eq.trans ?_ (View.set_slice_whole (cc0_scratch1 : Ref sig .scVector) (rpart 1))
  exact rslot_rect_eq 1 ![1, 0, 0, 0] inb_S3x64x2x128_S1x64x2x128_1_0_0_0 rfl ▸ rfl
theorem set_rSlot2 : (rSlot2).view.set = (rpart 2).set := by
  show (((rV).view.slice (Rect.unit (s := S3x64x2x128) ![2, 0, 0, 0] S1x64x2x128.size inb_S3x64x2x128_S1x64x2x128_2_0_0_0)).reshape S64x2x128 squeezes_S1x64x2x128_S64x2x128.numel_eq).set = _
  rw [View.set_reshape]
  refine Eq.trans ?_ (View.set_slice_whole (cc0_scratch1 : Ref sig .scVector) (rpart 2))
  exact rslot_rect_eq 2 ![2, 0, 0, 0] inb_S3x64x2x128_S1x64x2x128_2_0_0_0 rfl ▸ rfl

theorem rparts_disjoint : ∀ t ∈ (Finset.univ : Finset (Fin 3)), ∀ t' ∈ (Finset.univ : Finset (Fin 3)), t ≠ t' → Disjoint (rpart t).set (rpart t').set :=
  fun _ _ _ _ h => Rect.part_disjoint rdiv h
theorem rparts_cover : (Finset.univ : Finset (Fin 3)).biUnion (fun b => (rpart b).set) = Finset.univ := Rect.biUnion_part rdiv

/-! ## A row of the shared memory: its three slots -/

/-- Slot `b` of row `s`, as a rectangle of the shared memory. -/
abbrev sslotR (s : Fin 16) (b : Fin 3) : Rect S16x3x64x2x128 := Rect.unit (s := S16x3x64x2x128) (sslotOff s.val b.val) S1x1x64x2x128.size (sslot_inb s b)

theorem set_sslotC (s : Fin 16) (b : Fin 3) : (sslotC s b).view.set = (sslotR s b).set := by
  show (((sV).view.slice (sslotR s b)).reshape S64x2x128 squeezes_S1x1x64x2x128_S64x2x128.numel_eq).set = _
  rw [View.set_reshape]
  exact View.set_slice_whole _ _

theorem slot_sRowSet_eq (s : Fin 16) : sRowSet s = (srow s).set := View.set_slice_whole _ _

theorem sslots_disjoint (s : Fin 16) : ∀ t ∈ (Finset.univ : Finset (Fin 3)), ∀ t' ∈ (Finset.univ : Finset (Fin 3)), t ≠ t' → Disjoint (sslotR s t).set (sslotR s t').set := by
  intro t _ t' _ h
  refine Rect.unit_disjoint (1 : Fin 5) ?_
  have : t.val ≠ t'.val := fun e => h (Fin.ext e)
  simp [sslotOff]
  omega

theorem sslots_cover (s : Fin 16) : (Finset.univ : Finset (Fin 3)).biUnion (fun b => (sslotR s b).set) = (srow s).set := by
  ext i
  simp only [Finset.mem_biUnion, Finset.mem_univ, true_and, Rect.mem_set_unit]
  constructor
  · rintro ⟨b, hb⟩ a
    have h := hb a
    have hb3 := b.isLt
    match a with
    | 0 => simp [Shape.partIx, Shape.partSize, sslotOff] at h ⊢; omega
    | 1 => simp [Shape.partIx, Shape.partSize, sslotOff] at h ⊢; omega
    | 2 => simp [Shape.partIx, Shape.partSize, sslotOff] at h ⊢; omega
    | 3 => simp [Shape.partIx, Shape.partSize, sslotOff] at h ⊢; omega
    | 4 => simp [Shape.partIx, Shape.partSize, sslotOff] at h ⊢; omega
  · intro h
    have h1 := h 1
    simp [Shape.partIx, Shape.partSize] at h1
    refine ⟨⟨(i 1).val, h1⟩, fun a => ?_⟩
    have ha := h a
    match a with
    | 0 => simp [Shape.partIx, Shape.partSize, sslotOff] at ha ⊢; omega
    | 1 => simp [Shape.partIx, Shape.partSize, sslotOff] at ha ⊢
    | 2 => simp [Shape.partIx, Shape.partSize, sslotOff] at ha ⊢; omega
    | 3 => simp [Shape.partIx, Shape.partSize, sslotOff] at ha ⊢; omega
    | 4 => simp [Shape.partIx, Shape.partSize, sslotOff] at ha ⊢; omega

/-! ## The pieces held -/

variable (d : Dev nD) (c : Fin τ.nSC) (i : Fin τ.nSub)

/-- The worker's copy of the list is its 128 rows. -/
theorem idx_rows (f : Buf (Elt F) ((xV).view.loc (V d c i))) :
    ((xV).view.loc (V d c i) ↦{fullShare} f : sProp 𝕄)
      = bigSep Finset.univ fun r : Fin 128 => (lrowC r).view.loc (V d c i) ↦[(lrowC r).view.set]{fullShare} f := by
  show _ = bigSep Finset.univ fun r : Fin 128 => ((xV).view.loc (V d c i) ↦[lrowSet r]{fullShare} f : sProp 𝕄)
  rw [← pointsTo_biUnion Finset.univ (ℓ := (xV).view.loc (V d c i)) lrowSet lrows_disjoint, lrows_cover]; try rfl

/-- The row buffer is its three slots; -/
theorem rows_slots (f : Buf (Elt F) ((rV).view.loc (V d c i))) :
    ((rV).view.loc (V d c i) ↦{fullShare} f : sProp 𝕄)
      = iprop(((rSlot0).view.loc (V d c i) ↦[(rSlot0).view.set]{fullShare} f) ∗ ((rSlot1).view.loc (V d c i) ↦[(rSlot1).view.set]{fullShare} f)
          ∗ ((rSlot2).view.loc (V d c i) ↦[(rSlot2).view.set]{fullShare} f)) := by
  rw [set_rSlot0, set_rSlot1, set_rSlot2]
  exact three_split (ℓ := (rV).view.loc (V d c i)) (fun b => (rpart b).set) rparts_disjoint Finset.univ rparts_cover f

/-- and the three slots at contents of their own are the row buffer at some contents. -/
theorem rows_join (f0 f1 f2 : Buf (Elt F) ((rV).view.loc (V d c i))) :
    (iprop(((rSlot0).view.loc (V d c i) ↦[(rSlot0).view.set]{fullShare} f0) ∗ ((rSlot1).view.loc (V d c i) ↦[(rSlot1).view.set]{fullShare} f1)
        ∗ ((rSlot2).view.loc (V d c i) ↦[(rSlot2).view.set]{fullShare} f2)) : sProp 𝕄)
      ⊢ iprop(∃ g, (rV).view.loc (V d c i) ↦{fullShare} g) := by
  rw [set_rSlot0, set_rSlot1, set_rSlot2]
  exact three_join (ℓ := (rV).view.loc (V d c i)) (fun b => (rpart b).set) rparts_disjoint Finset.univ rparts_cover ![f0, f1, f2]

/-- Row `s` of the shared memory is its three slots; -/
theorem srow_slots (s : Fin 16) (f : Buf (Elt F) (shLoc d c)) :
    (sRowPts d c s f : sProp 𝕄)
      = iprop(((sslotC s 0).view.loc (V d c i) ↦[(sslotC s 0).view.set]{fullShare} f) ∗ ((sslotC s 1).view.loc (V d c i) ↦[(sslotC s 1).view.set]{fullShare} f)
          ∗ ((sslotC s 2).view.loc (V d c i) ↦[(sslotC s 2).view.set]{fullShare} f)) := by
  unfold sRowPts
  rw [set_sslotC, set_sslotC, set_sslotC, slot_sRowSet_eq]
  exact three_split (ℓ := shLoc d c) (fun b => (sslotR s b).set) (sslots_disjoint s) (srow s).set (sslots_cover s) f

/-- and the three at contents of their own are the row at some contents. -/
theorem srow_join (s : Fin 16) (f0 f1 f2 : Buf (Elt F) (shLoc d c)) :
    (iprop(((sslotC s 0).view.loc (V d c i) ↦[(sslotC s 0).view.set]{fullShare} f0) ∗ ((sslotC s 1).view.loc (V d c i) ↦[(sslotC s 1).view.set]{fullShare} f1)
        ∗ ((sslotC s 2).view.loc (V d c i) ↦[(sslotC s 2).view.set]{fullShare} f2)) : sProp 𝕄)
      ⊢ iprop(∃ g, sRowPts d c s g) := by
  unfold sRowPts
  rw [set_sslotC, set_sslotC, set_sslotC, slot_sRowSet_eq]
  exact three_join (ℓ := shLoc d c) (fun b => (sslotR s b).set) (sslots_disjoint s) (srow s).set (sslots_cover s) ![f0, f1, f2]

end Cert.Proof.KI

end
-- ==== Proof.KIValue.lean ====
/-
  What the worker's transfers move, as values. The worker's copy of the list is row `k` of the list; entry `a` of its
  row `g` is the row number of token `(k, g, a)`, and is below the table's height. The indirect gather fills the
  64 × 2 × 128 row buffer from the table: row `a` of the buffer is the table's row named by entry `a` of the 64-entry
  list, the other two coordinates kept. With the list's row `g` as the entries that is the lookup's values on chunk
  `g` of the worker's block of the result; and contents that read as those values through the chunk agree with the
  lookup on the chunk's elements.
-/
import proofs.«201408_g9070970929189_cont_9to1c4b_623_24_alg».proof.Proof.KIVals
import Idealize.ShloMosaic.Lib.ValueIdx
import Idealize.ShloMosaic.Lib.Pipeline.Value

noncomputable section

namespace Cert.Proof.KI

open Cert.KernelIdeal Cert.KernelIdeal.Gen
open Idealize.ShloMosaic Idealize.ShloMosaic.ValueIdx
open Idealize.ShloMosaic.SparseCore (S V T)

variable {F : FTy → Type}

local notation "xV" => (Memref.whole Cert.KernelIdeal.cc0_scratch0 : Memref Cert.KernelIdeal.sig Kind.scVector Space.vmem Cert.KernelIdeal.S128x64 EltTy.i32)

/-! ## The gather's payload at an index -/

/-- The payload at `(a, h, c)`: the source at row `l a`, same `h` and `c`. -/
theorem gatherPayload_apply (hg : S8192x2x128.Gathers 0 S64x2x128) (w : S8192x2x128.Idx → Elt F .f32) (l : S64.Idx → Elt F .i32)
    (pf : S64.numel = S64x2x128.size hg.axis')
    (hin : ∀ x, (l x).toNat < S8192x2x128.size hg.axis) (a : Fin 64) (h : Fin 2) (c : Fin 128) :
    SparseCore.gatherPayload hg w (SparseCore.rows (F := F) l pf hin) (ix3 a h c)
      = w (ix3 (⟨(l (ix1 a)).toNat, hin (ix1 a)⟩ : Fin 8192) h c) := by
  unfold SparseCore.gatherPayload
  congr 1
  funext b
  refine Fin.ext ?_
  match b with
  | ⟨0, _⟩ =>
    show (hg.idx _ (ix3 a h c) hg.axis).val = (l (ix1 a)).toNat
    rw [Shape.Gathers.idx_axis]
    show (l (S64.rowMajor.symm _)).toNat = (l (ix1 a)).toNat
    congr 2
    apply S64.rowMajor.injective
    rw [Equiv.apply_symm_apply]
    refine Fin.ext ?_
    rw [Shape.rowMajor_val_one]
    rfl
  | ⟨1, _⟩ =>
    exact Shape.Gathers.idx_of_ne hg _ (ix3 a h c) (1 : Fin 3) (by decide)
  | ⟨2, _⟩ =>
    exact Shape.Gathers.idx_of_ne hg _ (ix3 a h c) (2 : Fin 3) (by decide)

variable (m : (ℓ : Loc nD τ sig) → Buf (Elt F) ℓ) (d : Dev nD) (L : grid0.Coords)

/-! ## The worker's copy of the list -/

/-- A transfer that reads its source as it is moves the source's values. -/
theorem readAs_same_apply {s : Shape} {e : EltTy} (g : s.Idx → Elt F e) : (ReadAs.same : ReadAs (Elt F) s e s e).apply g = g := rfl

theorem FX_eq (fx0 : Buf (Elt F) ((xV).view.loc (thr d L))) : FX m d L fx0 = (iRowK L).view.read (Elt F) (I0 m d) := by
  unfold FX
  exact View.write_whole_univ _ _ _

/-- Entry `a` of row `g` of the copy sits at `(g, a)` of the copy. -/
theorem lrow_emb (g : Fin 128) (inb) (a : Fin 64) :
    (lrowM (lrowOff g.val) inb).view.emb (ix1 a) = (ix2 g a : S128x64.Idx) := by
  have hA : Shape.reshapeEquiv (squeezes_S1x64_S64.numel_eq) (ix1 a : S64.Idx) = (ix2 (0 : Fin 1) a : S1x64.Idx) :=
    Shape.reshapeEquiv_eq_of_rowMajor _ (by rw [Shape.rowMajor_val_two, Shape.rowMajor_val_one]; simp)
  show (Rect.unit (s := S128x64) (lrowOff g.val) S1x64.size inb).emb (Shape.reshapeEquiv _ (ix1 a)) = _
  rw [hA]
  funext b
  refine Fin.ext ?_
  rw [Rect.emb_apply]
  match b with
  | ⟨0, _⟩ => simp [lrowOff, Rect.unit]
  | ⟨1, _⟩ => simp [lrowOff, Rect.unit]

/-- Entry `(g, a)` of the worker's row of the list sits at `(k, g, a)` of the list. -/
theorem irow_emb (g : Fin 128) (a : Fin 64) :
    (iRowK L).view.emb (ix2 g a : S128x64.Idx) = (ix3 (wk L) g a : S32x128x64.Idx) := by
  have hB : Shape.reshapeEquiv (squeezes_S1x128x64_S128x64.numel_eq) (ix2 g a : S128x64.Idx) = (ix3 (0 : Fin 1) g a : S1x128x64.Idx) :=
    Shape.reshapeEquiv_eq_of_rowMajor _ (by rw [Shape.rowMajor_val_three, Shape.rowMajor_val_two]; simp)
  show (Rect.unit (s := S32x128x64) (k0_off1 L) S1x128x64.size (k0_off1_inb L)).emb (Shape.reshapeEquiv _ (ix2 g a)) = _
  rw [hB]
  funext b
  refine Fin.ext ?_
  rw [Rect.emb_apply]
  show k0_off1 L b + 1 * (ix3 (0 : Fin 1) g a b).val = (ix3 (wk L) g a b).val
  rw [k0_off1_eq]
  match b with
  | ⟨0, _⟩ => simp [wid]
  | ⟨1, _⟩ => simp
  | ⟨2, _⟩ => simp

/-- Entry `a` of row `g` of the worker's copy is the list's entry for token `(k, g, a)`. -/
theorem list_row (fx0 : Buf (Elt F) ((xV).view.loc (thr d L))) (off : Fin 2 → ℕ) (inb) (g : Fin 128) (h : off = lrowOff g.val) (a : Fin 64) :
    (lrowM off inb).view.read (Elt F) (FX m d L fx0) (ix1 a) = I0 m d (ix3 (wk L) g a) := by
  subst h
  rw [FX_eq]
  show I0 m d ((iRowK L).view.emb ((lrowM (lrowOff g.val) inb).view.emb (ix1 a))) = _
  rw [lrow_emb, irow_emb]

/-- Every entry of the list as the kernel finds it is a row number below the table's height. -/
theorem I0_lt (hpre : PreOK m) (j : S32x128x64.Idx) : (I0 m d j).toNat < 8192 := by
  unfold I0 shapeCast
  exact hpre d _

/-- Every entry of the worker's copy is a row number below the table's height. -/
theorem list_inb (hpre : PreOK m) (fx0 : Buf (Elt F) ((xV).view.loc (thr d L))) (off : Fin 2 → ℕ) (inb) (x : S64.Idx) :
    ((lrowM off inb).view.read (Elt F) (FX m d L fx0) x).toNat < 8192 := by
  rw [FX_eq]
  exact I0_lt m d hpre ((iRowK L).view.emb ((lrowM off inb).view.emb x))

/-! ## The table, the chunks, the gather's value -/

local notation "oV" => (Memref.whole Cert.KernelIdeal.main_v2_scv : Memref Cert.KernelIdeal.sig Kind.scVector Space.hbm Cert.KernelIdeal.S262144x2x128 EltTy.f32)

/-- The table, named as the gathers name it (the slice that is all of it), reads as the table. -/
theorem wAll_read (w : S8192x2x128.Idx → Elt F .f32) : wAll.view.read (Elt F) w = w :=
  Memref.read_access_unit_zero (Elt F) main_v1_scv (by funext a; fin_cases a <;> rfl) _ w

/-- Entry `(a, h, c)` of chunk `g` of the worker's block sits at row `8192 k + 64 g + a` of the result. -/
theorem chunk_emb (g : Fin 128) (a : Fin 64) (h : Fin 2) (c : Fin 128) :
    (chunkC L g).view.emb (ix3 a h c : S64x2x128.Idx)
      = (ix3 (⟨8192 * (wk L).val + 64 * g.val + a.val, by have := (wk L).isLt; have := g.isLt; have := a.isLt; omega⟩ : Fin 262144) h c : S262144x2x128.Idx) := by
  show (Rect.unit (s := S262144x2x128) (chunkOff L g.val) S64x2x128.size (chunk_inb L g)).emb (ix3 a h c) = _
  funext b
  refine Fin.ext ?_
  rw [Rect.emb_apply]
  match b with
  | ⟨0, _⟩ => simp [Rect.unit, chunkOff, wid]; omega
  | ⟨1, _⟩ => simp [Rect.unit, chunkOff]
  | ⟨2, _⟩ => simp [Rect.unit, chunkOff]

/-- The lookup's value at entry `(a, h, c)` of chunk `g`: the table at the row the list names for token `(k, g, a)`. -/
theorem chunkVal_apply (hpre : PreOK m) (g : Fin 128) (a : Fin 64) (h : Fin 2) (c : Fin 128) :
    chunkVal m d L g (ix3 a h c)
      = W0 m d (ix3 (⟨(I0 m d (ix3 (wk L) g a)).toNat, I0_lt m d hpre _⟩ : Fin 8192) h c) := by
  unfold chunkVal
  show OUT m d ((chunkC L g).view.emb (ix3 a h c)) = _
  rw [chunk_emb]
  unfold OUT Cert.Proof.Spec.take3
  have hk := (wk L).isLt; have hg := g.isLt; have ha := a.isLt
  have htok : Cert.Proof.Spec.tok3 (⟨8192 * (wk L).val + 64 * g.val + a.val, by omega⟩ : Fin 262144) = ix3 (wk L) g a := by
    unfold Cert.Proof.Spec.tok3
    congr 1 <;> refine Fin.ext ?_ <;> simp <;> omega
  show W0 m d (ix3 (Cert.Proof.Spec.rowOf (I0 m d (Cert.Proof.Spec.tok3 _))) h c) = _
  rw [htok]
  congr 2
  exact Fin.ext (Cert.Proof.Spec.rowOf_val_of_lt (I0_lt m d hpre _))

/-- The gather out of the table at row `g` of the worker's copy of the list delivers the lookup's values on chunk `g`. -/
theorem gather_val (hpre : PreOK m) (fx0 : Buf (Elt F) ((xV).view.loc (thr d L))) (hg : S8192x2x128.Gathers 0 S64x2x128)
    (off : Fin 2 → ℕ) (inb) (g : Fin 128) (h : off = lrowOff g.val) (pf) (hin') :
    SparseCore.gatherPayload hg (wAll.view.read (Elt F) (W0 m d))
        (SparseCore.rows ((lrowM off inb).view.read (Elt F) (FX m d L fx0)) pf hin')
      = chunkVal m d L g := by
  funext y
  obtain ⟨a, hh, c, rfl⟩ : ∃ (a : Fin 64) (hh : Fin 2) (c : Fin 128), y = ix3 a hh c := ⟨y 0, y 1, y 2, eq_ix3 y⟩
  rw [gatherPayload_apply, wAll_read, chunkVal_apply m d L hpre]
  congr 2
  refine Fin.ext ?_
  show ((lrowM off inb).view.read (Elt F) (FX m d L fx0) (ix1 a)).toNat = (I0 m d (ix3 (wk L) g a)).toNat
  rw [list_row m d L fx0 off inb g h a]

/-- Contents that read as the lookup's values through chunk `g` agree with the lookup on the chunk's elements. -/
theorem chunk_agree (g : Fin 128) (C : Buf (Elt F) (oLoc d)) (h : (chunkC L g).view.read (Elt F) C = chunkVal m d L g) :
    ∀ j ∈ oChkSet (chk (wk L) g), C j = OUT m d j := by
  intro j hj
  rw [← set_chunkC_eq] at hj
  obtain ⟨x, -, rfl⟩ := Finset.mem_map.mp hj
  have hx := congrFun h x
  unfold chunkVal at hx
  rw [View.read_apply, View.read_apply] at hx
  exact (cast_inj _).mp hx

end Cert.Proof.KI

end
-- ==== Proof.KIFin.lean ====
/-
  What a worker holds when its last copy has landed, put back together.
  At the end of its task the worker holds the pieces it was handed, each in the spelling of the copy that last
  touched it: its read shares of the table (three, lent to the gathers, and the remainder), the 128 rows of its copy
  of the list, the 128 chunks of its block of the result each holding the lookup, the three slots of its row
  buffer, the three slots of its row of the shared memory, its row of the list. Each group is the whole it was cut
  from: the shares compose, the rows, chunks and slots cover their array, and a chunk whose contents read as the
  lookup's values agrees with the lookup on its elements.
-/
import proofs.«201408_g9070970929189_cont_9to1c4b_623_24_alg».proof.Proof.KIInv
import proofs.«201408_g9070970929189_cont_9to1c4b_623_24_alg».proof.Proof.KISlots
import proofs.«201408_g9070970929189_cont_9to1c4b_623_24_alg».proof.Proof.KIValue

noncomputable section

namespace Cert.Proof.KI

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}
local notation "𝕄" => MT nD τ sig (HIx 1) (Elt F) ℕ UU ℕ

local notation "wV" => (Memref.whole Cert.KernelIdeal.main_v1_scv : Memref Cert.KernelIdeal.sig Kind.scVector Space.hbm Cert.KernelIdeal.S8192x2x128 EltTy.f32)
local notation "xV" => (Memref.whole Cert.KernelIdeal.cc0_scratch0 : Memref Cert.KernelIdeal.sig Kind.scVector Space.vmem Cert.KernelIdeal.S128x64 EltTy.i32)
local notation "rV" => (Memref.whole Cert.KernelIdeal.cc0_scratch1 : Memref Cert.KernelIdeal.sig Kind.scVector Space.vmem Cert.KernelIdeal.S3x64x2x128 EltTy.f32)
local notation "sV" => (Memref.whole Cert.KernelIdeal.cc0_scratch2 : Memref Cert.KernelIdeal.sig Kind.scVector Space.shared Cert.KernelIdeal.S16x3x64x2x128 EltTy.f32)

variable (m : (ℓ : Loc nD τ sig) → Buf (Elt F) ℓ)
variable (d : Dev nD) (L : grid0.Coords)

/-! ## The table -/

/-- The slice of the table that is all of it goes through every element. -/
theorem wAll_rect : Rect.unit (s := S8192x2x128) ![0, 0, 0] S8192x2x128.size inb_S8192x2x128_S8192x2x128_0_0_0 = Rect.whole S8192x2x128 := by
  unfold Rect.whole
  congr 1
  funext a
  match a with
  | 0 => rfl
  | 1 => rfl
  | 2 => rfl

theorem set_wAll : (wAll).view.set = Finset.univ := by
  refine Eq.trans ?_ ((View.set_slice_whole (main_v1_scv : Ref sig .scVector) (Rect.whole S8192x2x128)).trans (Rect.set_whole S8192x2x128))
  exact wAll_rect ▸ rfl

/-- The table held whole, spelt as that slice. -/
theorem wAll_pts (q : PosShare TreeShare) (f : Buf (Elt F) ((wV).view.loc (thr d L))) :
    ((wV).view.loc (thr d L) ↦{q} f : sProp 𝕄) = ((wAll).view.loc (thr d L) ↦[(wAll).view.set]{q} f) := by
  rw [set_wAll]

/-- The three read shares lent to the gathers and the remainder are the worker's share. -/
theorem fin_W :
    (iprop((wLoc d ↦{Transfers.shareDrop (wq (wk L)) 3} W0 m d)
        ∗ ((wAll).view.loc (thr d L) ↦[(wAll).view.set]{Transfers.shareTok (wq (wk L)) 3 0} W0 m d)
        ∗ ((wAll).view.loc (thr d L) ↦[(wAll).view.set]{Transfers.shareTok (wq (wk L)) 3 1} W0 m d)
        ∗ ((wAll).view.loc (thr d L) ↦[(wAll).view.set]{Transfers.shareTok (wq (wk L)) 3 2} W0 m d)) : sProp 𝕄)
      ⊢ wShPts m d (wk L) := by
  rw [← wAll_pts d L (Transfers.shareTok (wq (wk L)) 3 0) (W0 m d), ← wAll_pts d L (Transfers.shareTok (wq (wk L)) 3 1) (W0 m d),
    ← wAll_pts d L (Transfers.shareTok (wq (wk L)) 3 2) (W0 m d)]
  iintro ⟨Hrem, H0, H1, H2⟩
  iapply (Transfers.pointsTo_toks_join (ℓ := wLoc d) (S := Finset.univ) (f := W0 m d) (wq (wk L)) 3)
  rw [Ring.bigSep_fin3]
  isplitl [Hrem]; · iexact Hrem
  isplitl [H0]; · iexact H0
  isplitl [H1]; · iexact H1
  iexact H2

/-! ## The row of the list -/

theorem fin_I : ((iRowK L).view.loc (thr d L) ↦[(iRowK L).view.set]{fullShare} I0 m d : sProp 𝕄) ⊢ iRowPts m d (wk L) :=
  Entails.of_eq (pts_iRowK d L (I0 m d))

/-! ## The row buffer and the shared memory's row -/

theorem fin_R (f0 f1 f2 : Buf (Elt F) ((rV).view.loc (thr d L))) :
    (iprop(((rSlot0).view.loc (thr d L) ↦[(rSlot0).view.set]{fullShare} f0) ∗ ((rSlot1).view.loc (thr d L) ↦[(rSlot1).view.set]{fullShare} f1)
        ∗ ((rSlot2).view.loc (thr d L) ↦[(rSlot2).view.set]{fullShare} f2)) : sProp 𝕄)
      ⊢ iprop(∃ f, (thr d L).loc cc0_scratch1 ↦{fullShare} f) :=
  rows_join d (cV L) (jV L) f0 f1 f2

/-- The three slots of the worker's row of the shared memory, as the last copies through them name them. -/
theorem fin_S (f0 f1 f2 : Buf (Elt F) ((sV).view.loc (thr d L))) :
    (iprop(((sslotM (k0_off2 L) (k0_off2_inb L)).view.loc (thr d L) ↦[(sslotM (k0_off2 L) (k0_off2_inb L)).view.set]{fullShare} f0)
        ∗ ((sslotM (k0_off3 L) (k0_off3_inb L)).view.loc (thr d L) ↦[(sslotM (k0_off3 L) (k0_off3_inb L)).view.set]{fullShare} f1)
        ∗ ((sslotM (k0_off11 L) (k0_off11_inb L)).view.loc (thr d L) ↦[(sslotM (k0_off11 L) (k0_off11_inb L)).view.set]{fullShare} f2)) : sProp 𝕄)
      ⊢ iprop(∃ f, sRowPts d (cV L) (jL L) f) := by
  rw [pts_sslot d L (k0_off2 L) (k0_off2_inb L) (jL L) 0 (off2_eq L) fullShare f0,
    pts_sslot d L (k0_off3 L) (k0_off3_inb L) (jL L) 1 (off3_eq L) fullShare f1,
    pts_sslot d L (k0_off11 L) (k0_off11_inb L) (jL L) 2 (off11_eq L) fullShare f2]
  exact srow_join d (cV L) (jV L) (jL L) f0 f1 f2

/-- The same, the third slot named as the steady loop names it. -/
theorem fin_S' (f0 f1 f2 : Buf (Elt F) ((sV).view.loc (thr d L))) :
    (iprop(((sslotM (k0_off2 L) (k0_off2_inb L)).view.loc (thr d L) ↦[(sslotM (k0_off2 L) (k0_off2_inb L)).view.set]{fullShare} f0)
        ∗ ((sslotM (k0_off3 L) (k0_off3_inb L)).view.loc (thr d L) ↦[(sslotM (k0_off3 L) (k0_off3_inb L)).view.set]{fullShare} f1)
        ∗ ((sslotM (k0_off5 L) (k0_off5_inb L)).view.loc (thr d L) ↦[(sslotM (k0_off5 L) (k0_off5_inb L)).view.set]{fullShare} f2)) : sProp 𝕄)
      ⊢ iprop(∃ f, sRowPts d (cV L) (jL L) f) := by
  rw [pts_sslot d L (k0_off2 L) (k0_off2_inb L) (jL L) 0 (off2_eq L) fullShare f0,
    pts_sslot d L (k0_off3 L) (k0_off3_inb L) (jL L) 1 (off3_eq L) fullShare f1,
    pts_sslot d L (k0_off5 L) (k0_off5_inb L) (jL L) 2 (off5_eq L) fullShare f2]
  exact srow_join d (cV L) (jV L) (jL L) f0 f1 f2

/-! ## A chunk of the result, done -/

/-- A chunk of the worker's block whose contents read as the lookup's values there is that chunk done. -/
theorem chunk_done (off : Fin 3 → ℕ) (inb : ∀ a, off a + S64x2x128.size a ≤ S262144x2x128.size a) (g : Fin 128) (h : off = chunkOff L g.val)
    (C : Buf (Elt F) (oLoc d)) (hC : (chunkM off inb).view.read (Elt F) C = chunkVal m d L g) :
    ((chunkM off inb).view.loc (thr d L) ↦[(chunkM off inb).view.set]{fullShare} C : sProp 𝕄) ⊢ oChkDone m d (chk (wk L) g) := by
  rw [pts_chunk d L off inb g h C]
  unfold oChkDone
  iintro H
  iexists C
  isplitr
  · ipureintro; exact chunk_agree m d L g C (by subst h; exact hC)
  · iexact H

variable [∀ e, Nonempty (Elt F e)]

/-! ## The list's copy and the block of the result -/

theorem fin_X (fx0 : Buf (Elt F) ((xV).view.loc (thr d L))) :
    before 128 (ΦX m d L fx0) ⊢ (iprop(∃ f, (thr d L).loc cc0_scratch0 ↦{fullShare} f) : sProp 𝕄) := by
  rw [before_all, ← idx_rows d (cV L) (jV L) (FX m d L fx0)]
  iintro H
  iexists (FX m d L fx0)
  iexact H

theorem fin_O : before 128 (ΦD m d L) ⊢ (bigSep Finset.univ fun g : Fin 128 => oChkDone m d (chk (wk L) g) : sProp 𝕄) := by
  rw [before_all]

end Cert.Proof.KI

end
-- ==== Proof.KITrip.lean ====
/-
  One trip of the worker's steady loop.
  Before trip `k` the gathers of chunks `3k+2` and `3k+3` are in flight, chunk `3k+1` is crossing to the shared memory
  and chunk `3k` is leaving it for the result. The trip takes each of the three in turn one stage further — waits for
  a gather, sends the gathered chunk across, waits for the crossing before it, starts the next gather into the freed
  slot, sends the crossed chunk out to the result, waits for the write-out before it — and so ends with the same
  picture three chunks later. Every piece a transfer delivers holds the lookup's values of its chunk: a gather by the
  gather's value, a copy because it moves what it reads.
-/
import proofs.«201408_g9070970929189_cont_9to1c4b_623_24_alg».proof.Proof.KIInv
import proofs.«201408_g9070970929189_cont_9to1c4b_623_24_alg».proof.Proof.KICanon
import proofs.«201408_g9070970929189_cont_9to1c4b_623_24_alg».proof.Proof.KIValue

noncomputable section

namespace Cert.Proof.KI

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
local notation "𝕄" => MT nD τ sig (HIx 1) (Elt F) ℕ UU ℕ

local notation "iV" => (Memref.whole Cert.KernelIdeal.main_v0_scv : Memref Cert.KernelIdeal.sig Kind.scVector Space.hbm Cert.KernelIdeal.S32x128x64 EltTy.i32)
local notation "wV" => (Memref.whole Cert.KernelIdeal.main_v1_scv : Memref Cert.KernelIdeal.sig Kind.scVector Space.hbm Cert.KernelIdeal.S8192x2x128 EltTy.f32)
local notation "oV" => (Memref.whole Cert.KernelIdeal.main_v2_scv : Memref Cert.KernelIdeal.sig Kind.scVector Space.hbm Cert.KernelIdeal.S262144x2x128 EltTy.f32)
local notation "xV" => (Memref.whole Cert.KernelIdeal.cc0_scratch0 : Memref Cert.KernelIdeal.sig Kind.scVector Space.vmem Cert.KernelIdeal.S128x64 EltTy.i32)
local notation "rV" => (Memref.whole Cert.KernelIdeal.cc0_scratch1 : Memref Cert.KernelIdeal.sig Kind.scVector Space.vmem Cert.KernelIdeal.S3x64x2x128 EltTy.f32)
local notation "sV" => (Memref.whole Cert.KernelIdeal.cc0_scratch2 : Memref Cert.KernelIdeal.sig Kind.scVector Space.shared Cert.KernelIdeal.S16x3x64x2x128 EltTy.f32)

variable (m : (ℓ : Loc nD τ sig) → Buf (Elt F) ℓ)
variable [FloatOps F]
variable (d : Dev nD) (L : grid0.Coords)
variable [∀ e, Nonempty (Elt F e)]

theorem trip_trips_eq : k0_t1_loop.trips = 41 := by decide

/-! ## Bookkeeping of the ordered families -/

section Ordered
variable {M : Type} [URA M]

theorem trip_fromOn_congr {a b : ℕ} (h : a = b) (Φ : Fin 128 → sProp M) : fromOn a Φ = fromOn b Φ := by rw [h]

/-- Laying three pieces down. -/
theorem trip_before_three (a b : ℕ) (hb : b = a + 3) (x0 x1 x2 : Fin 128) (e0 : x0.val = a) (e1 : x1.val = a + 1) (e2 : x2.val = a + 2)
    (Φ : Fin 128 → sProp M) : before b Φ = iprop(Φ x2 ∗ Φ x1 ∗ Φ x0 ∗ before a Φ) := by
  subst hb
  have h0 : a < 128 := e0 ▸ x0.isLt
  have h1 : a + 1 < 128 := e1 ▸ x1.isLt
  have h2 : a + 2 < 128 := e2 ▸ x2.isLt
  obtain rfl : x0 = ⟨a, h0⟩ := Fin.ext e0
  obtain rfl : x1 = ⟨a + 1, h1⟩ := Fin.ext e1
  obtain rfl : x2 = ⟨a + 2, h2⟩ := Fin.ext e2
  show before (a + 2 + 1) Φ = _
  rw [before_succ (a + 2) h2, before_succ (a + 1) h1, before_succ a h0]

end Ordered

/-! ## A chunk of the result, written -/

/-- A chunk of the result at contents whose last write covers it with the lookup's values is done. -/
theorem trip_chunk_done (off : Fin 3 → ℕ) (inb) (g : Fin 128) (h : off = chunkOff L g.val) (f0 : Buf (Elt F) (oLoc d))
    (p : S64x2x128.Idx → Elt F .f32) (hp : p = chunkVal m d L g) :
    ((chunkM off inb).view.loc (thr d L) ↦[(chunkM off inb).view.set]{fullShare}
        (chunkM off inb).view.writes (Elt F) f0 [⟨Rect.whole S64x2x128, p⟩] : sProp 𝕄) ⊢ ΦD m d L g := by
  subst h; subst hp
  unfold ΦD oChkDone
  iintro H
  iexists ((chunkC L g).view.writes (Elt F) f0 [⟨Rect.whole S64x2x128, chunkVal m d L g⟩])
  isplitr
  · ipureintro
    exact chunk_agree m d L g _ (read_head _ _ _ _)
  · iapply (Entails.of_eq (pts_chunk (F := F) d L (chunkOff L g.val) (chunk_inb L g) g rfl _))
    iexact H

/-- So is one at the representative of the lookup's values. -/
theorem trip_chunk_done_rep (g : Fin 128) :
    ((chunkC L g).view.loc (thr d L) ↦[(chunkC L g).view.set]{fullShare} (chunkC L g).view.rep (chunkVal m d L g) : sProp 𝕄)
      ⊢ ΦD m d L g := by
  unfold ΦD oChkDone
  iintro H
  iexists ((chunkC L g).view.rep (chunkVal m d L g))
  isplitr
  · ipureintro
    exact chunk_agree m d L g _ (View.read_rep _ _)
  · iapply (Entails.of_eq (pts_chunk (F := F) d L (chunkOff L g.val) (chunk_inb L g) g rfl _))
    iexact H

set_option maxHeartbeats 8000000 in
theorem trip (hF : (K (F := F)).Facts) (hpre : PreOK m) (fx0 : Buf (Elt F) ((xV).view.loc (thr d L))) (O : CellTallies nD τ sig (HIx 1))
    (W : Waits sig (HIx 1)) (hO : ∀ g, O g none = 0) (v2 : BitVec 32) (k : Fin k0_t1_loop.trips) (acc : PUnit) :
    Inv m d L fx0 O W k.val acc ⊢ wp frame (wpE (defs₀ (F := F)) 𝒱₀ (thr d L) none) Set.univ
      (k0_t1_body L wV (Memref.isWhole_whole _) iV (Memref.isWhole_whole _) oV (Memref.isWhole_whole _) xV (Memref.isWhole_whole _)
        rV (Memref.isWhole_whole _) sV (Memref.isWhole_whole _) cc0_scratch3 cc0_scratch4 cc0_scratch5 cc0_scratch6 cc0_scratch7
        cc0_scratch8 cc0_scratch9 cc0_scratch10 cc0_scratch11 cc0_scoped0 v2 k acc)
      (Inv m d L fx0 O W (k.val + 1)) := by
  have hk : k.val < 41 := trip_trips_eq ▸ k.isLt
  have h1 : 3 * k.val + 1 < 128 := by omega
  have h2 : 3 * k.val + 1 + 1 < 128 := by omega
  have h3 : 3 * k.val + 1 + 1 + 1 < 128 := by omega
  have h4 : 3 * k.val + 4 < 128 := by omega
  have h5 : 3 * k.val + 4 + 1 < 128 := by omega
  have h6 : 3 * k.val + 4 + 1 + 1 < 128 := by omega
  have hin : ∀ (off : Fin 2 → ℕ) (hb : ∀ a, off a + S1x64.size a ≤ S128x64.size a) (x : S64.Idx),
      (View.read (Elt F) (lrowM off hb).view (FX m d L fx0) x).toNat < 8192 := fun off hb x => list_inb m d L hpre fx0 off hb x
  unfold Inv
  iintro ⟨#Hlv, Hf2, Hf0, Hw1, Hf4, Hf6, ⟨%fs2, Hs2⟩, Hbx, Hfx, Hbd, Hfo, Hc1, Hc3, Hc5, Hc7, Hc8, ⟨%W', %hW', HO⟩⟩
  ihave Hmw := (show levAts (K (F := F)).L (K (F := F)).lev ⊢ Transfers.MayWaits (thr d L) (default : HIx 1) O from
    (K (F := F)).mayWaits_none (thr := thr d L) hO) $$ Hlv
  -- the next three rows of the list, as the gathers name them
  ihave Hx4 := (Entails.of_eq (fromOn_succ (3 * k.val + 4) h4 (ΦX m d L fx0))) $$ Hfx
  icases Hx4 with ⟨Hl4, Hx4⟩
  ihave Hx5 := (Entails.of_eq (fromOn_succ (3 * k.val + 4 + 1) h5 (ΦX m d L fx0))) $$ Hx4
  icases Hx5 with ⟨Hl5, Hx5⟩
  ihave Hx6 := (Entails.of_eq (fromOn_succ (3 * k.val + 4 + 1 + 1) h6 (ΦX m d L fx0))) $$ Hx5
  icases Hx6 with ⟨Hl6, Hx6⟩
  ihave Hl4' := (Entails.of_eq (pts_lrow (F := F) d L (k0_off7 k 0#32) (k0_off7_inb k 0) ⟨3 * k.val + 4, h4⟩ (off7_eq k 0 ⟨3 * k.val + 4, h4⟩ rfl) fullShare (FX m d L fx0)).symm) $$ Hl4
  ihave Hl5' := (Entails.of_eq (pts_lrow (F := F) d L (k0_off7 k 1#32) (k0_off7_inb k 1) ⟨3 * k.val + 4 + 1, h5⟩ (off7_eq k 1 ⟨3 * k.val + 4 + 1, h5⟩ (by show 3 * k.val + 4 + 1 = 3 * k.val + 1 + 4; omega)) fullShare (FX m d L fx0)).symm) $$ Hl5
  ihave Hl6' := (Entails.of_eq (pts_lrow (F := F) d L (k0_off7 k 2#32) (k0_off7_inb k 2) ⟨3 * k.val + 4 + 1 + 1, h6⟩ (off7_eq k 2 ⟨3 * k.val + 4 + 1 + 1, h6⟩ (by show 3 * k.val + 4 + 1 + 1 = 3 * k.val + 2 + 4; omega)) fullShare (FX m d L fx0)).symm) $$ Hl6
  -- the next three chunks of the result, as the write-outs name them
  ihave Ho1 := (Entails.of_eq (fromOn_succ (3 * k.val + 1) h1 (ΦO m d L))) $$ Hfo
  icases Ho1 with ⟨Hq1, Ho1⟩
  ihave Ho2 := (Entails.of_eq (fromOn_succ (3 * k.val + 1 + 1) h2 (ΦO m d L))) $$ Ho1
  icases Ho2 with ⟨Hq2, Ho2⟩
  ihave Ho3 := (Entails.of_eq (fromOn_succ (3 * k.val + 1 + 1 + 1) h3 (ΦO m d L))) $$ Ho2
  icases Ho3 with ⟨Hq3, Ho3⟩
  ihave Hq1' := (Entails.of_eq (pts_chunk (F := F) d L (k0_off8 L k 0#32) (k0_off8_inb L k 0) ⟨3 * k.val + 1, h1⟩ (off8_eq L k 0 ⟨3 * k.val + 1, h1⟩ rfl) (m (oLoc d))).symm) $$ Hq1
  ihave Hq2' := (Entails.of_eq (pts_chunk (F := F) d L (k0_off8 L k 1#32) (k0_off8_inb L k 1) ⟨3 * k.val + 1 + 1, h2⟩ (off8_eq L k 1 ⟨3 * k.val + 1 + 1, h2⟩ rfl) (m (oLoc d))).symm) $$ Hq2
  ihave Hq3' := (Entails.of_eq (pts_chunk (F := F) d L (k0_off8 L k 2#32) (k0_off8_inb L k 2) ⟨3 * k.val + 1 + 1 + 1, h3⟩ (off8_eq L k 2 ⟨3 * k.val + 1 + 1 + 1, h3⟩ (by show 3 * k.val + 1 + 1 + 1 = 3 * k.val + 2 + 1; omega)) (m (oLoc d))).symm) $$ Hq3
  unfold k0_t1_body
  sl_exec
  icases Hf2_dst with ⟨Hr2, Hrow2⟩
  sl_exec
  icases Hf0_dst with ⟨Hr0, Hrow3⟩
  sl_exec
  sl_step
  -- the arithmetic of the chunk numbers
  have b0 : 3 * k.val < 128 := by omega
  have b1 : 3 * k.val + 1 < 128 := by omega
  have b2 : 3 * k.val + 2 < 128 := by omega
  have b3 : 3 * k.val + 3 < 128 := by omega
  have n3 : 3 * (k.val + 1) < 128 := by omega
  have n4 : 3 * (k.val + 1) + 1 < 128 := by omega
  have n5 : 3 * (k.val + 1) + 2 < 128 := by omega
  have n6 : 3 * (k.val + 1) + 3 < 128 := by omega
  -- where the three new gathers read the list, and where the three write-outs land
  have ho4 : k0_off7 k 0#32 = lrowOff (rowN (3 * (k.val + 1) + 1)).val :=
    off7_eq k 0 _ (by rw [rowN_val n4]; show 3 * (k.val + 1) + 1 = 3 * k.val + 0 + 4; omega)
  have ho5 : k0_off7 k 1#32 = lrowOff (rowN (3 * (k.val + 1) + 2)).val :=
    off7_eq k 1 _ (by rw [rowN_val n5]; show 3 * (k.val + 1) + 2 = 3 * k.val + 1 + 4; omega)
  have ho6 : k0_off7 k 2#32 = lrowOff (rowN (3 * (k.val + 1) + 3)).val :=
    off7_eq k 2 _ (by rw [rowN_val n6]; show 3 * (k.val + 1) + 3 = 3 * k.val + 2 + 4; omega)
  have hc1 : k0_off8 L k 0#32 = chunkOff L (rowN (3 * k.val + 1)).val :=
    off8_eq L k 0 _ (by rw [rowN_val b1]; show 3 * k.val + 1 = 3 * k.val + 0 + 1; omega)
  have hc2 : k0_off8 L k 1#32 = chunkOff L (rowN (3 * k.val + 2)).val :=
    off8_eq L k 1 _ (by rw [rowN_val b2]; show 3 * k.val + 2 = 3 * k.val + 1 + 1; omega)
  have hc3 : k0_off8 L k 2#32 = chunkOff L (rowN (3 * (k.val + 1))).val :=
    off8_eq L k 2 _ (by rw [rowN_val n3]; show 3 * (k.val + 1) = 3 * k.val + 2 + 1; omega)
  have e33 : rowN (3 * k.val + 3) = rowN (3 * (k.val + 1)) := congrArg rowN (by omega)
  -- what the three gathers deliver: the lookup's values of chunks 3k+4, 3k+5, 3k+6
  have hG4 : trip.sl.gather1 m d L fx0 k hin = chunkVal m d L (rowN (3 * (k.val + 1) + 1)) :=
    gather_val m d L hpre fx0 _ (k0_off7 k 0#32) (k0_off7_inb k 0) _ ho4 _ _
  have hG5 : trip.sl.gather1_1 m d L fx0 k hin = chunkVal m d L (rowN (3 * (k.val + 1) + 2)) :=
    gather_val m d L hpre fx0 _ (k0_off7 k 1#32) (k0_off7_inb k 1) _ ho5 _ _
  have hG6 : trip.sl.gather4 m d L fx0 k hin = chunkVal m d L (rowN (3 * (k.val + 1) + 3)) :=
    gather_val m d L hpre fx0 _ (k0_off7 k 2#32) (k0_off7_inb k 2) _ ho6 _ _
  -- what the copies move: what their sources held
  have hD0 : trip.sl.dma0 m d L k = chunkVal m d L (rowN (3 * k.val + 2)) := View.read_rep _ _
  have hD1 : trip.sl.dma0_1 m d L k = chunkVal m d L (rowN (3 * k.val + 1)) := View.read_rep _ _
  have hD2 : trip.sl.dma0_2 m d L k = chunkVal m d L (rowN (3 * (k.val + 1))) := (View.read_rep _ _).trans (congrArg (chunkVal m d L) e33)
  have hD3 : trip.sl.dma0_3 m d L k fs2 = chunkVal m d L (rowN (3 * k.val + 2)) := (read_head _ _ _ _).trans hD0
  have hD4 : trip.sl.dma0_4 m d L fx0 k hin = chunkVal m d L (rowN (3 * (k.val + 1) + 1)) := (read_head _ _ _ _).trans hG4
  have hD5 : trip.sl.dma0_5 m d L k = chunkVal m d L (rowN (3 * (k.val + 1))) := (read_head _ _ _ _).trans hD2
  -- the four flights, each delivering its pieces at the lookup's values in the invariant's spelling
  ihave Hf2' := (DG_mono m d L rSlot2 2 fx0 (k0_off7 k 1#32) (k0_off7_inb k 1) (rowN (3 * (k.val + 1) + 2)) ho5 _
    ((read_head _ _ _ _).trans hG5) _ _) $$ Hf2
  ihave Hf0' := (DG_mono m d L rSlot0 0 fx0 (k0_off7 k 2#32) (k0_off7_inb k 2) (rowN (3 * (k.val + 1) + 3)) ho6 _
    ((read_head _ _ _ _).trans hG6) _ _) $$ Hf0
  ihave Hf4' := (DX_mono m d L (k0_off6 L) (k0_off6 L) (k0_off6_inb L) (k0_off6_inb L) (jL L) 1 (off6_eq L) (off6_eq L) rSlot1
    (rowN (3 * (k.val + 1) + 1)) _ ((read_head _ _ _ _).trans hD4) _ ((read_head _ _ _ _).trans hG4) _ _) $$ Hf4
  ihave Hf6' := (DD_mono m d L (k0_off8 L k 2#32) (k0_off8_inb L k 2) (rowN (3 * (k.val + 1))) hc3
    (k0_off10 L) (k0_off10 L) (k0_off10_inb L) (k0_off10_inb L) (jL L) 0 (off10_eq L) (off10_eq L)
    _ ((read_head _ _ _ _).trans hD5) _ ((read_head _ _ _ _).trans hD2) _ _) $$ Hf6
  -- the list's rows done with, the result's chunks done
  ihave Hrow4 := (Entails.of_eq (pts_lrow (F := F) d L (k0_off7 k 0#32) (k0_off7_inb k 0) (rowN (3 * (k.val + 1) + 1)) ho4 fullShare (FX m d L fx0))) $$ Hl4'
  ihave Hbx' := (Entails.of_eq (trip_before_three (3 * k.val + 2) (3 * (k.val + 1) + 2) (by omega) (rowN (3 * k.val + 2)) (rowN (3 * k.val + 3))
    (rowN (3 * (k.val + 1) + 1)) (rowN_val b2) (by rw [rowN_val b3]) (by rw [rowN_val n4]; omega) (ΦX m d L fx0)).symm) $$ [Hrow4 Hrow3 Hrow2 Hbx]
  · isplitl [Hrow4]; · iexact Hrow4
    isplitl [Hrow3]; · iexact Hrow3
    isplitl [Hrow2]; · iexact Hrow2
    iexact Hbx
  ihave Hd0 := (trip_chunk_done_rep m d L (rowN (3 * k.val))) $$ Hf6_dst
  ihave Hd1 := (trip_chunk_done m d L (k0_off8 L k 0#32) (k0_off8_inb L k 0) (rowN (3 * k.val + 1)) hc1 (m (oLoc d)) _ hD1) $$ Hq1'
  ihave Hd2 := (trip_chunk_done m d L (k0_off8 L k 1#32) (k0_off8_inb L k 1) (rowN (3 * k.val + 2)) hc2 (m (oLoc d)) _ hD3) $$ Hq2'
  ihave Hbd' := (Entails.of_eq (trip_before_three (3 * k.val) (3 * (k.val + 1)) (by omega) (rowN (3 * k.val)) (rowN (3 * k.val + 1))
    (rowN (3 * k.val + 2)) (rowN_val b0) (rowN_val b1) (rowN_val b2) (ΦD m d L)).symm) $$ [Hd2 Hd1 Hd0 Hbd]
  · isplitl [Hd2]; · iexact Hd2
    isplitl [Hd1]; · iexact Hd1
    isplitl [Hd0]; · iexact Hd0
    iexact Hbd
  ihave Hx6' := (Entails.of_eq (trip_fromOn_congr (show 3 * k.val + 4 + 1 + 1 + 1 = 3 * (k.val + 1) + 4 by omega) (ΦX m d L fx0))) $$ Hx6
  ihave Ho3' := (Entails.of_eq (trip_fromOn_congr (show 3 * k.val + 1 + 1 + 1 + 1 = 3 * (k.val + 1) + 1 by omega) (ΦO m d L))) $$ Ho3
  -- the invariant, three chunks later
  isplitr; · iexact Hlv
  isplitl [Hf2']; · iexact Hf2'
  isplitl [Hf0']; · iexact Hf0'
  isplitl [Hw1]; · iexact Hw1
  isplitl [Hf4']; · iexact Hf4'
  isplitl [Hf6']; · iexact Hf6'
  isplitl [Hs2]; · iexists _; iexact Hs2
  isplitl [Hbx']; · iexact Hbx'
  isplitl [Hx6']; · iexact Hx6'
  isplitl [Hbd']; · iexact Hbd'
  isplitl [Ho3']; · iexact Ho3'
  isplitl [Hc1]; · iexact Hc1
  isplitl [Hc3]; · iexact Hc3
  isplitl [Hc5]; · iexact Hc5
  isplitl [Hc7]; · iexact Hc7
  isplitl [Hc8]; · iexact Hc8
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact hW' p hp

end Cert.Proof.KI

end
-- ==== Proof.KIObl.lean ====
/-
  From the body at a symbolic worker to the obligation the launch asks for.
  The launch asks, for every device, every SparseCore of the call and every vector subcore of it, that the subcore's
  task — the kernel's body run at that subcore's coordinates — takes what the go handshake carries to what the
  task-done handshake carries, the subcore's own storage returned and nothing more owed. The body's statement is over
  a point of the kernel's grid; a subcore of the call is such a point, its worker number and its row of the shared
  memory the ones the handshakes name, so the obligation is the body's statement at that point.
-/
import proofs.«201408_g9070970929189_cont_9to1c4b_623_24_alg».proof.Proof.KISplit
import proofs.«201408_g9070970929189_cont_9to1c4b_623_24_alg».proof.Proof.KIViews

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

local notation "iV" => (Memref.whole Cert.KernelIdeal.main_v0_scv : Memref Cert.KernelIdeal.sig Kind.scVector Space.hbm Cert.KernelIdeal.S32x128x64 EltTy.i32)
local notation "wV" => (Memref.whole Cert.KernelIdeal.main_v1_scv : Memref Cert.KernelIdeal.sig Kind.scVector Space.hbm Cert.KernelIdeal.S8192x2x128 EltTy.f32)
local notation "oV" => (Memref.whole Cert.KernelIdeal.main_v2_scv : Memref Cert.KernelIdeal.sig Kind.scVector Space.hbm Cert.KernelIdeal.S262144x2x128 EltTy.f32)
local notation "xV" => (Memref.whole Cert.KernelIdeal.cc0_scratch0 : Memref Cert.KernelIdeal.sig Kind.scVector Space.vmem Cert.KernelIdeal.S128x64 EltTy.i32)
local notation "rV" => (Memref.whole Cert.KernelIdeal.cc0_scratch1 : Memref Cert.KernelIdeal.sig Kind.scVector Space.vmem Cert.KernelIdeal.S3x64x2x128 EltTy.f32)
local notation "sV" => (Memref.whole Cert.KernelIdeal.cc0_scratch2 : Memref Cert.KernelIdeal.sig Kind.scVector Space.shared Cert.KernelIdeal.S16x3x64x2x128 EltTy.f32)

variable {F : FTy → Type}

local notation "𝕄" => MT nD τ sig (HIx 1) (Elt F) ℕ UU ℕ

/-- The point of the kernel's grid that is vector subcore `s` of SparseCore `c`. -/
def coordsV (c : Fin (grid0.bound 0)) (s : Fin (grid0.bound 1)) : grid0.Coords :=
  fun | 0 => c | 1 => s | ⟨_ + 2, h⟩ => absurd h (Nat.not_lt.2 (Nat.le_add_left _ _))

/-- The body a vector subcore runs for the call: the kernel's, at its point of the grid, over the whole arrays and
    its own storage. -/
theorem defs₀_vector (c : Fin τ.nSC) (s : Fin τ.nSub) :
    defs₀ (F := F) (.scVector c s) 0 ()
      = SparseCore.onTile hcore0 hsub0 (fun c s => cc0__codebook_gather (coordsV c s)
          wV (Memref.isWhole_whole _) iV (Memref.isWhole_whole _) oV (Memref.isWhole_whole _)
          xV (Memref.isWhole_whole _) rV (Memref.isWhole_whole _) sV (Memref.isWhole_whole _)
          cc0_scratch3 cc0_scratch4 cc0_scratch5 cc0_scratch6 cc0_scratch7 cc0_scratch8 cc0_scratch9 cc0_scratch10 cc0_scratch11 cc0_scoped0) ⟨⟩ c s := rfl

/-- A task that recorded only waits of its own recorded none of another call's. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

variable [FloatOps F]

variable (m : (ℓ : Loc nD τ sig) → Buf (Elt F) ℓ)

/-- The body's statement, at every point of the grid on every device: from the worker's pieces and its row of the
    shared memory, its own storage and what it owes, to the pieces with the lookup in place, the row, the storage,
    the same owed, and only waits of its own recorded. -/
abbrev BodyObl : Prop :=
  ∀ (d : Dev nD) (L : grid0.Coords), (K (F := F)).Facts → ∀ (O : CellTallies nD τ sig (HIx 1)) (W : Waits sig (HIx 1)), (∀ g, O g none = 0) →
    iprop(levAts (K (F := F)).L (K (F := F)).lev ∗ emp ∗ (goH m d (wk L) ∗ ∃ f, sRowPts d (cV L) (jL L) f)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__codebook_gather L wV (Memref.isWhole_whole _) iV (Memref.isWhole_whole _) oV (Memref.isWhole_whole _)
            xV (Memref.isWhole_whole _) rV (Memref.isWhole_whole _) sV (Memref.isWhole_whole _)
            cc0_scratch3 cc0_scratch4 cc0_scratch5 cc0_scratch6 cc0_scratch7 cc0_scratch8 cc0_scratch9 cc0_scratch10 cc0_scratch11 cc0_scoped0)
          fun _ => iprop((tdH m d (wk L) ∗ ∃ f, sRowPts d (cV L) (jL L) f) ∗ scopedBufs (V d (cV L) (jV L)) ∗ scopedSems0 (V d (cV L) (jV L))
            ∗ ∃ W', ⌜∀ p ∈ W', p ∈ W ∨ p.2 = none⌝ ∗ owes (V d (cV L) (jV L)) O W')

theorem P_x (q : Fin 1) (thr : Thread nD τ) : (P m).x q thr = iprop(emp) := by unfold P; rfl

set_option maxRecDepth 16384 in
theorem tileObl_of_body [∀ e, Nonempty (Elt F e)] (_hpre : PreOK m) (hbody : BodyObl m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  rw [P_go, P_td, P_x]
  exact (hbody d (coordsV ⟨_, hci.1⟩ ⟨_, hci.2⟩) facts O W hO).trans (wp_mono frame _ _ fun _ => obl_post)

end Cert.Proof.KI

end
-- ==== Proof.KIBody.lean ====
/-
  One worker's task: from what the go handshake hands it to what its task-done handshake hands back.
  The worker first copies its row of the list into its own memory. Every later copy is one of three kinds, for a chunk
  `g` of 64 tokens: a GATHER of the table's rows `list[g, ·]` into slot `g mod 3` of the row buffer; that slot's
  CROSSING into the same slot of the worker's row of the shared memory; that slot's WRITE-OUT into chunk `g` of the
  worker's block of the result. Three chunks are in motion at once. The prologue brings the state to the invariant
  before trip 0 (`Inv`); each of the 41 trips of the steady loop takes `Inv k` to `Inv (k + 1)` (`trip`); the
  epilogue drains chunks 123 … 127.
  The value travels with the pieces: a gathered slot reads the lookup's values of its chunk (`gather_val`: row
  `list[g, a]` of the table IS the lookup at token `8192 k + 64 g + a`, the row numbers being in range by the
  precondition), and a copy's destination reads what its source read. So at the end every chunk of the worker's block
  holds the lookup's values there, and the worker's buffers, semaphores and shares of the arrays are whole again.
-/
import proofs.«201408_g9070970929189_cont_9to1c4b_623_24_alg».proof.Proof.KICanon
import proofs.«201408_g9070970929189_cont_9to1c4b_623_24_alg».proof.Proof.KIFin
import proofs.«201408_g9070970929189_cont_9to1c4b_623_24_alg».proof.Proof.KITrip
import proofs.«201408_g9070970929189_cont_9to1c4b_623_24_alg».proof.Proof.KIValue
import proofs.«201408_g9070970929189_cont_9to1c4b_623_24_alg».proof.Proof.KISlots
import proofs.«201408_g9070970929189_cont_9to1c4b_623_24_alg».proof.Proof.KIObl

noncomputable section

namespace Cert.Proof.KI

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
local notation "𝕄" => MT nD τ sig (HIx 1) (Elt F) ℕ UU ℕ

local notation "iV" => (Memref.whole Cert.KernelIdeal.main_v0_scv : Memref Cert.KernelIdeal.sig Kind.scVector Space.hbm Cert.KernelIdeal.S32x128x64 EltTy.i32)
local notation "wV" => (Memref.whole Cert.KernelIdeal.main_v1_scv : Memref Cert.KernelIdeal.sig Kind.scVector Space.hbm Cert.KernelIdeal.S8192x2x128 EltTy.f32)
local notation "oV" => (Memref.whole Cert.KernelIdeal.main_v2_scv : Memref Cert.KernelIdeal.sig Kind.scVector Space.hbm Cert.KernelIdeal.S262144x2x128 EltTy.f32)
local notation "xV" => (Memref.whole Cert.KernelIdeal.cc0_scratch0 : Memref Cert.KernelIdeal.sig Kind.scVector Space.vmem Cert.KernelIdeal.S128x64 EltTy.i32)
local notation "rV" => (Memref.whole Cert.KernelIdeal.cc0_scratch1 : Memref Cert.KernelIdeal.sig Kind.scVector Space.vmem Cert.KernelIdeal.S3x64x2x128 EltTy.f32)
local notation "sV" => (Memref.whole Cert.KernelIdeal.cc0_scratch2 : Memref Cert.KernelIdeal.sig Kind.scVector Space.shared Cert.KernelIdeal.S16x3x64x2x128 EltTy.f32)

variable (m : (ℓ : Loc nD τ sig) → Buf (Elt F) ℓ)
variable [FloatOps F]
variable (d : Dev nD) (L : grid0.Coords)

/-- The two scratch buffers are among the subcore's own: they are them, at some contents, and the rest. -/
theorem ownBufs_V :
    (ownBufs (thr d L) : sProp 𝕄)
      = iprop((∃ f, (thr d L).loc cc0_scratch0 ↦{fullShare} f) ∗ (∃ f, (thr d L).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

variable [∀ e, Nonempty (Elt F e)]

theorem before_two {M : Type} [URA M] (Φ : Fin 128 → sProp M) (h0 : 0 < 128) (h1 : 1 < 128) : iprop(Φ ⟨1, h1⟩ ∗ Φ ⟨0, h0⟩) ⊢ before 2 Φ := by
  have e1 : before 2 Φ = iprop(Φ ⟨1, h1⟩ ∗ before 1 Φ) := before_succ 1 h1 Φ
  have e0 : before 1 Φ = iprop(Φ ⟨0, h0⟩ ∗ before 0 Φ) := before_succ 0 h0 Φ
  rw [e1, e0, before_zero]
  iintro ⟨H1, H0⟩
  isplitl [H1]; · iexact H1
  isplitl [H0]; · iexact H0
  iempintro

set_option maxHeartbeats 8000000 in
theorem tile_body (hF : (K (F := F)).Facts) (hpre : PreOK m) (O : CellTallies nD τ sig (HIx 1)) (W : Waits sig (HIx 1)) (hO : ∀ g, O g none = 0) :
    iprop(levAts (K (F := F)).L (K (F := F)).lev ∗ emp
        ∗ (goH m d (wk L) ∗ ∃ f, sRowPts d (cV L) (jL L) f)
        ∗ scopedBufs (thr d L) ∗ scopedSems0 (thr d L) ∗ owes (thr d L) O W)
      ⊢ wp frame (wpE (defs₀ (F := F)) 𝒱₀ (thr d L) none) Set.univ
          (cc0__codebook_gather L wV (Memref.isWhole_whole _) iV (Memref.isWhole_whole _) oV (Memref.isWhole_whole _)
            xV (Memref.isWhole_whole _) rV (Memref.isWhole_whole _) sV (Memref.isWhole_whole _)
            cc0_scratch3 cc0_scratch4 cc0_scratch5 cc0_scratch6 cc0_scratch7 cc0_scratch8 cc0_scratch9 cc0_scratch10 cc0_scratch11 cc0_scoped0)
          fun _ => iprop((tdH m d (wk L) ∗ ∃ f, sRowPts d (cV L) (jL L) f)
            ∗ scopedBufs (thr d L) ∗ scopedSems0 (thr d L)
            ∗ ∃ W', ⌜∀ p ∈ W', p ∈ W ∨ p.2 = none⌝ ∗ owes (thr d L) O W') := by
  have h0 : (0 : ℕ) < 128 := by decide
  have h1 : (1 : ℕ) < 128 := by decide
  have h2 : (2 : ℕ) < 128 := by decide
  have h3 : (3 : ℕ) < 128 := by decide
  simp only [cc0__codebook_gather_eq_skeleton]; unfold cc0__codebook_gather_skel
  rw [(K (F := F)).scopedBufs_V hF d (cV L) (jV L), SparseCore.Cfg.scopedSems0_V (Val := Elt F) d (cV L) (jV L), ownSems0_V, ownBufs_V, bigSep_fin10]
  iintro ⟨#Hlv, -, ⟨⟨Hi, Hw, Hoc⟩, ⟨%fs0, Hs⟩⟩, ⟨⟨%fx0, Hx⟩, ⟨%fr0, Hr⟩, Hbufs⟩, ⟨Hg0, Hg1, Hg2, Hx0, Hx1, Hx2, Hd0, Hd1, Hd2, Hsc⟩, HO⟩
  ihave Hmw := (show levAts (K (F := F)).L (K (F := F)).lev ⊢ Transfers.MayWaits (thr d L) (default : HIx 1) O from
    (K (F := F)).mayWaits_none (thr := thr d L) hO) $$ Hlv
  -- the list's row, as the first copy names it
  ihave Hi' := (Entails.of_eq (pts_iRowK (F := F) d L (I0 m d)).symm) $$ Hi
  -- the table: three read tokens, one per gather semaphore, and the rest
  ihave Hwt := (Transfers.pointsTo_toks_split (ℓ := wLoc d) (S := Finset.univ) (f := W0 m d) (wq (wk L)) 3) $$ Hw
  icases Hwt with ⟨Hwr, Hwt⟩
  ihave Hwt' := (Entails.of_eq (Idealize.ShloMosaic.Ring.bigSep_fin3 _)) $$ Hwt
  icases Hwt' with ⟨Hw0, Hw1, Hw2⟩
  ihave Hw0' := (Entails.of_eq (show (_ : sProp 𝕄) = ((wV).view.loc (thr d L) ↦{Transfers.shareTok (wq (wk L)) 3 0} W0 m d) from rfl)) $$ Hw0
  ihave Hw1' := (Entails.of_eq (show (_ : sProp 𝕄) = ((wV).view.loc (thr d L) ↦{Transfers.shareTok (wq (wk L)) 3 1} W0 m d) from rfl)) $$ Hw1
  ihave Hw2' := (Entails.of_eq (show (_ : sProp 𝕄) = ((wV).view.loc (thr d L) ↦{Transfers.shareTok (wq (wk L)) 3 2} W0 m d) from rfl)) $$ Hw2
  -- the worker's own buffers: its copy of the list whole, its row buffer slot by slot
  ihave Hx' := (Entails.of_eq (show (_ : sProp 𝕄) = ((xV).view.loc (thr d L) ↦{fullShare} fx0) from rfl)) $$ Hx
  ihave Hr' := (Entails.of_eq (rows_slots (F := F) d (cV L) (jV L) fr0)) $$ Hr
  icases Hr' with ⟨Hr0, Hr1, Hr2⟩
  -- its row of the shared memory, slot by slot, each as the kernel first names it
  ihave Hs' := (Entails.of_eq (srow_slots (F := F) d (cV L) (jV L) (jL L) fs0)) $$ Hs
  icases Hs' with ⟨Hs0, Hs1, Hs2⟩
  ihave Hs0' := (Entails.of_eq (pts_sslot (F := F) d L (k0_off2 L) (k0_off2_inb L) (jL L) 0 (off2_eq L) fullShare fs0).symm) $$ Hs0
  ihave Hs1' := (Entails.of_eq (pts_sslot (F := F) d L (k0_off3 L) (k0_off3_inb L) (jL L) 1 (off3_eq L) fullShare fs0).symm) $$ Hs1
  ihave Hs2' := (Entails.of_eq (pts_sslot (F := F) d L (k0_off5 L) (k0_off5_inb L) (jL L) 2 (off5_eq L) fullShare fs0).symm) $$ Hs2
  -- the result's chunks, in order; the first as the first write-out names it
  ihave Hoc' := (Entails.of_eq (fromOn_zero (fun g : Fin 128 => (oChkPts d (chk (wk L) g) (m (oLoc d)) : sProp 𝕄))).symm) $$ Hoc
  ihave Hoc1 := (Entails.of_eq (fromOn_succ 0 h0 (fun g : Fin 128 => (oChkPts d (chk (wk L) g) (m (oLoc d)) : sProp 𝕄)))) $$ Hoc'
  icases Hoc1 with ⟨Ho0, Hoc1⟩
  ihave Ho0' := (Entails.of_eq (pts_chunk (F := F) d L (k0_off4 L 0#32) (k0_off4_inb L 0) ⟨0, h0⟩ (off4_eq L 0 ⟨0, h0⟩ rfl) (m (oLoc d))).symm) $$ Ho0
  -- THE LIST'S ROW IN: one copy and its wait
  sl_exec
  -- the worker's copy of the list now holds row k of the list: taken row by row
  ihave Hx'' := (Entails.of_eq (show ((xV).view.loc (thr d L) ↦{fullShare} View.write (Elt F) (xV).view fx0 (tile_body.sl.dma0 m d L) Finset.univ : sProp 𝕄) = ((xV).view.loc (thr d L) ↦{fullShare} FX m d L fx0) from rfl)) $$ Hx'
  ihave Hx2' := (Entails.of_eq (idx_rows (F := F) d (cV L) (jV L) (FX m d L fx0))) $$ Hx''
  have hin : ∀ (off : Fin 2 → ℕ) (h1 : ∀ a, off a + S1x64.size a ≤ S128x64.size a) (x : S64.Idx),
      (View.read (Elt F) (lrowM off h1).view (FX m d L fx0) x).toNat < 8192 := fun off h1 x => list_inb m d L hpre fx0 off h1 x
  ihave Hx3 := (Entails.of_eq (show (bigSep Finset.univ (fun r : Fin 128 => ((lrowC r).view.loc (V d (cV L) (jV L)) ↦[(lrowC r).view.set]{fullShare} FX m d L fx0 : sProp 𝕄))) = fromOn 0 (ΦX m d L fx0) from (fromOn_zero (ΦX m d L fx0)).symm)) $$ Hx2'
  ihave Hx4 := (Entails.of_eq (fromOn_succ 0 h0 (ΦX m d L fx0))) $$ Hx3
  icases Hx4 with ⟨Hl0, Hx4⟩
  ihave Hx5 := (Entails.of_eq (fromOn_succ 1 h1 (ΦX m d L fx0))) $$ Hx4
  icases Hx5 with ⟨Hl1, Hx5⟩
  ihave Hx6 := (Entails.of_eq (fromOn_succ 2 h2 (ΦX m d L fx0))) $$ Hx5
  icases Hx6 with ⟨Hl2, Hx6⟩
  ihave Hx7 := (Entails.of_eq (fromOn_succ 3 h3 (ΦX m d L fx0))) $$ Hx6
  icases Hx7 with ⟨Hl3, Hx7⟩
  ihave Hl0' := (Entails.of_eq (pts_lrow (F := F) d L ![0, 0] inb_S128x64_S1x64_0_0 ⟨0, h0⟩ rfl fullShare (FX m d L fx0)).symm) $$ Hl0
  ihave Hl1' := (Entails.of_eq (pts_lrow (F := F) d L ![1, 0] inb_S128x64_S1x64_1_0 ⟨1, h1⟩ rfl fullShare (FX m d L fx0)).symm) $$ Hl1
  ihave Hl2' := (Entails.of_eq (pts_lrow (F := F) d L ![2, 0] inb_S128x64_S1x64_2_0 ⟨2, h2⟩ rfl fullShare (FX m d L fx0)).symm) $$ Hl2
  ihave Hl3' := (Entails.of_eq (pts_lrow (F := F) d L ![3, 0] inb_S128x64_S1x64_3_0 ⟨3, h3⟩ rfl fullShare (FX m d L fx0)).symm) $$ Hl3
  -- THE PROLOGUE: two gathers out, chunk 0 across to the shared memory, a third gather, chunk 1 across, a fourth
  -- gather, chunk 0 out to the result
  sl_exec
  -- WHAT THE PROLOGUE'S COPIES WROTE, READ BACK: each slot holds the lookup's values of its chunk
  have hg2 : rSlot2.view.read (Elt F) (rSlot2.view.writes (Elt F) fr0 [⟨Rect.whole S64x2x128, tile_body.sl.gather3 m d L fx0 hin⟩]) = chunkVal m d L (rowN (3 * 0 + 2)) :=
    (View.read_writes_whole _ _ _).trans (gather_val m d L hpre fx0 _ ![2, 0] inb_S128x64_S1x64_2_0 (rowN (3 * 0 + 2)) rfl _ _)
  have hg0 : rSlot0.view.read (Elt F) (rSlot0.view.writes (Elt F) fr0 [⟨Rect.whole S64x2x128, tile_body.sl.gather5 m d L fx0 hin⟩, ⟨Rect.whole S64x2x128, tile_body.sl.gather0 m d L fx0 hin⟩]) = chunkVal m d L (rowN (3 * 0 + 3)) :=
    (read_head _ _ _ _).trans (gather_val m d L hpre fx0 _ ![3, 0] inb_S128x64_S1x64_3_0 (rowN (3 * 0 + 3)) rfl _ _)
  have hr1 : rSlot1.view.read (Elt F) (rSlot1.view.writes (Elt F) fr0 [⟨Rect.whole S64x2x128, tile_body.sl.gather1 m d L fx0 hin⟩]) = chunkVal m d L (rowN (3 * 0 + 1)) :=
    (View.read_writes_whole _ _ _).trans (gather_val m d L hpre fx0 _ ![1, 0] inb_S128x64_S1x64_1_0 (rowN (3 * 0 + 1)) rfl _ _)
  have hs1 : (sslotM (k0_off3 L) (k0_off3_inb L)).view.read (Elt F) ((sslotM (k0_off3 L) (k0_off3_inb L)).view.writes (Elt F) fs0 [⟨Rect.whole S64x2x128, tile_body.sl.dma0_2 m d L fx0 fr0 hin⟩]) = chunkVal m d L (rowN (3 * 0 + 1)) :=
    (View.read_writes_whole _ _ _).trans hr1
  have hr0 : rSlot0.view.read (Elt F) (rSlot0.view.writes (Elt F) fr0 [⟨Rect.whole S64x2x128, tile_body.sl.gather0 m d L fx0 hin⟩]) = chunkVal m d L (rowN (3 * 0)) :=
    (View.read_writes_whole _ _ _).trans (gather_val m d L hpre fx0 _ ![0, 0] inb_S128x64_S1x64_0_0 (rowN (3 * 0)) rfl _ _)
  have hs0 : (sslotM (k0_off2 L) (k0_off2_inb L)).view.read (Elt F) ((sslotM (k0_off2 L) (k0_off2_inb L)).view.writes (Elt F) fs0 [⟨Rect.whole S64x2x128, tile_body.sl.dma0_1 m d L fx0 fr0 hin⟩]) = chunkVal m d L (rowN (3 * 0)) :=
    (View.read_writes_whole _ _ _).trans hr0
  have ho0 : (chunkM (k0_off4 L 0#32) (k0_off4_inb L 0)).view.read (Elt F) ((chunkM (k0_off4 L 0#32) (k0_off4_inb L 0)).view.writes (Elt F) (m (oLoc d)) [⟨Rect.whole S64x2x128, tile_body.sl.dma0_3 m d L fs0 fx0 fr0 hin⟩]) = chunkVal m d L (rowN (3 * 0)) :=
    (View.read_writes_whole _ _ _).trans hs0
  -- the four copies in flight, each delivering its pieces at the chunk they hold
  ihave Hg2c := (DG_mono m d L rSlot2 2 fx0 ![2, 0] inb_S128x64_S1x64_2_0 (rowN (3 * 0 + 2)) rfl _ hg2 _ _) $$ Hg2
  ihave Hg0c := (DG_mono m d L rSlot0 0 fx0 ![3, 0] inb_S128x64_S1x64_3_0 (rowN (3 * 0 + 3)) rfl _ hg0 _ _) $$ Hg0
  ihave Hx1c := (DX_mono m d L (k0_off3 L) (k0_off6 L) (k0_off3_inb L) (k0_off6_inb L) (jL L) 1 (off3_eq L) (off6_eq L) rSlot1 (rowN (3 * 0 + 1)) _ hs1 _ hr1 _ _) $$ Hx1
  ihave Hd0c := (DD_mono m d L (k0_off4 L 0#32) (k0_off4_inb L 0) (rowN (3 * 0)) (off4_eq L 0 (rowN (3 * 0)) rfl) (k0_off2 L) (k0_off10 L) (k0_off2_inb L) (k0_off10_inb L) (jL L) 0 (off2_eq L) (off10_eq L) _ ho0 _ hs0 _ _) $$ Hd0
  -- the free table token as the gathers name the table
  ihave Hw1c := (Entails.of_eq (wAll_pts (F := F) d L (Transfers.shareTok (wq (wk L)) 3 1) (W0 m d))) $$ Hw1'
  -- the two list rows already done with
  ihave Hl0c := (Entails.of_eq (pts_lrow (F := F) d L ![0, 0] inb_S128x64_S1x64_0_0 ⟨0, h0⟩ rfl fullShare (FX m d L fx0))) $$ Hl0'
  ihave Hl1c := (Entails.of_eq (pts_lrow (F := F) d L ![1, 0] inb_S128x64_S1x64_1_0 ⟨1, h1⟩ rfl fullShare (FX m d L fx0))) $$ Hl1'
  -- THE STEADY LOOP, by its invariant
  sl_for (Inv m d L fx0 O W) $$ [Hlv Hg2c Hg0c Hw1c Hx1c Hd0c Hs2' Hl1c Hl0c Hx7 Hoc1 Hg1 Hx0 Hx2 Hd1 Hd2 HO]
  · intro k acc
    exact trip m d L hF hpre fx0 O W hO _ k acc
  · -- the state the prologue leaves is the invariant before trip 0
    unfold Inv
    isplitr; · iexact Hlv
    isplitl [Hg2c]; · iexact Hg2c
    isplitl [Hg0c]; · iexact Hg0c
    isplitl [Hw1c]; · iexact Hw1c
    isplitl [Hx1c]; · iexact Hx1c
    isplitl [Hd0c]; · iexact Hd0c
    isplitl [Hs2']; · iexists _; iexact Hs2'
    isplitl [Hl1c Hl0c]
    · iapply (before_two (ΦX m d L fx0) h0 h1)
      isplitl [Hl1c]; · iexact Hl1c
      iexact Hl0c
    isplitl [Hx7]; · iexact Hx7
    isplitr
    · iapply (Entails.of_eq (before_zero (ΦD m d L)).symm); iempintro
    isplitl [Hoc1]; · iexact Hoc1
    isplitl [Hg1]; · iexact Hg1
    isplitl [Hx0]; · iexact Hx0
    isplitl [Hx2]; · iexact Hx2
    isplitl [Hd1]; · iexact Hd1
    isplitl [Hd2]; · iexact Hd2
    iexists _; isplitr
    swap; · iexact HO
    ipureintro; intro p hp
    rcases Finset.mem_insert.mp hp with hp | hp; · exact .inr (hp ▸ rfl)
    rcases Finset.mem_insert.mp hp with hp | hp; · exact .inr (hp ▸ rfl)
    rcases Finset.mem_insert.mp hp with hp | hp; · exact .inr (hp ▸ rfl)
    rcases Finset.mem_insert.mp hp with hp | hp; · exact .inr (hp ▸ rfl)
    exact .inl hp
  · -- AFTER THE LOOP: forty-one trips done; chunks 123 … 127 are still on their way
    iintro %acc HI
    have htr : Scf.trips k0_t1_loop.lb k0_t1_loop.ub k0_t1_loop.st = 41 := by decide
    have h124 : (124 : ℕ) < 128 := by decide
    have h125 : (125 : ℕ) < 128 := by decide
    have h126 : (126 : ℕ) < 128 := by decide
    have h127 : (127 : ℕ) < 128 := by decide
    ihave HI1 := (Entails.of_eq (show Inv m d L fx0 O W (Scf.trips k0_t1_loop.lb k0_t1_loop.ub k0_t1_loop.st) acc = Inv m d L fx0 O W 41 acc from by rw [htr])) $$ HI
    ihave HI2 := (show Inv m d L fx0 O W 41 acc ⊢ _ from (by unfold Inv; exact BI.Entails.refl _)) $$ HI1
    icases HI2 with ⟨-, Hg2, Hg0, Hw1, Hx1, Hd0, ⟨%fs2, Hs2⟩, Hbx, Hfx, Hbo, Hfo, Hc1, Hc3, Hc5, Hc7, Hc8, ⟨%W1, %hW1, HO⟩⟩
    -- the shared memory's slots under the names the epilogue uses for them
    ihave Hx1e := (DX_mono m d L (k0_off6 L) (k0_off3 L) (k0_off6_inb L) (k0_off3_inb L) (jL L) 1 (off6_eq L) (off3_eq L) rSlot1 (rowN (3 * 41 + 1)) _ (View.read_rep _ _) _ (View.read_rep _ _) _ _) $$ Hx1
    ihave Hd0e := (DD_mono m d L (chunkOff L (rowN (3 * 41)).val) (chunk_inb L (rowN (3 * 41))) (rowN (3 * 41)) rfl (k0_off10 L) (k0_off2 L) (k0_off10_inb L) (k0_off2_inb L) (jL L) 0 (off10_eq L) (off2_eq L) _ (View.read_rep _ _) _ (View.read_rep _ _) _ _) $$ Hd0
    ihave Hs2c := (Entails.of_eq (pts_sslot (F := F) d L (k0_off5 L) (k0_off5_inb L) (jL L) 2 (off5_eq L) fullShare fs2)) $$ Hs2
    ihave Hs2e := (Entails.of_eq (pts_sslot (F := F) d L (k0_off11 L) (k0_off11_inb L) (jL L) 2 (off11_eq L) fullShare fs2).symm) $$ Hs2c
    -- the last row of the list and the last four chunks of the result
    ihave Hfx1 := (Entails.of_eq (fromOn_succ 127 h127 (ΦX m d L fx0))) $$ Hfx
    icases Hfx1 with ⟨Hl127, Hfx1⟩
    ihave Hl127' := (Entails.of_eq (pts_lrow (F := F) d L ![127, 0] inb_S128x64_S1x64_127_0 ⟨127, h127⟩ rfl fullShare (FX m d L fx0)).symm) $$ Hl127
    ihave Hfo1 := (Entails.of_eq (fromOn_succ 124 h124 (ΦO m d L))) $$ Hfo
    icases Hfo1 with ⟨Ho124, Hfo1⟩
    ihave Hfo2 := (Entails.of_eq (fromOn_succ 125 h125 (ΦO m d L))) $$ Hfo1
    icases Hfo2 with ⟨Ho125, Hfo2⟩
    ihave Hfo3 := (Entails.of_eq (fromOn_succ 126 h126 (ΦO m d L))) $$ Hfo2
    icases Hfo3 with ⟨Ho126, Hfo3⟩
    ihave Hfo4 := (Entails.of_eq (fromOn_succ 127 h127 (ΦO m d L))) $$ Hfo3
    icases Hfo4 with ⟨Ho127, -⟩
    ihave Ho124' := (Entails.of_eq (pts_chunk (F := F) d L (k0_off4 L 7936#32) (k0_off4_inb L 1) ⟨124, h124⟩ (off4_eq L 1 ⟨124, h124⟩ rfl) (m (oLoc d))).symm) $$ Ho124
    ihave Ho125' := (Entails.of_eq (pts_chunk (F := F) d L (k0_off4 L 8000#32) (k0_off4_inb L 2) ⟨125, h125⟩ (off4_eq L 2 ⟨125, h125⟩ rfl) (m (oLoc d))).symm) $$ Ho125
    ihave Ho126' := (Entails.of_eq (pts_chunk (F := F) d L (k0_off4 L 8064#32) (k0_off4_inb L 3) ⟨126, h126⟩ (off4_eq L 3 ⟨126, h126⟩ rfl) (m (oLoc d))).symm) $$ Ho126
    ihave Ho127' := (Entails.of_eq (pts_chunk (F := F) d L (k0_off4 L 8128#32) (k0_off4_inb L 4) ⟨127, h127⟩ (off4_eq L 4 ⟨127, h127⟩ rfl) (m (oLoc d))).symm) $$ Ho127
    sl_exec
    sl_step
    -- THE RESULT'S CHUNKS: 123 … 127 each hold the lookup's values; with those before, all 128 are done
    have e123 : rowN (3 * 41) = ⟨123, by decide⟩ := rowN_eq (by decide)
    have e124 : rowN (3 * 41 + 1) = ⟨124, h124⟩ := rowN_eq h124
    have e125 : rowN (3 * 41 + 2) = ⟨125, h125⟩ := rowN_eq h125
    have e126 : rowN (3 * 41 + 3) = ⟨126, h126⟩ := rowN_eq h126
    ihave Hc123 := (chunk_done m d L (chunkOff L (rowN (3 * 41)).val) (chunk_inb L (rowN (3 * 41))) (rowN (3 * 41)) rfl _ (View.read_rep _ _)) $$ Hd0e_dst
    have hc124 : (chunkM (k0_off4 L 7936#32) (k0_off4_inb L 1)).view.read (Elt F) ((chunkM (k0_off4 L 7936#32) (k0_off4_inb L 1)).view.writes (Elt F) (m (oLoc d)) [⟨Rect.whole S64x2x128, tile_body.sl.dma0_5 m d L⟩]) = chunkVal m d L ⟨124, h124⟩ :=
      (View.read_writes_whole _ _ _).trans ((View.read_rep _ _).trans (congrArg (chunkVal m d L) e124))
    ihave Hc124 := (chunk_done m d L (k0_off4 L 7936#32) (k0_off4_inb L 1) ⟨124, h124⟩ (off4_eq L 1 ⟨124, h124⟩ rfl) _ hc124) $$ Ho124'
    have hc125 : (chunkM (k0_off4 L 8000#32) (k0_off4_inb L 2)).view.read (Elt F) ((chunkM (k0_off4 L 8000#32) (k0_off4_inb L 2)).view.writes (Elt F) (m (oLoc d)) [⟨Rect.whole S64x2x128, tile_body.sl.dma0_7 m d L fs2⟩]) = chunkVal m d L ⟨125, h125⟩ :=
      (View.read_writes_whole _ _ _).trans ((View.read_writes_whole _ _ _).trans ((View.read_rep _ _).trans (congrArg (chunkVal m d L) e125)))
    ihave Hc125 := (chunk_done m d L (k0_off4 L 8000#32) (k0_off4_inb L 2) ⟨125, h125⟩ (off4_eq L 2 ⟨125, h125⟩ rfl) _ hc125) $$ Ho125'
    have hc126 : (chunkM (k0_off4 L 8064#32) (k0_off4_inb L 3)).view.read (Elt F) ((chunkM (k0_off4 L 8064#32) (k0_off4_inb L 3)).view.writes (Elt F) (m (oLoc d)) [⟨Rect.whole S64x2x128, tile_body.sl.dma0_9 m d L⟩]) = chunkVal m d L ⟨126, h126⟩ :=
      (View.read_writes_whole _ _ _).trans ((View.read_writes_whole _ _ _).trans ((View.read_rep _ _).trans (congrArg (chunkVal m d L) e126)))
    ihave Hc126 := (chunk_done m d L (k0_off4 L 8064#32) (k0_off4_inb L 3) ⟨126, h126⟩ (off4_eq L 3 ⟨126, h126⟩ rfl) _ hc126) $$ Ho126'
    have hc127 : (chunkM (k0_off4 L 8128#32) (k0_off4_inb L 4)).view.read (Elt F) ((chunkM (k0_off4 L 8128#32) (k0_off4_inb L 4)).view.writes (Elt F) (m (oLoc d)) [⟨Rect.whole S64x2x128, tile_body.sl.dma0_10 m d L fx0 hin⟩]) = chunkVal m d L ⟨127, h127⟩ :=
      (View.read_writes_whole _ _ _).trans ((View.read_writes_whole _ _ _).trans ((View.read_writes_whole _ _ _).trans (gather_val m d L hpre fx0 _ ![127, 0] inb_S128x64_S1x64_127_0 ⟨127, h127⟩ rfl _ _)))
    ihave Hc127 := (chunk_done m d L (k0_off4 L 8128#32) (k0_off4_inb L 4) ⟨127, h127⟩ (off4_eq L 4 ⟨127, h127⟩ rfl) _ hc127) $$ Ho127'
    ihave Hb124 := (Entails.of_eq (before_succ 123 (by decide) (ΦD m d L)).symm) $$ [Hc123 Hbo]
    · isplitl [Hc123]
      · iapply (Entails.of_eq (congrArg (fun g => oChkDone m d (chk (wk L) g)) e123)); iexact Hc123
      · iexact Hbo
    ihave Hb125 := (Entails.of_eq (before_succ 124 h124 (ΦD m d L)).symm) $$ [Hc124 Hb124]
    · isplitl [Hc124] <;> iassumption
    ihave Hb126 := (Entails.of_eq (before_succ 125 h125 (ΦD m d L)).symm) $$ [Hc125 Hb125]
    · isplitl [Hc125] <;> iassumption
    ihave Hb127 := (Entails.of_eq (before_succ 126 h126 (ΦD m d L)).symm) $$ [Hc126 Hb126]
    · isplitl [Hc126] <;> iassumption
    ihave Hb128 := (Entails.of_eq (before_succ 127 h127 (ΦD m d L)).symm) $$ [Hc127 Hb127]
    · isplitl [Hc127] <;> iassumption
    ihave Hchunks := (fin_O m d L) $$ Hb128
    -- THE LIST'S ROWS: 125, 126, 127 come back; with those before, the worker's copy of the list is whole again
    ihave Hl127c := (Entails.of_eq (pts_lrow (F := F) d L ![127, 0] inb_S128x64_S1x64_127_0 ⟨127, h127⟩ rfl fullShare (FX m d L fx0))) $$ Hl127'
    ihave Hr126 := (Entails.of_eq (before_succ 125 h125 (ΦX m d L fx0)).symm) $$ [Hg2_dst_and Hbx]
    · isplitl [Hg2_dst_and]
      · iapply (Entails.of_eq (congrArg (ΦX m d L fx0) e125)); iexact Hg2_dst_and
      · iexact Hbx
    ihave Hr127 := (Entails.of_eq (before_succ 126 h126 (ΦX m d L fx0)).symm) $$ [Hg0_dst_and Hr126]
    · isplitl [Hg0_dst_and]
      · iapply (Entails.of_eq (congrArg (ΦX m d L fx0) e126)); iexact Hg0_dst_and
      · iexact Hr126
    ihave Hr128 := (Entails.of_eq (before_succ 127 h127 (ΦX m d L fx0)).symm) $$ [Hl127c Hr127]
    · isplitl [Hl127c] <;> iassumption
    ihave Hxbuf := (fin_X m d L fx0) $$ Hr128
    -- the table's tokens
    ihave Hw0c := (Entails.of_eq (wAll_pts (F := F) d L (Transfers.shareTok (wq (wk L)) 3 0) (W0 m d))) $$ Hw0'
    ihave Hw2c := (Entails.of_eq (wAll_pts (F := F) d L (Transfers.shareTok (wq (wk L)) 3 2) (W0 m d))) $$ Hw2'
    ihave Hwsh := (fin_W m d L) $$ [Hwr Hw0c Hw1 Hw2c]
    · isplitl [Hwr]; · iexact Hwr
      isplitl [Hw0c]; · iexact Hw0c
      isplitl [Hw1]; · iexact Hw1
      iexact Hw2c
    -- the row buffer, the shared memory's row, the list's row in HBM
    ihave Hrbuf := (fin_R (F := F) d L _ _ _) $$ [Hg0_dst Hx1e_src Hg2_dst]
    · isplitl [Hg0_dst]; · iexact Hg0_dst
      isplitl [Hx1e_src]; · iexact Hx1e_src
      iexact Hg2_dst
    ihave Hsrow := (fin_S (F := F) d L _ _ _) $$ [Hd0e_src Hx1e_dst Hs2e]
    · isplitl [Hd0e_src]; · iexact Hd0e_src
      isplitl [Hx1e_dst]; · iexact Hx1e_dst
      iexact Hs2e
    ihave Hirow := (fin_I m d L) $$ Hi'
    -- ALL OF IT BACK
    isplitl [Hirow Hwsh Hchunks Hsrow]
    · isplitl [Hirow Hwsh Hchunks]
      · isplitl [Hirow]; · iexact Hirow
        isplitl [Hwsh]; · iexact Hwsh
        iexact Hchunks
      · iexact Hsrow
    isplitl [Hxbuf Hrbuf Hbufs]
    · isplitl [Hxbuf]; · iexact Hxbuf
      isplitl [Hrbuf]; · iexact Hrbuf
      iexact Hbufs
    isplitl [Hg0 Hc1 Hg2 Hc3 Hx1e Hc5 Hd0e Hc7 Hc8 Hsc]
    · isplitl [Hg0]; · iexact Hg0
      isplitl [Hc1]; · iexact Hc1
      isplitl [Hg2]; · iexact Hg2
      isplitl [Hc3]; · iexact Hc3
      isplitl [Hx1e]; · iexact Hx1e
      isplitl [Hc5]; · iexact Hc5
      isplitl [Hd0e]; · iexact Hd0e
      isplitl [Hc7]; · iexact Hc7
      isplitl [Hc8]; · iexact Hc8
      iexact Hsc
    iexists _; isplitr
    swap; · iexact HO
    ipureintro; intro p hp
    repeat (rcases Finset.mem_insert.mp hp with hp | hp; · exact .inr (hp ▸ rfl))
    exact hW1 p hp

/-- Every worker's task meets what its two handshakes carry. -/
theorem tileObl (hpre : PreOK m) : (K (F := F)).TileObl (D (F := F)) 𝒱 (P m) v₀ 0 :=
  tileObl_of_body m hpre (fun d L hF O W hO => tile_body m d L hF hpre O W hO)

end Cert.Proof.KI

end
-- ==== Proof.SpecCast.lean ====
/-
  The lookup over the kernel's arrangements is the lookup rearranged. A reshape keeps each element's position in
  row-major order: token `n` of the list sits at `(n / 8192, n % 8192 / 64, n % 64)` of the 32 × 128 × 64 arrangement,
  and entry `k` of a row sits at `(k / 128, k % 128)` of the 2 × 128 arrangement.
-/
import proofs.«201408_g9070970929189_cont_9to1c4b_623_24_alg».proof.Proof.Spec
import Idealize.ShloMosaic.Lib.Pipeline.Value

namespace Cert.Proof.Spec

open Idealize.ShloMosaic Idealize.ShloMosaic.ValueIdx

/-- The list in its three-axis arrangement, read at token `n`'s place, is the list at `n`. -/
theorem shapeCast_ids_tok3 (ids : SN.Idx → BitVec 32) (h1 : SN.ShapeCasts SN3) (n : Fin 262144) :
    shapeCast SN3 ids h1 (tok3 n) = ids (ix1 n) := by
  refine shapeCast_apply ids h1 (tok3 n) (ix1 n) ?_
  rw [Shape.rowMajor_val_one, Shape.rowMajor_val_three]
  have := n.isLt
  show n.val = (n.val / 8192 * 128 + n.val % 8192 / 64) * 64 + n.val % 64
  omega

/-- The table in its three-axis arrangement, read at `(r, h, l)`, is the table at `(r, 128 h + l)`. -/
theorem shapeCast_w3 {V : Type} (w : SW.Idx → V) (h2 : SW.ShapeCasts SW3) (r : Fin 8192) (k : Fin 256) :
    shapeCast SW3 w h2 (ix3 r (⟨k.val / 128, by have := k.isLt; omega⟩ : Fin 2) (⟨k.val % 128, by omega⟩ : Fin 128))
      = w (ix2 r k) := by
  refine shapeCast_apply w h2 _ (ix2 r k) ?_
  rw [Shape.rowMajor_val_two, Shape.rowMajor_val_three]
  have := k.isLt
  show r.val * 256 + k.val = (r.val * 2 + k.val / 128) * 128 + k.val % 128
  omega

/-- The flattened three-axis lookup at `(n, k)` is the lookup at `(n, k)`. -/
theorem take3_cast_apply {V : Type} (ids : SN.Idx → BitVec 32) (w : SW.Idx → V) (h1 : SN.ShapeCasts SN3)
    (h2 : SW.ShapeCasts SW3) (h3 : SO3.ShapeCasts SO) (n : Fin 262144) (k : Fin 256) :
    shapeCast SO (take3 (shapeCast SN3 ids h1) (shapeCast SW3 w h2)) h3 (ix2 n k) = take ids w (ix2 n k) := by
  have hn := n.isLt
  have hk := k.isLt
  rw [shapeCast_apply (take3 (shapeCast SN3 ids h1) (shapeCast SW3 w h2)) h3 (ix2 n k)
    (ix3 n (⟨k.val / 128, by omega⟩ : Fin 2) (⟨k.val % 128, by omega⟩ : Fin 128))
    (by
      rw [Shape.rowMajor_val_two, Shape.rowMajor_val_three]
      show (n.val * 2 + k.val / 128) * 128 + k.val % 128 = n.val * 256 + k.val
      omega)]
  show shapeCast SW3 w h2 (ix3 (rowOf (shapeCast SN3 ids h1 (tok3 n))) (⟨k.val / 128, _⟩ : Fin 2)
      (⟨k.val % 128, _⟩ : Fin 128)) = w (ix2 (rowOf (ids (ix1 n))) k)
  rw [shapeCast_ids_tok3, shapeCast_w3]

/-- The lookup over the three-axis arrangements, flattened back, is the lookup. -/
theorem take3_cast {V : Type} (ids : SN.Idx → BitVec 32) (w : SW.Idx → V) (h1 : SN.ShapeCasts SN3) (h2 : SW.ShapeCasts SW3)
    (h3 : SO3.ShapeCasts SO) :
    shapeCast SO (take3 (shapeCast SN3 ids h1) (shapeCast SW3 w h2)) h3 = take ids w := by
  funext j
  rw [eq_ix2 j]
  exact take3_cast_apply ids w h1 h2 h3 (j 0) (j 1)

end Cert.Proof.Spec
-- ==== Proof.KIClaims.lean ====
/-
  The kernel's claims. Under the precondition every row number of the list is below the table's height. The kernel's run
  then leaves in the result the lookup over the kernel's arrangements, each row flattened back to 256 numbers; the
  rearrangements keep every element's place in row-major order, so that is the row lookup of the two arguments. The list
  and the table are only read.
-/
import proofs.«201408_g9070970929189_cont_9to1c4b_623_24_alg».proof.Proof.KILaunch
import proofs.«201408_g9070970929189_cont_9to1c4b_623_24_alg».proof.Proof.KIBody
import proofs.«201408_g9070970929189_cont_9to1c4b_623_24_alg».proof.Proof.PreDecode
import proofs.«201408_g9070970929189_cont_9to1c4b_623_24_alg».proof.Proof.SpecCast

noncomputable section

namespace Cert.Proof.KI

open Cert.KernelIdeal Cert.KernelIdeal.Gen
open Idealize.ShloMosaic Idealize.SL.Sem

variable {F : FTy → Type} [FloatOps F]

/-- The precondition's predicate, all ones on every device, bounds every row number of the list. -/
theorem ok_of_fn (m : (ℓ : Loc nD τ sig) → Buf (Elt F) ℓ)
    (h : ∀ c : Dev nD, Cert.Pre_input_domain.fn (F := F) (m (aLoc c)) (m (bLoc c)) = fun _ => 1#1) : PreOK m :=
  fun d => Cert.Proof.PreDecode.ids_lt _ _ (h d)

/-- The lookup over the kernel's arrangements, flattened, is the row lookup of the arguments. -/
theorem res_eq_take (m : (ℓ : Loc nD τ sig) → Buf (Elt F) ℓ) (c : Dev nD) :
    shapeCast S262144x256 (OUT m c) shapeCasts_S262144x2x128_S262144x256
      = Cert.Proof.Spec.take (m (aLoc c)) (m (bLoc c)) := by
  unfold OUT I0 W0
  exact Cert.Proof.Spec.take3_cast (m (aLoc c)) (m (bLoc c)) shapeCasts_S262144_S32x128x64
    shapeCasts_S8192x256_S8192x2x128 shapeCasts_S262144x2x128_S262144x256

/-- The run, by value: the result is the row lookup of the arguments, the arguments unchanged. -/
theorem run_value (m : (ℓ : Loc nD τ sig) → Buf (Elt F) ℓ) (ρ : Dev nD → PrngReg) (hpre : PreOK m) :
    θ_run (Cert.KernelIdeal.defs (F := F)) (Cert.KernelIdeal.threads (F := F)) ⟨m, fun _ => 0, ρ⟩ (fun r => ∀ c : Dev nD,
      r.2.mem (rLoc c) = Cert.Proof.Spec.take (m (aLoc c)) (m (bLoc c))
      ∧ r.2.mem (aLoc c) = m (aLoc c) ∧ r.2.mem (bLoc c) = m (bLoc c)) :=
  (θ_run (Cert.KernelIdeal.defs (F := F)) _ _).mono (fun _ h c => ⟨(h c).1.trans (res_eq_take m c), (h c).2⟩)
    (run_main m ρ hpre (tileObl m hpre))

/-- The run, as a frame: the arguments unchanged. -/
theorem run_frame (m : (ℓ : Loc nD τ sig) → Buf (Elt F) ℓ) (ρ : Dev nD → PrngReg) (hpre : PreOK m) :
    θ_run (Cert.KernelIdeal.defs (F := F)) (Cert.KernelIdeal.threads (F := F)) ⟨m, fun _ => 0, ρ⟩ (fun r => ∀ c : Dev nD,
      r.2.mem (aLoc c) = m (aLoc c) ∧ r.2.mem (bLoc c) = m (bLoc c)) :=
  (θ_run (Cert.KernelIdeal.defs (F := F)) _ _).mono (fun _ h c => (h c).2) (run_main m ρ hpre (tileObl m hpre))

/-- The precondition bounds every row number of the list. -/
theorem ok_of_pre (m : (ℓ : Loc nD τ sig) → Buf (Elt Ideal) ℓ) (h : Cert.Pre_KernelIdeal m) : PreOK m := ok_of_fn m h

end Cert.Proof.KI

end
-- ==== Proof.KBCommon.lean ====
/-
  The kernel as the launch theorem sees it, and what its handshakes carry.
  Thirty-two workers — vector subcore `s` of SparseCore `c` is worker `2 s + c` — each look up 8192 consecutive tokens:
  worker `k` reads row `k` of the list (as 32 × 128 × 64), reads the table whole (every worker does, so each holds a
  read share of it), and writes rows `8192 k … 8192 k + 8191` of the result. A chunk of 64 rows travels
  table → the worker's row buffer → its row of the SparseCore's shared memory → the result.
  Stated here: the arrays as the kernel finds them (`I0`, `W0`: the list and the table rearranged), each worker's
  pieces of them, and the record `P` of what travels with each handshake — to a worker its row of the list, its
  share of the table, its block of the result and its row of the shared memory; back the same with the block
  holding the lookup (`Spec.take3`) of its tokens.
-/
import proofs.«201408_g9070970929189_cont_9to1c4b_623_24_alg».proof.Defs
import proofs.«201408_g9070970929189_cont_9to1c4b_623_24_alg».proof.Proof.Spec
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic
import proofs.«201408_g9070970929189_cont_9to1c4b_623_24_alg».proof.Proof.Gen.Kernel
import proofs.«201408_g9070970929189_cont_9to1c4b_623_24_alg».proof.Proof.Gen.Kernel.Skeleton

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds library, the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The launch memory and the arrays -/

variable (m : (ℓ : Loc nD τ sig) → Buf (Elt F) ℓ) (ρ : Dev nD → PrngReg)

/-- the list and the table as the program is given them, -/
abbrev aLoc (d : Dev nD) : Loc nD τ sig := (SparseCore.T d).loc main_arg0
abbrev bLoc (d : Dev nD) : Loc nD τ sig := (SparseCore.T d).loc main_arg1
/-- rearranged for the kernel, the kernel's result, and the program's result. -/
abbrev iLoc (d : Dev nD) : Loc nD τ sig := (SparseCore.T d).loc main_v0
abbrev wLoc (d : Dev nD) : Loc nD τ sig := (SparseCore.T d).loc main_v1
abbrev oLoc (d : Dev nD) : Loc nD τ sig := (SparseCore.T d).loc main_v2
abbrev rLoc (d : Dev nD) : Loc nD τ sig := (SparseCore.T d).loc main_v3
/-- SparseCore `c`'s shared vector memory. -/
abbrev shRef (c : Fin τ.nSC) : DevRef τ sig := ⟨.shared, ⟨0, by decide⟩, c⟩
abbrev shLoc (d : Dev nD) (c : Fin τ.nSC) : Loc nD τ sig := (d, shRef c)

/-- The list as the kernel finds it: 32 workers × 128 chunks × 64 entries, in the list's order. -/
def I0 (d : Dev nD) : Buf (Elt F) (iLoc d) := shapeCast S32x128x64 (m (aLoc d)) shapeCasts_S262144_S32x128x64
/-- The table as the kernel finds it: each row as 2 × 128. -/
def W0 (d : Dev nD) : Buf (Elt F) (wLoc d) := shapeCast S8192x2x128 (m (bLoc d)) shapeCasts_S8192x256_S8192x2x128
/-- What the kernel leaves in its result: the lookup, over the kernel's arrangements. -/
def OUT (d : Dev nD) : Buf (Elt F) (oLoc d) := Cert.Proof.Spec.take3 (I0 m d) (W0 m d)

/-! ## The workers' pieces -/

/-- Worker number of vector subcore `s` of SparseCore `c`. -/
def wid (c : Fin 2) (s : Fin 16) : Fin 32 := ⟨2 * s.val + c.val, by have := c.isLt; have := s.isLt; omega⟩

theorem idiv : 32 ∣ S32x128x64.size 0 := ⟨1, rfl⟩
theorem odiv : 32 ∣ S262144x2x128.size 0 := ⟨8192, rfl⟩
theorem sdiv : 16 ∣ S16x3x64x2x128.size 0 := ⟨1, rfl⟩
theorem cdiv : 4096 ∣ S262144x2x128.size 0 := ⟨64, rfl⟩
/-- Row `k` of the list, block `k` (8192 rows) of the result, row `s` of a SparseCore's shared memory. -/
abbrev irow (k : Fin 32) : Rect S32x128x64 := Rect.part (s := S32x128x64) (a₀ := 0) idiv k
abbrev oblk (k : Fin 32) : Rect S262144x2x128 := Rect.part (s := S262144x2x128) (a₀ := 0) odiv k
abbrev srow (s : Fin 16) : Rect S16x3x64x2x128 := Rect.part (s := S16x3x64x2x128) (a₀ := 0) sdiv s
/-- Chunk `n` of the result: its rows `64 n … 64 n + 63`; worker `k`'s chunk `g` is chunk `128 k + g`. -/
abbrev ochk (n : Fin 4096) : Rect S262144x2x128 := Rect.part (s := S262144x2x128) (a₀ := 0) cdiv n
def chk (k : Fin 32) (g : Fin 128) : Fin 4096 := ⟨128 * k.val + g.val, by have := k.isLt; have := g.isLt; omega⟩
abbrev iRowSet (k : Fin 32) : Finset S32x128x64.Idx := ((Memref.whole main_v0_scv : Memref sig .scVector .hbm S32x128x64 .i32).view.slice (irow k)).set
abbrev oBlkSet (k : Fin 32) : Finset S262144x2x128.Idx := ((Memref.whole main_v2_scv : Memref sig .scVector .hbm S262144x2x128 .f32).view.slice (oblk k)).set
abbrev oChkSet (n : Fin 4096) : Finset S262144x2x128.Idx := ((Memref.whole main_v2_scv : Memref sig .scVector .hbm S262144x2x128 .f32).view.slice (ochk n)).set
abbrev sRowSet (s : Fin 16) : Finset S16x3x64x2x128.Idx := ((Memref.whole cc0_scratch2 : Memref sig .scVector .shared S16x3x64x2x128 .f32).view.slice (srow s)).set
/-- Worker `k`'s read share of the table. -/
abbrev wq (k : Fin 32) : PosShare TreeShare := Transfers.shareTok fullShare 32 k

variable [FloatOps F]

/-! ## What the handshakes carry -/

abbrev iRowPts (d : Dev nD) (k : Fin 32) : sProp 𝕄 := iLoc d ↦[iRowSet k]{fullShare} I0 m d
abbrev wShPts (d : Dev nD) (k : Fin 32) : sProp 𝕄 := wLoc d ↦{wq k} W0 m d
abbrev oBlkPts (d : Dev nD) (k : Fin 32) (f : Buf (Elt F) (oLoc d)) : sProp 𝕄 := oLoc d ↦[oBlkSet k]{fullShare} f
abbrev oChkPts (d : Dev nD) (n : Fin 4096) (f : Buf (Elt F) (oLoc d)) : sProp 𝕄 := oLoc d ↦[oChkSet n]{fullShare} f
abbrev sRowPts (d : Dev nD) (c : Fin τ.nSC) (s : Fin 16) (f : Buf (Elt F) (shLoc d c)) : sProp 𝕄 := shLoc d c ↦[sRowSet s]{fullShare} f

/-- Chunk `n` of the result at contents that are the lookup's there. -/
def oChkDone (d : Dev nD) (n : Fin 4096) : sProp 𝕄 := iprop(∃ f, ⌜∀ j ∈ oChkSet n, f j = OUT m d j⌝ ∗ oChkPts d n f)

instance oChkDone_storable (d : Dev nD) (n : Fin 4096) : BI.Storable (upEmb : UEmb _ 𝕄) (oChkDone (F := F) m d n) := by
  unfold oChkDone; infer_instance

/-- What worker `k` is handed of the HBM arrays: its row of the list, its share of the table, and its block of the
    result as the launch left it, chunk by chunk (128 chunks of 64 rows); -/
abbrev goH (d : Dev nD) (k : Fin 32) : sProp 𝕄 :=
  iprop(iRowPts m d k ∗ wShPts m d k ∗ bigSep Finset.univ fun g : Fin 128 => oChkPts d (chk k g) (m (oLoc d)))
/-- and what it hands back: the same, each chunk now holding the lookup of its tokens. -/
abbrev tdH (d : Dev nD) (k : Fin 32) : sProp 𝕄 :=
  iprop(iRowPts m d k ∗ wShPts m d k
    ∗ bigSep Finset.univ fun g : Fin 128 => oChkDone m d (chk k g))

/-- Each SparseCore takes its sixteen workers' pieces; each worker its own and its row of the SparseCore's shared
    memory, and brings them back. -/
def P : (K (F := F)).Pay (nD := nD) (Val := Elt F) (Name := ℕ) (U := UU) where
  st := fun q d c => match q with
    | 0 => bigSep Finset.univ fun s : Fin 16 => goH m d (wid (Fin.cast nCore_zero c) s)
  dn := fun q d c => match q with
    | 0 => bigSep Finset.univ fun s : Fin 16 => tdH m d (wid (Fin.cast nCore_zero c) s)
  go := fun q d c i => match q with
    | 0 => iprop(goH m d (wid (Fin.cast nCore_zero c) (Fin.cast nSub_zero i))
        ∗ ∃ f, sRowPts d ((K (F := F)).core 0 c) (Fin.cast nSub_zero i) f)
  td := fun q d c i => match q with
    | 0 => iprop(tdH m d (wid (Fin.cast nCore_zero c) (Fin.cast nSub_zero i))
        ∗ ∃ f, sRowPts d ((K (F := F)).core 0 c) (Fin.cast nSub_zero i) f)
  x := fun _ _ => iprop(emp)

set_option maxHeartbeats 4000000 in
set_option synthInstance.maxHeartbeats 400000 in
instance P_storable : (P (F := F) m).IsStorable where
  st q d c := match q with
    | 0 => (inferInstance : BI.Storable (upEmb : UEmb _ 𝕄) (bigSep Finset.univ fun s : Fin 16 => goH m d (wid (Fin.cast nCore_zero c) s)))
  dn q d c := match q with
    | 0 => (inferInstance : BI.Storable (upEmb : UEmb _ 𝕄) (bigSep Finset.univ fun s : Fin 16 => tdH m d (wid (Fin.cast nCore_zero c) s)))
  go q d c i := match q with
    | 0 => (inferInstance : BI.Storable (upEmb : UEmb _ 𝕄) iprop(goH m d (wid (Fin.cast nCore_zero c) (Fin.cast nSub_zero i))
        ∗ ∃ f, sRowPts d ((K (F := F)).core 0 c) (Fin.cast nSub_zero i) f))
  td q d c i := match q with
    | 0 => (inferInstance : BI.Storable (upEmb : UEmb _ 𝕄) iprop(tdH m d (wid (Fin.cast nCore_zero c) (Fin.cast nSub_zero i))
        ∗ ∃ f, sRowPts d ((K (F := F)).core 0 c) (Fin.cast nSub_zero i) f))

/-- What the proof asks of the launch memory: every row number of the list is below the table's height. -/
def PreOK : Prop := ∀ (d : Dev nD) (j : S262144.Idx), (m (aLoc d) j).toNat < 8192

end Cert.Proof.KB

end
-- ==== Proof.KBSplit.lean ====
/-
  How a SparseCore's pieces split among its sixteen workers and gather again.
  What a SparseCore takes at the start of the call is already its workers' pieces of the list, the table and the
  result, one worker's after another's: those pass through unchanged. The SparseCore's shared memory is among its
  sequencer's own buffers, whole and at some contents; its sixteen rows (the parts of its first axis) are disjoint
  and cover it, so it is the sixteen rows, each at those contents; every worker is handed its row. Coming back,
  each row is held at contents of its own; one array agrees with each on its row, and the rows are the shared memory
  whole again, at that array.
-/
import proofs.«201408_g9070970929189_cont_9to1c4b_623_24_alg».proof.Proof.KBCommon

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

/-! ## The shared memory's rows -/

theorem sRowSet_eq (s : Fin 16) : sRowSet s = (srow s).set := by
  show ((View.whole (cc0_scratch2 : Ref sig .scVector)).slice (srow s)).set = _
  rw [View.set_slice]; exact Finset.map_refl

theorem sRows_disjoint : ∀ i ∈ (Finset.univ : Finset (Fin 16)), ∀ j ∈ (Finset.univ : Finset (Fin 16)), i ≠ j → Disjoint (sRowSet i) (sRowSet j) :=
  fun i _ j _ h => by rw [sRowSet_eq, sRowSet_eq]; exact Rect.part_disjoint sdiv h

theorem sRows_cover : (Finset.univ : Finset (Fin 16)).biUnion sRowSet = Finset.univ :=
  (Finset.biUnion_congr rfl fun i _ => sRowSet_eq i).trans (Rect.biUnion_part sdiv)

/-- The shared memory whole is its sixteen rows. -/
theorem shPts_rows (d : Dev nD) (c : Fin τ.nSC) (f : Buf (Elt F) (shLoc d c)) :
    (shLoc d c ↦{fullShare} f : sProp 𝕄) = bigSep Finset.univ fun s : Fin 16 => sRowPts d c s f := by
  unfold sRowPts
  rw [← pointsTo_biUnion Finset.univ (ℓ := shLoc d c) sRowSet sRows_disjoint, sRows_cover]; try rfl

/-- The shared memory is among the sequencer's own buffers: it is it, at some contents, and the rest. -/
theorem ownBufs_S (d : Dev nD) (c : Fin τ.nSC) :
    (ownBufs (S d c) : sProp 𝕄)
      = iprop((∃ f, shLoc d c ↦{fullShare} f) ∗ bigSep ((ownRefs (τ := τ) (.scScalar c)).erase (shRef c)) fun b => iprop(∃ f, ((d, b) : Loc nD τ sig) ↦{fullShare} f)) := by
  unfold SparseCore.Cfg.ownBufs
  have h : shRef c ∈ ownRefs (τ := τ) (sig := sig) (.scScalar c) := (mem_ownRefs (p := Proc.scScalar c) (b := shRef c)).mpr rfl
  exact SparseCore.bigSep_erase' h

/-- Over the call's own numbering of a SparseCore's tiles. -/
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

variable [FloatOps F]

/-- The rows, each at contents of its own, are the shared memory whole at some contents. -/
theorem shRows_join (d : Dev nD) (c : Fin τ.nSC) :
    (bigSep Finset.univ fun s : Fin 16 => iprop(∃ f, sRowPts (F := F) d c s f)) ⊢ (iprop(∃ f, shLoc d c ↦{fullShare} f) : sProp 𝕄) := by
  refine (bigSep_exists_pi Finset.univ (fun s (f : Buf (Elt F) (shLoc d c)) => sRowPts d c s f)).trans ?_
  iintro ⟨%fs, H⟩
  unfold sRowPts
  ihave H' := (pointsTo_biUnion_join Finset.univ sRowSet fs (fs 0) sRows_disjoint) $$ H
  icases H' with ⟨%g, -, Hg⟩
  rw [sRows_cover]
  iexists g; iexact Hg

/-! ## What the record says at the one call -/

theorem P_st (d : Dev nD) (c : Fin ((K (F := F)).nCore 0)) :
    (P m).st 0 d c = bigSep Finset.univ fun s : Fin 16 => goH m d (wid (Fin.cast nCore_zero c) s) := by unfold P; rfl
theorem P_dn (d : Dev nD) (c : Fin ((K (F := F)).nCore 0)) :
    (P m).dn 0 d c = bigSep Finset.univ fun s : Fin 16 => tdH m d (wid (Fin.cast nCore_zero c) s) := by unfold P; rfl
theorem P_go (d : Dev nD) (c : Fin ((K (F := F)).nCore 0)) (i : Fin ((K (F := F)).nSub 0)) :
    (P m).go 0 d c i = iprop(goH m d (wid (Fin.cast nCore_zero c) (Fin.cast nSub_zero i))
      ∗ ∃ f, sRowPts d ((K (F := F)).core 0 c) (Fin.cast nSub_zero i) f) := by unfold P; rfl
theorem P_td (d : Dev nD) (c : Fin ((K (F := F)).nCore 0)) (i : Fin ((K (F := F)).nSub 0)) :
    (P m).td 0 d c i = iprop(tdH m d (wid (Fin.cast nCore_zero c) (Fin.cast nSub_zero i))
      ∗ ∃ f, sRowPts d ((K (F := F)).core 0 c) (Fin.cast nSub_zero i) f) := by unfold P; rfl

/-! ## The split -/

/-- What the sixteen workers of a SparseCore are handed: their pieces of the arrays, and the shared memory's rows. -/
theorem go_eq (d : Dev nD) (c : Fin ((K (F := F)).nCore 0)) :
    (bigSep Finset.univ fun i : Fin ((K (F := F)).nSub 0) => (P m).go 0 d c i)
      = iprop((bigSep Finset.univ fun s : Fin 16 => goH m d (wid (Fin.cast nCore_zero c) s))
          ∗ bigSep Finset.univ fun s : Fin 16 => iprop(∃ f, sRowPts (F := F) d ((K (F := F)).core 0 c) s f)) :=
  (bigSep_congr fun i _ => P_go m d c i).trans
    ((bigSep_tasks (F := F) (fun s => iprop(goH m d (wid (Fin.cast nCore_zero c) s) ∗ ∃ f, sRowPts d ((K (F := F)).core 0 c) s f))).trans
      (bigSep_sep' Finset.univ (fun s : Fin 16 => goH m d (wid (Fin.cast nCore_zero c) s))
        (fun s : Fin 16 => iprop(∃ f, sRowPts (F := F) d ((K (F := F)).core 0 c) s f))))

/-- What they bring back. -/
theorem td_eq (d : Dev nD) (c : Fin ((K (F := F)).nCore 0)) :
    (bigSep Finset.univ fun i : Fin ((K (F := F)).nSub 0) => (P m).td 0 d c i)
      = iprop((bigSep Finset.univ fun s : Fin 16 => tdH m d (wid (Fin.cast nCore_zero c) s))
          ∗ bigSep Finset.univ fun s : Fin 16 => iprop(∃ f, sRowPts (F := F) d ((K (F := F)).core 0 c) s f)) :=
  (bigSep_congr fun i _ => P_td m d c i).trans
    ((bigSep_tasks (F := F) (fun s => iprop(tdH m d (wid (Fin.cast nCore_zero c) s) ∗ ∃ f, sRowPts d ((K (F := F)).core 0 c) s f))).trans
      (bigSep_sep' Finset.univ (fun s : Fin 16 => tdH m d (wid (Fin.cast nCore_zero c) s))
        (fun s : Fin 16 => iprop(∃ f, sRowPts (F := F) d ((K (F := F)).core 0 c) s f))))

theorem vecSplit : (K (F := F)).VecSplit (P m) 0 := by
  intro d c
  rw [go_eq, td_eq, P_st, P_dn, ownBufs_S]
  iintro ⟨Hst, ⟨%fsh, Hsh⟩, Hrest⟩; imodintro
  isplitl [Hst Hsh]
  · isplitl [Hst]; · iexact Hst
    ihave Hsh' := ((Entails.of_eq (shPts_rows d ((K (F := F)).core 0 c) fsh)).trans (SparseCore.ent (bigSep_mono (Φ := fun s => sRowPts (F := F) d ((K (F := F)).core 0 c) s fsh)
      (Ψ := fun s => iprop(∃ f, sRowPts (F := F) d ((K (F := F)).core 0 c) s f))
      fun s _ => BI.BIClass.exists_intro (Φ := fun f => sRowPts (F := F) d ((K (F := F)).core 0 c) s f) fsh))) $$ Hsh
    iexact Hsh'
  iintro ⟨Htd, Hsh⟩
  isplitl [Htd]; · iexact Htd
  isplitl [Hsh]; · iapply (shRows_join d); iexact Hsh
  iexact Hrest

end Cert.Proof.KB

end
-- ==== Proof.KBPieces.lean ====
/-
  The arrays split among the thirty-two workers, and gathered again.
  The list (32 × 128 × 64) is its thirty-two rows, the result (262144 × 2 × 128) its 4096 chunks of 64 rows:
  the parts of the first axis are disjoint and cover it. Worker `k` is handed the 128 consecutive chunks
  `128 k … 128 k + 127`, one by one; (worker, chunk of the worker) and the chunk's number are in bijection. The table is read whole by every worker, so it goes out as
  thirty-two read shares, the remainder staying behind. The workers are numbered two ways — `k` below 32, or
  vector subcore `s` of SparseCore `c` with `k = 2 s + c` — and the two numberings are in bijection, so what the two
  SparseCores take for their sixteen workers each is what the thirty-two workers take. Coming back, every chunk of
  the result holds the lookup on its own rows; the chunks cover the result, which therefore holds the lookup everywhere.
-/
import proofs.«201408_g9070970929189_cont_9to1c4b_623_24_alg».proof.Proof.KBSplit

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

/-! ## The two numberings of the workers -/

/-- Vector subcore `s` of SparseCore `c` is worker `2 s + c`: a bijection. -/
def widEquiv : Fin 2 × Fin 16 ≃ Fin 32 where
  toFun p := wid p.1 p.2
  invFun k := (⟨k.val % 2, Nat.mod_lt _ (by decide)⟩, ⟨k.val / 2, by have := k.isLt; omega⟩)
  left_inv p := by
    rcases p with ⟨c, s⟩
    exact Prod.ext (Fin.ext (by show (2 * s.val + c.val) % 2 = c.val; have := c.isLt; omega))
      (Fin.ext (by show (2 * s.val + c.val) / 2 = s.val; have := c.isLt; omega))
  right_inv k := Fin.ext (by show 2 * (k.val / 2) + k.val % 2 = k.val; omega)

/-- Over the SparseCores of the call and the sixteen workers of each, or over the thirty-two workers: the same. -/
theorem bigSep_workers (Φ : Fin 32 → sProp 𝕄) :
    (bigSep Finset.univ fun c : Fin ((K (F := F)).nCore 0) => bigSep Finset.univ fun s : Fin 16 => Φ (wid (Fin.cast nCore_zero c) s))
      = bigSep Finset.univ Φ := by
  rw [bigSep_univ_equiv widEquiv Φ, bigSep_univ_prod (fun p : Fin 2 × Fin 16 => Φ (widEquiv p))]
  exact bigSep_congr fun c _ => bigSep_congr fun s _ => congrArg Φ (Fin.ext rfl)

/-- Chunk `g` of worker `k` is chunk `128 k + g` of the result: a bijection. -/
def chkEquiv : Fin 32 × Fin 128 ≃ Fin 4096 where
  toFun p := chk p.1 p.2
  invFun n := (⟨n.val / 128, by have := n.isLt; omega⟩, ⟨n.val % 128, Nat.mod_lt _ (by decide)⟩)
  left_inv p := by
    rcases p with ⟨k, g⟩
    exact Prod.ext (Fin.ext (by show (128 * k.val + g.val) / 128 = k.val; have := g.isLt; omega))
      (Fin.ext (by show (128 * k.val + g.val) % 128 = g.val; have := g.isLt; omega))
  right_inv n := Fin.ext (by show 128 * (n.val / 128) + n.val % 128 = n.val; omega)

/-- Over the workers and the 128 chunks of each, or over the 4096 chunks: the same. -/
theorem bigSep_chunks (Φ : Fin 4096 → sProp 𝕄) :
    (bigSep Finset.univ fun k : Fin 32 => bigSep Finset.univ fun g : Fin 128 => Φ (chk k g)) = bigSep Finset.univ Φ := by
  rw [bigSep_univ_equiv chkEquiv Φ, bigSep_univ_prod (fun p : Fin 32 × Fin 128 => Φ (chkEquiv p))]
  exact bigSep_congr fun k _ => bigSep_congr fun g _ => rfl

/-! ## The list's rows, the result's chunks -/

theorem iRowSet_eq (k : Fin 32) : iRowSet k = (irow k).set := by
  show ((View.whole (main_v0_scv : Ref sig .scVector)).slice (irow k)).set = _
  rw [View.set_slice]; exact Finset.map_refl
theorem oChkSet_eq (n : Fin 4096) : oChkSet n = (ochk n).set := by
  show ((View.whole (main_v2_scv : Ref sig .scVector)).slice (ochk n)).set = _
  rw [View.set_slice]; exact Finset.map_refl

theorem iRows_disjoint : ∀ i ∈ (Finset.univ : Finset (Fin 32)), ∀ j ∈ (Finset.univ : Finset (Fin 32)), i ≠ j → Disjoint (iRowSet i) (iRowSet j) :=
  fun i _ j _ h => by rw [iRowSet_eq, iRowSet_eq]; exact Rect.part_disjoint idiv h
theorem oChks_disjoint : ∀ i ∈ (Finset.univ : Finset (Fin 4096)), ∀ j ∈ (Finset.univ : Finset (Fin 4096)), i ≠ j → Disjoint (oChkSet i) (oChkSet j) :=
  fun i _ j _ h => by rw [oChkSet_eq, oChkSet_eq]; exact Rect.part_disjoint cdiv h
theorem iRows_cover : (Finset.univ : Finset (Fin 32)).biUnion iRowSet = Finset.univ :=
  (Finset.biUnion_congr rfl fun i _ => iRowSet_eq i).trans (Rect.biUnion_part idiv)
theorem oChks_cover : (Finset.univ : Finset (Fin 4096)).biUnion oChkSet = Finset.univ :=
  (Finset.biUnion_congr rfl fun i _ => oChkSet_eq i).trans (Rect.biUnion_part cdiv)

/-- The list whole is its thirty-two rows; -/
theorem iPts_rows (d : Dev nD) (f : Buf (Elt F) (iLoc d)) :
    (iLoc d ↦{fullShare} f : sProp 𝕄) = bigSep Finset.univ fun k : Fin 32 => iLoc d ↦[iRowSet k]{fullShare} f := by
  rw [← pointsTo_biUnion Finset.univ (ℓ := iLoc d) iRowSet iRows_disjoint, iRows_cover]; try rfl
/-- the result whole its 4096 chunks. -/
theorem oPts_chks (d : Dev nD) (f : Buf (Elt F) (oLoc d)) :
    (oLoc d ↦{fullShare} f : sProp 𝕄) = bigSep Finset.univ fun n : Fin 4096 => oChkPts d n f := by
  unfold oChkPts
  rw [← pointsTo_biUnion Finset.univ (ℓ := oLoc d) oChkSet oChks_disjoint, oChks_cover]; try rfl

variable [FloatOps F]

/-- A chunk that holds the lookup on its own rows is the chunk of the lookup. -/
theorem oChk_out (d : Dev nD) (n : Fin 4096) : (oChkDone m d n : sProp 𝕄) ⊢ oChkPts d n (OUT m d) := by
  unfold oChkDone
  iintro ⟨%f, %h, H⟩
  iapply (Entails.of_eq (pointsTo_congr (ℓ := oLoc d) (q := fullShare) h)); iexact H

/-! ## What the call takes and brings back, over the thirty-two workers -/

theorem st0_eq (d : Dev nD) :
    (bigSep Finset.univ fun c : Fin ((K (F := F)).nCore 0) => (P m).st 0 d c)
      = iprop((bigSep Finset.univ fun k : Fin 32 => iRowPts m d k) ∗ (bigSep Finset.univ fun k : Fin 32 => wShPts m d k)
          ∗ bigSep Finset.univ fun n : Fin 4096 => oChkPts d n (m (oLoc d))) :=
  (bigSep_congr fun c _ => P_st m d c).trans ((bigSep_workers (F := F) (goH m d)).trans
    ((bigSep_sep' Finset.univ (fun k : Fin 32 => iRowPts m d k)
        (fun k : Fin 32 => iprop(wShPts m d k ∗ bigSep Finset.univ fun g : Fin 128 => oChkPts d (chk k g) (m (oLoc d))))).trans
      (congrArg (fun X => iprop((bigSep Finset.univ fun k : Fin 32 => iRowPts m d k) ∗ X))
        ((bigSep_sep' Finset.univ (fun k : Fin 32 => wShPts m d k)
            (fun k : Fin 32 => bigSep Finset.univ fun g : Fin 128 => oChkPts d (chk k g) (m (oLoc d)))).trans
          (congrArg (fun Y => iprop((bigSep Finset.univ fun k : Fin 32 => wShPts m d k) ∗ Y))
            (bigSep_chunks (F := F) (fun n : Fin 4096 => oChkPts d n (m (oLoc d)))))))))

theorem dn0_eq (d : Dev nD) :
    (bigSep Finset.univ fun c : Fin ((K (F := F)).nCore 0) => (P m).dn 0 d c)
      = iprop((bigSep Finset.univ fun k : Fin 32 => iRowPts m d k) ∗ (bigSep Finset.univ fun k : Fin 32 => wShPts m d k)
          ∗ bigSep Finset.univ fun n : Fin 4096 => oChkDone m d n) :=
  (bigSep_congr fun c _ => P_dn m d c).trans ((bigSep_workers (F := F) (tdH m d)).trans
    ((bigSep_sep' Finset.univ (fun k : Fin 32 => iRowPts m d k)
        (fun k : Fin 32 => iprop(wShPts m d k ∗ bigSep Finset.univ fun g : Fin 128 => oChkDone m d (chk k g)))).trans
      (congrArg (fun X => iprop((bigSep Finset.univ fun k : Fin 32 => iRowPts m d k) ∗ X))
        ((bigSep_sep' Finset.univ (fun k : Fin 32 => wShPts m d k)
            (fun k : Fin 32 => bigSep Finset.univ fun g : Fin 128 => oChkDone m d (chk k g))).trans
          (congrArg (fun Y => iprop((bigSep Finset.univ fun k : Fin 32 => wShPts m d k) ∗ Y))
            (bigSep_chunks (F := F) (fun n : Fin 4096 => oChkDone m d n)))))))

/-- From the three arrays whole — the list and the table as the kernel finds them, the result as the launch left it —
    what the two SparseCores take; the remainder of the table stays. -/
theorem st_intro (d : Dev nD) :
    (iprop((iLoc d ↦{fullShare} I0 m d) ∗ (wLoc d ↦{fullShare} W0 m d) ∗ oLoc d ↦{fullShare} m (oLoc d)) : sProp 𝕄)
      ⊢ iprop((bigSep Finset.univ fun c : Fin ((K (F := F)).nCore 0) => (P m).st 0 d c)
          ∗ wLoc d ↦{Transfers.shareDrop fullShare 32} W0 m d) := by
  rw [st0_eq, iPts_rows, oPts_chks]
  iintro ⟨Hi, Hw, Ho⟩
  ihave Hw' := (Transfers.pointsTo_toks_split (ℓ := wLoc d) (S := Finset.univ) (f := W0 m d) fullShare 32) $$ Hw
  icases Hw' with ⟨Hrem, Hsh⟩
  isplitr [Hrem]
  · isplitl [Hi]; · iexact Hi
    isplitl [Hsh]; · iexact Hsh
    iexact Ho
  iexact Hrem

/-- From what they bring back and the remainder: the list and the table whole again, the result holding the lookup. -/
theorem dn_elim (d : Dev nD) :
    (iprop((bigSep Finset.univ fun c : Fin ((K (F := F)).nCore 0) => (P m).dn 0 d c)
        ∗ wLoc d ↦{Transfers.shareDrop fullShare 32} W0 m d) : sProp 𝕄)
      ⊢ iprop((iLoc d ↦{fullShare} I0 m d) ∗ (wLoc d ↦{fullShare} W0 m d) ∗ oLoc d ↦{fullShare} OUT m d) := by
  rw [dn0_eq, iPts_rows, oPts_chks]
  iintro ⟨⟨Hi, Hsh, Ho⟩, Hrem⟩
  isplitl [Hi]; · iexact Hi
  isplitl [Hsh Hrem]
  · iapply (Transfers.pointsTo_toks_join (ℓ := wLoc d) (S := Finset.univ) (f := W0 m d) fullShare 32)
    isplitl [Hrem]; · iexact Hrem
    iexact Hsh
  iapply (SparseCore.ent (bigSep_mono (Φ := fun n : Fin 4096 => oChkDone m d n)
    (Ψ := fun n : Fin 4096 => oChkPts d n (OUT m d)) fun n _ => oChk_out m d n))
  iexact Ho

end Cert.Proof.KB

end
-- ==== Proof.KBLaunch.lean ====
/-
  The launch: from each worker's body to the run of the whole program.
  @main on a device's TensorCore rearranges the list (as 32 × 128 × 64) and the table (each row as 2 × 128), hands the
  two SparseCores their workers' pieces — the list's rows, read shares of the table, the result's blocks — waits for
  them, and rearranges the result (each row as 256). The result comes back holding the lookup on every block, so
  whole; the list and the table come back as they went, and the arguments were only read. The kernel's transfers are
  all a worker's own, waited for by the worker: the ghost state is the handshakes' rounds beside the transfers'
  counters, and no thread owes a unit across a wait of the kernel's own.
-/
import proofs.«201408_g9070970929189_cont_9to1c4b_623_24_alg».proof.Proof.KBPieces

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

/-! ## The launch element of the ghost state -/

def u₀ : UU := (initOf (K (F := F)).hsCells (K (F := F)).hsToks, 1)

theorem bigSep_emp' {I : Type} (s : Finset I) : (bigSep s fun _ => iprop(emp)) = (iprop(emp) : sProp 𝕄) := bigSep_emp_const s

/-! ## @main's three rearrangements -/

/-- The six arrays of @main as device buffers. -/
abbrev a' : DevRef τ sig := Proc.devRef .tc (main_arg0 : Ref sig .tc)
abbrev b' : DevRef τ sig := Proc.devRef .tc (main_arg1 : Ref sig .tc)
abbrev i' : DevRef τ sig := Proc.devRef .tc (main_v0 : Ref sig .tc)
abbrev w' : DevRef τ sig := Proc.devRef .tc (main_v1 : Ref sig .tc)
abbrev o' : DevRef τ sig := Proc.devRef .tc (main_v2 : Ref sig .tc)
abbrev r' : DevRef τ sig := Proc.devRef .tc (main_v3 : Ref sig .tc)

/-- The list rearranged, the table rearranged, the result rearranged. -/
abbrev opI : HloOp τ sig (Elt F) := StableHlo.reshape main_arg0 main_v0 rfl shapeCasts_S262144_S32x128x64
abbrev opW : HloOp τ sig (Elt F) := StableHlo.reshape main_arg1 main_v1 rfl shapeCasts_S8192x256_S8192x2x128
abbrev opR : HloOp τ sig (Elt F) := StableHlo.reshape main_v2 main_v3 rfl shapeCasts_S262144x2x128_S262144x256

/-- The TensorCore's unscoped buffers are the six. -/
theorem unscopedBufs_eq (d : Dev nD) (W : (b : Ref sig .tc) → Buf (Elt F) ((d.tc : Thread nD τ).loc b)) :
    (unscopedBufs d W : sProp 𝕄)
      = iprop((aLoc d ↦{fullShare} W main_arg0) ∗ (bLoc d ↦{fullShare} W main_arg1) ∗ (iLoc d ↦{fullShare} W main_v0)
          ∗ (wLoc d ↦{fullShare} W main_v1) ∗ (oLoc d ↦{fullShare} W main_v2) ∗ rLoc d ↦{fullShare} W main_v3) := by
  unfold unscopedBufs
  rw [show (Finset.univ.filter fun b : Ref sig .tc => ¬ b.isScoped) = {main_arg0, main_arg1, main_v0, main_v1, main_v2, main_v3} by decide,
    SparseCore.bigSep_insert' (by decide), SparseCore.bigSep_insert' (by decide), SparseCore.bigSep_insert' (by decide),
    SparseCore.bigSep_insert' (by decide), SparseCore.bigSep_insert' (by decide), bigSep_singleton]

/-- Each rearrangement's buffers held at a valuation: the one read, the one written. -/
theorem opI_bufs (d : Dev nD) (W : Valuation τ sig (Elt F)) :
    (bigSep (opI (F := F)).bufs (fun b => ((d, b) : Loc nD τ sig) ↦{fullShare} W b) : sProp 𝕄)
      = iprop((aLoc d ↦{fullShare} W a') ∗ iLoc d ↦{fullShare} W i') := by
  show bigSep ({a', i'} : Finset (DevRef τ sig)) (fun b => ((d, b) : Loc nD τ sig) ↦{fullShare} W b) = _
  rw [SparseCore.bigSep_insert' (by decide), bigSep_singleton]
theorem opW_bufs (d : Dev nD) (W : Valuation τ sig (Elt F)) :
    (bigSep (opW (F := F)).bufs (fun b => ((d, b) : Loc nD τ sig) ↦{fullShare} W b) : sProp 𝕄)
      = iprop((bLoc d ↦{fullShare} W b') ∗ wLoc d ↦{fullShare} W w') := by
  show bigSep ({b', w'} : Finset (DevRef τ sig)) (fun b => ((d, b) : Loc nD τ sig) ↦{fullShare} W b) = _
  rw [SparseCore.bigSep_insert' (by decide), bigSep_singleton]
theorem opR_bufs (d : Dev nD) (W : Valuation τ sig (Elt F)) :
    (bigSep (opR (F := F)).bufs (fun b => ((d, b) : Loc nD τ sig) ↦{fullShare} W b) : sProp 𝕄)
      = iprop((oLoc d ↦{fullShare} W o') ∗ rLoc d ↦{fullShare} W r') := by
  show bigSep ({o', r'} : Finset (DevRef τ sig)) (fun b => ((d, b) : Loc nD τ sig) ↦{fullShare} W b) = _
  rw [SparseCore.bigSep_insert' (by decide), bigSep_singleton]

/-- The device's valuation at the launch; -/
def V0 (d : Dev nD) : Valuation τ sig (Elt F) := fun b => m (d, b)

theorem opI_arg (d : Dev nD) : (opI (F := F)).result (V0 m d) a' = m (aLoc d) :=
  (opI (F := F)).result_of_not_mem (V0 m d) (b := a') (show a' ∉ ({i'} : Finset (DevRef τ sig)) by decide)
theorem opI_res (d : Dev nD) : (opI (F := F)).result (V0 m d) i' = I0 m d :=
  (StableHlo.reshape_result (Val := Elt F) main_arg0 main_v0 rfl shapeCasts_S262144_S32x128x64 _ _ (V0 m d)).trans rfl
theorem opW_arg (d : Dev nD) : (opW (F := F)).result (V0 m d) b' = m (bLoc d) :=
  (opW (F := F)).result_of_not_mem (V0 m d) (b := b') (show b' ∉ ({w'} : Finset (DevRef τ sig)) by decide)
theorem opW_res (d : Dev nD) : (opW (F := F)).result (V0 m d) w' = W0 m d :=
  (StableHlo.reshape_result (Val := Elt F) main_arg1 main_v1 rfl shapeCasts_S8192x256_S8192x2x128 _ _ (V0 m d)).trans rfl

variable [FloatOps F]

/-- The program's result: the lookup, each row as 256. -/
def RES (d : Dev nD) : Buf (Elt F) (rLoc d) := shapeCast S262144x256 (OUT m d) shapeCasts_S262144x2x128_S262144x256

/-- and after the call: the kernel's result holds the lookup. -/
def V1 (d : Dev nD) : Valuation τ sig (Elt F) := Function.update (V0 m d) o' (OUT m d)

theorem V1_o (d : Dev nD) : V1 m d o' = OUT m d := Function.update_self _ _ _
theorem V1_r (d : Dev nD) : V1 m d r' = m (rLoc d) := Function.update_of_ne (show r' ≠ o' by decide) _ _
theorem opR_arg (d : Dev nD) : (opR (F := F)).result (V1 m d) o' = OUT m d :=
  ((opR (F := F)).result_of_not_mem (V1 m d) (b := o') (show o' ∉ ({r'} : Finset (DevRef τ sig)) by decide)).trans (V1_o m d)
theorem opR_res (d : Dev nD) : (opR (F := F)).result (V1 m d) r' = RES m d :=
  (StableHlo.reshape_result (Val := Elt F) main_v2 main_v3 rfl shapeCasts_S262144x2x128_S262144x256 _ _ (V1 m d)).trans
    (by rw [V1_o]; rfl)

/-! ## The launch element, dealt -/

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## @main on the TensorCore -/

/-- What @main leaves the claim: the arguments as given, the result holding the lookup. -/
abbrev FIN (d : Dev nD) : sProp 𝕄 := iprop((aLoc d ↦{fullShare} m (aLoc d)) ∗ (bLoc d ↦{fullShare} m (bLoc d)) ∗ rLoc d ↦{fullShare} RES m d)

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq]
  simp only [main, wp_bind, wp_pure]
  iintro ⟨#Hctx, Hst, ⟨Hb, ⟨Ha, Hbb, Hi, Hw, Ho, Hr⟩, -, -⟩, -⟩
  -- the list rearranged
  iapply (wp_hlo 𝒱 (SparseCore.T d) none Set.univ (op := opI) (q := fun _ => fullShare) (F := V0 m d) (fun _ _ => rfl)) $$ [Hb Ha Hi]
  · isplitl [Hb]; · iexact Hb
    rw [opI_bufs]
    isplitl [Ha]; · iexact Ha
    iexact Hi
  rw [opI_bufs, opI_arg, opI_res]
  iintro ⟨Hb, Ha, Hi⟩
  rw [wp_ret]; imodintro
  -- the table rearranged
  iapply (wp_hlo 𝒱 (SparseCore.T d) none Set.univ (op := opW) (q := fun _ => fullShare) (F := V0 m d) (fun _ _ => rfl)) $$ [Hb Hbb Hw]
  · isplitl [Hb]; · iexact Hb
    rw [opW_bufs]
    isplitl [Hbb]; · iexact Hbb
    iexact Hw
  rw [opW_bufs, opW_arg, opW_res]
  iintro ⟨Hb, Hbb, Hw⟩
  rw [wp_ret]; imodintro
  -- the call: every worker its pieces, the remainder of the table kept
  ihave Hsplit := (st_intro m d) $$ [Hi Hw Ho]
  · isplitl [Hi]; · iexact Hi
    isplitl [Hw]; · iexact Hw
    iexact Ho
  icases Hsplit with ⟨Hgo, Hrem⟩
  iapply ((K (F := F)).wp_run (D (F := F)) 𝒱 (EH := EH) (P := P m) κ d 0) $$ [Hst Hgo Hrem Hb Ha Hbb Hr]
  isplitr; · iexact Hctx
  isplitl [Hst]; · iexact Hst
  isplitl [Hgo]; · iexact Hgo
  iintro ⟨Hst, Hdn⟩
  ihave Hjoin := (dn_elim m d) $$ [Hdn Hrem]
  · isplitl [Hdn]; · iexact Hdn
    iexact Hrem
  icases Hjoin with ⟨Hi, Hw, Ho⟩
  -- the result rearranged
  iapply (wp_hlo 𝒱 (SparseCore.T d) none Set.univ (op := opR) (q := fun _ => fullShare) (F := V1 m d) (fun _ _ => rfl)) $$ [Hb Ho Hr]
  · isplitl [Hb]; · iexact Hb
    rw [opR_bufs, V1_o, V1_r]
    isplitl [Ho]; · iexact Ho
    iexact Hr
  rw [opR_bufs, opR_arg, opR_res]
  iintro ⟨Hb, Ho, Hr⟩
  rw [wp_ret]; imodintro; imodintro
  isplitl [Hst]; · iexact Hst
  isplitl [Ha]; · iexact Ha
  isplitl [Hbb]; · iexact Hbb
  iexact Hr

/-! ## The final memory -/

def fq (d : Dev nD) (s' : Phys nD τ sig (Elt F)) : Prop :=
  s'.mem.mem (rLoc d) = RES m d ∧ s'.mem.mem (aLoc d) = m (aLoc d) ∧ s'.mem.mem (bLoc d) = m (bLoc d)

set_option maxRecDepth 16384 in
theorem hfin (d : Dev nD) (s' : Phys nD τ sig (Elt F)) : iprop(FIN m d ∗ SI s') ⊢ (⌜fq m d s'⌝ : sProp 𝕄) := by
  iintro ⟨⟨Ha, Hbb, Hr⟩, HSI⟩
  ihave H := (persistent_entails_right (SI_pointsTo_agree (st := s') (ℓ := aLoc d) (I := Finset.univ) (q := fullShare) (f := m (aLoc d)))) $$ [HSI Ha]
  · isplitl [HSI] <;> iassumption
  icases H with ⟨%h1, HSI, -⟩
  ihave H := (persistent_entails_right (SI_pointsTo_agree (st := s') (ℓ := bLoc d) (I := Finset.univ) (q := fullShare) (f := m (bLoc d)))) $$ [HSI Hbb]
  · isplitl [HSI] <;> iassumption
  icases H with ⟨%h2, HSI, -⟩
  ihave H := (SI_pointsTo_agree (st := s') (ℓ := rLoc d) (I := Finset.univ) (q := fullShare) (f := RES m d)) $$ [HSI Hr]
  · isplitl [HSI] <;> iassumption
  icases H with %h3
  ipureintro
  exact ⟨funext fun i => h3 i (Finset.mem_univ i), funext fun i => h1 i (Finset.mem_univ i), funext fun i => h2 i (Finset.mem_univ i)⟩

/-! ## The program's run -/

theorem run_main [∀ e, Nonempty (Elt F e)] (hpre : PreOK m) (hobl : (K (F := F)).TileObl (D (F := F)) 𝒱 (P m) v₀ 0) :
    θ_run (Cert.Kernel.defs (F := F)) (Cert.Kernel.threads (F := F)) ⟨m, fun _ => 0, ρ⟩ (fun r => ∀ c : Dev nD,
      r.2.mem (rLoc c) = shapeCast S262144x256 (OUT m c) shapeCasts_S262144x2x128_S262144x256
      ∧ r.2.mem (aLoc c) = m (aLoc c) ∧ r.2.mem (bLoc c) = m (bLoc c)) :=
  SparseCore.Cfg.θ_run_sc (K := K (F := F)) (D := D (F := F)) (𝒱 := 𝒱) (EH := EH) (P := P m) facts v₀
    (fun q hq => match q with | 0 => nomatch hq)
    (fun q _ => match q with | 0 => hobl)
    (fun q _ => match q with | 0 => vecSplit m)
    m ρ main (fun _ => iprop(emp)) (FIN m) (u₀ (F := F)) (sep_elim_left.trans (hu₀ m)) (hmain m ρ) (fq m) (hfin m) _ (fun _ h => h)

end Cert.Proof.KB

end
-- ==== Proof.KBViews.lean ====
/-
  The pieces of the arrays one worker touches, as the kernel addresses them and as the handshakes hand them out.
  Worker `k = 2 s + c` addresses: row `k` of the list; chunk `g` of its block of the result, rows
  `8192 k + 64 g … + 63`, which is chunk `128 k + g` of the whole result; slot `b` of row `s` of its SparseCore's
  shared memory; slot `b` of its own row buffer; row `g` of its own copy of the list. Each equation here says that
  the set of elements the kernel's slice goes through is the set the handshake's piece is stated over; the row of
  the shared memory is the disjoint union of its three slots, the row buffer of its three.
-/
import proofs.«201408_g9070970929189_cont_9to1c4b_623_24_alg».proof.Proof.KBCommon

noncomputable section

namespace Cert.Proof.KB

open Cert.Kernel Cert.Kernel.Gen
open Idealize.ShloMosaic
open Idealize.ShloMosaic.SparseCore (S V T)

local notation "iV" => (Memref.whole Cert.Kernel.main_v0_scv : Memref Cert.Kernel.sig Kind.scVector Space.hbm Cert.Kernel.S32x128x64 EltTy.i32)
local notation "wV" => (Memref.whole Cert.Kernel.main_v1_scv : Memref Cert.Kernel.sig Kind.scVector Space.hbm Cert.Kernel.S8192x2x128 EltTy.f32)
local notation "oV" => (Memref.whole Cert.Kernel.main_v2_scv : Memref Cert.Kernel.sig Kind.scVector Space.hbm Cert.Kernel.S262144x2x128 EltTy.f32)
local notation "xV" => (Memref.whole Cert.Kernel.cc0_scratch0 : Memref Cert.Kernel.sig Kind.scVector Space.vmem Cert.Kernel.S128x64 EltTy.i32)
local notation "rV" => (Memref.whole Cert.Kernel.cc0_scratch1 : Memref Cert.Kernel.sig Kind.scVector Space.vmem Cert.Kernel.S3x64x2x128 EltTy.f32)
local notation "sV" => (Memref.whole Cert.Kernel.cc0_scratch2 : Memref Cert.Kernel.sig Kind.scVector Space.shared Cert.Kernel.S16x3x64x2x128 EltTy.f32)

variable (L : grid0.Coords)

abbrev cV (L : grid0.Coords) : Fin τ.nSC := (L 0).castLE hcore0
abbrev jV (L : grid0.Coords) : Fin τ.nSub := (L 1).castLE hsub0
theorem bound_zero : grid0.bound 0 = 2 := rfl
theorem bound_one : grid0.bound 1 = 16 := rfl
abbrev cL (L : grid0.Coords) : Fin 2 := Fin.cast bound_zero (L 0)
abbrev jL (L : grid0.Coords) : Fin 16 := Fin.cast bound_one (L 1)
/-- The worker's number. -/
abbrev wk (L : grid0.Coords) : Fin 32 := wid (cL L) (jL L)

theorem wk_val : (wk L).val = 2 * (L 1).val + (L 0).val := rfl

/-! ## The list's row -/

abbrev iRowK (L : grid0.Coords) : Memref sig .scVector .hbm S128x64 .i32 :=
  ((iV).slice (Rect.unit (s := S32x128x64) (k0_off1 L) S1x128x64.size (k0_off1_inb L)) (fun _ => rfl)).squeeze S128x64 squeezes_S1x128x64_S128x64

theorem irowK_eq : Rect.unit (s := S32x128x64) (k0_off1 L) S1x128x64.size (k0_off1_inb L) = irow (wk L) := by
  unfold irow Rect.part Rect.block
  congr 1 <;> funext a
  · rw [k0_off1_eq]
    match a with
    | 0 => simp [Shape.partIx, Shape.partSize, wid]
    | 1 => simp [Shape.partIx, Shape.partSize]
    | 2 => simp [Shape.partIx, Shape.partSize]
  · match a with
    | 0 => simp [Shape.partSize]
    | 1 => simp [Shape.partSize]
    | 2 => simp [Shape.partSize]

theorem set_iRowK : (iRowK L).view.set = iRowSet (wk L) := by
  show (((iV).view.slice (Rect.unit (s := S32x128x64) (k0_off1 L) S1x128x64.size (k0_off1_inb L))).reshape S128x64 squeezes_S1x128x64_S128x64.numel_eq).set
    = ((iV).view.slice (irow (wk L))).set
  rw [View.set_reshape]
  exact irowK_eq L ▸ rfl

/-! ## The result's chunks -/

/-- Where chunk `g` of the worker's block starts. -/
def chunkOff (L : grid0.Coords) (g : ℕ) : Fin 3 → ℕ := ![16384 * (L 1).val + 8192 * (L 0).val + 64 * g, 0, 0]

theorem chunk_rect_eq (g : Fin 128) (inb : ∀ a, chunkOff L g.val a + S64x2x128.size a ≤ S262144x2x128.size a) :
    Rect.unit (s := S262144x2x128) (chunkOff L g.val) S64x2x128.size inb = ochk (chk (wk L) g) := by
  unfold ochk Rect.part Rect.block
  congr 1 <;> funext a
  · match a with
    | 0 => simp [Shape.partIx, Shape.partSize, chunkOff, chk, wid]; omega
    | 1 => simp [Shape.partIx, Shape.partSize, chunkOff]
    | 2 => simp [Shape.partIx, Shape.partSize, chunkOff]
  · match a with
    | 0 => simp [Shape.partSize]
    | 1 => simp [Shape.partSize]
    | 2 => simp [Shape.partSize]

/-- A 64-row slice of the result at the start of the worker's chunk `g` goes through chunk `128 k + g`. -/
theorem set_chunk (off : Fin 3 → ℕ) (inb : ∀ a, off a + S64x2x128.size a ≤ S262144x2x128.size a) (g : Fin 128) (h : off = chunkOff L g.val) :
    ((oV).slice (Rect.unit (s := S262144x2x128) off S64x2x128.size inb) (fun _ => rfl)).view.set = oChkSet (chk (wk L) g) := by
  subst h
  show ((oV).view.slice (Rect.unit (s := S262144x2x128) (chunkOff L g.val) S64x2x128.size inb)).set = ((oV).view.slice (ochk (chk (wk L) g))).set
  rw [chunk_rect_eq L g inb]

theorem k0_off4_closed : ∀ (i : grid0.Coords) (r : Fin 5), k0_off4 i (k0_off4_at r) = ![16384 * (i 1).val + 8192 * (i 0).val + (k0_off4_at r).toNat, 0, 0] := by
  decide +kernel

end Cert.Proof.KB

end
-- ==== Proof.KBMem.lean ====
/-
  The kernel's slices, by name: slot `b` of a worker's row buffer, a row of its copy of the list, a slot of its
  SparseCore's shared memory, a 64-row chunk of the result — each as the kernel forms it, a slice at an offset (for
  the shared memory and the list then squeezed), so that a statement about the elements a copy goes through can be
  made at the offset the kernel computes and compared at the offset's closed form.
-/
import proofs.«201408_g9070970929189_cont_9to1c4b_623_24_alg».proof.Proof.KBViews

noncomputable section

namespace Cert.Proof.KB

open Cert.Kernel Cert.Kernel.Gen
open Idealize.ShloMosaic

local notation "wV" => (Memref.whole Cert.Kernel.main_v1_scv : Memref Cert.Kernel.sig Kind.scVector Space.hbm Cert.Kernel.S8192x2x128 EltTy.f32)
local notation "oV" => (Memref.whole Cert.Kernel.main_v2_scv : Memref Cert.Kernel.sig Kind.scVector Space.hbm Cert.Kernel.S262144x2x128 EltTy.f32)
local notation "xV" => (Memref.whole Cert.Kernel.cc0_scratch0 : Memref Cert.Kernel.sig Kind.scVector Space.vmem Cert.Kernel.S128x64 EltTy.i32)
local notation "rV" => (Memref.whole Cert.Kernel.cc0_scratch1 : Memref Cert.Kernel.sig Kind.scVector Space.vmem Cert.Kernel.S3x64x2x128 EltTy.f32)
local notation "sV" => (Memref.whole Cert.Kernel.cc0_scratch2 : Memref Cert.Kernel.sig Kind.scVector Space.shared Cert.Kernel.S16x3x64x2x128 EltTy.f32)

/-- Slot `b` of the row buffer. -/
abbrev rSlot0 : Memref sig .scVector .vmem S64x2x128 .f32 := ((rV).slice (Rect.unit (s := S3x64x2x128) ![0, 0, 0, 0] S1x64x2x128.size inb_S3x64x2x128_S1x64x2x128_0_0_0_0) (fun _ => rfl)).squeeze S64x2x128 squeezes_S1x64x2x128_S64x2x128
abbrev rSlot1 : Memref sig .scVector .vmem S64x2x128 .f32 := ((rV).slice (Rect.unit (s := S3x64x2x128) ![1, 0, 0, 0] S1x64x2x128.size inb_S3x64x2x128_S1x64x2x128_1_0_0_0) (fun _ => rfl)).squeeze S64x2x128 squeezes_S1x64x2x128_S64x2x128
abbrev rSlot2 : Memref sig .scVector .vmem S64x2x128 .f32 := ((rV).slice (Rect.unit (s := S3x64x2x128) ![2, 0, 0, 0] S1x64x2x128.size inb_S3x64x2x128_S1x64x2x128_2_0_0_0) (fun _ => rfl)).squeeze S64x2x128 squeezes_S1x64x2x128_S64x2x128

/-- The table, as the gathers name it: the slice that is all of it. -/
abbrev wAll : Memref sig .scVector .hbm S8192x2x128 .f32 := (wV).slice (Rect.unit (s := S8192x2x128) ![0, 0, 0] S8192x2x128.size inb_S8192x2x128_S8192x2x128_0_0_0) (fun _ => rfl)

/-- A row of the worker's copy of the list, at an offset. -/
abbrev lrowM (off : Fin 2 → ℕ) (inb : ∀ a, off a + S1x64.size a ≤ S128x64.size a) : Memref sig .scVector .vmem S64 .i32 :=
  ((xV).slice (Rect.unit (s := S128x64) off S1x64.size inb) (fun _ => rfl)).squeeze S64 squeezes_S1x64_S64
/-- A slot of the shared memory, at an offset. -/
abbrev sslotM (off : Fin 5 → ℕ) (inb : ∀ a, off a + S1x1x64x2x128.size a ≤ S16x3x64x2x128.size a) : Memref sig .scVector .shared S64x2x128 .f32 :=
  ((sV).slice (Rect.unit (s := S16x3x64x2x128) off S1x1x64x2x128.size inb) (fun _ => rfl)).squeeze S64x2x128 squeezes_S1x1x64x2x128_S64x2x128
/-- A 64-row chunk of the result, at an offset. -/
abbrev chunkM (off : Fin 3 → ℕ) (inb : ∀ a, off a + S64x2x128.size a ≤ S262144x2x128.size a) : Memref sig .scVector .hbm S64x2x128 .f32 :=
  (oV).slice (Rect.unit (s := S262144x2x128) off S64x2x128.size inb) (fun _ => rfl)

/-- Row `r` of the list's copy starts at `(r, 0)`; slot `b` of row `s` of the shared memory at `(s, b, 0, 0, 0)`. -/
def lrowOff (r : ℕ) : Fin 2 → ℕ := ![r, 0]
def sslotOff (s b : ℕ) : Fin 5 → ℕ := ![s, b, 0, 0, 0]

theorem lrow_inb (r : Fin 128) : ∀ a, lrowOff r.val a + S1x64.size a ≤ S128x64.size a := by
  intro a; have := r.isLt
  match a with
  | 0 => simp [lrowOff] <;> omega
  | 1 => simp [lrowOff]
theorem sslot_inb (s : Fin 16) (b : Fin 3) : ∀ a, sslotOff s.val b.val a + S1x1x64x2x128.size a ≤ S16x3x64x2x128.size a := by
  intro a; have := s.isLt; have := b.isLt
  match a with
  | 0 => simp [sslotOff] <;> omega
  | 1 => simp [sslotOff] <;> omega
  | 2 => simp [sslotOff]
  | 3 => simp [sslotOff]
  | 4 => simp [sslotOff]
theorem chunk_inb (L : grid0.Coords) (g : Fin 128) : ∀ a, chunkOff L g.val a + S64x2x128.size a ≤ S262144x2x128.size a := by
  intro a; have := g.isLt; have h1 : (L 1).val < 16 := (L 1).isLt; have h0 : (L 0).val < 2 := (L 0).isLt
  match a with
  | 0 => simp [chunkOff] <;> omega
  | 1 => simp [chunkOff]
  | 2 => simp [chunkOff]

/-- The canonical pieces. -/
abbrev lrowC (r : Fin 128) : Memref sig .scVector .vmem S64 .i32 := lrowM (lrowOff r.val) (lrow_inb r)
abbrev sslotC (s : Fin 16) (b : Fin 3) : Memref sig .scVector .shared S64x2x128 .f32 := sslotM (sslotOff s.val b.val) (sslot_inb s b)
abbrev chunkC (L : grid0.Coords) (g : Fin 128) : Memref sig .scVector .hbm S64x2x128 .f32 := chunkM (chunkOff L g.val) (chunk_inb L g)

theorem set_lrow (off : Fin 2 → ℕ) (inb) (r : Fin 128) (h : off = lrowOff r.val) : (lrowM off inb).view.set = (lrowC r).view.set := by subst h; rfl
theorem set_sslot (off : Fin 5 → ℕ) (inb) (s : Fin 16) (b : Fin 3) (h : off = sslotOff s.val b.val) : (sslotM off inb).view.set = (sslotC s b).view.set := by subst h; rfl
theorem set_chunkC (L : grid0.Coords) (off : Fin 3 → ℕ) (inb) (g : Fin 128) (h : off = chunkOff L g.val) : (chunkM off inb).view.set = (chunkC L g).view.set := by subst h; rfl
theorem set_chunkC_eq (L : grid0.Coords) (g : Fin 128) : (chunkC L g).view.set = oChkSet (chk (wk L) g) := set_chunk L _ _ g rfl

end Cert.Proof.KB

end
-- ==== Proof.KBVals.lean ====
/-
  What the worker's buffers hold, as functions of the launch memory.
  After its first copy the worker's own copy of the list is row `k` of the list (`FX`). Chunk `g` of the worker's
  block of the result must end as the lookup's values there: `chunkVal g` is the lookup read through that chunk.
-/
import proofs.«201408_g9070970929189_cont_9to1c4b_623_24_alg».proof.Proof.KBMem

noncomputable section

namespace Cert.Proof.KB

open Cert.Kernel Cert.Kernel.Gen
open Idealize.ShloMosaic
open Idealize.ShloMosaic.SparseCore (S V T)

variable {F : FTy → Type}

local notation "xV" => (Memref.whole Cert.Kernel.cc0_scratch0 : Memref Cert.Kernel.sig Kind.scVector Space.vmem Cert.Kernel.S128x64 EltTy.i32)

variable (m : (ℓ : Loc nD τ sig) → Buf (Elt F) ℓ)
variable (d : Dev nD) (L : grid0.Coords)

/-- The vector subcore the worker runs on. -/
abbrev thr : Thread nD τ := V d (cV L) (jV L)

/-- The worker's copy of the list once fetched: row `k` of the list written over whatever the buffer held. -/
def FX (fx0 : Buf (Elt F) ((xV).view.loc (thr d L))) : Buf (Elt F) ((xV).view.loc (thr d L)) :=
  View.write (Elt F) (xV).view fx0 (ReadAs.same.apply ((iRowK L).view.read (Elt F) (I0 m d))) Finset.univ

/-- The lookup's values on chunk `g` of the worker's block. -/
def chunkVal (g : Fin 128) : S64x2x128.Idx → Elt F .f32 := (chunkC L g).view.read (Elt F) (OUT m d)

end Cert.Proof.KB

end
-- ==== Proof.KBTile.lean ====
/-
  One worker's resources, taken apart and put together again.
  The worker's row buffer is its three slots; its row of the shared memory is that row's three slots; its copy of the
  list is its 128 rows; its share of the table is three read tokens and a remainder; its ten transfer semaphores are
  ten cells. A family of 128 pieces consumed in order (the list's rows, the result's chunks) is kept as "those from
  `a` on" and "those before `a`": taking the next one moves the boundary.
-/
import proofs.«201408_g9070970929189_cont_9to1c4b_623_24_alg».proof.Proof.KBViews
import Idealize.ShloMosaic.Lib.Ring

noncomputable section

namespace Cert.Proof.KB

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}
local notation "𝕄" => MT nD τ sig (HIx 1) (Elt F) ℕ UU ℕ

local notation "xV" => (Memref.whole Cert.Kernel.cc0_scratch0 : Memref Cert.Kernel.sig Kind.scVector Space.vmem Cert.Kernel.S128x64 EltTy.i32)
local notation "rV" => (Memref.whole Cert.Kernel.cc0_scratch1 : Memref Cert.Kernel.sig Kind.scVector Space.vmem Cert.Kernel.S3x64x2x128 EltTy.f32)
local notation "sV" => (Memref.whole Cert.Kernel.cc0_scratch2 : Memref Cert.Kernel.sig Kind.scVector Space.shared Cert.Kernel.S16x3x64x2x128 EltTy.f32)

/-! ## A family of 128 pieces consumed in order -/

section Ordered

variable {M : Type} [URA M]

/-- The pieces from `a` on, and those before `a`. -/
def fromOn (a : ℕ) (Φ : Fin 128 → sProp M) : sProp M := bigSep (Finset.univ.filter fun g : Fin 128 => a ≤ g.val) Φ
def before (a : ℕ) (Φ : Fin 128 → sProp M) : sProp M := bigSep (Finset.univ.filter fun g : Fin 128 => g.val < a) Φ

theorem fromOn_zero (Φ : Fin 128 → sProp M) : fromOn 0 Φ = bigSep Finset.univ Φ := by
  unfold fromOn; rw [show (Finset.univ.filter fun g : Fin 128 => 0 ≤ g.val) = Finset.univ by ext g; simp]
theorem before_all (Φ : Fin 128 → sProp M) : before 128 Φ = bigSep Finset.univ Φ := by
  unfold before; rw [show (Finset.univ.filter fun g : Fin 128 => g.val < 128) = Finset.univ by ext g; simp [g.isLt]]
theorem before_zero (Φ : Fin 128 → sProp M) : before 0 Φ = iprop(emp) := by
  unfold before
  rw [show (Finset.univ.filter fun g : Fin 128 => g.val < 0) = ∅ by ext g; simp]
  exact bigSep_empty
theorem fromOn_all (Φ : Fin 128 → sProp M) : fromOn 128 Φ = iprop(emp) := by
  unfold fromOn
  rw [show (Finset.univ.filter fun g : Fin 128 => 128 ≤ g.val) = ∅ by ext g; simp [g.isLt]]
  exact bigSep_empty

/-- Taking the next piece. -/
theorem fromOn_succ (a : ℕ) (h : a < 128) (Φ : Fin 128 → sProp M) : fromOn a Φ = iprop(Φ ⟨a, h⟩ ∗ fromOn (a + 1) Φ) := by
  unfold fromOn
  rw [show (Finset.univ.filter fun g : Fin 128 => a ≤ g.val) = insert (⟨a, h⟩ : Fin 128) (Finset.univ.filter fun g : Fin 128 => a + 1 ≤ g.val) by
    ext g; simp only [Finset.mem_filter, Finset.mem_univ, true_and, Finset.mem_insert, Fin.ext_iff]; omega]
  exact bigSep_insert (by simp)
/-- Laying a piece down. -/
theorem before_succ (a : ℕ) (h : a < 128) (Φ : Fin 128 → sProp M) : before (a + 1) Φ = iprop(Φ ⟨a, h⟩ ∗ before a Φ) := by
  unfold before
  rw [show (Finset.univ.filter fun g : Fin 128 => g.val < a + 1) = insert (⟨a, h⟩ : Fin 128) (Finset.univ.filter fun g : Fin 128 => g.val < a) by
    ext g; simp only [Finset.mem_filter, Finset.mem_univ, true_and, Finset.mem_insert, Fin.ext_iff]; omega]
  exact bigSep_insert (by simp)

end Ordered

/-! ## The ten transfer semaphores of a vector subcore -/

theorem dma_scoped : ∀ n : DmaSem sig, (SemLoc.dma n : SemLoc sig).isScoped .scVector = true := by decide
theorem reg_unscoped : ∀ r : Sem sig, (SemLoc.reg r : SemLoc sig).isScoped .scVector = false := by decide

theorem ownCells_V (d : Dev nD) (c : Fin τ.nSC) (i : Fin τ.nSub) :
    ownCells (sig := sig) (V d c i) = Finset.univ.image fun n : Fin 10 => ((V d c i, SemLoc.dma n) : GSem nD τ sig) := by
  ext ⟨t, sm⟩
  simp only [mem_ownCells, Finset.mem_image, Finset.mem_univ, true_and]
  constructor
  · rintro ⟨rfl, hs⟩
    cases sm with
    | reg r => exact absurd hs (by rw [show GSem.isScoped ((V d c i, SemLoc.reg r) : GSem nD τ sig) = (SemLoc.reg r : SemLoc sig).isScoped .scVector from rfl, reg_unscoped r]; decide)
    | dma n => exact ⟨n, rfl⟩
  · rintro ⟨n, hn⟩
    cases hn
    exact ⟨rfl, dma_scoped n⟩

theorem ownSems0_V (d : Dev nD) (c : Fin τ.nSC) (i : Fin τ.nSub) :
    (ownSems0 (V d c i) : sProp 𝕄) = bigSep Finset.univ fun n : Fin 10 => semVal ((V d c i, SemLoc.dma n) : GSem nD τ sig) 0 := by
  unfold SparseCore.Cfg.ownSems0
  rw [ownCells_V, SparseCore.bigSep_image_of_injOn (fun a _ b _ e => by cases e; rfl)]

theorem bigSep_fin10 {M : Type} [URA M] (Φ : Fin 10 → sProp M) :
    bigSep Finset.univ Φ = iprop(Φ 0 ∗ Φ 1 ∗ Φ 2 ∗ Φ 3 ∗ Φ 4 ∗ Φ 5 ∗ Φ 6 ∗ Φ 7 ∗ Φ 8 ∗ Φ 9) :=
  Idealize.SL.BI.bigSep_univ_eq_bigSepL [0, 1, 2, 3, 4, 5, 6, 7, 8, 9] (by decide) (by decide) Φ

end Cert.Proof.KB

end
-- ==== Proof.KBPts.lean ====
/-
  The same piece, spelt two ways: as the kernel's slice at the offset it computes, and as the canonical piece at the
  offset's closed form. The two are the same elements of the same buffer, so the two points-to assertions are equal.
-/
import proofs.«201408_g9070970929189_cont_9to1c4b_623_24_alg».proof.Proof.KBVals
import proofs.«201408_g9070970929189_cont_9to1c4b_623_24_alg».proof.Proof.KBTile

noncomputable section

namespace Cert.Proof.KB

open Cert.Kernel Cert.Kernel.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type}
local notation "𝕄" => MT nD τ sig (HIx 1) (Elt F) ℕ UU ℕ

local notation "oV" => (Memref.whole Cert.Kernel.main_v2_scv : Memref Cert.Kernel.sig Kind.scVector Space.hbm Cert.Kernel.S262144x2x128 EltTy.f32)
local notation "xV" => (Memref.whole Cert.Kernel.cc0_scratch0 : Memref Cert.Kernel.sig Kind.scVector Space.vmem Cert.Kernel.S128x64 EltTy.i32)
local notation "sV" => (Memref.whole Cert.Kernel.cc0_scratch2 : Memref Cert.Kernel.sig Kind.scVector Space.shared Cert.Kernel.S16x3x64x2x128 EltTy.f32)

variable (m : (ℓ : Loc nD τ sig) → Buf (Elt F) ℓ)
variable (d : Dev nD) (L : grid0.Coords)

theorem pts_iRowK (f : Buf (Elt F) (iLoc d)) :
    ((iRowK L).view.loc (thr d L) ↦[(iRowK L).view.set]{fullShare} f : sProp 𝕄) = iLoc d ↦[iRowSet (wk L)]{fullShare} f := by
  rw [set_iRowK]

theorem pts_sslot (off : Fin 5 → ℕ) (inb) (s : Fin 16) (b : Fin 3) (h : off = sslotOff s.val b.val) (q : PosShare TreeShare)
    (f : Buf (Elt F) ((sV).view.loc (thr d L))) :
    ((sslotM off inb).view.loc (thr d L) ↦[(sslotM off inb).view.set]{q} f : sProp 𝕄)
      = ((sslotC s b).view.loc (thr d L) ↦[(sslotC s b).view.set]{q} f) := by
  subst h; rfl

theorem pts_lrow (off : Fin 2 → ℕ) (inb) (r : Fin 128) (h : off = lrowOff r.val) (q : PosShare TreeShare)
    (f : Buf (Elt F) ((xV).view.loc (thr d L))) :
    ((lrowM off inb).view.loc (thr d L) ↦[(lrowM off inb).view.set]{q} f : sProp 𝕄)
      = ((lrowC r).view.loc (thr d L) ↦[(lrowC r).view.set]{q} f) := by
  subst h; rfl

theorem pts_chunk (off : Fin 3 → ℕ) (inb) (g : Fin 128) (h : off = chunkOff L g.val) (f : Buf (Elt F) (oLoc d)) :
    ((chunkM off inb).view.loc (thr d L) ↦[(chunkM off inb).view.set]{fullShare} f : sProp 𝕄) = oChkPts d (chk (wk L) g) f := by
  subst h
  show ((chunkC L g).view.loc (thr d L) ↦[(chunkC L g).view.set]{fullShare} f : sProp 𝕄) = oLoc d ↦[oChkSet (chk (wk L) g)]{fullShare} f
  rw [set_chunkC_eq]

/-- The offsets the kernel computes, in closed form. -/
theorem off2_eq : k0_off2 L = sslotOff (jL L).val (0 : Fin 3).val := k0_off2_eq L
theorem off3_eq : k0_off3 L = sslotOff (jL L).val (1 : Fin 3).val := k0_off3_eq L
theorem off5_eq : k0_off5 L = sslotOff (jL L).val (2 : Fin 3).val := k0_off5_eq L
theorem off6_eq : k0_off6 L = sslotOff (jL L).val (1 : Fin 3).val := k0_off6_eq L
theorem off10_eq : k0_off10 L = sslotOff (jL L).val (0 : Fin 3).val := k0_off10_eq L
theorem off11_eq : k0_off11 L = sslotOff (jL L).val (2 : Fin 3).val := k0_off11_eq L

theorem off4_eq (r : Fin 5) (g : Fin 128) (hg : (k0_off4_at r).toNat = 64 * g.val) : k0_off4 L (k0_off4_at r) = chunkOff L g.val := by
  rw [k0_off4_closed, hg]; rfl
theorem off8_eq (k : Fin k0_t1_loop.trips) (r : Fin 3) (g : Fin 128) (hg : g.val = 3 * k.val + r.val + 1) :
    k0_off8 L k (BitVec.ofNat 32 r.val) = chunkOff L g.val := by
  rw [k0_off8_eq, hg]; unfold chunkOff; congr 1; omega
theorem off7_eq (k : Fin k0_t1_loop.trips) (r : Fin 3) (g : Fin 128) (hg : g.val = 3 * k.val + r.val + 4) :
    k0_off7 k (BitVec.ofNat 32 r.val) = lrowOff g.val := by
  rw [k0_off7_eq, hg]; rfl

end Cert.Proof.KB

end
-- ==== Proof.KBInv.lean ====
/-
  What one worker holds between two trips of its steady loop.
  The worker keeps three chunks in motion at once: while one is being gathered from the table into a slot of its row
  buffer, the one before it is crossing from its slot to the shared memory, and the one before that is leaving the
  shared memory for the result. `Inv k` says, before trip `k`, which copy is in flight on which semaphore and what it
  will deliver — every delivered piece holding the lookup's values of its chunk (`chunkVal`) —, which rows of the list
  and chunks of the result are done with, and which are still untouched.
-/
import proofs.«201408_g9070970929189_cont_9to1c4b_623_24_alg».proof.Proof.KBPts

noncomputable section

namespace Cert.Proof.KB

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}
local notation "𝕄" => MT nD τ sig (HIx 1) (Elt F) ℕ UU ℕ

local notation "wV" => (Memref.whole Cert.Kernel.main_v1_scv : Memref Cert.Kernel.sig Kind.scVector Space.hbm Cert.Kernel.S8192x2x128 EltTy.f32)
local notation "xV" => (Memref.whole Cert.Kernel.cc0_scratch0 : Memref Cert.Kernel.sig Kind.scVector Space.vmem Cert.Kernel.S128x64 EltTy.i32)

variable (m : (ℓ : Loc nD τ sig) → Buf (Elt F) ℓ)
variable (d : Dev nD) (L : grid0.Coords)

/-- Row / chunk number `r` as an index below 128 (it is, wherever it is used). -/
def rowN (r : ℕ) : Fin 128 := ⟨r % 128, Nat.mod_lt _ (by norm_num)⟩
theorem rowN_val {r : ℕ} (h : r < 128) : (rowN r).val = r := Nat.mod_eq_of_lt h
theorem rowN_eq {r : ℕ} (h : r < 128) : rowN r = ⟨r, h⟩ := Fin.ext (rowN_val h)

variable [∀ e, Nonempty (Elt F e)]

/-- The rows of the worker's copy of the list, the chunks of its block as launched, the chunks done. -/
abbrev ΦX (fx0 : Buf (Elt F) ((xV).view.loc (thr d L))) (r : Fin 128) : sProp 𝕄 := ((lrowC r).view.loc (thr d L) ↦[(lrowC r).view.set]{fullShare} FX m d L fx0)
abbrev ΦO (g : Fin 128) : sProp 𝕄 := oChkPts d (chk (wk L) g) (m (oLoc d))
abbrev ΦD (g : Fin 128) : sProp 𝕄 := oChkDone m d (chk (wk L) g)

/-- BEFORE TRIP `k` of the steady loop (chunks `3k+2, 3k+3, 3k+4` are its three): the gathers of chunks `3k+2` (into
    slot 2) and `3k+3` (into slot 0) are in flight, chunk `3k+1` is on its way from slot 1 to the shared memory's slot 1,
    chunk `3k` on its way from the shared memory's slot 0 to the result; the shared memory's slot 2 is free; the list's rows
    before `3k+2` and the result's chunks before `3k` are done with, those from `3k+4` resp. `3k+1` on untouched. -/
def Inv (fx0 : Buf (Elt F) ((xV).view.loc (thr d L))) (O : CellTallies nD τ sig (HIx 1)) (W : Waits sig (HIx 1)) (k : ℕ) (_ : PUnit) : sProp 𝕄 :=
  iprop(levAts (K (F := F)).L (K (F := F)).lev
    ∗ Transfers.Flight countersEmb (thr d L) (SemLoc.dma (2 : DmaSem sig)) (default : HIx 1) 524288 iprop((((rSlot2).view.loc (thr d L) ↦[(rSlot2).view.set]{fullShare} (rSlot2).view.rep (chunkVal m d L (rowN (3 * k + 2)))) ∗ ((lrowC (rowN (3 * k + 2))).view.loc (thr d L) ↦[(lrowC (rowN (3 * k + 2))).view.set]{fullShare} FX m d L fx0)) ∗ ((wAll).view.loc (thr d L) ↦[(wAll).view.set]{Transfers.shareTok (wq (wk L)) 3 2} W0 m d))
    ∗ Transfers.Flight countersEmb (thr d L) (SemLoc.dma (0 : DmaSem sig)) (default : HIx 1) 524288 iprop((((rSlot0).view.loc (thr d L) ↦[(rSlot0).view.set]{fullShare} (rSlot0).view.rep (chunkVal m d L (rowN (3 * k + 3)))) ∗ ((lrowC (rowN (3 * k + 3))).view.loc (thr d L) ↦[(lrowC (rowN (3 * k + 3))).view.set]{fullShare} FX m d L fx0)) ∗ ((wAll).view.loc (thr d L) ↦[(wAll).view.set]{Transfers.shareTok (wq (wk L)) 3 0} W0 m d))
    ∗ ((wAll).view.loc (thr d L) ↦[(wAll).view.set]{Transfers.shareTok (wq (wk L)) 3 1} W0 m d)
    ∗ Transfers.Flight countersEmb (thr d L) (SemLoc.dma (4 : DmaSem sig)) (default : HIx 1) 524288 iprop(((sslotM (k0_off6 L) (k0_off6_inb L)).view.loc (thr d L) ↦[(sslotM (k0_off6 L) (k0_off6_inb L)).view.set]{fullShare} (sslotM (k0_off6 L) (k0_off6_inb L)).view.rep (chunkVal m d L (rowN (3 * k + 1)))) ∗ ((rSlot1).view.loc (thr d L) ↦[(rSlot1).view.set]{fullShare} (rSlot1).view.rep (chunkVal m d L (rowN (3 * k + 1)))))
    ∗ Transfers.Flight countersEmb (thr d L) (SemLoc.dma (6 : DmaSem sig)) (default : HIx 1) 524288 iprop(((chunkC L (rowN (3 * k))).view.loc (thr d L) ↦[(chunkC L (rowN (3 * k))).view.set]{fullShare} (chunkC L (rowN (3 * k))).view.rep (chunkVal m d L (rowN (3 * k)))) ∗ ((sslotM (k0_off10 L) (k0_off10_inb L)).view.loc (thr d L) ↦[(sslotM (k0_off10 L) (k0_off10_inb L)).view.set]{fullShare} (sslotM (k0_off10 L) (k0_off10_inb L)).view.rep (chunkVal m d L (rowN (3 * k)))))
    ∗ (∃ f, ((sslotM (k0_off5 L) (k0_off5_inb L)).view.loc (thr d L) ↦[(sslotM (k0_off5 L) (k0_off5_inb L)).view.set]{fullShare} f))
    ∗ before (3 * k + 2) (ΦX m d L fx0) ∗ fromOn (3 * k + 4) (ΦX m d L fx0)
    ∗ before (3 * k) (ΦD m d L) ∗ fromOn (3 * k + 1) (ΦO m d L)
    ∗ semVal ((thr d L), (SemLoc.dma (1 : DmaSem sig))) 0 ∗ semVal ((thr d L), (SemLoc.dma (3 : DmaSem sig))) 0 ∗ semVal ((thr d L), (SemLoc.dma (5 : DmaSem sig))) 0
    ∗ semVal ((thr d L), (SemLoc.dma (7 : DmaSem sig))) 0 ∗ semVal ((thr d L), (SemLoc.dma (8 : DmaSem sig))) 0
    ∗ ∃ W', ⌜∀ p ∈ W', p ∈ W ∨ p.2 = none⌝ ∗ owes (thr d L) O W')

end Cert.Proof.KB

end
-- ==== Proof.KBCanon.lean ====
/-
  A copy in flight delivers its pieces at whatever contents the copy wrote; the invariant states each delivered piece
  at the representative of what it READS (`View.rep`) and each list row or result chunk in its canonical spelling.
  A piece held by its own elements is determined by what it reads, so the two deliveries are equal, and a flight
  delivering the one is a flight delivering the other.
-/
import proofs.«201408_g9070970929189_cont_9to1c4b_623_24_alg».proof.Proof.KBInv

noncomputable section

namespace Cert.Proof.KB

open Cert.Kernel Cert.Kernel.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [∀ e, Nonempty (Elt F e)]
local notation "𝕄" => MT nD τ sig (HIx 1) (Elt F) ℕ UU ℕ

local notation "wV" => (Memref.whole Cert.Kernel.main_v1_scv : Memref Cert.Kernel.sig Kind.scVector Space.hbm Cert.Kernel.S8192x2x128 EltTy.f32)
local notation "xV" => (Memref.whole Cert.Kernel.cc0_scratch0 : Memref Cert.Kernel.sig Kind.scVector Space.vmem Cert.Kernel.S128x64 EltTy.i32)

variable (m : (ℓ : Loc nD τ sig) → Buf (Elt F) ℓ)
variable (d : Dev nD) (L : grid0.Coords)

/-- A piece held by its own elements at contents that read `X` is the piece at the representative of `X`. -/
theorem canon_piece {cs : Space} {s : Shape} {e : EltTy} (M : Memref sig (thr d L).2.kind cs s e) (q : PosShare TreeShare)
    (C : Buf (Elt F) (M.view.loc (thr d L))) (X : s.Idx → Elt F e) (h : M.view.read (Elt F) C = X) :
    (M.view.loc (thr d L) ↦[M.view.set]{q} C : sProp 𝕄) = M.view.loc (thr d L) ↦[M.view.set]{q} M.view.rep X := by
  rw [pointsTo_rep (thr d L) M C q, h]

/-- After writes the last of which covers the view, the view reads that write's payload. -/
theorem read_head {κ : Kind} {sp : Space} {s : Shape} {e : EltTy} (v : View sig κ sp s e) (f : v.ty.Contents (Elt F)) (p : s.Idx → Elt F e)
    (Ls : List (View.Piece (Elt F) s e)) : v.read (Elt F) (v.writes (Elt F) f (⟨Rect.whole s, p⟩ :: Ls)) = p := by
  funext y
  have h := View.read_writes_cons_emb v f (Rect.whole s) p Ls y
  rwa [Rect.emb_whole_apply] at h

/-- A gather's delivery: the slot at what was gathered, the list's row, the table's token. -/
theorem DG_mono (M : Memref sig (thr d L).2.kind .vmem S64x2x128 .f32) (b : Fin 3) (fx0 : Buf (Elt F) ((xV).view.loc (thr d L)))
    (off : Fin 2 → ℕ) (inb) (g : Fin 128) (hoff : off = lrowOff g.val)
    (C : Buf (Elt F) (M.view.loc (thr d L))) (hC : M.view.read (Elt F) C = chunkVal m d L g) (sm : SemLoc sig) (N : ℕ) :
    (Transfers.Flight countersEmb (thr d L) sm (default : HIx 1) N
        iprop(((M.view.loc (thr d L) ↦[M.view.set]{fullShare} C)
            ∗ ((lrowM off inb).view.loc (thr d L) ↦[(lrowM off inb).view.set]{fullShare} FX m d L fx0))
          ∗ ((wAll).view.loc (thr d L) ↦[(wAll).view.set]{Transfers.shareTok (wq (wk L)) 3 b} W0 m d)) : sProp 𝕄)
      ⊢ Transfers.Flight countersEmb (thr d L) sm (default : HIx 1) N
        iprop(((M.view.loc (thr d L) ↦[M.view.set]{fullShare} M.view.rep (chunkVal m d L g))
            ∗ ((lrowC g).view.loc (thr d L) ↦[(lrowC g).view.set]{fullShare} FX m d L fx0))
          ∗ ((wAll).view.loc (thr d L) ↦[(wAll).view.set]{Transfers.shareTok (wq (wk L)) 3 b} W0 m d)) :=
  Transfers.Flight_mono countersEmb (thr d L) (Entails.of_eq (by rw [canon_piece d L M fullShare C _ hC, pts_lrow d L off inb g hoff]))

/-- The same shared-memory slot under two of the kernel's names for it. -/
theorem sslot_respell (off off' : Fin 5 → ℕ) (inb inb') (s : Fin 16) (b : Fin 3) (h : off = sslotOff s.val b.val) (h' : off' = sslotOff s.val b.val)
    (X : S64x2x128.Idx → Elt F .f32) :
    ((sslotM off inb).view.loc (thr d L) ↦[(sslotM off inb).view.set]{fullShare} (sslotM off inb).view.rep X : sProp 𝕄)
      = (sslotM off' inb').view.loc (thr d L) ↦[(sslotM off' inb').view.set]{fullShare} (sslotM off' inb').view.rep X := by
  subst h; subst h'; rfl

theorem chunk_respell (off : Fin 3 → ℕ) (inb) (g : Fin 128) (h : off = chunkOff L g.val) (X : S64x2x128.Idx → Elt F .f32) :
    ((chunkM off inb).view.loc (thr d L) ↦[(chunkM off inb).view.set]{fullShare} (chunkM off inb).view.rep X : sProp 𝕄)
      = (chunkC L g).view.loc (thr d L) ↦[(chunkC L g).view.set]{fullShare} (chunkC L g).view.rep X := by
  subst h; rfl

/-- A crossing's delivery: the shared-memory slot and the row-buffer slot, both at the chunk. -/
theorem DX_mono (off off' : Fin 5 → ℕ) (inb inb') (s : Fin 16) (b : Fin 3) (h : off = sslotOff s.val b.val) (h' : off' = sslotOff s.val b.val)
    (M : Memref sig (thr d L).2.kind .vmem S64x2x128 .f32) (g : Fin 128)
    (C1 : Buf (Elt F) ((sslotM off inb).view.loc (thr d L))) (hC1 : (sslotM off inb).view.read (Elt F) C1 = chunkVal m d L g)
    (C2 : Buf (Elt F) (M.view.loc (thr d L))) (hC2 : M.view.read (Elt F) C2 = chunkVal m d L g) (sm : SemLoc sig) (N : ℕ) :
    (Transfers.Flight countersEmb (thr d L) sm (default : HIx 1) N
        iprop(((sslotM off inb).view.loc (thr d L) ↦[(sslotM off inb).view.set]{fullShare} C1) ∗ (M.view.loc (thr d L) ↦[M.view.set]{fullShare} C2)) : sProp 𝕄)
      ⊢ Transfers.Flight countersEmb (thr d L) sm (default : HIx 1) N
        iprop(((sslotM off' inb').view.loc (thr d L) ↦[(sslotM off' inb').view.set]{fullShare} (sslotM off' inb').view.rep (chunkVal m d L g))
          ∗ (M.view.loc (thr d L) ↦[M.view.set]{fullShare} M.view.rep (chunkVal m d L g))) :=
  Transfers.Flight_mono countersEmb (thr d L) (Entails.of_eq (by
    rw [canon_piece d L (sslotM off inb) fullShare C1 _ hC1, canon_piece d L M fullShare C2 _ hC2, sslot_respell d L off off' inb inb' s b h h']))

/-- A write-out's delivery: the result's chunk and the shared-memory slot, both at the chunk. -/
theorem DD_mono (offc : Fin 3 → ℕ) (inbc) (g : Fin 128) (hc : offc = chunkOff L g.val)
    (off off' : Fin 5 → ℕ) (inb inb') (s : Fin 16) (b : Fin 3) (h : off = sslotOff s.val b.val) (h' : off' = sslotOff s.val b.val)
    (C1 : Buf (Elt F) ((chunkM offc inbc).view.loc (thr d L))) (hC1 : (chunkM offc inbc).view.read (Elt F) C1 = chunkVal m d L g)
    (C2 : Buf (Elt F) ((sslotM off inb).view.loc (thr d L))) (hC2 : (sslotM off inb).view.read (Elt F) C2 = chunkVal m d L g) (sm : SemLoc sig) (N : ℕ) :
    (Transfers.Flight countersEmb (thr d L) sm (default : HIx 1) N
        iprop(((chunkM offc inbc).view.loc (thr d L) ↦[(chunkM offc inbc).view.set]{fullShare} C1)
          ∗ ((sslotM off inb).view.loc (thr d L) ↦[(sslotM off inb).view.set]{fullShare} C2)) : sProp 𝕄)
      ⊢ Transfers.Flight countersEmb (thr d L) sm (default : HIx 1) N
        iprop(((chunkC L g).view.loc (thr d L) ↦[(chunkC L g).view.set]{fullShare} (chunkC L g).view.rep (chunkVal m d L g))
          ∗ ((sslotM off' inb').view.loc (thr d L) ↦[(sslotM off' inb').view.set]{fullShare} (sslotM off' inb').view.rep (chunkVal m d L g))) :=
  Transfers.Flight_mono countersEmb (thr d L) (Entails.of_eq (by
    rw [canon_piece d L (chunkM offc inbc) fullShare C1 _ hC1, canon_piece d L (sslotM off inb) fullShare C2 _ hC2,
      chunk_respell d L offc inbc g hc, sslot_respell d L off off' inb inb' s b h h']))

end Cert.Proof.KB

end
-- ==== Proof.KBSlots.lean ====
/-
  One worker's buffers in pieces.
  The worker's copy of the list (128 × 64) is its 128 rows; its row buffer (3 × 64 × 2 × 128) is its three slots; its
  row of the SparseCore's shared memory (one of sixteen, 3 × 64 × 2 × 128 each) is that row's three slots. In each
  case the pieces are rectangles that are pairwise apart on one axis and together go through exactly the elements of
  the whole, so holding the whole at some contents is holding every piece at those contents, and pieces held at
  contents of their own are the whole held at contents that agree with each on its piece.
-/
import proofs.«201408_g9070970929189_cont_9to1c4b_623_24_alg».proof.Proof.KBMem

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

local notation "xV" => (Memref.whole Cert.Kernel.cc0_scratch0 : Memref Cert.Kernel.sig Kind.scVector Space.vmem Cert.Kernel.S128x64 EltTy.i32)
local notation "rV" => (Memref.whole Cert.Kernel.cc0_scratch1 : Memref Cert.Kernel.sig Kind.scVector Space.vmem Cert.Kernel.S3x64x2x128 EltTy.f32)
local notation "sV" => (Memref.whole Cert.Kernel.cc0_scratch2 : Memref Cert.Kernel.sig Kind.scVector Space.shared Cert.Kernel.S16x3x64x2x128 EltTy.f32)

variable {F : FTy → Type}

local notation "𝕄" => MT nD τ sig (HIx 1) (Elt F) ℕ UU ℕ

/-! ## Three pieces of a set of elements -/

section Three

variable {ℓ : Loc nD τ sig}

/-- Held on a set that three pairwise disjoint sets make up is held on each of the three; -/
theorem three_split (K : Fin 3 → Finset (Idx ℓ)) (hd : ∀ t ∈ (Finset.univ : Finset (Fin 3)), ∀ t' ∈ (Finset.univ : Finset (Fin 3)), t ≠ t' → Disjoint (K t) (K t'))
    (I : Finset (Idx ℓ)) (hc : (Finset.univ : Finset (Fin 3)).biUnion K = I) (f : Buf (Elt F) ℓ) :
    (ℓ ↦[I]{fullShare} f : sProp 𝕄) = iprop((ℓ ↦[K 0]{fullShare} f) ∗ (ℓ ↦[K 1]{fullShare} f) ∗ ℓ ↦[K 2]{fullShare} f) := by
  subst hc
  rw [pointsTo_biUnion Finset.univ K hd, show (Finset.univ : Finset (Fin 3)) = {0, 1, 2} by decide,
    SparseCore.bigSep_insert' (by decide), SparseCore.bigSep_insert' (by decide), bigSep_singleton]

/-- and the three held at contents of their own are the set held at some contents. -/
theorem three_join (K : Fin 3 → Finset (Idx ℓ)) (hd : ∀ t ∈ (Finset.univ : Finset (Fin 3)), ∀ t' ∈ (Finset.univ : Finset (Fin 3)), t ≠ t' → Disjoint (K t) (K t'))
    (I : Finset (Idx ℓ)) (hc : (Finset.univ : Finset (Fin 3)).biUnion K = I) (fs : Fin 3 → Buf (Elt F) ℓ) :
    (iprop((ℓ ↦[K 0]{fullShare} fs 0) ∗ (ℓ ↦[K 1]{fullShare} fs 1) ∗ ℓ ↦[K 2]{fullShare} fs 2) : sProp 𝕄) ⊢ iprop(∃ g, ℓ ↦[I]{fullShare} g) := by
  subst hc
  iintro H
  ihave H' := (pointsTo_biUnion_join Finset.univ K fs (fs 0) hd) $$ [H]
  · rw [show (Finset.univ : Finset (Fin 3)) = {0, 1, 2} by decide,
      SparseCore.bigSep_insert' (by decide), SparseCore.bigSep_insert' (by decide), bigSep_singleton]
    iexact H
  icases H' with ⟨%g, -, Hg⟩
  iexists g; iexact Hg

end Three

/-! ## The list's copy: its 128 rows -/

theorem xdiv : 128 ∣ S128x64.size 0 := ⟨1, rfl⟩
abbrev xrow (r : Fin 128) : Rect S128x64 := Rect.part (s := S128x64) (a₀ := 0) xdiv r

theorem lrow_rect_eq (r : Fin 128) : Rect.unit (s := S128x64) (lrowOff r.val) S1x64.size (lrow_inb r) = xrow r := by
  unfold xrow Rect.part Rect.block
  congr 1 <;> funext a
  · match a with
    | 0 => simp [Shape.partIx, Shape.partSize, lrowOff]
    | 1 => simp [Shape.partIx, Shape.partSize, lrowOff]
  · match a with
    | 0 => simp [Shape.partSize]
    | 1 => simp [Shape.partSize]

/-- The elements row `r` of the copy goes through. -/
abbrev lrowSet (r : Fin 128) : Finset S128x64.Idx := (lrowC r).view.set

theorem set_lrowC (r : Fin 128) : lrowSet r = (xrow r).set := by
  show (((xV).view.slice (Rect.unit (s := S128x64) (lrowOff r.val) S1x64.size (lrow_inb r))).reshape S64 squeezes_S1x64_S64.numel_eq).set = _
  rw [View.set_reshape]
  refine Eq.trans ?_ (View.set_slice_whole (cc0_scratch0 : Ref sig .scVector) (xrow r))
  exact lrow_rect_eq r ▸ rfl

theorem lrows_disjoint : ∀ i ∈ (Finset.univ : Finset (Fin 128)), ∀ j ∈ (Finset.univ : Finset (Fin 128)), i ≠ j → Disjoint (lrowSet i) (lrowSet j) :=
  fun i _ j _ h => by rw [set_lrowC, set_lrowC]; exact Rect.part_disjoint xdiv h
theorem lrows_cover : (Finset.univ : Finset (Fin 128)).biUnion lrowSet = Finset.univ :=
  (Finset.biUnion_congr rfl fun r _ => set_lrowC r).trans (Rect.biUnion_part xdiv)

/-! ## The row buffer: its three slots -/

theorem rdiv : 3 ∣ S3x64x2x128.size 0 := ⟨1, rfl⟩
abbrev rpart (b : Fin 3) : Rect S3x64x2x128 := Rect.part (s := S3x64x2x128) (a₀ := 0) rdiv b

theorem rslot_rect_eq (b : Fin 3) (off : Fin 4 → ℕ) (inb : ∀ a, off a + S1x64x2x128.size a ≤ S3x64x2x128.size a) (h : off = ![b.val, 0, 0, 0]) :
    Rect.unit (s := S3x64x2x128) off S1x64x2x128.size inb = rpart b := by
  subst h
  unfold rpart Rect.part Rect.block
  congr 1 <;> funext a
  · match a with
    | 0 => simp [Shape.partIx, Shape.partSize]
    | 1 => simp [Shape.partIx, Shape.partSize]
    | 2 => simp [Shape.partIx, Shape.partSize]
    | 3 => simp [Shape.partIx, Shape.partSize]
  · match a with
    | 0 => simp [Shape.partSize]
    | 1 => simp [Shape.partSize]
    | 2 => simp [Shape.partSize]
    | 3 => simp [Shape.partSize]

theorem set_rSlot0 : (rSlot0).view.set = (rpart 0).set := by
  show (((rV).view.slice (Rect.unit (s := S3x64x2x128) ![0, 0, 0, 0] S1x64x2x128.size inb_S3x64x2x128_S1x64x2x128_0_0_0_0)).reshape S64x2x128 squeezes_S1x64x2x128_S64x2x128.numel_eq).set = _
  rw [View.set_reshape]
  refine Eq.trans ?_ (View.set_slice_whole (cc0_scratch1 : Ref sig .scVector) (rpart 0))
  exact rslot_rect_eq 0 ![0, 0, 0, 0] inb_S3x64x2x128_S1x64x2x128_0_0_0_0 rfl ▸ rfl
theorem set_rSlot1 : (rSlot1).view.set = (rpart 1).set := by
  show (((rV).view.slice (Rect.unit (s := S3x64x2x128) ![1, 0, 0, 0] S1x64x2x128.size inb_S3x64x2x128_S1x64x2x128_1_0_0_0)).reshape S64x2x128 squeezes_S1x64x2x128_S64x2x128.numel_eq).set = _
  rw [View.set_reshape]
  refine Eq.trans ?_ (View.set_slice_whole (cc0_scratch1 : Ref sig .scVector) (rpart 1))
  exact rslot_rect_eq 1 ![1, 0, 0, 0] inb_S3x64x2x128_S1x64x2x128_1_0_0_0 rfl ▸ rfl
theorem set_rSlot2 : (rSlot2).view.set = (rpart 2).set := by
  show (((rV).view.slice (Rect.unit (s := S3x64x2x128) ![2, 0, 0, 0] S1x64x2x128.size inb_S3x64x2x128_S1x64x2x128_2_0_0_0)).reshape S64x2x128 squeezes_S1x64x2x128_S64x2x128.numel_eq).set = _
  rw [View.set_reshape]
  refine Eq.trans ?_ (View.set_slice_whole (cc0_scratch1 : Ref sig .scVector) (rpart 2))
  exact rslot_rect_eq 2 ![2, 0, 0, 0] inb_S3x64x2x128_S1x64x2x128_2_0_0_0 rfl ▸ rfl

theorem rparts_disjoint : ∀ t ∈ (Finset.univ : Finset (Fin 3)), ∀ t' ∈ (Finset.univ : Finset (Fin 3)), t ≠ t' → Disjoint (rpart t).set (rpart t').set :=
  fun _ _ _ _ h => Rect.part_disjoint rdiv h
theorem rparts_cover : (Finset.univ : Finset (Fin 3)).biUnion (fun b => (rpart b).set) = Finset.univ := Rect.biUnion_part rdiv

/-! ## A row of the shared memory: its three slots -/

/-- Slot `b` of row `s`, as a rectangle of the shared memory. -/
abbrev sslotR (s : Fin 16) (b : Fin 3) : Rect S16x3x64x2x128 := Rect.unit (s := S16x3x64x2x128) (sslotOff s.val b.val) S1x1x64x2x128.size (sslot_inb s b)

theorem set_sslotC (s : Fin 16) (b : Fin 3) : (sslotC s b).view.set = (sslotR s b).set := by
  show (((sV).view.slice (sslotR s b)).reshape S64x2x128 squeezes_S1x1x64x2x128_S64x2x128.numel_eq).set = _
  rw [View.set_reshape]
  exact View.set_slice_whole _ _

theorem slot_sRowSet_eq (s : Fin 16) : sRowSet s = (srow s).set := View.set_slice_whole _ _

theorem sslots_disjoint (s : Fin 16) : ∀ t ∈ (Finset.univ : Finset (Fin 3)), ∀ t' ∈ (Finset.univ : Finset (Fin 3)), t ≠ t' → Disjoint (sslotR s t).set (sslotR s t').set := by
  intro t _ t' _ h
  refine Rect.unit_disjoint (1 : Fin 5) ?_
  have : t.val ≠ t'.val := fun e => h (Fin.ext e)
  simp [sslotOff]
  omega

theorem sslots_cover (s : Fin 16) : (Finset.univ : Finset (Fin 3)).biUnion (fun b => (sslotR s b).set) = (srow s).set := by
  ext i
  simp only [Finset.mem_biUnion, Finset.mem_univ, true_and, Rect.mem_set_unit]
  constructor
  · rintro ⟨b, hb⟩ a
    have h := hb a
    have hb3 := b.isLt
    match a with
    | 0 => simp [Shape.partIx, Shape.partSize, sslotOff] at h ⊢; omega
    | 1 => simp [Shape.partIx, Shape.partSize, sslotOff] at h ⊢; omega
    | 2 => simp [Shape.partIx, Shape.partSize, sslotOff] at h ⊢; omega
    | 3 => simp [Shape.partIx, Shape.partSize, sslotOff] at h ⊢; omega
    | 4 => simp [Shape.partIx, Shape.partSize, sslotOff] at h ⊢; omega
  · intro h
    have h1 := h 1
    simp [Shape.partIx, Shape.partSize] at h1
    refine ⟨⟨(i 1).val, h1⟩, fun a => ?_⟩
    have ha := h a
    match a with
    | 0 => simp [Shape.partIx, Shape.partSize, sslotOff] at ha ⊢; omega
    | 1 => simp [Shape.partIx, Shape.partSize, sslotOff] at ha ⊢
    | 2 => simp [Shape.partIx, Shape.partSize, sslotOff] at ha ⊢; omega
    | 3 => simp [Shape.partIx, Shape.partSize, sslotOff] at ha ⊢; omega
    | 4 => simp [Shape.partIx, Shape.partSize, sslotOff] at ha ⊢; omega

/-! ## The pieces held -/

variable (d : Dev nD) (c : Fin τ.nSC) (i : Fin τ.nSub)

/-- The worker's copy of the list is its 128 rows. -/
theorem idx_rows (f : Buf (Elt F) ((xV).view.loc (V d c i))) :
    ((xV).view.loc (V d c i) ↦{fullShare} f : sProp 𝕄)
      = bigSep Finset.univ fun r : Fin 128 => (lrowC r).view.loc (V d c i) ↦[(lrowC r).view.set]{fullShare} f := by
  show _ = bigSep Finset.univ fun r : Fin 128 => ((xV).view.loc (V d c i) ↦[lrowSet r]{fullShare} f : sProp 𝕄)
  rw [← pointsTo_biUnion Finset.univ (ℓ := (xV).view.loc (V d c i)) lrowSet lrows_disjoint, lrows_cover]; try rfl

/-- The row buffer is its three slots; -/
theorem rows_slots (f : Buf (Elt F) ((rV).view.loc (V d c i))) :
    ((rV).view.loc (V d c i) ↦{fullShare} f : sProp 𝕄)
      = iprop(((rSlot0).view.loc (V d c i) ↦[(rSlot0).view.set]{fullShare} f) ∗ ((rSlot1).view.loc (V d c i) ↦[(rSlot1).view.set]{fullShare} f)
          ∗ ((rSlot2).view.loc (V d c i) ↦[(rSlot2).view.set]{fullShare} f)) := by
  rw [set_rSlot0, set_rSlot1, set_rSlot2]
  exact three_split (ℓ := (rV).view.loc (V d c i)) (fun b => (rpart b).set) rparts_disjoint Finset.univ rparts_cover f

/-- and the three slots at contents of their own are the row buffer at some contents. -/
theorem rows_join (f0 f1 f2 : Buf (Elt F) ((rV).view.loc (V d c i))) :
    (iprop(((rSlot0).view.loc (V d c i) ↦[(rSlot0).view.set]{fullShare} f0) ∗ ((rSlot1).view.loc (V d c i) ↦[(rSlot1).view.set]{fullShare} f1)
        ∗ ((rSlot2).view.loc (V d c i) ↦[(rSlot2).view.set]{fullShare} f2)) : sProp 𝕄)
      ⊢ iprop(∃ g, (rV).view.loc (V d c i) ↦{fullShare} g) := by
  rw [set_rSlot0, set_rSlot1, set_rSlot2]
  exact three_join (ℓ := (rV).view.loc (V d c i)) (fun b => (rpart b).set) rparts_disjoint Finset.univ rparts_cover ![f0, f1, f2]

/-- Row `s` of the shared memory is its three slots; -/
theorem srow_slots (s : Fin 16) (f : Buf (Elt F) (shLoc d c)) :
    (sRowPts d c s f : sProp 𝕄)
      = iprop(((sslotC s 0).view.loc (V d c i) ↦[(sslotC s 0).view.set]{fullShare} f) ∗ ((sslotC s 1).view.loc (V d c i) ↦[(sslotC s 1).view.set]{fullShare} f)
          ∗ ((sslotC s 2).view.loc (V d c i) ↦[(sslotC s 2).view.set]{fullShare} f)) := by
  unfold sRowPts
  rw [set_sslotC, set_sslotC, set_sslotC, slot_sRowSet_eq]
  exact three_split (ℓ := shLoc d c) (fun b => (sslotR s b).set) (sslots_disjoint s) (srow s).set (sslots_cover s) f

/-- and the three at contents of their own are the row at some contents. -/
theorem srow_join (s : Fin 16) (f0 f1 f2 : Buf (Elt F) (shLoc d c)) :
    (iprop(((sslotC s 0).view.loc (V d c i) ↦[(sslotC s 0).view.set]{fullShare} f0) ∗ ((sslotC s 1).view.loc (V d c i) ↦[(sslotC s 1).view.set]{fullShare} f1)
        ∗ ((sslotC s 2).view.loc (V d c i) ↦[(sslotC s 2).view.set]{fullShare} f2)) : sProp 𝕄)
      ⊢ iprop(∃ g, sRowPts d c s g) := by
  unfold sRowPts
  rw [set_sslotC, set_sslotC, set_sslotC, slot_sRowSet_eq]
  exact three_join (ℓ := shLoc d c) (fun b => (sslotR s b).set) (sslots_disjoint s) (srow s).set (sslots_cover s) ![f0, f1, f2]

end Cert.Proof.KB

end
-- ==== Proof.KBValue.lean ====
/-
  What the worker's transfers move, as values. The worker's copy of the list is row `k` of the list; entry `a` of its
  row `g` is the row number of token `(k, g, a)`, and is below the table's height. The indirect gather fills the
  64 × 2 × 128 row buffer from the table: row `a` of the buffer is the table's row named by entry `a` of the 64-entry
  list, the other two coordinates kept. With the list's row `g` as the entries that is the lookup's values on chunk
  `g` of the worker's block of the result; and contents that read as those values through the chunk agree with the
  lookup on the chunk's elements.
-/
import proofs.«201408_g9070970929189_cont_9to1c4b_623_24_alg».proof.Proof.KBVals
import Idealize.ShloMosaic.Lib.ValueIdx
import Idealize.ShloMosaic.Lib.Pipeline.Value

noncomputable section

namespace Cert.Proof.KB

open Cert.Kernel Cert.Kernel.Gen
open Idealize.ShloMosaic Idealize.ShloMosaic.ValueIdx
open Idealize.ShloMosaic.SparseCore (S V T)

variable {F : FTy → Type}

local notation "xV" => (Memref.whole Cert.Kernel.cc0_scratch0 : Memref Cert.Kernel.sig Kind.scVector Space.vmem Cert.Kernel.S128x64 EltTy.i32)

/-! ## The gather's payload at an index -/

/-- The payload at `(a, h, c)`: the source at row `l a`, same `h` and `c`. -/
theorem gatherPayload_apply (hg : S8192x2x128.Gathers 0 S64x2x128) (w : S8192x2x128.Idx → Elt F .f32) (l : S64.Idx → Elt F .i32)
    (pf : S64.numel = S64x2x128.size hg.axis')
    (hin : ∀ x, (l x).toNat < S8192x2x128.size hg.axis) (a : Fin 64) (h : Fin 2) (c : Fin 128) :
    SparseCore.gatherPayload hg w (SparseCore.rows (F := F) l pf hin) (ix3 a h c)
      = w (ix3 (⟨(l (ix1 a)).toNat, hin (ix1 a)⟩ : Fin 8192) h c) := by
  unfold SparseCore.gatherPayload
  congr 1
  funext b
  refine Fin.ext ?_
  match b with
  | ⟨0, _⟩ =>
    show (hg.idx _ (ix3 a h c) hg.axis).val = (l (ix1 a)).toNat
    rw [Shape.Gathers.idx_axis]
    show (l (S64.rowMajor.symm _)).toNat = (l (ix1 a)).toNat
    congr 2
    apply S64.rowMajor.injective
    rw [Equiv.apply_symm_apply]
    refine Fin.ext ?_
    rw [Shape.rowMajor_val_one]
    rfl
  | ⟨1, _⟩ =>
    exact Shape.Gathers.idx_of_ne hg _ (ix3 a h c) (1 : Fin 3) (by decide)
  | ⟨2, _⟩ =>
    exact Shape.Gathers.idx_of_ne hg _ (ix3 a h c) (2 : Fin 3) (by decide)

variable (m : (ℓ : Loc nD τ sig) → Buf (Elt F) ℓ) (d : Dev nD) (L : grid0.Coords)

/-! ## The worker's copy of the list -/

/-- A transfer that reads its source as it is moves the source's values. -/
theorem readAs_same_apply {s : Shape} {e : EltTy} (g : s.Idx → Elt F e) : (ReadAs.same : ReadAs (Elt F) s e s e).apply g = g := rfl

theorem FX_eq (fx0 : Buf (Elt F) ((xV).view.loc (thr d L))) : FX m d L fx0 = (iRowK L).view.read (Elt F) (I0 m d) := by
  unfold FX
  exact View.write_whole_univ _ _ _

/-- Entry `a` of row `g` of the copy sits at `(g, a)` of the copy. -/
theorem lrow_emb (g : Fin 128) (inb) (a : Fin 64) :
    (lrowM (lrowOff g.val) inb).view.emb (ix1 a) = (ix2 g a : S128x64.Idx) := by
  have hA : Shape.reshapeEquiv (squeezes_S1x64_S64.numel_eq) (ix1 a : S64.Idx) = (ix2 (0 : Fin 1) a : S1x64.Idx) :=
    Shape.reshapeEquiv_eq_of_rowMajor _ (by rw [Shape.rowMajor_val_two, Shape.rowMajor_val_one]; simp)
  show (Rect.unit (s := S128x64) (lrowOff g.val) S1x64.size inb).emb (Shape.reshapeEquiv _ (ix1 a)) = _
  rw [hA]
  funext b
  refine Fin.ext ?_
  rw [Rect.emb_apply]
  match b with
  | ⟨0, _⟩ => simp [lrowOff, Rect.unit]
  | ⟨1, _⟩ => simp [lrowOff, Rect.unit]

/-- Entry `(g, a)` of the worker's row of the list sits at `(k, g, a)` of the list. -/
theorem irow_emb (g : Fin 128) (a : Fin 64) :
    (iRowK L).view.emb (ix2 g a : S128x64.Idx) = (ix3 (wk L) g a : S32x128x64.Idx) := by
  have hB : Shape.reshapeEquiv (squeezes_S1x128x64_S128x64.numel_eq) (ix2 g a : S128x64.Idx) = (ix3 (0 : Fin 1) g a : S1x128x64.Idx) :=
    Shape.reshapeEquiv_eq_of_rowMajor _ (by rw [Shape.rowMajor_val_three, Shape.rowMajor_val_two]; simp)
  show (Rect.unit (s := S32x128x64) (k0_off1 L) S1x128x64.size (k0_off1_inb L)).emb (Shape.reshapeEquiv _ (ix2 g a)) = _
  rw [hB]
  funext b
  refine Fin.ext ?_
  rw [Rect.emb_apply]
  show k0_off1 L b + 1 * (ix3 (0 : Fin 1) g a b).val = (ix3 (wk L) g a b).val
  rw [k0_off1_eq]
  match b with
  | ⟨0, _⟩ => simp [wid]
  | ⟨1, _⟩ => simp
  | ⟨2, _⟩ => simp

/-- Entry `a` of row `g` of the worker's copy is the list's entry for token `(k, g, a)`. -/
theorem list_row (fx0 : Buf (Elt F) ((xV).view.loc (thr d L))) (off : Fin 2 → ℕ) (inb) (g : Fin 128) (h : off = lrowOff g.val) (a : Fin 64) :
    (lrowM off inb).view.read (Elt F) (FX m d L fx0) (ix1 a) = I0 m d (ix3 (wk L) g a) := by
  subst h
  rw [FX_eq]
  show I0 m d ((iRowK L).view.emb ((lrowM (lrowOff g.val) inb).view.emb (ix1 a))) = _
  rw [lrow_emb, irow_emb]

/-- Every entry of the list as the kernel finds it is a row number below the table's height. -/
theorem I0_lt (hpre : PreOK m) (j : S32x128x64.Idx) : (I0 m d j).toNat < 8192 := by
  unfold I0 shapeCast
  exact hpre d _

/-- Every entry of the worker's copy is a row number below the table's height. -/
theorem list_inb (hpre : PreOK m) (fx0 : Buf (Elt F) ((xV).view.loc (thr d L))) (off : Fin 2 → ℕ) (inb) (x : S64.Idx) :
    ((lrowM off inb).view.read (Elt F) (FX m d L fx0) x).toNat < 8192 := by
  rw [FX_eq]
  exact I0_lt m d hpre ((iRowK L).view.emb ((lrowM off inb).view.emb x))

/-! ## The table, the chunks, the gather's value -/

local notation "oV" => (Memref.whole Cert.Kernel.main_v2_scv : Memref Cert.Kernel.sig Kind.scVector Space.hbm Cert.Kernel.S262144x2x128 EltTy.f32)

/-- The table, named as the gathers name it (the slice that is all of it), reads as the table. -/
theorem wAll_read (w : S8192x2x128.Idx → Elt F .f32) : wAll.view.read (Elt F) w = w :=
  Memref.read_access_unit_zero (Elt F) main_v1_scv (by funext a; fin_cases a <;> rfl) _ w

/-- Entry `(a, h, c)` of chunk `g` of the worker's block sits at row `8192 k + 64 g + a` of the result. -/
theorem chunk_emb (g : Fin 128) (a : Fin 64) (h : Fin 2) (c : Fin 128) :
    (chunkC L g).view.emb (ix3 a h c : S64x2x128.Idx)
      = (ix3 (⟨8192 * (wk L).val + 64 * g.val + a.val, by have := (wk L).isLt; have := g.isLt; have := a.isLt; omega⟩ : Fin 262144) h c : S262144x2x128.Idx) := by
  show (Rect.unit (s := S262144x2x128) (chunkOff L g.val) S64x2x128.size (chunk_inb L g)).emb (ix3 a h c) = _
  funext b
  refine Fin.ext ?_
  rw [Rect.emb_apply]
  match b with
  | ⟨0, _⟩ => simp [Rect.unit, chunkOff, wid]; omega
  | ⟨1, _⟩ => simp [Rect.unit, chunkOff]
  | ⟨2, _⟩ => simp [Rect.unit, chunkOff]

/-- The lookup's value at entry `(a, h, c)` of chunk `g`: the table at the row the list names for token `(k, g, a)`. -/
theorem chunkVal_apply (hpre : PreOK m) (g : Fin 128) (a : Fin 64) (h : Fin 2) (c : Fin 128) :
    chunkVal m d L g (ix3 a h c)
      = W0 m d (ix3 (⟨(I0 m d (ix3 (wk L) g a)).toNat, I0_lt m d hpre _⟩ : Fin 8192) h c) := by
  unfold chunkVal
  show OUT m d ((chunkC L g).view.emb (ix3 a h c)) = _
  rw [chunk_emb]
  unfold OUT Cert.Proof.Spec.take3
  have hk := (wk L).isLt; have hg := g.isLt; have ha := a.isLt
  have htok : Cert.Proof.Spec.tok3 (⟨8192 * (wk L).val + 64 * g.val + a.val, by omega⟩ : Fin 262144) = ix3 (wk L) g a := by
    unfold Cert.Proof.Spec.tok3
    congr 1 <;> refine Fin.ext ?_ <;> simp <;> omega
  show W0 m d (ix3 (Cert.Proof.Spec.rowOf (I0 m d (Cert.Proof.Spec.tok3 _))) h c) = _
  rw [htok]
  congr 2
  exact Fin.ext (Cert.Proof.Spec.rowOf_val_of_lt (I0_lt m d hpre _))

/-- The gather out of the table at row `g` of the worker's copy of the list delivers the lookup's values on chunk `g`. -/
theorem gather_val (hpre : PreOK m) (fx0 : Buf (Elt F) ((xV).view.loc (thr d L))) (hg : S8192x2x128.Gathers 0 S64x2x128)
    (off : Fin 2 → ℕ) (inb) (g : Fin 128) (h : off = lrowOff g.val) (pf) (hin') :
    SparseCore.gatherPayload hg (wAll.view.read (Elt F) (W0 m d))
        (SparseCore.rows ((lrowM off inb).view.read (Elt F) (FX m d L fx0)) pf hin')
      = chunkVal m d L g := by
  funext y
  obtain ⟨a, hh, c, rfl⟩ : ∃ (a : Fin 64) (hh : Fin 2) (c : Fin 128), y = ix3 a hh c := ⟨y 0, y 1, y 2, eq_ix3 y⟩
  rw [gatherPayload_apply, wAll_read, chunkVal_apply m d L hpre]
  congr 2
  refine Fin.ext ?_
  show ((lrowM off inb).view.read (Elt F) (FX m d L fx0) (ix1 a)).toNat = (I0 m d (ix3 (wk L) g a)).toNat
  rw [list_row m d L fx0 off inb g h a]

/-- Contents that read as the lookup's values through chunk `g` agree with the lookup on the chunk's elements. -/
theorem chunk_agree (g : Fin 128) (C : Buf (Elt F) (oLoc d)) (h : (chunkC L g).view.read (Elt F) C = chunkVal m d L g) :
    ∀ j ∈ oChkSet (chk (wk L) g), C j = OUT m d j := by
  intro j hj
  rw [← set_chunkC_eq] at hj
  obtain ⟨x, -, rfl⟩ := Finset.mem_map.mp hj
  have hx := congrFun h x
  unfold chunkVal at hx
  rw [View.read_apply, View.read_apply] at hx
  exact (cast_inj _).mp hx

end Cert.Proof.KB

end
-- ==== Proof.KBFin.lean ====
/-
  What a worker holds when its last copy has landed, put back together.
  At the end of its task the worker holds the pieces it was handed, each in the spelling of the copy that last
  touched it: its read shares of the table (three, lent to the gathers, and the remainder), the 128 rows of its copy
  of the list, the 128 chunks of its block of the result each holding the lookup, the three slots of its row
  buffer, the three slots of its row of the shared memory, its row of the list. Each group is the whole it was cut
  from: the shares compose, the rows, chunks and slots cover their array, and a chunk whose contents read as the
  lookup's values agrees with the lookup on its elements.
-/
import proofs.«201408_g9070970929189_cont_9to1c4b_623_24_alg».proof.Proof.KBInv
import proofs.«201408_g9070970929189_cont_9to1c4b_623_24_alg».proof.Proof.KBSlots
import proofs.«201408_g9070970929189_cont_9to1c4b_623_24_alg».proof.Proof.KBValue

noncomputable section

namespace Cert.Proof.KB

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}
local notation "𝕄" => MT nD τ sig (HIx 1) (Elt F) ℕ UU ℕ

local notation "wV" => (Memref.whole Cert.Kernel.main_v1_scv : Memref Cert.Kernel.sig Kind.scVector Space.hbm Cert.Kernel.S8192x2x128 EltTy.f32)
local notation "xV" => (Memref.whole Cert.Kernel.cc0_scratch0 : Memref Cert.Kernel.sig Kind.scVector Space.vmem Cert.Kernel.S128x64 EltTy.i32)
local notation "rV" => (Memref.whole Cert.Kernel.cc0_scratch1 : Memref Cert.Kernel.sig Kind.scVector Space.vmem Cert.Kernel.S3x64x2x128 EltTy.f32)
local notation "sV" => (Memref.whole Cert.Kernel.cc0_scratch2 : Memref Cert.Kernel.sig Kind.scVector Space.shared Cert.Kernel.S16x3x64x2x128 EltTy.f32)

variable (m : (ℓ : Loc nD τ sig) → Buf (Elt F) ℓ)
variable (d : Dev nD) (L : grid0.Coords)

/-! ## The table -/

/-- The slice of the table that is all of it goes through every element. -/
theorem wAll_rect : Rect.unit (s := S8192x2x128) ![0, 0, 0] S8192x2x128.size inb_S8192x2x128_S8192x2x128_0_0_0 = Rect.whole S8192x2x128 := by
  unfold Rect.whole
  congr 1
  funext a
  match a with
  | 0 => rfl
  | 1 => rfl
  | 2 => rfl

theorem set_wAll : (wAll).view.set = Finset.univ := by
  refine Eq.trans ?_ ((View.set_slice_whole (main_v1_scv : Ref sig .scVector) (Rect.whole S8192x2x128)).trans (Rect.set_whole S8192x2x128))
  exact wAll_rect ▸ rfl

/-- The table held whole, spelt as that slice. -/
theorem wAll_pts (q : PosShare TreeShare) (f : Buf (Elt F) ((wV).view.loc (thr d L))) :
    ((wV).view.loc (thr d L) ↦{q} f : sProp 𝕄) = ((wAll).view.loc (thr d L) ↦[(wAll).view.set]{q} f) := by
  rw [set_wAll]

/-- The three read shares lent to the gathers and the remainder are the worker's share. -/
theorem fin_W :
    (iprop((wLoc d ↦{Transfers.shareDrop (wq (wk L)) 3} W0 m d)
        ∗ ((wAll).view.loc (thr d L) ↦[(wAll).view.set]{Transfers.shareTok (wq (wk L)) 3 0} W0 m d)
        ∗ ((wAll).view.loc (thr d L) ↦[(wAll).view.set]{Transfers.shareTok (wq (wk L)) 3 1} W0 m d)
        ∗ ((wAll).view.loc (thr d L) ↦[(wAll).view.set]{Transfers.shareTok (wq (wk L)) 3 2} W0 m d)) : sProp 𝕄)
      ⊢ wShPts m d (wk L) := by
  rw [← wAll_pts d L (Transfers.shareTok (wq (wk L)) 3 0) (W0 m d), ← wAll_pts d L (Transfers.shareTok (wq (wk L)) 3 1) (W0 m d),
    ← wAll_pts d L (Transfers.shareTok (wq (wk L)) 3 2) (W0 m d)]
  iintro ⟨Hrem, H0, H1, H2⟩
  iapply (Transfers.pointsTo_toks_join (ℓ := wLoc d) (S := Finset.univ) (f := W0 m d) (wq (wk L)) 3)
  rw [Ring.bigSep_fin3]
  isplitl [Hrem]; · iexact Hrem
  isplitl [H0]; · iexact H0
  isplitl [H1]; · iexact H1
  iexact H2

/-! ## The row of the list -/

theorem fin_I : ((iRowK L).view.loc (thr d L) ↦[(iRowK L).view.set]{fullShare} I0 m d : sProp 𝕄) ⊢ iRowPts m d (wk L) :=
  Entails.of_eq (pts_iRowK d L (I0 m d))

/-! ## The row buffer and the shared memory's row -/

theorem fin_R (f0 f1 f2 : Buf (Elt F) ((rV).view.loc (thr d L))) :
    (iprop(((rSlot0).view.loc (thr d L) ↦[(rSlot0).view.set]{fullShare} f0) ∗ ((rSlot1).view.loc (thr d L) ↦[(rSlot1).view.set]{fullShare} f1)
        ∗ ((rSlot2).view.loc (thr d L) ↦[(rSlot2).view.set]{fullShare} f2)) : sProp 𝕄)
      ⊢ iprop(∃ f, (thr d L).loc cc0_scratch1 ↦{fullShare} f) :=
  rows_join d (cV L) (jV L) f0 f1 f2

/-- The three slots of the worker's row of the shared memory, as the last copies through them name them. -/
theorem fin_S (f0 f1 f2 : Buf (Elt F) ((sV).view.loc (thr d L))) :
    (iprop(((sslotM (k0_off2 L) (k0_off2_inb L)).view.loc (thr d L) ↦[(sslotM (k0_off2 L) (k0_off2_inb L)).view.set]{fullShare} f0)
        ∗ ((sslotM (k0_off3 L) (k0_off3_inb L)).view.loc (thr d L) ↦[(sslotM (k0_off3 L) (k0_off3_inb L)).view.set]{fullShare} f1)
        ∗ ((sslotM (k0_off11 L) (k0_off11_inb L)).view.loc (thr d L) ↦[(sslotM (k0_off11 L) (k0_off11_inb L)).view.set]{fullShare} f2)) : sProp 𝕄)
      ⊢ iprop(∃ f, sRowPts d (cV L) (jL L) f) := by
  rw [pts_sslot d L (k0_off2 L) (k0_off2_inb L) (jL L) 0 (off2_eq L) fullShare f0,
    pts_sslot d L (k0_off3 L) (k0_off3_inb L) (jL L) 1 (off3_eq L) fullShare f1,
    pts_sslot d L (k0_off11 L) (k0_off11_inb L) (jL L) 2 (off11_eq L) fullShare f2]
  exact srow_join d (cV L) (jV L) (jL L) f0 f1 f2

/-- The same, the third slot named as the steady loop names it. -/
theorem fin_S' (f0 f1 f2 : Buf (Elt F) ((sV).view.loc (thr d L))) :
    (iprop(((sslotM (k0_off2 L) (k0_off2_inb L)).view.loc (thr d L) ↦[(sslotM (k0_off2 L) (k0_off2_inb L)).view.set]{fullShare} f0)
        ∗ ((sslotM (k0_off3 L) (k0_off3_inb L)).view.loc (thr d L) ↦[(sslotM (k0_off3 L) (k0_off3_inb L)).view.set]{fullShare} f1)
        ∗ ((sslotM (k0_off5 L) (k0_off5_inb L)).view.loc (thr d L) ↦[(sslotM (k0_off5 L) (k0_off5_inb L)).view.set]{fullShare} f2)) : sProp 𝕄)
      ⊢ iprop(∃ f, sRowPts d (cV L) (jL L) f) := by
  rw [pts_sslot d L (k0_off2 L) (k0_off2_inb L) (jL L) 0 (off2_eq L) fullShare f0,
    pts_sslot d L (k0_off3 L) (k0_off3_inb L) (jL L) 1 (off3_eq L) fullShare f1,
    pts_sslot d L (k0_off5 L) (k0_off5_inb L) (jL L) 2 (off5_eq L) fullShare f2]
  exact srow_join d (cV L) (jV L) (jL L) f0 f1 f2

/-! ## A chunk of the result, done -/

/-- A chunk of the worker's block whose contents read as the lookup's values there is that chunk done. -/
theorem chunk_done (off : Fin 3 → ℕ) (inb : ∀ a, off a + S64x2x128.size a ≤ S262144x2x128.size a) (g : Fin 128) (h : off = chunkOff L g.val)
    (C : Buf (Elt F) (oLoc d)) (hC : (chunkM off inb).view.read (Elt F) C = chunkVal m d L g) :
    ((chunkM off inb).view.loc (thr d L) ↦[(chunkM off inb).view.set]{fullShare} C : sProp 𝕄) ⊢ oChkDone m d (chk (wk L) g) := by
  rw [pts_chunk d L off inb g h C]
  unfold oChkDone
  iintro H
  iexists C
  isplitr
  · ipureintro; exact chunk_agree m d L g C (by subst h; exact hC)
  · iexact H

variable [∀ e, Nonempty (Elt F e)]

/-! ## The list's copy and the block of the result -/

theorem fin_X (fx0 : Buf (Elt F) ((xV).view.loc (thr d L))) :
    before 128 (ΦX m d L fx0) ⊢ (iprop(∃ f, (thr d L).loc cc0_scratch0 ↦{fullShare} f) : sProp 𝕄) := by
  rw [before_all, ← idx_rows d (cV L) (jV L) (FX m d L fx0)]
  iintro H
  iexists (FX m d L fx0)
  iexact H

theorem fin_O : before 128 (ΦD m d L) ⊢ (bigSep Finset.univ fun g : Fin 128 => oChkDone m d (chk (wk L) g) : sProp 𝕄) := by
  rw [before_all]

end Cert.Proof.KB

end
-- ==== Proof.KBTrip.lean ====
/-
  One trip of the worker's steady loop.
  Before trip `k` the gathers of chunks `3k+2` and `3k+3` are in flight, chunk `3k+1` is crossing to the shared memory
  and chunk `3k` is leaving it for the result. The trip takes each of the three in turn one stage further — waits for
  a gather, sends the gathered chunk across, waits for the crossing before it, starts the next gather into the freed
  slot, sends the crossed chunk out to the result, waits for the write-out before it — and so ends with the same
  picture three chunks later. Every piece a transfer delivers holds the lookup's values of its chunk: a gather by the
  gather's value, a copy because it moves what it reads.
-/
import proofs.«201408_g9070970929189_cont_9to1c4b_623_24_alg».proof.Proof.KBInv
import proofs.«201408_g9070970929189_cont_9to1c4b_623_24_alg».proof.Proof.KBCanon
import proofs.«201408_g9070970929189_cont_9to1c4b_623_24_alg».proof.Proof.KBValue

noncomputable section

namespace Cert.Proof.KB

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
local notation "𝕄" => MT nD τ sig (HIx 1) (Elt F) ℕ UU ℕ

local notation "iV" => (Memref.whole Cert.Kernel.main_v0_scv : Memref Cert.Kernel.sig Kind.scVector Space.hbm Cert.Kernel.S32x128x64 EltTy.i32)
local notation "wV" => (Memref.whole Cert.Kernel.main_v1_scv : Memref Cert.Kernel.sig Kind.scVector Space.hbm Cert.Kernel.S8192x2x128 EltTy.f32)
local notation "oV" => (Memref.whole Cert.Kernel.main_v2_scv : Memref Cert.Kernel.sig Kind.scVector Space.hbm Cert.Kernel.S262144x2x128 EltTy.f32)
local notation "xV" => (Memref.whole Cert.Kernel.cc0_scratch0 : Memref Cert.Kernel.sig Kind.scVector Space.vmem Cert.Kernel.S128x64 EltTy.i32)
local notation "rV" => (Memref.whole Cert.Kernel.cc0_scratch1 : Memref Cert.Kernel.sig Kind.scVector Space.vmem Cert.Kernel.S3x64x2x128 EltTy.f32)
local notation "sV" => (Memref.whole Cert.Kernel.cc0_scratch2 : Memref Cert.Kernel.sig Kind.scVector Space.shared Cert.Kernel.S16x3x64x2x128 EltTy.f32)

variable (m : (ℓ : Loc nD τ sig) → Buf (Elt F) ℓ)
variable [FloatOps F]
variable (d : Dev nD) (L : grid0.Coords)
variable [∀ e, Nonempty (Elt F e)]

theorem trip_trips_eq : k0_t1_loop.trips = 41 := by decide

/-! ## Bookkeeping of the ordered families -/

section Ordered
variable {M : Type} [URA M]

theorem trip_fromOn_congr {a b : ℕ} (h : a = b) (Φ : Fin 128 → sProp M) : fromOn a Φ = fromOn b Φ := by rw [h]

/-- Laying three pieces down. -/
theorem trip_before_three (a b : ℕ) (hb : b = a + 3) (x0 x1 x2 : Fin 128) (e0 : x0.val = a) (e1 : x1.val = a + 1) (e2 : x2.val = a + 2)
    (Φ : Fin 128 → sProp M) : before b Φ = iprop(Φ x2 ∗ Φ x1 ∗ Φ x0 ∗ before a Φ) := by
  subst hb
  have h0 : a < 128 := e0 ▸ x0.isLt
  have h1 : a + 1 < 128 := e1 ▸ x1.isLt
  have h2 : a + 2 < 128 := e2 ▸ x2.isLt
  obtain rfl : x0 = ⟨a, h0⟩ := Fin.ext e0
  obtain rfl : x1 = ⟨a + 1, h1⟩ := Fin.ext e1
  obtain rfl : x2 = ⟨a + 2, h2⟩ := Fin.ext e2
  show before (a + 2 + 1) Φ = _
  rw [before_succ (a + 2) h2, before_succ (a + 1) h1, before_succ a h0]

end Ordered

/-! ## A chunk of the result, written -/

/-- A chunk of the result at contents whose last write covers it with the lookup's values is done. -/
theorem trip_chunk_done (off : Fin 3 → ℕ) (inb) (g : Fin 128) (h : off = chunkOff L g.val) (f0 : Buf (Elt F) (oLoc d))
    (p : S64x2x128.Idx → Elt F .f32) (hp : p = chunkVal m d L g) :
    ((chunkM off inb).view.loc (thr d L) ↦[(chunkM off inb).view.set]{fullShare}
        (chunkM off inb).view.writes (Elt F) f0 [⟨Rect.whole S64x2x128, p⟩] : sProp 𝕄) ⊢ ΦD m d L g := by
  subst h; subst hp
  unfold ΦD oChkDone
  iintro H
  iexists ((chunkC L g).view.writes (Elt F) f0 [⟨Rect.whole S64x2x128, chunkVal m d L g⟩])
  isplitr
  · ipureintro
    exact chunk_agree m d L g _ (read_head _ _ _ _)
  · iapply (Entails.of_eq (pts_chunk (F := F) d L (chunkOff L g.val) (chunk_inb L g) g rfl _))
    iexact H

/-- So is one at the representative of the lookup's values. -/
theorem trip_chunk_done_rep (g : Fin 128) :
    ((chunkC L g).view.loc (thr d L) ↦[(chunkC L g).view.set]{fullShare} (chunkC L g).view.rep (chunkVal m d L g) : sProp 𝕄)
      ⊢ ΦD m d L g := by
  unfold ΦD oChkDone
  iintro H
  iexists ((chunkC L g).view.rep (chunkVal m d L g))
  isplitr
  · ipureintro
    exact chunk_agree m d L g _ (View.read_rep _ _)
  · iapply (Entails.of_eq (pts_chunk (F := F) d L (chunkOff L g.val) (chunk_inb L g) g rfl _))
    iexact H

set_option maxHeartbeats 8000000 in
theorem trip (hF : (K (F := F)).Facts) (hpre : PreOK m) (fx0 : Buf (Elt F) ((xV).view.loc (thr d L))) (O : CellTallies nD τ sig (HIx 1))
    (W : Waits sig (HIx 1)) (hO : ∀ g, O g none = 0) (v2 : BitVec 32) (k : Fin k0_t1_loop.trips) (acc : PUnit) :
    Inv m d L fx0 O W k.val acc ⊢ wp frame (wpE (defs₀ (F := F)) 𝒱₀ (thr d L) none) Set.univ
      (k0_t1_body L wV (Memref.isWhole_whole _) iV (Memref.isWhole_whole _) oV (Memref.isWhole_whole _) xV (Memref.isWhole_whole _)
        rV (Memref.isWhole_whole _) sV (Memref.isWhole_whole _) cc0_scratch3 cc0_scratch4 cc0_scratch5 cc0_scratch6 cc0_scratch7
        cc0_scratch8 cc0_scratch9 cc0_scratch10 cc0_scratch11 cc0_scoped0 v2 k acc)
      (Inv m d L fx0 O W (k.val + 1)) := by
  have hk : k.val < 41 := trip_trips_eq ▸ k.isLt
  have h1 : 3 * k.val + 1 < 128 := by omega
  have h2 : 3 * k.val + 1 + 1 < 128 := by omega
  have h3 : 3 * k.val + 1 + 1 + 1 < 128 := by omega
  have h4 : 3 * k.val + 4 < 128 := by omega
  have h5 : 3 * k.val + 4 + 1 < 128 := by omega
  have h6 : 3 * k.val + 4 + 1 + 1 < 128 := by omega
  have hin : ∀ (off : Fin 2 → ℕ) (hb : ∀ a, off a + S1x64.size a ≤ S128x64.size a) (x : S64.Idx),
      (View.read (Elt F) (lrowM off hb).view (FX m d L fx0) x).toNat < 8192 := fun off hb x => list_inb m d L hpre fx0 off hb x
  unfold Inv
  iintro ⟨#Hlv, Hf2, Hf0, Hw1, Hf4, Hf6, ⟨%fs2, Hs2⟩, Hbx, Hfx, Hbd, Hfo, Hc1, Hc3, Hc5, Hc7, Hc8, ⟨%W', %hW', HO⟩⟩
  ihave Hmw := (show levAts (K (F := F)).L (K (F := F)).lev ⊢ Transfers.MayWaits (thr d L) (default : HIx 1) O from
    (K (F := F)).mayWaits_none (thr := thr d L) hO) $$ Hlv
  -- the next three rows of the list, as the gathers name them
  ihave Hx4 := (Entails.of_eq (fromOn_succ (3 * k.val + 4) h4 (ΦX m d L fx0))) $$ Hfx
  icases Hx4 with ⟨Hl4, Hx4⟩
  ihave Hx5 := (Entails.of_eq (fromOn_succ (3 * k.val + 4 + 1) h5 (ΦX m d L fx0))) $$ Hx4
  icases Hx5 with ⟨Hl5, Hx5⟩
  ihave Hx6 := (Entails.of_eq (fromOn_succ (3 * k.val + 4 + 1 + 1) h6 (ΦX m d L fx0))) $$ Hx5
  icases Hx6 with ⟨Hl6, Hx6⟩
  ihave Hl4' := (Entails.of_eq (pts_lrow (F := F) d L (k0_off7 k 0#32) (k0_off7_inb k 0) ⟨3 * k.val + 4, h4⟩ (off7_eq k 0 ⟨3 * k.val + 4, h4⟩ rfl) fullShare (FX m d L fx0)).symm) $$ Hl4
  ihave Hl5' := (Entails.of_eq (pts_lrow (F := F) d L (k0_off7 k 1#32) (k0_off7_inb k 1) ⟨3 * k.val + 4 + 1, h5⟩ (off7_eq k 1 ⟨3 * k.val + 4 + 1, h5⟩ (by show 3 * k.val + 4 + 1 = 3 * k.val + 1 + 4; omega)) fullShare (FX m d L fx0)).symm) $$ Hl5
  ihave Hl6' := (Entails.of_eq (pts_lrow (F := F) d L (k0_off7 k 2#32) (k0_off7_inb k 2) ⟨3 * k.val + 4 + 1 + 1, h6⟩ (off7_eq k 2 ⟨3 * k.val + 4 + 1 + 1, h6⟩ (by show 3 * k.val + 4 + 1 + 1 = 3 * k.val + 2 + 4; omega)) fullShare (FX m d L fx0)).symm) $$ Hl6
  -- the next three chunks of the result, as the write-outs name them
  ihave Ho1 := (Entails.of_eq (fromOn_succ (3 * k.val + 1) h1 (ΦO m d L))) $$ Hfo
  icases Ho1 with ⟨Hq1, Ho1⟩
  ihave Ho2 := (Entails.of_eq (fromOn_succ (3 * k.val + 1 + 1) h2 (ΦO m d L))) $$ Ho1
  icases Ho2 with ⟨Hq2, Ho2⟩
  ihave Ho3 := (Entails.of_eq (fromOn_succ (3 * k.val + 1 + 1 + 1) h3 (ΦO m d L))) $$ Ho2
  icases Ho3 with ⟨Hq3, Ho3⟩
  ihave Hq1' := (Entails.of_eq (pts_chunk (F := F) d L (k0_off8 L k 0#32) (k0_off8_inb L k 0) ⟨3 * k.val + 1, h1⟩ (off8_eq L k 0 ⟨3 * k.val + 1, h1⟩ rfl) (m (oLoc d))).symm) $$ Hq1
  ihave Hq2' := (Entails.of_eq (pts_chunk (F := F) d L (k0_off8 L k 1#32) (k0_off8_inb L k 1) ⟨3 * k.val + 1 + 1, h2⟩ (off8_eq L k 1 ⟨3 * k.val + 1 + 1, h2⟩ rfl) (m (oLoc d))).symm) $$ Hq2
  ihave Hq3' := (Entails.of_eq (pts_chunk (F := F) d L (k0_off8 L k 2#32) (k0_off8_inb L k 2) ⟨3 * k.val + 1 + 1 + 1, h3⟩ (off8_eq L k 2 ⟨3 * k.val + 1 + 1 + 1, h3⟩ (by show 3 * k.val + 1 + 1 + 1 = 3 * k.val + 2 + 1; omega)) (m (oLoc d))).symm) $$ Hq3
  unfold k0_t1_body
  sl_exec
  icases Hf2_dst with ⟨Hr2, Hrow2⟩
  sl_exec
  icases Hf0_dst with ⟨Hr0, Hrow3⟩
  sl_exec
  sl_step
  -- the arithmetic of the chunk numbers
  have b0 : 3 * k.val < 128 := by omega
  have b1 : 3 * k.val + 1 < 128 := by omega
  have b2 : 3 * k.val + 2 < 128 := by omega
  have b3 : 3 * k.val + 3 < 128 := by omega
  have n3 : 3 * (k.val + 1) < 128 := by omega
  have n4 : 3 * (k.val + 1) + 1 < 128 := by omega
  have n5 : 3 * (k.val + 1) + 2 < 128 := by omega
  have n6 : 3 * (k.val + 1) + 3 < 128 := by omega
  -- where the three new gathers read the list, and where the three write-outs land
  have ho4 : k0_off7 k 0#32 = lrowOff (rowN (3 * (k.val + 1) + 1)).val :=
    off7_eq k 0 _ (by rw [rowN_val n4]; show 3 * (k.val + 1) + 1 = 3 * k.val + 0 + 4; omega)
  have ho5 : k0_off7 k 1#32 = lrowOff (rowN (3 * (k.val + 1) + 2)).val :=
    off7_eq k 1 _ (by rw [rowN_val n5]; show 3 * (k.val + 1) + 2 = 3 * k.val + 1 + 4; omega)
  have ho6 : k0_off7 k 2#32 = lrowOff (rowN (3 * (k.val + 1) + 3)).val :=
    off7_eq k 2 _ (by rw [rowN_val n6]; show 3 * (k.val + 1) + 3 = 3 * k.val + 2 + 4; omega)
  have hc1 : k0_off8 L k 0#32 = chunkOff L (rowN (3 * k.val + 1)).val :=
    off8_eq L k 0 _ (by rw [rowN_val b1]; show 3 * k.val + 1 = 3 * k.val + 0 + 1; omega)
  have hc2 : k0_off8 L k 1#32 = chunkOff L (rowN (3 * k.val + 2)).val :=
    off8_eq L k 1 _ (by rw [rowN_val b2]; show 3 * k.val + 2 = 3 * k.val + 1 + 1; omega)
  have hc3 : k0_off8 L k 2#32 = chunkOff L (rowN (3 * (k.val + 1))).val :=
    off8_eq L k 2 _ (by rw [rowN_val n3]; show 3 * (k.val + 1) = 3 * k.val + 2 + 1; omega)
  have e33 : rowN (3 * k.val + 3) = rowN (3 * (k.val + 1)) := congrArg rowN (by omega)
  -- what the three gathers deliver: the lookup's values of chunks 3k+4, 3k+5, 3k+6
  have hG4 : trip.sl.gather1 m d L fx0 k hin = chunkVal m d L (rowN (3 * (k.val + 1) + 1)) :=
    gather_val m d L hpre fx0 _ (k0_off7 k 0#32) (k0_off7_inb k 0) _ ho4 _ _
  have hG5 : trip.sl.gather1_1 m d L fx0 k hin = chunkVal m d L (rowN (3 * (k.val + 1) + 2)) :=
    gather_val m d L hpre fx0 _ (k0_off7 k 1#32) (k0_off7_inb k 1) _ ho5 _ _
  have hG6 : trip.sl.gather4 m d L fx0 k hin = chunkVal m d L (rowN (3 * (k.val + 1) + 3)) :=
    gather_val m d L hpre fx0 _ (k0_off7 k 2#32) (k0_off7_inb k 2) _ ho6 _ _
  -- what the copies move: what their sources held
  have hD0 : trip.sl.dma0 m d L k = chunkVal m d L (rowN (3 * k.val + 2)) := View.read_rep _ _
  have hD1 : trip.sl.dma0_1 m d L k = chunkVal m d L (rowN (3 * k.val + 1)) := View.read_rep _ _
  have hD2 : trip.sl.dma0_2 m d L k = chunkVal m d L (rowN (3 * (k.val + 1))) := (View.read_rep _ _).trans (congrArg (chunkVal m d L) e33)
  have hD3 : trip.sl.dma0_3 m d L k fs2 = chunkVal m d L (rowN (3 * k.val + 2)) := (read_head _ _ _ _).trans hD0
  have hD4 : trip.sl.dma0_4 m d L fx0 k hin = chunkVal m d L (rowN (3 * (k.val + 1) + 1)) := (read_head _ _ _ _).trans hG4
  have hD5 : trip.sl.dma0_5 m d L k = chunkVal m d L (rowN (3 * (k.val + 1))) := (read_head _ _ _ _).trans hD2
  -- the four flights, each delivering its pieces at the lookup's values in the invariant's spelling
  ihave Hf2' := (DG_mono m d L rSlot2 2 fx0 (k0_off7 k 1#32) (k0_off7_inb k 1) (rowN (3 * (k.val + 1) + 2)) ho5 _
    ((read_head _ _ _ _).trans hG5) _ _) $$ Hf2
  ihave Hf0' := (DG_mono m d L rSlot0 0 fx0 (k0_off7 k 2#32) (k0_off7_inb k 2) (rowN (3 * (k.val + 1) + 3)) ho6 _
    ((read_head _ _ _ _).trans hG6) _ _) $$ Hf0
  ihave Hf4' := (DX_mono m d L (k0_off6 L) (k0_off6 L) (k0_off6_inb L) (k0_off6_inb L) (jL L) 1 (off6_eq L) (off6_eq L) rSlot1
    (rowN (3 * (k.val + 1) + 1)) _ ((read_head _ _ _ _).trans hD4) _ ((read_head _ _ _ _).trans hG4) _ _) $$ Hf4
  ihave Hf6' := (DD_mono m d L (k0_off8 L k 2#32) (k0_off8_inb L k 2) (rowN (3 * (k.val + 1))) hc3
    (k0_off10 L) (k0_off10 L) (k0_off10_inb L) (k0_off10_inb L) (jL L) 0 (off10_eq L) (off10_eq L)
    _ ((read_head _ _ _ _).trans hD5) _ ((read_head _ _ _ _).trans hD2) _ _) $$ Hf6
  -- the list's rows done with, the result's chunks done
  ihave Hrow4 := (Entails.of_eq (pts_lrow (F := F) d L (k0_off7 k 0#32) (k0_off7_inb k 0) (rowN (3 * (k.val + 1) + 1)) ho4 fullShare (FX m d L fx0))) $$ Hl4'
  ihave Hbx' := (Entails.of_eq (trip_before_three (3 * k.val + 2) (3 * (k.val + 1) + 2) (by omega) (rowN (3 * k.val + 2)) (rowN (3 * k.val + 3))
    (rowN (3 * (k.val + 1) + 1)) (rowN_val b2) (by rw [rowN_val b3]) (by rw [rowN_val n4]; omega) (ΦX m d L fx0)).symm) $$ [Hrow4 Hrow3 Hrow2 Hbx]
  · isplitl [Hrow4]; · iexact Hrow4
    isplitl [Hrow3]; · iexact Hrow3
    isplitl [Hrow2]; · iexact Hrow2
    iexact Hbx
  ihave Hd0 := (trip_chunk_done_rep m d L (rowN (3 * k.val))) $$ Hf6_dst
  ihave Hd1 := (trip_chunk_done m d L (k0_off8 L k 0#32) (k0_off8_inb L k 0) (rowN (3 * k.val + 1)) hc1 (m (oLoc d)) _ hD1) $$ Hq1'
  ihave Hd2 := (trip_chunk_done m d L (k0_off8 L k 1#32) (k0_off8_inb L k 1) (rowN (3 * k.val + 2)) hc2 (m (oLoc d)) _ hD3) $$ Hq2'
  ihave Hbd' := (Entails.of_eq (trip_before_three (3 * k.val) (3 * (k.val + 1)) (by omega) (rowN (3 * k.val)) (rowN (3 * k.val + 1))
    (rowN (3 * k.val + 2)) (rowN_val b0) (rowN_val b1) (rowN_val b2) (ΦD m d L)).symm) $$ [Hd2 Hd1 Hd0 Hbd]
  · isplitl [Hd2]; · iexact Hd2
    isplitl [Hd1]; · iexact Hd1
    isplitl [Hd0]; · iexact Hd0
    iexact Hbd
  ihave Hx6' := (Entails.of_eq (trip_fromOn_congr (show 3 * k.val + 4 + 1 + 1 + 1 = 3 * (k.val + 1) + 4 by omega) (ΦX m d L fx0))) $$ Hx6
  ihave Ho3' := (Entails.of_eq (trip_fromOn_congr (show 3 * k.val + 1 + 1 + 1 + 1 = 3 * (k.val + 1) + 1 by omega) (ΦO m d L))) $$ Ho3
  -- the invariant, three chunks later
  isplitr; · iexact Hlv
  isplitl [Hf2']; · iexact Hf2'
  isplitl [Hf0']; · iexact Hf0'
  isplitl [Hw1]; · iexact Hw1
  isplitl [Hf4']; · iexact Hf4'
  isplitl [Hf6']; · iexact Hf6'
  isplitl [Hs2]; · iexists _; iexact Hs2
  isplitl [Hbx']; · iexact Hbx'
  isplitl [Hx6']; · iexact Hx6'
  isplitl [Hbd']; · iexact Hbd'
  isplitl [Ho3']; · iexact Ho3'
  isplitl [Hc1]; · iexact Hc1
  isplitl [Hc3]; · iexact Hc3
  isplitl [Hc5]; · iexact Hc5
  isplitl [Hc7]; · iexact Hc7
  isplitl [Hc8]; · iexact Hc8
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact hW' p hp

end Cert.Proof.KB

end
-- ==== Proof.KBObl.lean ====
/-
  From the body at a symbolic worker to the obligation the launch asks for.
  The launch asks, for every device, every SparseCore of the call and every vector subcore of it, that the subcore's
  task — the kernel's body run at that subcore's coordinates — takes what the go handshake carries to what the
  task-done handshake carries, the subcore's own storage returned and nothing more owed. The body's statement is over
  a point of the kernel's grid; a subcore of the call is such a point, its worker number and its row of the shared
  memory the ones the handshakes name, so the obligation is the body's statement at that point.
-/
import proofs.«201408_g9070970929189_cont_9to1c4b_623_24_alg».proof.Proof.KBSplit
import proofs.«201408_g9070970929189_cont_9to1c4b_623_24_alg».proof.Proof.KBViews

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

local notation "iV" => (Memref.whole Cert.Kernel.main_v0_scv : Memref Cert.Kernel.sig Kind.scVector Space.hbm Cert.Kernel.S32x128x64 EltTy.i32)
local notation "wV" => (Memref.whole Cert.Kernel.main_v1_scv : Memref Cert.Kernel.sig Kind.scVector Space.hbm Cert.Kernel.S8192x2x128 EltTy.f32)
local notation "oV" => (Memref.whole Cert.Kernel.main_v2_scv : Memref Cert.Kernel.sig Kind.scVector Space.hbm Cert.Kernel.S262144x2x128 EltTy.f32)
local notation "xV" => (Memref.whole Cert.Kernel.cc0_scratch0 : Memref Cert.Kernel.sig Kind.scVector Space.vmem Cert.Kernel.S128x64 EltTy.i32)
local notation "rV" => (Memref.whole Cert.Kernel.cc0_scratch1 : Memref Cert.Kernel.sig Kind.scVector Space.vmem Cert.Kernel.S3x64x2x128 EltTy.f32)
local notation "sV" => (Memref.whole Cert.Kernel.cc0_scratch2 : Memref Cert.Kernel.sig Kind.scVector Space.shared Cert.Kernel.S16x3x64x2x128 EltTy.f32)

variable {F : FTy → Type}

local notation "𝕄" => MT nD τ sig (HIx 1) (Elt F) ℕ UU ℕ

/-- The point of the kernel's grid that is vector subcore `s` of SparseCore `c`. -/
def coordsV (c : Fin (grid0.bound 0)) (s : Fin (grid0.bound 1)) : grid0.Coords :=
  fun | 0 => c | 1 => s | ⟨_ + 2, h⟩ => absurd h (Nat.not_lt.2 (Nat.le_add_left _ _))

/-- The body a vector subcore runs for the call: the kernel's, at its point of the grid, over the whole arrays and
    its own storage. -/
theorem defs₀_vector (c : Fin τ.nSC) (s : Fin τ.nSub) :
    defs₀ (F := F) (.scVector c s) 0 ()
      = SparseCore.onTile hcore0 hsub0 (fun c s => cc0__codebook_gather (coordsV c s)
          wV (Memref.isWhole_whole _) iV (Memref.isWhole_whole _) oV (Memref.isWhole_whole _)
          xV (Memref.isWhole_whole _) rV (Memref.isWhole_whole _) sV (Memref.isWhole_whole _)
          cc0_scratch3 cc0_scratch4 cc0_scratch5 cc0_scratch6 cc0_scratch7 cc0_scratch8 cc0_scratch9 cc0_scratch10 cc0_scratch11 cc0_scoped0) ⟨⟩ c s := rfl

/-- A task that recorded only waits of its own recorded none of another call's. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

variable [FloatOps F]

variable (m : (ℓ : Loc nD τ sig) → Buf (Elt F) ℓ)

/-- The body's statement, at every point of the grid on every device: from the worker's pieces and its row of the
    shared memory, its own storage and what it owes, to the pieces with the lookup in place, the row, the storage,
    the same owed, and only waits of its own recorded. -/
abbrev BodyObl : Prop :=
  ∀ (d : Dev nD) (L : grid0.Coords), (K (F := F)).Facts → ∀ (O : CellTallies nD τ sig (HIx 1)) (W : Waits sig (HIx 1)), (∀ g, O g none = 0) →
    iprop(levAts (K (F := F)).L (K (F := F)).lev ∗ emp ∗ (goH m d (wk L) ∗ ∃ f, sRowPts d (cV L) (jL L) f)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__codebook_gather L wV (Memref.isWhole_whole _) iV (Memref.isWhole_whole _) oV (Memref.isWhole_whole _)
            xV (Memref.isWhole_whole _) rV (Memref.isWhole_whole _) sV (Memref.isWhole_whole _)
            cc0_scratch3 cc0_scratch4 cc0_scratch5 cc0_scratch6 cc0_scratch7 cc0_scratch8 cc0_scratch9 cc0_scratch10 cc0_scratch11 cc0_scoped0)
          fun _ => iprop((tdH m d (wk L) ∗ ∃ f, sRowPts d (cV L) (jL L) f) ∗ scopedBufs (V d (cV L) (jV L)) ∗ scopedSems0 (V d (cV L) (jV L))
            ∗ ∃ W', ⌜∀ p ∈ W', p ∈ W ∨ p.2 = none⌝ ∗ owes (V d (cV L) (jV L)) O W')

theorem P_x (q : Fin 1) (thr : Thread nD τ) : (P m).x q thr = iprop(emp) := by unfold P; rfl

set_option maxRecDepth 16384 in
theorem tileObl_of_body [∀ e, Nonempty (Elt F e)] (_hpre : PreOK m) (hbody : BodyObl m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  rw [P_go, P_td, P_x]
  exact (hbody d (coordsV ⟨_, hci.1⟩ ⟨_, hci.2⟩) facts O W hO).trans (wp_mono frame _ _ fun _ => obl_post)

end Cert.Proof.KB

end
-- ==== Proof.KBBody.lean ====
/-
  One worker's task: from what the go handshake hands it to what its task-done handshake hands back.
  The worker first copies its row of the list into its own memory. Every later copy is one of three kinds, for a chunk
  `g` of 64 tokens: a GATHER of the table's rows `list[g, ·]` into slot `g mod 3` of the row buffer; that slot's
  CROSSING into the same slot of the worker's row of the shared memory; that slot's WRITE-OUT into chunk `g` of the
  worker's block of the result. Three chunks are in motion at once. The prologue brings the state to the invariant
  before trip 0 (`Inv`); each of the 41 trips of the steady loop takes `Inv k` to `Inv (k + 1)` (`trip`); the
  epilogue drains chunks 123 … 127.
  The value travels with the pieces: a gathered slot reads the lookup's values of its chunk (`gather_val`: row
  `list[g, a]` of the table IS the lookup at token `8192 k + 64 g + a`, the row numbers being in range by the
  precondition), and a copy's destination reads what its source read. So at the end every chunk of the worker's block
  holds the lookup's values there, and the worker's buffers, semaphores and shares of the arrays are whole again.
-/
import proofs.«201408_g9070970929189_cont_9to1c4b_623_24_alg».proof.Proof.KBCanon
import proofs.«201408_g9070970929189_cont_9to1c4b_623_24_alg».proof.Proof.KBFin
import proofs.«201408_g9070970929189_cont_9to1c4b_623_24_alg».proof.Proof.KBTrip
import proofs.«201408_g9070970929189_cont_9to1c4b_623_24_alg».proof.Proof.KBValue
import proofs.«201408_g9070970929189_cont_9to1c4b_623_24_alg».proof.Proof.KBSlots
import proofs.«201408_g9070970929189_cont_9to1c4b_623_24_alg».proof.Proof.KBObl

noncomputable section

namespace Cert.Proof.KB

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
local notation "𝕄" => MT nD τ sig (HIx 1) (Elt F) ℕ UU ℕ

local notation "iV" => (Memref.whole Cert.Kernel.main_v0_scv : Memref Cert.Kernel.sig Kind.scVector Space.hbm Cert.Kernel.S32x128x64 EltTy.i32)
local notation "wV" => (Memref.whole Cert.Kernel.main_v1_scv : Memref Cert.Kernel.sig Kind.scVector Space.hbm Cert.Kernel.S8192x2x128 EltTy.f32)
local notation "oV" => (Memref.whole Cert.Kernel.main_v2_scv : Memref Cert.Kernel.sig Kind.scVector Space.hbm Cert.Kernel.S262144x2x128 EltTy.f32)
local notation "xV" => (Memref.whole Cert.Kernel.cc0_scratch0 : Memref Cert.Kernel.sig Kind.scVector Space.vmem Cert.Kernel.S128x64 EltTy.i32)
local notation "rV" => (Memref.whole Cert.Kernel.cc0_scratch1 : Memref Cert.Kernel.sig Kind.scVector Space.vmem Cert.Kernel.S3x64x2x128 EltTy.f32)
local notation "sV" => (Memref.whole Cert.Kernel.cc0_scratch2 : Memref Cert.Kernel.sig Kind.scVector Space.shared Cert.Kernel.S16x3x64x2x128 EltTy.f32)

variable (m : (ℓ : Loc nD τ sig) → Buf (Elt F) ℓ)
variable [FloatOps F]
variable (d : Dev nD) (L : grid0.Coords)

/-- The two scratch buffers are among the subcore's own: they are them, at some contents, and the rest. -/
theorem ownBufs_V :
    (ownBufs (thr d L) : sProp 𝕄)
      = iprop((∃ f, (thr d L).loc cc0_scratch0 ↦{fullShare} f) ∗ (∃ f, (thr d L).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

variable [∀ e, Nonempty (Elt F e)]

theorem before_two {M : Type} [URA M] (Φ : Fin 128 → sProp M) (h0 : 0 < 128) (h1 : 1 < 128) : iprop(Φ ⟨1, h1⟩ ∗ Φ ⟨0, h0⟩) ⊢ before 2 Φ := by
  have e1 : before 2 Φ = iprop(Φ ⟨1, h1⟩ ∗ before 1 Φ) := before_succ 1 h1 Φ
  have e0 : before 1 Φ = iprop(Φ ⟨0, h0⟩ ∗ before 0 Φ) := before_succ 0 h0 Φ
  rw [e1, e0, before_zero]
  iintro ⟨H1, H0⟩
  isplitl [H1]; · iexact H1
  isplitl [H0]; · iexact H0
  iempintro

set_option maxHeartbeats 8000000 in
theorem tile_body (hF : (K (F := F)).Facts) (hpre : PreOK m) (O : CellTallies nD τ sig (HIx 1)) (W : Waits sig (HIx 1)) (hO : ∀ g, O g none = 0) :
    iprop(levAts (K (F := F)).L (K (F := F)).lev ∗ emp
        ∗ (goH m d (wk L) ∗ ∃ f, sRowPts d (cV L) (jL L) f)
        ∗ scopedBufs (thr d L) ∗ scopedSems0 (thr d L) ∗ owes (thr d L) O W)
      ⊢ wp frame (wpE (defs₀ (F := F)) 𝒱₀ (thr d L) none) Set.univ
          (cc0__codebook_gather L wV (Memref.isWhole_whole _) iV (Memref.isWhole_whole _) oV (Memref.isWhole_whole _)
            xV (Memref.isWhole_whole _) rV (Memref.isWhole_whole _) sV (Memref.isWhole_whole _)
            cc0_scratch3 cc0_scratch4 cc0_scratch5 cc0_scratch6 cc0_scratch7 cc0_scratch8 cc0_scratch9 cc0_scratch10 cc0_scratch11 cc0_scoped0)
          fun _ => iprop((tdH m d (wk L) ∗ ∃ f, sRowPts d (cV L) (jL L) f)
            ∗ scopedBufs (thr d L) ∗ scopedSems0 (thr d L)
            ∗ ∃ W', ⌜∀ p ∈ W', p ∈ W ∨ p.2 = none⌝ ∗ owes (thr d L) O W') := by
  have h0 : (0 : ℕ) < 128 := by decide
  have h1 : (1 : ℕ) < 128 := by decide
  have h2 : (2 : ℕ) < 128 := by decide
  have h3 : (3 : ℕ) < 128 := by decide
  simp only [cc0__codebook_gather_eq_skeleton]; unfold cc0__codebook_gather_skel
  rw [(K (F := F)).scopedBufs_V hF d (cV L) (jV L), SparseCore.Cfg.scopedSems0_V (Val := Elt F) d (cV L) (jV L), ownSems0_V, ownBufs_V, bigSep_fin10]
  iintro ⟨#Hlv, -, ⟨⟨Hi, Hw, Hoc⟩, ⟨%fs0, Hs⟩⟩, ⟨⟨%fx0, Hx⟩, ⟨%fr0, Hr⟩, Hbufs⟩, ⟨Hg0, Hg1, Hg2, Hx0, Hx1, Hx2, Hd0, Hd1, Hd2, Hsc⟩, HO⟩
  ihave Hmw := (show levAts (K (F := F)).L (K (F := F)).lev ⊢ Transfers.MayWaits (thr d L) (default : HIx 1) O from
    (K (F := F)).mayWaits_none (thr := thr d L) hO) $$ Hlv
  -- the list's row, as the first copy names it
  ihave Hi' := (Entails.of_eq (pts_iRowK (F := F) d L (I0 m d)).symm) $$ Hi
  -- the table: three read tokens, one per gather semaphore, and the rest
  ihave Hwt := (Transfers.pointsTo_toks_split (ℓ := wLoc d) (S := Finset.univ) (f := W0 m d) (wq (wk L)) 3) $$ Hw
  icases Hwt with ⟨Hwr, Hwt⟩
  ihave Hwt' := (Entails.of_eq (Idealize.ShloMosaic.Ring.bigSep_fin3 _)) $$ Hwt
  icases Hwt' with ⟨Hw0, Hw1, Hw2⟩
  ihave Hw0' := (Entails.of_eq (show (_ : sProp 𝕄) = ((wV).view.loc (thr d L) ↦{Transfers.shareTok (wq (wk L)) 3 0} W0 m d) from rfl)) $$ Hw0
  ihave Hw1' := (Entails.of_eq (show (_ : sProp 𝕄) = ((wV).view.loc (thr d L) ↦{Transfers.shareTok (wq (wk L)) 3 1} W0 m d) from rfl)) $$ Hw1
  ihave Hw2' := (Entails.of_eq (show (_ : sProp 𝕄) = ((wV).view.loc (thr d L) ↦{Transfers.shareTok (wq (wk L)) 3 2} W0 m d) from rfl)) $$ Hw2
  -- the worker's own buffers: its copy of the list whole, its row buffer slot by slot
  ihave Hx' := (Entails.of_eq (show (_ : sProp 𝕄) = ((xV).view.loc (thr d L) ↦{fullShare} fx0) from rfl)) $$ Hx
  ihave Hr' := (Entails.of_eq (rows_slots (F := F) d (cV L) (jV L) fr0)) $$ Hr
  icases Hr' with ⟨Hr0, Hr1, Hr2⟩
  -- its row of the shared memory, slot by slot, each as the kernel first names it
  ihave Hs' := (Entails.of_eq (srow_slots (F := F) d (cV L) (jV L) (jL L) fs0)) $$ Hs
  icases Hs' with ⟨Hs0, Hs1, Hs2⟩
  ihave Hs0' := (Entails.of_eq (pts_sslot (F := F) d L (k0_off2 L) (k0_off2_inb L) (jL L) 0 (off2_eq L) fullShare fs0).symm) $$ Hs0
  ihave Hs1' := (Entails.of_eq (pts_sslot (F := F) d L (k0_off3 L) (k0_off3_inb L) (jL L) 1 (off3_eq L) fullShare fs0).symm) $$ Hs1
  ihave Hs2' := (Entails.of_eq (pts_sslot (F := F) d L (k0_off5 L) (k0_off5_inb L) (jL L) 2 (off5_eq L) fullShare fs0).symm) $$ Hs2
  -- the result's chunks, in order; the first as the first write-out names it
  ihave Hoc' := (Entails.of_eq (fromOn_zero (fun g : Fin 128 => (oChkPts d (chk (wk L) g) (m (oLoc d)) : sProp 𝕄))).symm) $$ Hoc
  ihave Hoc1 := (Entails.of_eq (fromOn_succ 0 h0 (fun g : Fin 128 => (oChkPts d (chk (wk L) g) (m (oLoc d)) : sProp 𝕄)))) $$ Hoc'
  icases Hoc1 with ⟨Ho0, Hoc1⟩
  ihave Ho0' := (Entails.of_eq (pts_chunk (F := F) d L (k0_off4 L 0#32) (k0_off4_inb L 0) ⟨0, h0⟩ (off4_eq L 0 ⟨0, h0⟩ rfl) (m (oLoc d))).symm) $$ Ho0
  -- THE LIST'S ROW IN: one copy and its wait
  sl_exec
  -- the worker's copy of the list now holds row k of the list: taken row by row
  ihave Hx'' := (Entails.of_eq (show ((xV).view.loc (thr d L) ↦{fullShare} View.write (Elt F) (xV).view fx0 (tile_body.sl.dma0 m d L) Finset.univ : sProp 𝕄) = ((xV).view.loc (thr d L) ↦{fullShare} FX m d L fx0) from rfl)) $$ Hx'
  ihave Hx2' := (Entails.of_eq (idx_rows (F := F) d (cV L) (jV L) (FX m d L fx0))) $$ Hx''
  have hin : ∀ (off : Fin 2 → ℕ) (h1 : ∀ a, off a + S1x64.size a ≤ S128x64.size a) (x : S64.Idx),
      (View.read (Elt F) (lrowM off h1).view (FX m d L fx0) x).toNat < 8192 := fun off h1 x => list_inb m d L hpre fx0 off h1 x
  ihave Hx3 := (Entails.of_eq (show (bigSep Finset.univ (fun r : Fin 128 => ((lrowC r).view.loc (V d (cV L) (jV L)) ↦[(lrowC r).view.set]{fullShare} FX m d L fx0 : sProp 𝕄))) = fromOn 0 (ΦX m d L fx0) from (fromOn_zero (ΦX m d L fx0)).symm)) $$ Hx2'
  ihave Hx4 := (Entails.of_eq (fromOn_succ 0 h0 (ΦX m d L fx0))) $$ Hx3
  icases Hx4 with ⟨Hl0, Hx4⟩
  ihave Hx5 := (Entails.of_eq (fromOn_succ 1 h1 (ΦX m d L fx0))) $$ Hx4
  icases Hx5 with ⟨Hl1, Hx5⟩
  ihave Hx6 := (Entails.of_eq (fromOn_succ 2 h2 (ΦX m d L fx0))) $$ Hx5
  icases Hx6 with ⟨Hl2, Hx6⟩
  ihave Hx7 := (Entails.of_eq (fromOn_succ 3 h3 (ΦX m d L fx0))) $$ Hx6
  icases Hx7 with ⟨Hl3, Hx7⟩
  ihave Hl0' := (Entails.of_eq (pts_lrow (F := F) d L ![0, 0] inb_S128x64_S1x64_0_0 ⟨0, h0⟩ rfl fullShare (FX m d L fx0)).symm) $$ Hl0
  ihave Hl1' := (Entails.of_eq (pts_lrow (F := F) d L ![1, 0] inb_S128x64_S1x64_1_0 ⟨1, h1⟩ rfl fullShare (FX m d L fx0)).symm) $$ Hl1
  ihave Hl2' := (Entails.of_eq (pts_lrow (F := F) d L ![2, 0] inb_S128x64_S1x64_2_0 ⟨2, h2⟩ rfl fullShare (FX m d L fx0)).symm) $$ Hl2
  ihave Hl3' := (Entails.of_eq (pts_lrow (F := F) d L ![3, 0] inb_S128x64_S1x64_3_0 ⟨3, h3⟩ rfl fullShare (FX m d L fx0)).symm) $$ Hl3
  -- THE PROLOGUE: two gathers out, chunk 0 across to the shared memory, a third gather, chunk 1 across, a fourth
  -- gather, chunk 0 out to the result
  sl_exec
  -- WHAT THE PROLOGUE'S COPIES WROTE, READ BACK: each slot holds the lookup's values of its chunk
  have hg2 : rSlot2.view.read (Elt F) (rSlot2.view.writes (Elt F) fr0 [⟨Rect.whole S64x2x128, tile_body.sl.gather3 m d L fx0 hin⟩]) = chunkVal m d L (rowN (3 * 0 + 2)) :=
    (View.read_writes_whole _ _ _).trans (gather_val m d L hpre fx0 _ ![2, 0] inb_S128x64_S1x64_2_0 (rowN (3 * 0 + 2)) rfl _ _)
  have hg0 : rSlot0.view.read (Elt F) (rSlot0.view.writes (Elt F) fr0 [⟨Rect.whole S64x2x128, tile_body.sl.gather5 m d L fx0 hin⟩, ⟨Rect.whole S64x2x128, tile_body.sl.gather0 m d L fx0 hin⟩]) = chunkVal m d L (rowN (3 * 0 + 3)) :=
    (read_head _ _ _ _).trans (gather_val m d L hpre fx0 _ ![3, 0] inb_S128x64_S1x64_3_0 (rowN (3 * 0 + 3)) rfl _ _)
  have hr1 : rSlot1.view.read (Elt F) (rSlot1.view.writes (Elt F) fr0 [⟨Rect.whole S64x2x128, tile_body.sl.gather1 m d L fx0 hin⟩]) = chunkVal m d L (rowN (3 * 0 + 1)) :=
    (View.read_writes_whole _ _ _).trans (gather_val m d L hpre fx0 _ ![1, 0] inb_S128x64_S1x64_1_0 (rowN (3 * 0 + 1)) rfl _ _)
  have hs1 : (sslotM (k0_off3 L) (k0_off3_inb L)).view.read (Elt F) ((sslotM (k0_off3 L) (k0_off3_inb L)).view.writes (Elt F) fs0 [⟨Rect.whole S64x2x128, tile_body.sl.dma0_2 m d L fx0 fr0 hin⟩]) = chunkVal m d L (rowN (3 * 0 + 1)) :=
    (View.read_writes_whole _ _ _).trans hr1
  have hr0 : rSlot0.view.read (Elt F) (rSlot0.view.writes (Elt F) fr0 [⟨Rect.whole S64x2x128, tile_body.sl.gather0 m d L fx0 hin⟩]) = chunkVal m d L (rowN (3 * 0)) :=
    (View.read_writes_whole _ _ _).trans (gather_val m d L hpre fx0 _ ![0, 0] inb_S128x64_S1x64_0_0 (rowN (3 * 0)) rfl _ _)
  have hs0 : (sslotM (k0_off2 L) (k0_off2_inb L)).view.read (Elt F) ((sslotM (k0_off2 L) (k0_off2_inb L)).view.writes (Elt F) fs0 [⟨Rect.whole S64x2x128, tile_body.sl.dma0_1 m d L fx0 fr0 hin⟩]) = chunkVal m d L (rowN (3 * 0)) :=
    (View.read_writes_whole _ _ _).trans hr0
  have ho0 : (chunkM (k0_off4 L 0#32) (k0_off4_inb L 0)).view.read (Elt F) ((chunkM (k0_off4 L 0#32) (k0_off4_inb L 0)).view.writes (Elt F) (m (oLoc d)) [⟨Rect.whole S64x2x128, tile_body.sl.dma0_3 m d L fs0 fx0 fr0 hin⟩]) = chunkVal m d L (rowN (3 * 0)) :=
    (View.read_writes_whole _ _ _).trans hs0
  -- the four copies in flight, each delivering its pieces at the chunk they hold
  ihave Hg2c := (DG_mono m d L rSlot2 2 fx0 ![2, 0] inb_S128x64_S1x64_2_0 (rowN (3 * 0 + 2)) rfl _ hg2 _ _) $$ Hg2
  ihave Hg0c := (DG_mono m d L rSlot0 0 fx0 ![3, 0] inb_S128x64_S1x64_3_0 (rowN (3 * 0 + 3)) rfl _ hg0 _ _) $$ Hg0
  ihave Hx1c := (DX_mono m d L (k0_off3 L) (k0_off6 L) (k0_off3_inb L) (k0_off6_inb L) (jL L) 1 (off3_eq L) (off6_eq L) rSlot1 (rowN (3 * 0 + 1)) _ hs1 _ hr1 _ _) $$ Hx1
  ihave Hd0c := (DD_mono m d L (k0_off4 L 0#32) (k0_off4_inb L 0) (rowN (3 * 0)) (off4_eq L 0 (rowN (3 * 0)) rfl) (k0_off2 L) (k0_off10 L) (k0_off2_inb L) (k0_off10_inb L) (jL L) 0 (off2_eq L) (off10_eq L) _ ho0 _ hs0 _ _) $$ Hd0
  -- the free table token as the gathers name the table
  ihave Hw1c := (Entails.of_eq (wAll_pts (F := F) d L (Transfers.shareTok (wq (wk L)) 3 1) (W0 m d))) $$ Hw1'
  -- the two list rows already done with
  ihave Hl0c := (Entails.of_eq (pts_lrow (F := F) d L ![0, 0] inb_S128x64_S1x64_0_0 ⟨0, h0⟩ rfl fullShare (FX m d L fx0))) $$ Hl0'
  ihave Hl1c := (Entails.of_eq (pts_lrow (F := F) d L ![1, 0] inb_S128x64_S1x64_1_0 ⟨1, h1⟩ rfl fullShare (FX m d L fx0))) $$ Hl1'
  -- THE STEADY LOOP, by its invariant
  sl_for (Inv m d L fx0 O W) $$ [Hlv Hg2c Hg0c Hw1c Hx1c Hd0c Hs2' Hl1c Hl0c Hx7 Hoc1 Hg1 Hx0 Hx2 Hd1 Hd2 HO]
  · intro k acc
    exact trip m d L hF hpre fx0 O W hO _ k acc
  · -- the state the prologue leaves is the invariant before trip 0
    unfold Inv
    isplitr; · iexact Hlv
    isplitl [Hg2c]; · iexact Hg2c
    isplitl [Hg0c]; · iexact Hg0c
    isplitl [Hw1c]; · iexact Hw1c
    isplitl [Hx1c]; · iexact Hx1c
    isplitl [Hd0c]; · iexact Hd0c
    isplitl [Hs2']; · iexists _; iexact Hs2'
    isplitl [Hl1c Hl0c]
    · iapply (before_two (ΦX m d L fx0) h0 h1)
      isplitl [Hl1c]; · iexact Hl1c
      iexact Hl0c
    isplitl [Hx7]; · iexact Hx7
    isplitr
    · iapply (Entails.of_eq (before_zero (ΦD m d L)).symm); iempintro
    isplitl [Hoc1]; · iexact Hoc1
    isplitl [Hg1]; · iexact Hg1
    isplitl [Hx0]; · iexact Hx0
    isplitl [Hx2]; · iexact Hx2
    isplitl [Hd1]; · iexact Hd1
    isplitl [Hd2]; · iexact Hd2
    iexists _; isplitr
    swap; · iexact HO
    ipureintro; intro p hp
    rcases Finset.mem_insert.mp hp with hp | hp; · exact .inr (hp ▸ rfl)
    rcases Finset.mem_insert.mp hp with hp | hp; · exact .inr (hp ▸ rfl)
    rcases Finset.mem_insert.mp hp with hp | hp; · exact .inr (hp ▸ rfl)
    rcases Finset.mem_insert.mp hp with hp | hp; · exact .inr (hp ▸ rfl)
    exact .inl hp
  · -- AFTER THE LOOP: forty-one trips done; chunks 123 … 127 are still on their way
    iintro %acc HI
    have htr : Scf.trips k0_t1_loop.lb k0_t1_loop.ub k0_t1_loop.st = 41 := by decide
    have h124 : (124 : ℕ) < 128 := by decide
    have h125 : (125 : ℕ) < 128 := by decide
    have h126 : (126 : ℕ) < 128 := by decide
    have h127 : (127 : ℕ) < 128 := by decide
    ihave HI1 := (Entails.of_eq (show Inv m d L fx0 O W (Scf.trips k0_t1_loop.lb k0_t1_loop.ub k0_t1_loop.st) acc = Inv m d L fx0 O W 41 acc from by rw [htr])) $$ HI
    ihave HI2 := (show Inv m d L fx0 O W 41 acc ⊢ _ from (by unfold Inv; exact BI.Entails.refl _)) $$ HI1
    icases HI2 with ⟨-, Hg2, Hg0, Hw1, Hx1, Hd0, ⟨%fs2, Hs2⟩, Hbx, Hfx, Hbo, Hfo, Hc1, Hc3, Hc5, Hc7, Hc8, ⟨%W1, %hW1, HO⟩⟩
    -- the shared memory's slots under the names the epilogue uses for them
    ihave Hx1e := (DX_mono m d L (k0_off6 L) (k0_off3 L) (k0_off6_inb L) (k0_off3_inb L) (jL L) 1 (off6_eq L) (off3_eq L) rSlot1 (rowN (3 * 41 + 1)) _ (View.read_rep _ _) _ (View.read_rep _ _) _ _) $$ Hx1
    ihave Hd0e := (DD_mono m d L (chunkOff L (rowN (3 * 41)).val) (chunk_inb L (rowN (3 * 41))) (rowN (3 * 41)) rfl (k0_off10 L) (k0_off2 L) (k0_off10_inb L) (k0_off2_inb L) (jL L) 0 (off10_eq L) (off2_eq L) _ (View.read_rep _ _) _ (View.read_rep _ _) _ _) $$ Hd0
    ihave Hs2c := (Entails.of_eq (pts_sslot (F := F) d L (k0_off5 L) (k0_off5_inb L) (jL L) 2 (off5_eq L) fullShare fs2)) $$ Hs2
    ihave Hs2e := (Entails.of_eq (pts_sslot (F := F) d L (k0_off11 L) (k0_off11_inb L) (jL L) 2 (off11_eq L) fullShare fs2).symm) $$ Hs2c
    -- the last row of the list and the last four chunks of the result
    ihave Hfx1 := (Entails.of_eq (fromOn_succ 127 h127 (ΦX m d L fx0))) $$ Hfx
    icases Hfx1 with ⟨Hl127, Hfx1⟩
    ihave Hl127' := (Entails.of_eq (pts_lrow (F := F) d L ![127, 0] inb_S128x64_S1x64_127_0 ⟨127, h127⟩ rfl fullShare (FX m d L fx0)).symm) $$ Hl127
    ihave Hfo1 := (Entails.of_eq (fromOn_succ 124 h124 (ΦO m d L))) $$ Hfo
    icases Hfo1 with ⟨Ho124, Hfo1⟩
    ihave Hfo2 := (Entails.of_eq (fromOn_succ 125 h125 (ΦO m d L))) $$ Hfo1
    icases Hfo2 with ⟨Ho125, Hfo2⟩
    ihave Hfo3 := (Entails.of_eq (fromOn_succ 126 h126 (ΦO m d L))) $$ Hfo2
    icases Hfo3 with ⟨Ho126, Hfo3⟩
    ihave Hfo4 := (Entails.of_eq (fromOn_succ 127 h127 (ΦO m d L))) $$ Hfo3
    icases Hfo4 with ⟨Ho127, -⟩
    ihave Ho124' := (Entails.of_eq (pts_chunk (F := F) d L (k0_off4 L 7936#32) (k0_off4_inb L 1) ⟨124, h124⟩ (off4_eq L 1 ⟨124, h124⟩ rfl) (m (oLoc d))).symm) $$ Ho124
    ihave Ho125' := (Entails.of_eq (pts_chunk (F := F) d L (k0_off4 L 8000#32) (k0_off4_inb L 2) ⟨125, h125⟩ (off4_eq L 2 ⟨125, h125⟩ rfl) (m (oLoc d))).symm) $$ Ho125
    ihave Ho126' := (Entails.of_eq (pts_chunk (F := F) d L (k0_off4 L 8064#32) (k0_off4_inb L 3) ⟨126, h126⟩ (off4_eq L 3 ⟨126, h126⟩ rfl) (m (oLoc d))).symm) $$ Ho126
    ihave Ho127' := (Entails.of_eq (pts_chunk (F := F) d L (k0_off4 L 8128#32) (k0_off4_inb L 4) ⟨127, h127⟩ (off4_eq L 4 ⟨127, h127⟩ rfl) (m (oLoc d))).symm) $$ Ho127
    sl_exec
    sl_step
    -- THE RESULT'S CHUNKS: 123 … 127 each hold the lookup's values; with those before, all 128 are done
    have e123 : rowN (3 * 41) = ⟨123, by decide⟩ := rowN_eq (by decide)
    have e124 : rowN (3 * 41 + 1) = ⟨124, h124⟩ := rowN_eq h124
    have e125 : rowN (3 * 41 + 2) = ⟨125, h125⟩ := rowN_eq h125
    have e126 : rowN (3 * 41 + 3) = ⟨126, h126⟩ := rowN_eq h126
    ihave Hc123 := (chunk_done m d L (chunkOff L (rowN (3 * 41)).val) (chunk_inb L (rowN (3 * 41))) (rowN (3 * 41)) rfl _ (View.read_rep _ _)) $$ Hd0e_dst
    have hc124 : (chunkM (k0_off4 L 7936#32) (k0_off4_inb L 1)).view.read (Elt F) ((chunkM (k0_off4 L 7936#32) (k0_off4_inb L 1)).view.writes (Elt F) (m (oLoc d)) [⟨Rect.whole S64x2x128, tile_body.sl.dma0_5 m d L⟩]) = chunkVal m d L ⟨124, h124⟩ :=
      (View.read_writes_whole _ _ _).trans ((View.read_rep _ _).trans (congrArg (chunkVal m d L) e124))
    ihave Hc124 := (chunk_done m d L (k0_off4 L 7936#32) (k0_off4_inb L 1) ⟨124, h124⟩ (off4_eq L 1 ⟨124, h124⟩ rfl) _ hc124) $$ Ho124'
    have hc125 : (chunkM (k0_off4 L 8000#32) (k0_off4_inb L 2)).view.read (Elt F) ((chunkM (k0_off4 L 8000#32) (k0_off4_inb L 2)).view.writes (Elt F) (m (oLoc d)) [⟨Rect.whole S64x2x128, tile_body.sl.dma0_7 m d L fs2⟩]) = chunkVal m d L ⟨125, h125⟩ :=
      (View.read_writes_whole _ _ _).trans ((View.read_writes_whole _ _ _).trans ((View.read_rep _ _).trans (congrArg (chunkVal m d L) e125)))
    ihave Hc125 := (chunk_done m d L (k0_off4 L 8000#32) (k0_off4_inb L 2) ⟨125, h125⟩ (off4_eq L 2 ⟨125, h125⟩ rfl) _ hc125) $$ Ho125'
    have hc126 : (chunkM (k0_off4 L 8064#32) (k0_off4_inb L 3)).view.read (Elt F) ((chunkM (k0_off4 L 8064#32) (k0_off4_inb L 3)).view.writes (Elt F) (m (oLoc d)) [⟨Rect.whole S64x2x128, tile_body.sl.dma0_9 m d L⟩]) = chunkVal m d L ⟨126, h126⟩ :=
      (View.read_writes_whole _ _ _).trans ((View.read_writes_whole _ _ _).trans ((View.read_rep _ _).trans (congrArg (chunkVal m d L) e126)))
    ihave Hc126 := (chunk_done m d L (k0_off4 L 8064#32) (k0_off4_inb L 3) ⟨126, h126⟩ (off4_eq L 3 ⟨126, h126⟩ rfl) _ hc126) $$ Ho126'
    have hc127 : (chunkM (k0_off4 L 8128#32) (k0_off4_inb L 4)).view.read (Elt F) ((chunkM (k0_off4 L 8128#32) (k0_off4_inb L 4)).view.writes (Elt F) (m (oLoc d)) [⟨Rect.whole S64x2x128, tile_body.sl.dma0_10 m d L fx0 hin⟩]) = chunkVal m d L ⟨127, h127⟩ :=
      (View.read_writes_whole _ _ _).trans ((View.read_writes_whole _ _ _).trans ((View.read_writes_whole _ _ _).trans (gather_val m d L hpre fx0 _ ![127, 0] inb_S128x64_S1x64_127_0 ⟨127, h127⟩ rfl _ _)))
    ihave Hc127 := (chunk_done m d L (k0_off4 L 8128#32) (k0_off4_inb L 4) ⟨127, h127⟩ (off4_eq L 4 ⟨127, h127⟩ rfl) _ hc127) $$ Ho127'
    ihave Hb124 := (Entails.of_eq (before_succ 123 (by decide) (ΦD m d L)).symm) $$ [Hc123 Hbo]
    · isplitl [Hc123]
      · iapply (Entails.of_eq (congrArg (fun g => oChkDone m d (chk (wk L) g)) e123)); iexact Hc123
      · iexact Hbo
    ihave Hb125 := (Entails.of_eq (before_succ 124 h124 (ΦD m d L)).symm) $$ [Hc124 Hb124]
    · isplitl [Hc124] <;> iassumption
    ihave Hb126 := (Entails.of_eq (before_succ 125 h125 (ΦD m d L)).symm) $$ [Hc125 Hb125]
    · isplitl [Hc125] <;> iassumption
    ihave Hb127 := (Entails.of_eq (before_succ 126 h126 (ΦD m d L)).symm) $$ [Hc126 Hb126]
    · isplitl [Hc126] <;> iassumption
    ihave Hb128 := (Entails.of_eq (before_succ 127 h127 (ΦD m d L)).symm) $$ [Hc127 Hb127]
    · isplitl [Hc127] <;> iassumption
    ihave Hchunks := (fin_O m d L) $$ Hb128
    -- THE LIST'S ROWS: 125, 126, 127 come back; with those before, the worker's copy of the list is whole again
    ihave Hl127c := (Entails.of_eq (pts_lrow (F := F) d L ![127, 0] inb_S128x64_S1x64_127_0 ⟨127, h127⟩ rfl fullShare (FX m d L fx0))) $$ Hl127'
    ihave Hr126 := (Entails.of_eq (before_succ 125 h125 (ΦX m d L fx0)).symm) $$ [Hg2_dst_and Hbx]
    · isplitl [Hg2_dst_and]
      · iapply (Entails.of_eq (congrArg (ΦX m d L fx0) e125)); iexact Hg2_dst_and
      · iexact Hbx
    ihave Hr127 := (Entails.of_eq (before_succ 126 h126 (ΦX m d L fx0)).symm) $$ [Hg0_dst_and Hr126]
    · isplitl [Hg0_dst_and]
      · iapply (Entails.of_eq (congrArg (ΦX m d L fx0) e126)); iexact Hg0_dst_and
      · iexact Hr126
    ihave Hr128 := (Entails.of_eq (before_succ 127 h127 (ΦX m d L fx0)).symm) $$ [Hl127c Hr127]
    · isplitl [Hl127c] <;> iassumption
    ihave Hxbuf := (fin_X m d L fx0) $$ Hr128
    -- the table's tokens
    ihave Hw0c := (Entails.of_eq (wAll_pts (F := F) d L (Transfers.shareTok (wq (wk L)) 3 0) (W0 m d))) $$ Hw0'
    ihave Hw2c := (Entails.of_eq (wAll_pts (F := F) d L (Transfers.shareTok (wq (wk L)) 3 2) (W0 m d))) $$ Hw2'
    ihave Hwsh := (fin_W m d L) $$ [Hwr Hw0c Hw1 Hw2c]
    · isplitl [Hwr]; · iexact Hwr
      isplitl [Hw0c]; · iexact Hw0c
      isplitl [Hw1]; · iexact Hw1
      iexact Hw2c
    -- the row buffer, the shared memory's row, the list's row in HBM
    ihave Hrbuf := (fin_R (F := F) d L _ _ _) $$ [Hg0_dst Hx1e_src Hg2_dst]
    · isplitl [Hg0_dst]; · iexact Hg0_dst
      isplitl [Hx1e_src]; · iexact Hx1e_src
      iexact Hg2_dst
    ihave Hsrow := (fin_S (F := F) d L _ _ _) $$ [Hd0e_src Hx1e_dst Hs2e]
    · isplitl [Hd0e_src]; · iexact Hd0e_src
      isplitl [Hx1e_dst]; · iexact Hx1e_dst
      iexact Hs2e
    ihave Hirow := (fin_I m d L) $$ Hi'
    -- ALL OF IT BACK
    isplitl [Hirow Hwsh Hchunks Hsrow]
    · isplitl [Hirow Hwsh Hchunks]
      · isplitl [Hirow]; · iexact Hirow
        isplitl [Hwsh]; · iexact Hwsh
        iexact Hchunks
      · iexact Hsrow
    isplitl [Hxbuf Hrbuf Hbufs]
    · isplitl [Hxbuf]; · iexact Hxbuf
      isplitl [Hrbuf]; · iexact Hrbuf
      iexact Hbufs
    isplitl [Hg0 Hc1 Hg2 Hc3 Hx1e Hc5 Hd0e Hc7 Hc8 Hsc]
    · isplitl [Hg0]; · iexact Hg0
      isplitl [Hc1]; · iexact Hc1
      isplitl [Hg2]; · iexact Hg2
      isplitl [Hc3]; · iexact Hc3
      isplitl [Hx1e]; · iexact Hx1e
      isplitl [Hc5]; · iexact Hc5
      isplitl [Hd0e]; · iexact Hd0e
      isplitl [Hc7]; · iexact Hc7
      isplitl [Hc8]; · iexact Hc8
      iexact Hsc
    iexists _; isplitr
    swap; · iexact HO
    ipureintro; intro p hp
    repeat (rcases Finset.mem_insert.mp hp with hp | hp; · exact .inr (hp ▸ rfl))
    exact hW1 p hp

/-- Every worker's task meets what its two handshakes carry. -/
theorem tileObl (hpre : PreOK m) : (K (F := F)).TileObl (D (F := F)) 𝒱 (P m) v₀ 0 :=
  tileObl_of_body m hpre (fun d L hF O W hO => tile_body m d L hF hpre O W hO)

end Cert.Proof.KB

end
-- ==== Proof.KBClaims.lean ====
/-
  The kernel's claims. Under the precondition every row number of the list is below the table's height. The kernel's run
  then leaves in the result the lookup over the kernel's arrangements, each row flattened back to 256 numbers; the
  rearrangements keep every element's place in row-major order, so that is the row lookup of the two arguments. The list
  and the table are only read.
-/
import proofs.«201408_g9070970929189_cont_9to1c4b_623_24_alg».proof.Proof.KBLaunch
import proofs.«201408_g9070970929189_cont_9to1c4b_623_24_alg».proof.Proof.KBBody
import proofs.«201408_g9070970929189_cont_9to1c4b_623_24_alg».proof.Proof.PreDecode
import proofs.«201408_g9070970929189_cont_9to1c4b_623_24_alg».proof.Proof.SpecCast

noncomputable section

namespace Cert.Proof.KB

open Cert.Kernel Cert.Kernel.Gen
open Idealize.ShloMosaic Idealize.SL.Sem

variable {F : FTy → Type} [FloatOps F]

/-- The precondition's predicate, all ones on every device, bounds every row number of the list. -/
theorem ok_of_fn (m : (ℓ : Loc nD τ sig) → Buf (Elt F) ℓ)
    (h : ∀ c : Dev nD, Cert.Pre_input_domain.fn (F := F) (m (aLoc c)) (m (bLoc c)) = fun _ => 1#1) : PreOK m :=
  fun d => Cert.Proof.PreDecode.ids_lt _ _ (h d)

/-- The lookup over the kernel's arrangements, flattened, is the row lookup of the arguments. -/
theorem res_eq_take (m : (ℓ : Loc nD τ sig) → Buf (Elt F) ℓ) (c : Dev nD) :
    shapeCast S262144x256 (OUT m c) shapeCasts_S262144x2x128_S262144x256
      = Cert.Proof.Spec.take (m (aLoc c)) (m (bLoc c)) := by
  unfold OUT I0 W0
  exact Cert.Proof.Spec.take3_cast (m (aLoc c)) (m (bLoc c)) shapeCasts_S262144_S32x128x64
    shapeCasts_S8192x256_S8192x2x128 shapeCasts_S262144x2x128_S262144x256

/-- The run, by value: the result is the row lookup of the arguments, the arguments unchanged. -/
theorem run_value (m : (ℓ : Loc nD τ sig) → Buf (Elt F) ℓ) (ρ : Dev nD → PrngReg) (hpre : PreOK m) :
    θ_run (Cert.Kernel.defs (F := F)) (Cert.Kernel.threads (F := F)) ⟨m, fun _ => 0, ρ⟩ (fun r => ∀ c : Dev nD,
      r.2.mem (rLoc c) = Cert.Proof.Spec.take (m (aLoc c)) (m (bLoc c))
      ∧ r.2.mem (aLoc c) = m (aLoc c) ∧ r.2.mem (bLoc c) = m (bLoc c)) :=
  (θ_run (Cert.Kernel.defs (F := F)) _ _).mono (fun _ h c => ⟨(h c).1.trans (res_eq_take m c), (h c).2⟩)
    (run_main m ρ hpre (tileObl m hpre))

/-- The run, as a frame: the arguments unchanged. -/
theorem run_frame (m : (ℓ : Loc nD τ sig) → Buf (Elt F) ℓ) (ρ : Dev nD → PrngReg) (hpre : PreOK m) :
    θ_run (Cert.Kernel.defs (F := F)) (Cert.Kernel.threads (F := F)) ⟨m, fun _ => 0, ρ⟩ (fun r => ∀ c : Dev nD,
      r.2.mem (aLoc c) = m (aLoc c) ∧ r.2.mem (bLoc c) = m (bLoc c)) :=
  (θ_run (Cert.Kernel.defs (F := F)) _ _).mono (fun _ h c => (h c).2) (run_main m ρ hpre (tileObl m hpre))

/-- The precondition bounds every row number of the list. -/
theorem ok_of_pre (m : (ℓ : Loc nD τ sig) → Buf (Elt Bits) ℓ) (h : Cert.Pre_Kernel m) : PreOK m := ok_of_fn m h

end Cert.Proof.KB

end
-- ==== Proof.lean ====
/-
  Both programs compute a row lookup: the table has 8192 rows of 256 numbers, the list has 262144 row numbers, and row
  `n` of the result is row `ids n` of the table. The reference gathers the rows on the host; under the precondition
  every row number is inside the table, so its wrap-around, its mask and the gather's clamp change nothing. The kernel
  splits the list among 32 workers, and each moves its 64-row chunks table → row buffer → shared memory → result, which
  leaves the same lookup over the kernel's arrangements of the data; the rearrangements keep every element's place in
  row-major order. So the two results are one function of the arguments, on which the two memories agree.
-/
import proofs.«201408_g9070970929189_cont_9to1c4b_623_24_alg».proof.Defs
import proofs.«201408_g9070970929189_cont_9to1c4b_623_24_alg».proof.Proof.Gen.Kernel
import proofs.«201408_g9070970929189_cont_9to1c4b_623_24_alg».proof.Proof.Gen.Kernel.Skeleton
import proofs.«201408_g9070970929189_cont_9to1c4b_623_24_alg».proof.Proof.Gen.KernelIdeal
import proofs.«201408_g9070970929189_cont_9to1c4b_623_24_alg».proof.Proof.Gen.KernelIdeal.Skeleton
import proofs.«201408_g9070970929189_cont_9to1c4b_623_24_alg».proof.Proof.Gen.ReferenceIdeal
import proofs.«201408_g9070970929189_cont_9to1c4b_623_24_alg».proof.Proof.Gen.Pre_input_domain
import Idealize.ShloMosaic.Adequacy
import Idealize.ShloMosaic.Init
import proofs.«201408_g9070970929189_cont_9to1c4b_623_24_alg».proof.Proof.Ref
import proofs.«201408_g9070970929189_cont_9to1c4b_623_24_alg».proof.Proof.KIClaims
import proofs.«201408_g9070970929189_cont_9to1c4b_623_24_alg».proof.Proof.KBClaims

noncomputable section

namespace Cert.Proof

open Idealize.ShloMosaic Idealize.SL.Sem

/-- The kernel at the bit-exact instance runs and leaves its arguments unchanged. -/
theorem frame_k : Cert.frame_Kernel := fun m g hpre => KB.run_frame m g (KB.ok_of_pre m hpre)

/-- So does its idealization. -/
theorem frame_ki : Cert.frame_KernelIdeal := fun m g hpre => KI.run_frame m g (KI.ok_of_pre m hpre)

/-- So does the reference. -/
theorem frame_ri : Cert.frame_ReferenceIdeal := fun m g hpre =>
  (θ_run Cert.ReferenceIdeal.defs _ _).mono (fun _ h c => (h c).2) (Ref.run m g (Ref.ok_of_pre m hpre))

/-- From memories that agree on the arguments both runs end with the row lookup of those arguments in their results. -/
theorem algebraic : Cert.algebraic_KernelIdeal_ReferenceIdeal := by
  intro m g m' g' hpre hagree
  have hok : KI.PreOK m := KI.ok_of_pre m hpre
  have hok' : Ref.PreOK m' := fun c j => by rw [(hagree c).1]; exact hok c j
  refine ⟨fun c => Spec.take (m (KI.aLoc c)) (m (KI.bLoc c)), KI.run_value m g hok, ?_⟩
  refine (θ_run Cert.ReferenceIdeal.defs _ _).mono (fun _ h c => ⟨(h c).1.trans ?_, (h c).2⟩) (Ref.run m' g' hok')
  rw [(hagree c).1, (hagree c).2]

theorem claim : Cert.Claim :=
  ⟨Cert.Kernel.Gen.facts, Cert.KernelIdeal.Gen.facts, Cert.ReferenceIdeal.Gen.facts, Cert.Pre_input_domain.Gen.facts,
    frame_k, frame_ki, frame_ri, trivial, algebraic⟩

end Cert.Proof

end
